-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x2 : Shape := ⟨2, ![256, 2]⟩
abbrev S2 : Shape := ⟨1, ![2]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S512x256 .f32) (main_arg3 : FVec F S256x2 .f32) (main_arg4 : FVec F S2 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x2 .f32 := Host.absf main_arg3
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x2 : Shape := ⟨2, ![256, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024x256 : Shape := ⟨2, ![1024, 256]⟩
abbrev S256x1024 : Shape := ⟨2, ![256, 1024]⟩
abbrev S8192x256 : Shape := ⟨2, ![8192, 256]⟩
abbrev S512x512 : Shape := ⟨2, ![512, 512]⟩
abbrev S8192x2 : Shape := ⟨2, ![8192, 2]⟩
abbrev S512x2 : Shape := ⟨2, ![512, 2]⟩
abbrev S1x2 : Shape := ⟨2, ![1, 2]⟩

abbrev nBuf : Space → Nat
  | .hbm => 57
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x2, .f32⟩
  | .hbm, ⟨4, _⟩ => ⟨S2, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S1x8192, .f32⟩
  | .hbm, ⟨33, _⟩ => ⟨S8192x8192, .bf16⟩
  | .hbm, ⟨34, _⟩ => ⟨S8192x8192, .f32⟩
  | .hbm, ⟨35, _⟩ => ⟨S8192x256, .f32⟩
  | .hbm, ⟨36, _⟩ => ⟨S8192x256, .f32⟩
  | .hbm, ⟨37, _⟩ => ⟨S8192x2, .f32⟩
  | .hbm, ⟨38, _⟩ => ⟨S8192x2, .f32⟩
  | .hbm, ⟨39, _⟩ => ⟨S1x2, .f32⟩
  | .hbm, ⟨40, _⟩ => ⟨S8192x2, .f32⟩
  | .hbm, ⟨41, _⟩ => ⟨S8192x2, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x2, .f32⟩
  | .hbm, ⟨49, _⟩ => ⟨S8192x2, .f32⟩
  | .hbm, ⟨50, _⟩ => ⟨S8192x2, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S8192x2, .f32⟩
  | .hbm, ⟨56, _⟩ => ⟨S8192x2, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S512x512, .f32⟩
  | .local _ .vmem, ⟨22, _⟩ => ⟨S512x512, .f32⟩
  | .local _ .vmem, ⟨23, _⟩ => ⟨S8192x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x512, .f32⟩
  | .local _ .vmem, ⟨28, _⟩ => ⟨S512x512, .f32⟩
  | .local _ .vmem, ⟨29, _⟩ => ⟨S8192x2, .f32⟩
  | .local _ .vmem, ⟨30, _⟩ => ⟨S512x2, .f32⟩
  | .local _ .vmem, ⟨31, _⟩ => ⟨S512x2, .f32⟩
  | .local _ .vmem, ⟨32, _⟩ => ⟨S512x2, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_v9 : Ref sig .tc := ⟨.hbm, 27, rfl⟩
abbrev main_cst_4 : Ref sig .tc := ⟨.hbm, 28, rfl⟩
abbrev main_call3_v0 : Ref sig .tc := ⟨.hbm, 29, rfl⟩
abbrev main_call3_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call4_cst : Ref sig .tc := ⟨.hbm, 42, rfl⟩
abbrev main_call4_v0 : Ref sig .tc := ⟨.hbm, 43, rfl⟩
abbrev main_call4_cst_0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_cst_1 : Ref sig .tc := ⟨.hbm, 51, rfl⟩
abbrev main_call4_v7 : Ref sig .tc := ⟨.hbm, 52, rfl⟩
abbrev main_call4_v8 : Ref sig .tc := ⟨.hbm, 53, rfl⟩
abbrev main_call4_v9 : Ref sig .tc := ⟨.hbm, 54, rfl⟩
abbrev main_call4_v10 : Ref sig .tc := ⟨.hbm, 55, rfl⟩
abbrev main_v21 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 8, 32], ![false, false, false]⟩

def k1_cond2 (i : grid1.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨2, ![16, 16], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_7 : BitVec 32 := 0#32
  let v20 : BitVec 1 := Scalar.cmpi .ne v19 c0_i32_7
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![16, 16], ![false, false]⟩

def k3_mult1 (i : grid3.Coords) : BitVec 32 :=
  let arg1 : BitVec 32 := BitVec.ofNat 32 (i 1).val
  let c512_i32 : BitVec 32 := 512#32
  let v3 : BitVec 32 := Scalar.muli arg1 c512_i32
  v3
def k3_off1 (i : grid3.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_7 : BitVec 32 := 0#32
  let v20 : BitVec 1 := Scalar.cmpi .ne v19 c0_i32_7
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S512x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  shapeCasts_S8192_S8192x1 : S8192.ShapeCasts S8192x1
  reducesTo_S8192x8192_S8192_d0 : S8192x8192.ReducesTo [0] S8192
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  iota_S1024x1_d0_w32 : S1024x1.Iotas .tc 32 [0]
  iota_S1x1024_d1_w32 : S1x1024.Iotas .tc 32 [1]
  natLt_1_32 : 1 < 32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  dot_S1024x256_S256x1024_S1024x1024_1_0_0_1_n_n_wf : DotDims.WF S1024x256 S256x1024 S1024x1024 [1] [0] [0] [1] [] []
  dot_S8192x512_S512x256_S8192x256_1_0_0_1_n_n_wf : DotDims.WF S8192x512 S512x256 S8192x256 [1] [0] [0] [1] [] []
  dot_S512x512_S512x256_S512x256_1_0_0_1_n_n_wf : DotDims.WF S512x512 S512x256 S512x256 [1] [0] [0] [1] [] []
  dot_S8192x256_S256x2_S8192x2_1_0_0_1_n_n_wf : DotDims.WF S8192x256 S256x2 S8192x2 [1] [0] [0] [1] [] []
  dot_S512x512_S512x2_S512x2_1_0_0_1_n_n_wf : DotDims.WF S512x512 S512x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .bf16 = 32 ∨ (Rect.block (s := S8192x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x8192.size a
  hwx1_0 : ∀ i : grid1.Coords, EltTy.bits .bf16 = 32 ∨ (Rect.block (s := S8192x8192) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x8192.size a
  hwx1_1 : ∀ i : grid1.Coords, EltTy.bits .bf16 = 32 ∨ (Rect.block (s := S8192x8192) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .f32 = 32 ∨ (Rect.block (s := S1x8192) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x8192.size a
  hwx1_5 : ∀ i : grid1.Coords, EltTy.bits .f32 = 32 ∨ (Rect.block (s := S8192x8192) S1024x1024.size (cc1_transform_5 i) (hinb1_5 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S8192x256.size a
  hwx2_2 : ∀ i : grid2.Coords, EltTy.bits .f32 = 32 ∨ (Rect.block (s := S8192x256) S512x256.size (cc2_transform_2 i) (hinb2_2 i)).WholeWords (EltTy.packing .f32)
  hrank3 : 0 < grid3.rank
  k3_mult1_dvd : ∀ i : grid3.Coords, 512 ∣ (k3_mult1 i).toNat
  k3_off1_inb : ∀ i : grid3.Coords, ∀ a, (k3_off1 i) a + S512x2.size a ≤ S8192x2.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S8192x8192.size a
  hwx3_0 : ∀ i : grid3.Coords, EltTy.bits .f32 = 32 ∨ (Rect.block (s := S8192x8192) S512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x2.size a ≤ S8192x2.size a
  hwx3_1 : ∀ i : grid3.Coords, EltTy.bits .f32 = 32 ∨ (Rect.block (s := S8192x2) S8192x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2.size a ≤ S8192x2.size a
  hwx3_2 : ∀ i : grid3.Coords, EltTy.bits .f32 = 32 ∨ (Rect.block (s := S8192x2) S512x2.size (cc3_transform_2 i) (hinb3_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S512x512_S512x2_S512x2_1_0_0_1_n_n : DotDims S512x512 S512x2 S512x2 where
  lhsContracting := [1]
  rhsContracting := [0]
  lhsNonContracting := [0]
  rhsNonContracting := [1]
  lhsBatch := []
  rhsBatch := []
  wf := dot_S512x512_S512x2_S512x2_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v13) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v13) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S8192x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S512x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x2 : Shape := ⟨2, ![256, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S8192x2 : Shape := ⟨2, ![8192, 2]⟩
abbrev S1x2 : Shape := ⟨2, ![1, 2]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x2, .f32⟩
  | .hbm, ⟨4, _⟩ => ⟨S2, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .i1⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x2, .f32⟩
  | .hbm, ⟨56, _⟩ => ⟨S8192x2, .f32⟩
  | .hbm, ⟨57, _⟩ => ⟨S1x2, .f32⟩
  | .hbm, ⟨58, _⟩ => ⟨S8192x2, .f32⟩
  | .hbm, ⟨59, _⟩ => ⟨S8192x2, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1, .f32⟩
  | .hbm, ⟨66, _⟩ => ⟨S8192x2, .f32⟩
  | .hbm, ⟨67, _⟩ => ⟨S8192x2, .f32⟩
  | .hbm, ⟨68, _⟩ => ⟨S8192x2, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1, .f32⟩
  | .hbm, ⟨73, _⟩ => ⟨S8192x2, .f32⟩
  | .hbm, ⟨74, _⟩ => ⟨S8192x2, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_v8 : Ref sig .tc := ⟨.hbm, 26, rfl⟩
abbrev main_cst_4 : Ref sig .tc := ⟨.hbm, 27, rfl⟩
abbrev main_call3_v0 : Ref sig .tc := ⟨.hbm, 28, rfl⟩
abbrev main_call3_v1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_cst : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_call5_cst_0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_v6 : Ref sig .tc := ⟨.hbm, 68, rfl⟩
abbrev main_call5_cst_1 : Ref sig .tc := ⟨.hbm, 69, rfl⟩
abbrev main_call5_v7 : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_v35 : Ref sig .tc := ⟨.hbm, 74, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  reducesTo_S8192x8192_S8192_d0 : S8192x8192.ReducesTo [0] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192x256 : S_.BroadcastsInDim S8192x256 (![] : Fin 0 → Fin S8192x256.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192x1_S8192x2_0_1 : S8192x1.BroadcastsInDim S8192x2 (![0, 1] : Fin 2 → Fin S8192x2.rank)
  dot_S8192x8192_S8192x8192_S8192x8192_1_0_0_1_n_n_wf : DotDims.WF S8192x8192 S8192x8192 S8192x8192 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x2_S8192x2_1_0_0_1_n_n_wf : DotDims.WF S8192x256 S256x2 S8192x2 [1] [0] [0] [1] [] []
  dot_S8192x8192_S8192x2_S8192x2_1_0_0_1_n_n_wf : DotDims.WF S8192x8192 S8192x2 S8192x2 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf

class Facts : Prop extends Facts₀ where

variable [Facts]
-- ==== Proof.Region0.lean ====
/-
  The first kernel region: the normalised adjacency, block by block.

  The grid is 8 × 8. At point (i, j) the body reads the 1024 × 1024 block (i, j) of the adjacency matrix, the i-th
  1024-piece of the row factors (a column) and the j-th 1024-piece of the column factors (a row), and stores
  row factor · entry · column factor  into block (i, j) of the result. Nothing is carried from point to point:
  what a point leaves in the result's buffer is a function of the three blocks it was handed.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Scaled

/-- The whole 1024 × 1024 block, the whole 1024 × 1 column and the whole 1 × 1024 row: the body's accesses. -/
abbrev boxSq : Rect S1024x1024 := Rect.unit (s := S1024x1024) ![0, 0] S1024x1024.size inb_S1024x1024_S1024x1024_0_0
abbrev boxCol : Rect S1024x1 := Rect.unit (s := S1024x1) ![0, 0] S1024x1.size inb_S1024x1_S1024x1_0_0
abbrev boxRow : Rect S1x1024 := Rect.unit (s := S1x1024) ![0, 0] S1x1024.size inb_S1x1024_S1x1024_0_0

/-- What a point leaves in the result's buffer, from the adjacency block `a`, the column of row factors `dr` and the
    row of column factors `dc`: the one store's payload laid over the whole buffer. -/
def scaled0 (a : Vec F S1024x1024 .f32) (dr : Vec F S1024x1 .f32) (dc : Vec F S1x1024 .f32) : Vec F S1024x1024 .bf16 :=
  View.canon [⟨boxSq, k0_pay1 (View.ld dr boxCol) (View.ld a boxSq) (View.ld dc boxRow)⟩]

/-- The one store fills the buffer. -/
theorem scaled0_cover (p0 : Vec F S1024x1024 .bf16) (y : S1024x1024.Idx) :
    ∃ pc ∈ ([⟨boxSq, p0⟩] : List (View.Piece (Elt F) S1024x1024 .bf16)), y ∈ pc.1.set :=
  View.cover_of_tiled [⟨boxSq, p0⟩] S1024x1024.size (by rfl) y

set_option maxHeartbeats 1000000 in
/-- The body, handed the three input buffers at `a`, `dr`, `dc` and the result's buffer at anything, runs to the end
    leaving the inputs as they were and the result's buffer at `scaled0 a dr dc`. -/
theorem body0 (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1024 .bf16) (harg5 : arg5.IsWhole)
    (a : Vec F S1024x1024 .f32) (dr : Vec F S1024x1 .f32) (dc : Vec F S1x1024 .f32) (K : PUnit → sProp 𝕄) :
    iprop(owns (c : Thread nD τ) arg2 fullShare a ∗ owns (c : Thread nD τ) arg3 fullShare dr ∗ owns (c : Thread nD τ) arg4 fullShare dc
        ∗ (∃ d, owns (c : Thread nD τ) arg5 fullShare d)
        ∗ (iprop(owns (c : Thread nD τ) arg2 fullShare a ∗ owns (c : Thread nD τ) arg3 fullShare dr ∗ owns (c : Thread nD τ) arg4 fullShare dc
            ∗ owns (c : Thread nD τ) arg5 fullShare (scaled0 a dr dc)) -∗ K ⟨⟩))
      ⊢ wp frame (wpE (defs₀ (F := F)) Variants.none c none) E (cc0__dad_kernel i arg2 harg2 arg3 harg3 arg4 harg4 arg5 harg5) K := by
  simp only [cc0__dad_kernel_eq_skeleton]; unfold cc0__dad_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (scaled0_cover _)

end Scaled

section Data

-- the TensorCore's buffers as the region finds them
variable (V : (c : Dev nD) → (b : Ref sig .tc) → Buf (Elt F) ((c : Thread nD τ).loc b))

/-- Window `w`'s block of its array at grid point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as found; after each point the three inputs' buffers still at their blocks and
    the result's buffer at the product of the three; nothing else is touched, nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => scaled0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = scaled0 (blk0 V c 0 t) (blk0 V c 1 t) (blk0 V c 2 t) := by dsimp only [dat0]

/-- An input's buffer holds its block at every point: fetched there, or left from the point before, whose block index
    is the same. -/
theorem dat0_found0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_found1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)
theorem dat0_found2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `body0` applies; the invariant and what the
    core owes pass through unread. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1, dat0_found2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem obligation0 (c : Dev nD) : BodyObligation (dat0 (F := F) V c) (defs₀ (F := F)) Variants.none () Set.univ := fun t => by
  rw [bigSep_W0, bigSep_W0]
  exact point0 V c t

end Data

end Cert.KernelIdeal.Hand

end
-- ==== Proof.Region1.lean ====
/-
  The second kernel region: the filter matrix  a·I + (a − 1)·D − D·D  with a = 1/2, block by block.

  The grid is 8 × 8 blocks of 1024 × 1024 by 32 steps of the contracted axis, steps innermost. At point (i, j, k) the
  body adds to a scratch accumulator the product of the 1024 × 256 block (i, k) of D with its 256 × 1024 block (k, j)
  — clearing the accumulator first when k = 0 — and when k = 31 stores into block (i, j) of the result
  a·[row = column] + (a − 1)·(row factor · adjacency entry · column factor) − accumulator,
  the middle term recomputed from the adjacency block and the two factor pieces. Both products' operands are windows
  on the one array D. The accumulator is the one thing carried from point to point.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

/-- The first step of a block's accumulation: the contracted-axis coordinate is zero. -/
abbrev first1 (i : grid1.Coords) : Prop :=
  (Scalar.cmpi .ne (Scalar.extui (Scalar.cmpi .eq (BitVec.ofNat 32 (i 2).val) 0#32)) 0#32) = 1#1
/-- The steps are the innermost grid axis, 32 of them: the first steps are the points ≡ 0 (mod 32). -/
theorem first1_iff : ∀ t : Fin cfg1.N, first1 (grid1.coords t) ↔ t.val % 32 = 0 :=
  (by decide +kernel : ∀ t : Fin grid1.N, first1 (grid1.coords t) ↔ t.val % 32 = 0)
/-- The last step: the coordinate is 31. -/
abbrev last1 (i : grid1.Coords) : Prop := k1_cond2 i = 1#1
theorem last1_iff : ∀ t : Fin cfg1.N, last1 (grid1.coords t) ↔ t.val % 32 = 31 :=
  (by decide +kernel : ∀ t : Fin grid1.N, last1 (grid1.coords t) ↔ t.val % 32 = 31)

/-- Before the last step nothing is stored into the result's buffer and its block is not written back; -/
theorem idle1_out : ∀ t : Fin cfg1.N, ¬last1 (grid1.coords t) → cfg1.idle 5 (grid1.coords t) = true := by decide +kernel
theorem keep1_out : ∀ t : Fin cfg1.N, ¬last1 (grid1.coords t) → (cfg1.win 5).flush t = false := by decide +kernel
/-- at the last step it is stored. -/
theorem live1_out : ∀ t : Fin cfg1.N, last1 (grid1.coords t) → cfg1.idle 5 (grid1.coords t) = false := by decide +kernel

set_option maxHeartbeats 1000000 in
/-- A first step: the accumulator is cleared, then the step's product is added. The pieces stored into the
    accumulator are those the run finds. -/
noncomputable def first1Run (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (h0 : first1 i) (h1 : ¬last1 i)
    (l : Vec F S1024x256 .bf16) (r : Vec F S256x1024 .bf16) (a : Vec F S1024x1024 .f32) (dr : Vec F S1024x1 .f32) (dc : Vec F S1x1024 .f32) :
    { LS : List (View.Piece (Elt F) S1024x1024 .f32) //
      ∀ (xo : Vec F S1024x1024 .f32) (E : Set ℕ) (K : PUnit → sProp 𝕄),
        iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ (∃ d, owns (c : Thread nD τ) arg9 fullShare d)
            ∗ (iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__adjf_kernel i arg3 harg3 arg4 harg4 arg5 harg5 arg6 harg6 arg7 harg7 arg8 harg8 arg9 harg9) K } := by
  refine ⟨?_, fun xo E K => ?run⟩
  case run =>
    simp only [cc1__adjf_kernel_eq_skeleton]; unfold cc1__adjf_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

set_option maxHeartbeats 1000000 in
/-- A middle step: the product is added to what the accumulator held, `acc`. -/
noncomputable def mid1Run (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (h0 : ¬first1 i) (h1 : ¬last1 i)
    (l : Vec F S1024x256 .bf16) (r : Vec F S256x1024 .bf16) (a : Vec F S1024x1024 .f32) (dr : Vec F S1024x1 .f32) (dc : Vec F S1x1024 .f32) (acc : Vec F S1024x1024 .f32) :
    { LS : List (View.Piece (Elt F) S1024x1024 .f32) //
      ∀ (xo : Vec F S1024x1024 .f32) (E : Set ℕ) (K : PUnit → sProp 𝕄),
        iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ owns (c : Thread nD τ) arg9 fullShare acc
            ∗ (iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__adjf_kernel i arg3 harg3 arg4 harg4 arg5 harg5 arg6 harg6 arg7 harg7 arg8 harg8 arg9 harg9) K } := by
  refine ⟨?_, fun xo E K => ?run⟩
  case run =>
    simp only [cc1__adjf_kernel_eq_skeleton]; unfold cc1__adjf_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo
    obtain rfl := harg9.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

set_option maxHeartbeats 1000000 in
/-- A last step: the product is added, and the block's value is stored into the result's buffer. -/
noncomputable def last1Run (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (h0 : ¬first1 i) (h1 : last1 i)
    (l : Vec F S1024x256 .bf16) (r : Vec F S256x1024 .bf16) (a : Vec F S1024x1024 .f32) (dr : Vec F S1024x1 .f32) (dc : Vec F S1x1024 .f32) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ (∃ d, owns (c : Thread nD τ) arg8 fullShare d) ∗ owns (c : Thread nD τ) arg9 fullShare acc
            ∗ (iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__adjf_kernel i arg3 harg3 arg4 harg4 arg5 harg5 arg6 harg6 arg7 harg7 arg8 harg8 arg9 harg9) K } := by
  refine ⟨?_, ?_, fun E K => ?run⟩
  case run =>
    simp only [cc1__adjf_kernel_eq_skeleton]; unfold cc1__adjf_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS

end Cases

section Data

-- the TensorCore's buffers as the region finds them
variable (V : (c : Dev nD) → (b : Ref sig .tc) → Buf (Elt F) ((c : Thread nD τ).loc b))

/-- Window `w`'s block of its array at grid point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffers the body is called with at point `t`: each window's current staging buffer, and the accumulator. -/
abbrev m1_0 (t : Fin cfg1.N) : Memref sig .tc .vmem S1024x256 .bf16 := win1_0.stage (cfg1.slots t 0)
abbrev w1_0 (t : Fin cfg1.N) : (m1_0 t).IsWhole := hstage1_0 ((cfg1.slots t 0).cast nbuf1_0)
abbrev m1_1 (t : Fin cfg1.N) : Memref sig .tc .vmem S256x1024 .bf16 := win1_1.stage (cfg1.slots t 1)
abbrev w1_1 (t : Fin cfg1.N) : (m1_1 t).IsWhole := hstage1_1 ((cfg1.slots t 1).cast nbuf1_1)
abbrev m1_2 (t : Fin cfg1.N) : Memref sig .tc .vmem S1024x1024 .f32 := win1_2.stage (cfg1.slots t 2)
abbrev w1_2 (t : Fin cfg1.N) : (m1_2 t).IsWhole := hstage1_2 ((cfg1.slots t 2).cast nbuf1_2)
abbrev m1_3 (t : Fin cfg1.N) : Memref sig .tc .vmem S1024x1 .f32 := win1_3.stage (cfg1.slots t 3)
abbrev w1_3 (t : Fin cfg1.N) : (m1_3 t).IsWhole := hstage1_3 ((cfg1.slots t 3).cast nbuf1_3)
abbrev m1_4 (t : Fin cfg1.N) : Memref sig .tc .vmem S1x1024 .f32 := win1_4.stage (cfg1.slots t 4)
abbrev w1_4 (t : Fin cfg1.N) : (m1_4 t).IsWhole := hstage1_4 ((cfg1.slots t 4).cast nbuf1_4)
abbrev m1_5 (t : Fin cfg1.N) : Memref sig .tc .vmem S1024x1024 .f32 := win1_5.stage (cfg1.slots t 5)
abbrev w1_5 (t : Fin cfg1.N) : (m1_5 t).IsWhole := hstage1_5 ((cfg1.slots t 5).cast nbuf1_5)
abbrev acc1M : Memref sig .tc .vmem S1024x1024 .f32 := Memref.whole cc1_scratch0
/-- The views through which the accumulator's and the result buffer's contents are stated. -/
abbrev acc1V : View sig .tc .vmem S1024x1024 .f32 := acc1M.view
abbrev out1V : View sig .tc .vmem S1024x1024 .f32 := (Memref.whole cc1_stg5_0 : Memref sig .tc .vmem S1024x1024 .f32).view

/-- The inputs are read at every point. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl

/-- The accumulator after a first step: the pieces that step stores, read back. They fill it. -/
def accFirst1 (c : Dev nD) (t : Fin cfg1.N) (h0 : first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) : Vec F S1024x1024 .f32 :=
  acc1V.read (Elt F) (acc1V.writes (Elt F) acc1V.junk (first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc).1)
theorem accFirst1_fills (c : Dev nD) (t : Fin cfg1.N) (h0 : first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) (y : S1024x1024.Idx) :
    ∃ pc ∈ (first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc).1, y ∈ pc.1.set :=
  View.cover_of_tiledL (first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc).1 S1024x1024.size (by sl_kernel_rfl) y

/-- After a middle step, over what it held before. -/
def accMid1 (c : Dev nD) (t : Fin cfg1.N) (h0 : ¬first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) (acc : Vec F S1024x1024 .f32) : Vec F S1024x1024 .f32 :=
  acc1V.read (Elt F) (acc1V.writes (Elt F) acc1V.junk (mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1)
theorem accMid1_fills (c : Dev nD) (t : Fin cfg1.N) (h0 : ¬first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) (acc : Vec F S1024x1024 .f32) (y : S1024x1024.Idx) :
    ∃ pc ∈ (mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1, y ∈ pc.1.set :=
  View.cover_of_tiledL (mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1 S1024x1024.size (by sl_kernel_rfl) y

/-- After a last step, and what that step stores into the result's buffer. -/
def accLast1 (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) : Vec F S1024x1024 .f32 :=
  acc1V.read (Elt F) (acc1V.writes (Elt F) acc1V.junk (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).2.1)
theorem accLast1_fills (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) (y : S1024x1024.Idx) :
    ∃ pc ∈ (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).2.1, y ∈ pc.1.set :=
  View.cover_of_tiledL (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).2.1 S1024x1024.size (by sl_kernel_rfl) y
def outLast1 (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) : Vec F S1024x1024 .f32 :=
  out1V.read (Elt F) (out1V.writes (Elt F) out1V.junk (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1)
theorem outLast1_fills (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) (y : S1024x1024.Idx) :
    ∃ pc ∈ (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1, y ∈ pc.1.set :=
  View.cover_of_tiledL (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1 S1024x1024.size (by sl_kernel_rfl) y

/-- THE ACCUMULATION: what the accumulator holds after the body at position `n` — a first step starts afresh from the
    point's blocks, every other step builds on what the position before left. -/
def scr1 (c : Dev nD) : (n : ℕ) → n < cfg1.N → Vec F S1024x1024 .f32
  | 0, hn => accFirst1 c ⟨0, hn⟩ ((first1_iff ⟨0, hn⟩).mpr (Nat.zero_mod _))
      (fun h => (fun h => by (try dsimp only at h); omega) ((last1_iff ⟨0, hn⟩).mp h)) (blk1 V c 0 ⟨0, hn⟩) (blk1 V c 1 ⟨0, hn⟩) (blk1 V c 2 ⟨0, hn⟩) (blk1 V c 3 ⟨0, hn⟩) (blk1 V c 4 ⟨0, hn⟩)
  | n + 1, hn =>
    if h0 : (n + 1) % 32 = 0 then
      accFirst1 c ⟨n + 1, hn⟩ ((first1_iff ⟨n + 1, hn⟩).mpr h0)
        (fun h => (fun h => by (try dsimp only at h); omega) ((last1_iff ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩)
    else if h1 : (n + 1) % 32 = 31 then
      accLast1 c ⟨n + 1, hn⟩ (fun h => h0 ((first1_iff ⟨n + 1, hn⟩).mp h)) ((last1_iff ⟨n + 1, hn⟩).mpr h1)
        (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (scr1 c n (Nat.lt_of_succ_lt hn))
    else
      accMid1 c ⟨n + 1, hn⟩ (fun h => h0 ((first1_iff ⟨n + 1, hn⟩).mp h)) (fun h => h1 ((last1_iff ⟨n + 1, hn⟩).mp h))
        (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (scr1 c n (Nat.lt_of_succ_lt hn))

theorem scr1_first (c : Dev nD) (t : Fin cfg1.N) (h0 : t.val % 32 = 0) (h1 : ¬t.val % 32 = 31) :
    scr1 V c t.val t.isLt = accFirst1 c t ((first1_iff t).mpr h0) (fun h => h1 ((last1_iff t).mp h)) (blk1 V c 0 t) (blk1 V c 1 t) (blk1 V c 2 t) (blk1 V c 3 t) (blk1 V c 4 t) := by
  obtain ⟨n, hn⟩ := t
  cases n with
  | zero => exact rfl
  | succ n => exact (dif_pos h0).trans rfl
theorem scr1_mid (c : Dev nD) (t : Fin cfg1.N) (h0 : ¬t.val % 32 = 0) (h1 : ¬t.val % 32 = 31) :
    scr1 V c t.val t.isLt = accMid1 c t (fun h => h0 ((first1_iff t).mp h)) (fun h => h1 ((last1_iff t).mp h)) (blk1 V c 0 t) (blk1 V c 1 t) (blk1 V c 2 t) (blk1 V c 3 t) (blk1 V c 4 t) (scr1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem scr1_last (c : Dev nD) (t : Fin cfg1.N) (h0 : ¬t.val % 32 = 0) (h1 : t.val % 32 = 31) :
    scr1 V c t.val t.isLt = accLast1 c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's buffer holds after point `t`: at a last step what that step stores; at any other step the
    buffer is not touched, and nothing reads this value. -/
def out1 (c : Dev nD) (t : Fin cfg1.N) : Vec F S1024x1024 .f32 :=
  if h1 : t.val % 32 = 31 then
    outLast1 c t (fun h => (fun h => by omega) ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt))
  else View.canon []
theorem out1_last (c : Dev nD) (t : Fin cfg1.N) (h0 : ¬t.val % 32 = 0) (h1 : t.val % 32 = 31) :
    out1 V c t = outLast1 c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)) := by
  unfold out1; rw [dif_pos h1]

/-- The invariant before position `n`: before the first point every scoped buffer at anything; afterwards the
    accumulator at what the position before left, the other scoped buffers at anything. -/
def Phi1 (c : Dev nD) : (n : ℕ) → n ≤ cfg1.N → sProp 𝕄
  | 0, _ => Pipeline.ΦA spec1 c
  | n + 1, hn => iprop(iprop(owns (c : Thread nD τ) acc1M fullShare (scr1 V c n hn) ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) acc1M fullShare (scr1 V c n hn) ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) acc1M fullShare (scr1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- Before the first point: the accumulator at anything, the other scoped buffers at anything. -/
theorem PhiA1_eq (c : Dev nD) :
    (Pipeline.ΦA spec1 c : sProp 𝕄)
      = iprop(iprop((∃ d, owns (c : Thread nD τ) acc1M fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [Pipeline.scopedRest_split_of_list spec1 c [cc1_scratch0] (by decide) (by decide)]; simp only [acc1M, owns_whole]; try rfl

/-- The region's proof data. The first two windows read one array, the normalised adjacency: each holds half of it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 V c t
  Φ t := Phi1 V c t.val (Nat.le_of_lt_succ t.isLt)
  q w := match w with
    | ⟨0, _⟩ => PosShare.left fullShare
    | ⟨1, _⟩ => PosShare.right fullShare
    | ⟨2, _⟩ => fullShare
    | ⟨3, _⟩ => fullShare
    | ⟨4, _⟩ => fullShare
    | ⟨5, _⟩ => fullShare
  owed _ := 0

theorem dat1_A (c : Dev nD) (w : Fin cfg1.W) : (dat1 V c).A w = V c (Pipeline.arrRef spec1 w) := by dsimp only [dat1]
theorem dat1_Phi (c : Dev nD) (t : Fin cfg1.N) : (dat1 V c).Φ t.castSucc = Phi1 V c t.val (Nat.le_of_lt t.isLt) := by
  dsimp only [dat1]; simp only [Fin.coe_castSucc]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = out1 V c t := by dsimp only [dat1]

/-- An input's buffer holds its block at every point: fetched there, or left from the point before, whose block index
    is the same. -/
theorem dat1_found0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_found1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_found2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_found3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)
theorem dat1_found4 (c : Dev nD) (t : Fin cfg1.N) (d) : (dat1 V c).before 4 t d = blk1 V c 4 t :=
  ((dat1 V c).before_in_eq_fetched 4 rfl (fun _ => rfl) (fun _ _ _ => rfl)
    (fun t => by rw [dat1_after4]; unfold Dat.blockOf blk1; rw [dat1_A]; try rfl) t d).trans
    (by unfold Dat.fetched Dat.blockOf blk1; rw [dat1_A]; try rfl)

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d))
    ∗ (∃ d, owns (c : Thread nD τ) (m1_4 t) fullShare ((dat1 V c).before 4 t d))
    ∗ (∃ d, owns (c : Thread nD τ) (m1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The closed forms say which kind of step the point is; the inputs' buffers hold their
    blocks; the invariant hands over the accumulator at what the point before left (at anything at the very first
    point) and takes it back at this point's contents; the result's buffer is left alone except at a last step. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1, dat1_found2, dat1_found3, dat1_found4]
  rw [show (dat1 V c).owesAt () t.succ = (dat1 V c).owesAt () t.castSucc from rfl]
  rw [show (dat1 V c).Φ t.succ = Phi1 V c (t.val + 1) t.isLt from rfl, Phi1_succ]
  have hN : t.val < 2048 := lt_of_lt_of_eq t.isLt (show cfg1.N = 2048 from N_1)
  by_cases h0 : t.val % 32 = 0
  · have h1 : ¬t.val % 32 = 31 := by omega
    rw [show (dat1 V c).leavesExact 0 t = owns (c : Thread nD τ) (m1_0 t) fullShare ((dat1 V c).after 0 t) from by
      unfold Dat.leavesExact; rw [live1_0 t], dat1_after0]
    rw [show (dat1 V c).leavesExact 1 t = owns (c : Thread nD τ) (m1_1 t) fullShare ((dat1 V c).after 1 t) from by
      unfold Dat.leavesExact; rw [live1_1 t], dat1_after1]
    rw [show (dat1 V c).leavesExact 2 t = owns (c : Thread nD τ) (m1_2 t) fullShare ((dat1 V c).after 2 t) from by
      unfold Dat.leavesExact; rw [live1_2 t], dat1_after2]
    rw [show (dat1 V c).leavesExact 3 t = owns (c : Thread nD τ) (m1_3 t) fullShare ((dat1 V c).after 3 t) from by
      unfold Dat.leavesExact; rw [live1_3 t], dat1_after3]
    rw [show (dat1 V c).leavesExact 4 t = owns (c : Thread nD τ) (m1_4 t) fullShare ((dat1 V c).after 4 t) from by
      unfold Dat.leavesExact; rw [live1_4 t], dat1_after4]
    rw [Dat.leavesExact_idle (dat1 V c) 5 t (idle1_out t (fun h => h1 ((last1_iff t).mp h))) (keep1_out t (fun h => h1 ((last1_iff t).mp h)))]
    rw [scr1_first V c t h0 h1]
    unfold accFirst1; (try dsimp only)
    by_cases hz : t.val = 0
    · rw [dat1_Phi V c t, Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) ((first1_iff t).mpr h0) (fun h => h1 ((last1_iff t).mp h)) (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_fills c t ((first1_iff t).mpr h0) (fun h => h1 ((last1_iff t).mp h)) (blk1 V c 0 t) (blk1 V c 1 t) (blk1 V c 2 t) (blk1 V c 3 t) (blk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
    · rw [dat1_Phi V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) ((first1_iff t).mpr h0) (fun h => h1 ((last1_iff t).mp h)) (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexists _; iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_fills c t ((first1_iff t).mpr h0) (fun h => h1 ((last1_iff t).mp h)) (blk1 V c 0 t) (blk1 V c 1 t) (blk1 V c 2 t) (blk1 V c 3 t) (blk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
  · have hz : t.val ≠ 0 := fun e => h0 (by rw [e])
    by_cases h1 : t.val % 32 = 31
    · skip
      rw [show (dat1 V c).leavesExact 0 t = owns (c : Thread nD τ) (m1_0 t) fullShare ((dat1 V c).after 0 t) from by
        unfold Dat.leavesExact; rw [live1_0 t], dat1_after0]
      rw [show (dat1 V c).leavesExact 1 t = owns (c : Thread nD τ) (m1_1 t) fullShare ((dat1 V c).after 1 t) from by
        unfold Dat.leavesExact; rw [live1_1 t], dat1_after1]
      rw [show (dat1 V c).leavesExact 2 t = owns (c : Thread nD τ) (m1_2 t) fullShare ((dat1 V c).after 2 t) from by
        unfold Dat.leavesExact; rw [live1_2 t], dat1_after2]
      rw [show (dat1 V c).leavesExact 3 t = owns (c : Thread nD τ) (m1_3 t) fullShare ((dat1 V c).after 3 t) from by
        unfold Dat.leavesExact; rw [live1_3 t], dat1_after3]
      rw [show (dat1 V c).leavesExact 4 t = owns (c : Thread nD τ) (m1_4 t) fullShare ((dat1 V c).after 4 t) from by
        unfold Dat.leavesExact; rw [live1_4 t], dat1_after4]
      rw [show (dat1 V c).leavesExact 5 t = owns (c : Thread nD τ) (m1_5 t) fullShare ((dat1 V c).after 5 t) from by
        unfold Dat.leavesExact; rw [live1_out t ((last1_iff t).mpr h1)], dat1_after5]
      rw [scr1_last V c t h0 h1, out1_last V c t h0 h1]
      unfold accLast1 outLast1; (try dsimp only)
      rw [dat1_Phi V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [HO]; · iexists _; iexact HO
      isplitl [HS]; · iexact HS
      iintro ⟨H0, H1, H2, H3, H4, ⟨%eO, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast1_fills c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact HO
      ipureintro; exact View.read_writes_of_cover _ _ _ _ _ (outLast1_fills c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)))
    · skip
      rw [show (dat1 V c).leavesExact 0 t = owns (c : Thread nD τ) (m1_0 t) fullShare ((dat1 V c).after 0 t) from by
        unfold Dat.leavesExact; rw [live1_0 t], dat1_after0]
      rw [show (dat1 V c).leavesExact 1 t = owns (c : Thread nD τ) (m1_1 t) fullShare ((dat1 V c).after 1 t) from by
        unfold Dat.leavesExact; rw [live1_1 t], dat1_after1]
      rw [show (dat1 V c).leavesExact 2 t = owns (c : Thread nD τ) (m1_2 t) fullShare ((dat1 V c).after 2 t) from by
        unfold Dat.leavesExact; rw [live1_2 t], dat1_after2]
      rw [show (dat1 V c).leavesExact 3 t = owns (c : Thread nD τ) (m1_3 t) fullShare ((dat1 V c).after 3 t) from by
        unfold Dat.leavesExact; rw [live1_3 t], dat1_after3]
      rw [show (dat1 V c).leavesExact 4 t = owns (c : Thread nD τ) (m1_4 t) fullShare ((dat1 V c).after 4 t) from by
        unfold Dat.leavesExact; rw [live1_4 t], dat1_after4]
      rw [Dat.leavesExact_idle (dat1 V c) 5 t (idle1_out t (fun h => h1 ((last1_iff t).mp h))) (keep1_out t (fun h => h1 ((last1_iff t).mp h)))]
      rw [scr1_mid V c t h0 h1]
      unfold accMid1; (try dsimp only)
      rw [dat1_Phi V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) (fun h => h0 ((first1_iff t).mp h)) (fun h => h1 ((last1_iff t).mp h)) (blk1 V c 0 t) (blk1 V c 1 t) (blk1 V c 2 t) (blk1 V c 3 t) (blk1 V c 4 t) (scr1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro; exact View.read_writes_of_cover _ _ _ _ _ (accMid1_fills c t (fun h => h0 ((first1_iff t).mp h)) (fun h => h1 ((last1_iff t).mp h)) (blk1 V c 0 t) (blk1 V c 1 t) (blk1 V c 2 t) (blk1 V c 3 t) (blk1 V c 4 t) (scr1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO

/-- The body obligation of the region, at every point. -/
theorem obligation1 (c : Dev nD) : BodyObligation (dat1 (F := F) V c) (defs₀ (F := F)) Variants.none () Set.univ := fun t => by
  rw [bigSep_W1, bigSep_W1]
  exact point1 V c t

/-- What the region is handed at its entry is the invariant before the first point; -/
theorem into1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point the invariant gives the same back: the accumulator's contents are forgotten. -/
theorem outOf1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 2048 := N_1; omega), PhiA1_eq]
  iintro ⟨⟨HS, Hrest⟩, Hg⟩
  isplitl [HS Hrest]
  · isplitl [HS]
    · iexists _; iexact HS
    iexact Hrest
  iexact Hg

end Data

end Cert.KernelIdeal.Hand

end
-- ==== Proof.Region1Share.lean ====
/-
  Region 1's arrays as buffers. Its six windows sit on five arrays: the two operands of the block product are both
  windows on the normalised adjacency. Entering the region that array's buffer is split into two halves of the full
  share, one per window; leaving it the halves, which hold the same contents (neither window writes), are joined.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

/-- The five buffers behind the six windows, one by one. -/
theorem arrBufs1_eq (c : Dev nD) (V' : (b : Ref sig .tc) → Buf (Elt F) ((c : Thread nD τ).loc b)) :
    (Pipeline.arrBufs spec1 c V' : sProp 𝕄)
      = iprop((((c.tc : Thread nD τ).loc main_v12) ↦{fullShare} V' main_v12) ∗ (((c.tc : Thread nD τ).loc main_arg1) ↦{fullShare} V' main_arg1)
          ∗ (((c.tc : Thread nD τ).loc main_v5) ↦{fullShare} V' main_v5) ∗ (((c.tc : Thread nD τ).loc main_v11) ↦{fullShare} V' main_v11)
          ∗ (((c.tc : Thread nD τ).loc main_v13) ↦{fullShare} V' main_v13)) := by
  unfold Pipeline.arrBufs
  exact bigSep_eq_bigSepL_of_eq [main_v12, main_arg1, main_v5, main_v11, main_v13] (by decide) (by decide) _

/-- The windows' arrays, window by window, each a whole buffer at its window's share. -/
theorem arrays1_eq (c : Dev nD) (G : (w : Fin cfg1.W) → Buf (Elt F) ((cfg1.win w).arr.view.loc (c.tc : Thread nD τ))) :
    ((dat1 V c).arrays G : sProp 𝕄)
      = bigSep Finset.univ fun w => (((c.tc : Thread nD τ).loc (Pipeline.arrRef spec1 w)) ↦{(dat1 V c).share w} G w : sProp 𝕄) := by
  unfold Dat.arrays
  exact bigSep_congr fun w _ => by rw [(arr_whole1 w).set_eq_univ]

/-- ENTRY: the five buffers at the contents the region finds are the six windows' arrays at entry. -/
theorem arrays1_in (c : Dev nD) :
    (Pipeline.arrBufs spec1 c (V c) : sProp 𝕄) ⊢ (dat1 V c).arrays ((dat1 V c).arrAt · 0) := by
  rw [arrays1_eq, bigSep_W1, arrBufs1_eq]
  iintro ⟨H12, Ha, H5, H11, H13⟩
  ihave Hs := (pointsTo_share (PosShare.mem_left_op_right fullShare)).1 $$ H12
  icases Hs with ⟨Hl, Hr⟩
  isplitl [Hl]; · iexact Hl
  isplitl [Hr]; · iexact Hr
  isplitl [Ha]; · iexact Ha
  isplitl [H5]; · iexact H5
  isplitl [H11]; · iexact H11
  iexact H13

/-- EXIT: the six arrays at contents `G` — each being what the contents `V'` name for its buffer — are the five
    buffers at `V'`: the two halves of the shared one hold the same contents and are joined. -/
theorem arrays1_out (c : Dev nD) (V' : (b : Ref sig .tc) → Buf (Elt F) ((c : Thread nD τ).loc b))
    (G : (w : Fin cfg1.W) → Buf (Elt F) ((cfg1.win w).arr.view.loc (c.tc : Thread nD τ)))
    (hG : ∀ w : Fin 6, G w = V' (Pipeline.arrRef spec1 w)) :
    ((dat1 V c).arrays G : sProp 𝕄) ⊢ Pipeline.arrBufs spec1 c V' := by
  obtain rfl : G = fun w => V' (Pipeline.arrRef spec1 w) := funext hG
  rw [arrays1_eq, bigSep_W1, arrBufs1_eq]
  iintro ⟨Hl, Hr, Ha, H5, H11, H13⟩
  isplitl [Hl Hr]
  · iapply (pointsTo_share (PosShare.mem_left_op_right fullShare)).2
    isplitl [Hl]; · iexact Hl
    iexact Hr
  isplitl [Ha]; · iexact Ha
  isplitl [H5]; · iexact H5
  isplitl [H11]; · iexact H11
  iexact H13

end Shares

end Cert.KernelIdeal.Hand

end
-- ==== Proof.Region2.lean ====
/-
  The third kernel region: the hidden layer, a dense matrix times a tall thin one, row block by row block.

  The grid is 16 row blocks by 16 steps of the contracted axis, steps innermost. At point (i, k) the body holds the
  512 × 512 block (i, k) of the filter matrix and the whole 8192 × 256 right-hand matrix; it adds to a scratch
  accumulator the product of the block with rows 512·k … 512·k + 511 of the right-hand matrix — clearing the
  accumulator first when k = 0 — and when k = 15 stores the accumulator's positive part into row block i of the
  result. The accumulator is the one thing carried from point to point.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

/-- The first step of a block's accumulation: the contracted-axis coordinate is zero. -/
abbrev first2 (i : grid2.Coords) : Prop :=
  (Scalar.cmpi .ne (Scalar.extui (Scalar.cmpi .eq (BitVec.ofNat 32 (i 1).val) 0#32)) 0#32) = 1#1
/-- The steps are the innermost grid axis, 16 of them: the first steps are the points ≡ 0 (mod 16). -/
theorem first2_iff : ∀ t : Fin cfg2.N, first2 (grid2.coords t) ↔ t.val % 16 = 0 :=
  (by decide +kernel : ∀ t : Fin grid2.N, first2 (grid2.coords t) ↔ t.val % 16 = 0)
/-- The last step: the coordinate is 15. -/
abbrev last2 (i : grid2.Coords) : Prop := k2_cond2 i = 1#1
theorem last2_iff : ∀ t : Fin cfg2.N, last2 (grid2.coords t) ↔ t.val % 16 = 15 :=
  (by decide +kernel : ∀ t : Fin grid2.N, last2 (grid2.coords t) ↔ t.val % 16 = 15)

/-- Before the last step nothing is stored into the result's buffer and its block is not written back; -/
theorem idle2_out : ∀ t : Fin cfg2.N, ¬last2 (grid2.coords t) → cfg2.idle 2 (grid2.coords t) = true := by decide +kernel
theorem keep2_out : ∀ t : Fin cfg2.N, ¬last2 (grid2.coords t) → (cfg2.win 2).flush t = false := by decide +kernel
/-- at the last step it is stored. -/
theorem live2_out : ∀ t : Fin cfg2.N, last2 (grid2.coords t) → cfg2.idle 2 (grid2.coords t) = false := by decide +kernel

set_option maxHeartbeats 1000000 in
/-- A first step: the accumulator is cleared, then the step's product is added. The pieces stored into the
    accumulator are those the run finds. -/
noncomputable def first2Run (c : Dev nD) (i : grid2.Coords) (arg2 : Memref sig .tc .vmem S512x512 .f32) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole) (h0 : first2 i) (h1 : ¬last2 i)
    (a : Vec F S512x512 .f32) (mm : Vec F S8192x256 .f32) :
    { LS : List (View.Piece (Elt F) S512x256 .f32) //
      ∀ (xo : Vec F S512x256 .f32) (E : Set ℕ) (K : PUnit → sProp 𝕄),
        iprop(owns (c : Thread nD τ) arg2 fullShare a ∗ owns (c : Thread nD τ) arg3 fullShare mm ∗ owns (c : Thread nD τ) arg4 fullShare xo ∗ (∃ d, owns (c : Thread nD τ) arg5 fullShare d)
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xo E K => ?run⟩
  case run =>
    simp only [cc2__spmm_kernel_eq_skeleton]; unfold cc2__spmm_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A middle step: the product is added to what the accumulator held, `acc`. -/
noncomputable def mid2Run (c : Dev nD) (i : grid2.Coords) (arg2 : Memref sig .tc .vmem S512x512 .f32) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole) (h0 : ¬first2 i) (h1 : ¬last2 i)
    (a : Vec F S512x512 .f32) (mm : Vec F S8192x256 .f32) (acc : Vec F S512x256 .f32) :
    { LS : List (View.Piece (Elt F) S512x256 .f32) //
      ∀ (xo : Vec F S512x256 .f32) (E : Set ℕ) (K : PUnit → sProp 𝕄),
        iprop(owns (c : Thread nD τ) arg2 fullShare a ∗ owns (c : Thread nD τ) arg3 fullShare mm ∗ owns (c : Thread nD τ) arg4 fullShare xo ∗ owns (c : Thread nD τ) arg5 fullShare acc
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xo E K => ?run⟩
  case run =>
    simp only [cc2__spmm_kernel_eq_skeleton]; unfold cc2__spmm_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A last step: the product is added, and the block's value is stored into the result's buffer. -/
noncomputable def last2Run (c : Dev nD) (i : grid2.Coords) (arg2 : Memref sig .tc .vmem S512x512 .f32) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole) (h0 : ¬first2 i) (h1 : last2 i)
    (a : Vec F S512x512 .f32) (mm : Vec F S8192x256 .f32) (acc : Vec F S512x256 .f32) :
    Σ' (LO : List (View.Piece (Elt F) S512x256 .f32)), { LS : List (View.Piece (Elt F) S512x256 .f32) //
      ∀ (E : Set ℕ) (K : PUnit → sProp 𝕄),
        iprop(owns (c : Thread nD τ) arg2 fullShare a ∗ owns (c : Thread nD τ) arg3 fullShare mm ∗ (∃ d, owns (c : Thread nD τ) arg4 fullShare d) ∗ owns (c : Thread nD τ) arg5 fullShare acc
            ∗ (iprop(owns (c : Thread nD τ) arg2 fullShare a ∗ owns (c : Thread nD τ) arg3 fullShare mm ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cases

section Data

-- the TensorCore's buffers as the region finds them
variable (V : (c : Dev nD) → (b : Ref sig .tc) → Buf (Elt F) ((c : Thread nD τ).loc b))

/-- Window `w`'s block of its array at grid point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffers the body is called with at point `t`: each window's current staging buffer, and the accumulator. -/
abbrev m2_0 (t : Fin cfg2.N) : Memref sig .tc .vmem S512x512 .f32 := win2_0.stage (cfg2.slots t 0)
abbrev w2_0 (t : Fin cfg2.N) : (m2_0 t).IsWhole := hstage2_0 ((cfg2.slots t 0).cast nbuf2_0)
abbrev m2_1 (t : Fin cfg2.N) : Memref sig .tc .vmem S8192x256 .f32 := win2_1.stage (cfg2.slots t 1)
abbrev w2_1 (t : Fin cfg2.N) : (m2_1 t).IsWhole := hstage2_1 ((cfg2.slots t 1).cast nbuf2_1)
abbrev m2_2 (t : Fin cfg2.N) : Memref sig .tc .vmem S512x256 .f32 := win2_2.stage (cfg2.slots t 2)
abbrev w2_2 (t : Fin cfg2.N) : (m2_2 t).IsWhole := hstage2_2 ((cfg2.slots t 2).cast nbuf2_2)
abbrev acc2M : Memref sig .tc .vmem S512x256 .f32 := Memref.whole cc2_scratch0
/-- The views through which the accumulator's and the result buffer's contents are stated. -/
abbrev acc2V : View sig .tc .vmem S512x256 .f32 := acc2M.view
abbrev out2V : View sig .tc .vmem S512x256 .f32 := (Memref.whole cc2_stg2_0 : Memref sig .tc .vmem S512x256 .f32).view

/-- The inputs are read at every point. -/
theorem live2_0 : ∀ t : Fin cfg2.N, cfg2.idle 0 (grid2.coords t) = false := fun _ => rfl
theorem live2_1 : ∀ t : Fin cfg2.N, cfg2.idle 1 (grid2.coords t) = false := fun _ => rfl

/-- The accumulator after a first step: the pieces that step stores, read back. They fill it. -/
def accFirst2 (c : Dev nD) (t : Fin cfg2.N) (h0 : first2 (grid2.coords t)) (h1 : ¬last2 (grid2.coords t))
    (a : Vec F S512x512 .f32) (mm : Vec F S8192x256 .f32) : Vec F S512x256 .f32 :=
  acc2V.read (Elt F) (acc2V.writes (Elt F) acc2V.junk (first2Run c (grid2.coords t) (m2_0 t) (w2_0 t) (m2_1 t) (w2_1 t) (m2_2 t) (w2_2 t) acc2M (Memref.isWhole_whole _) h0 h1 a mm).1)
theorem accFirst2_fills (c : Dev nD) (t : Fin cfg2.N) (h0 : first2 (grid2.coords t)) (h1 : ¬last2 (grid2.coords t))
    (a : Vec F S512x512 .f32) (mm : Vec F S8192x256 .f32) (y : S512x256.Idx) :
    ∃ pc ∈ (first2Run c (grid2.coords t) (m2_0 t) (w2_0 t) (m2_1 t) (w2_1 t) (m2_2 t) (w2_2 t) acc2M (Memref.isWhole_whole _) h0 h1 a mm).1, y ∈ pc.1.set :=
  View.cover_of_tiledL (first2Run c (grid2.coords t) (m2_0 t) (w2_0 t) (m2_1 t) (w2_1 t) (m2_2 t) (w2_2 t) acc2M (Memref.isWhole_whole _) h0 h1 a mm).1 S512x256.size (by sl_kernel_rfl) y

/-- After a middle step, over what it held before. -/
def accMid2 (c : Dev nD) (t : Fin cfg2.N) (h0 : ¬first2 (grid2.coords t)) (h1 : ¬last2 (grid2.coords t))
    (a : Vec F S512x512 .f32) (mm : Vec F S8192x256 .f32) (acc : Vec F S512x256 .f32) : Vec F S512x256 .f32 :=
  acc2V.read (Elt F) (acc2V.writes (Elt F) acc2V.junk (mid2Run c (grid2.coords t) (m2_0 t) (w2_0 t) (m2_1 t) (w2_1 t) (m2_2 t) (w2_2 t) acc2M (Memref.isWhole_whole _) h0 h1 a mm acc).1)
theorem accMid2_fills (c : Dev nD) (t : Fin cfg2.N) (h0 : ¬first2 (grid2.coords t)) (h1 : ¬last2 (grid2.coords t))
    (a : Vec F S512x512 .f32) (mm : Vec F S8192x256 .f32) (acc : Vec F S512x256 .f32) (y : S512x256.Idx) :
    ∃ pc ∈ (mid2Run c (grid2.coords t) (m2_0 t) (w2_0 t) (m2_1 t) (w2_1 t) (m2_2 t) (w2_2 t) acc2M (Memref.isWhole_whole _) h0 h1 a mm acc).1, y ∈ pc.1.set :=
  View.cover_of_tiledL (mid2Run c (grid2.coords t) (m2_0 t) (w2_0 t) (m2_1 t) (w2_1 t) (m2_2 t) (w2_2 t) acc2M (Memref.isWhole_whole _) h0 h1 a mm acc).1 S512x256.size (by sl_kernel_rfl) y

/-- After a last step, and what that step stores into the result's buffer. -/
def accLast2 (c : Dev nD) (t : Fin cfg2.N) (h0 : ¬first2 (grid2.coords t)) (h1 : last2 (grid2.coords t))
    (a : Vec F S512x512 .f32) (mm : Vec F S8192x256 .f32) (acc : Vec F S512x256 .f32) : Vec F S512x256 .f32 :=
  acc2V.read (Elt F) (acc2V.writes (Elt F) acc2V.junk (last2Run c (grid2.coords t) (m2_0 t) (w2_0 t) (m2_1 t) (w2_1 t) (m2_2 t) (w2_2 t) acc2M (Memref.isWhole_whole _) h0 h1 a mm acc).2.1)
theorem accLast2_fills (c : Dev nD) (t : Fin cfg2.N) (h0 : ¬first2 (grid2.coords t)) (h1 : last2 (grid2.coords t))
    (a : Vec F S512x512 .f32) (mm : Vec F S8192x256 .f32) (acc : Vec F S512x256 .f32) (y : S512x256.Idx) :
    ∃ pc ∈ (last2Run c (grid2.coords t) (m2_0 t) (w2_0 t) (m2_1 t) (w2_1 t) (m2_2 t) (w2_2 t) acc2M (Memref.isWhole_whole _) h0 h1 a mm acc).2.1, y ∈ pc.1.set :=
  View.cover_of_tiledL (last2Run c (grid2.coords t) (m2_0 t) (w2_0 t) (m2_1 t) (w2_1 t) (m2_2 t) (w2_2 t) acc2M (Memref.isWhole_whole _) h0 h1 a mm acc).2.1 S512x256.size (by sl_kernel_rfl) y
def outLast2 (c : Dev nD) (t : Fin cfg2.N) (h0 : ¬first2 (grid2.coords t)) (h1 : last2 (grid2.coords t))
    (a : Vec F S512x512 .f32) (mm : Vec F S8192x256 .f32) (acc : Vec F S512x256 .f32) : Vec F S512x256 .f32 :=
  out2V.read (Elt F) (out2V.writes (Elt F) out2V.junk (last2Run c (grid2.coords t) (m2_0 t) (w2_0 t) (m2_1 t) (w2_1 t) (m2_2 t) (w2_2 t) acc2M (Memref.isWhole_whole _) h0 h1 a mm acc).1)
theorem outLast2_fills (c : Dev nD) (t : Fin cfg2.N) (h0 : ¬first2 (grid2.coords t)) (h1 : last2 (grid2.coords t))
    (a : Vec F S512x512 .f32) (mm : Vec F S8192x256 .f32) (acc : Vec F S512x256 .f32) (y : S512x256.Idx) :
    ∃ pc ∈ (last2Run c (grid2.coords t) (m2_0 t) (w2_0 t) (m2_1 t) (w2_1 t) (m2_2 t) (w2_2 t) acc2M (Memref.isWhole_whole _) h0 h1 a mm acc).1, y ∈ pc.1.set :=
  View.cover_of_tiledL (last2Run c (grid2.coords t) (m2_0 t) (w2_0 t) (m2_1 t) (w2_1 t) (m2_2 t) (w2_2 t) acc2M (Memref.isWhole_whole _) h0 h1 a mm acc).1 S512x256.size (by sl_kernel_rfl) y

/-- THE ACCUMULATION: what the accumulator holds after the body at position `n` — a first step starts afresh from the
    point's blocks, every other step builds on what the position before left. -/
def scr2 (c : Dev nD) : (n : ℕ) → n < cfg2.N → Vec F S512x256 .f32
  | 0, hn => accFirst2 c ⟨0, hn⟩ ((first2_iff ⟨0, hn⟩).mpr (Nat.zero_mod _))
      (fun h => (fun h => by (try dsimp only at h); omega) ((last2_iff ⟨0, hn⟩).mp h)) (blk2 V c 0 ⟨0, hn⟩) (blk2 V c 1 ⟨0, hn⟩)
  | n + 1, hn =>
    if h0 : (n + 1) % 16 = 0 then
      accFirst2 c ⟨n + 1, hn⟩ ((first2_iff ⟨n + 1, hn⟩).mpr h0)
        (fun h => (fun h => by (try dsimp only at h); omega) ((last2_iff ⟨n + 1, hn⟩).mp h)) (blk2 V c 0 ⟨n + 1, hn⟩) (blk2 V c 1 ⟨n + 1, hn⟩)
    else if h1 : (n + 1) % 16 = 15 then
      accLast2 c ⟨n + 1, hn⟩ (fun h => h0 ((first2_iff ⟨n + 1, hn⟩).mp h)) ((last2_iff ⟨n + 1, hn⟩).mpr h1)
        (blk2 V c 0 ⟨n + 1, hn⟩) (blk2 V c 1 ⟨n + 1, hn⟩) (scr2 c n (Nat.lt_of_succ_lt hn))
    else
      accMid2 c ⟨n + 1, hn⟩ (fun h => h0 ((first2_iff ⟨n + 1, hn⟩).mp h)) (fun h => h1 ((last2_iff ⟨n + 1, hn⟩).mp h))
        (blk2 V c 0 ⟨n + 1, hn⟩) (blk2 V c 1 ⟨n + 1, hn⟩) (scr2 c n (Nat.lt_of_succ_lt hn))

theorem scr2_first (c : Dev nD) (t : Fin cfg2.N) (h0 : t.val % 16 = 0) (h1 : ¬t.val % 16 = 15) :
    scr2 V c t.val t.isLt = accFirst2 c t ((first2_iff t).mpr h0) (fun h => h1 ((last2_iff t).mp h)) (blk2 V c 0 t) (blk2 V c 1 t) := by
  obtain ⟨n, hn⟩ := t
  cases n with
  | zero => exact rfl
  | succ n => exact (dif_pos h0).trans rfl
theorem scr2_mid (c : Dev nD) (t : Fin cfg2.N) (h0 : ¬t.val % 16 = 0) (h1 : ¬t.val % 16 = 15) :
    scr2 V c t.val t.isLt = accMid2 c t (fun h => h0 ((first2_iff t).mp h)) (fun h => h1 ((last2_iff t).mp h)) (blk2 V c 0 t) (blk2 V c 1 t) (scr2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem scr2_last (c : Dev nD) (t : Fin cfg2.N) (h0 : ¬t.val % 16 = 0) (h1 : t.val % 16 = 15) :
    scr2 V c t.val t.isLt = accLast2 c t (fun h => h0 ((first2_iff t).mp h)) ((last2_iff t).mpr h1) (blk2 V c 0 t) (blk2 V c 1 t) (scr2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's buffer holds after point `t`: at a last step what that step stores; at any other step the
    buffer is not touched, and nothing reads this value. -/
def out2 (c : Dev nD) (t : Fin cfg2.N) : Vec F S512x256 .f32 :=
  if h1 : t.val % 16 = 15 then
    outLast2 c t (fun h => (fun h => by omega) ((first2_iff t).mp h)) ((last2_iff t).mpr h1) (blk2 V c 0 t) (blk2 V c 1 t) (scr2 V c (t.val - 1) (Nat.lt_of_le_of_lt (Nat.sub_le _ _) t.isLt))
  else View.canon []
theorem out2_last (c : Dev nD) (t : Fin cfg2.N) (h0 : ¬t.val % 16 = 0) (h1 : t.val % 16 = 15) :
    out2 V c t = outLast2 c t (fun h => h0 ((first2_iff t).mp h)) ((last2_iff t).mpr h1) (blk2 V c 0 t) (blk2 V c 1 t) (scr2 V c (t.val - 1) (Nat.lt_of_le_of_lt (Nat.sub_le _ _) t.isLt)) := by
  unfold out2; rw [dif_pos h1]

/-- The invariant before position `n`: before the first point every scoped buffer at anything; afterwards the
    accumulator at what the position before left, the other scoped buffers at anything. -/
def Phi2 (c : Dev nD) : (n : ℕ) → n ≤ cfg2.N → sProp 𝕄
  | 0, _ => Pipeline.ΦA spec2 c
  | n + 1, hn => iprop(iprop(owns (c : Thread nD τ) acc2M fullShare (scr2 V c n hn) ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) acc2M fullShare (scr2 V c n hn) ∗ Pipeline.scopedRestBut (Ix := Unit) (Name := ℕ) (U := UR sig nD τ) (Lvl := ℕ) (Val := Elt F) spec2 c [cc2_scratch0]) ∗ (∃ r, prngReg c r)) := rfl
theorem Phi2_pos (c : Dev nD) (n : ℕ) (h : n ≤ cfg2.N) (hz : n ≠ 0) :
    Phi2 V c n h = iprop(iprop(owns (c : Thread nD τ) acc2M fullShare (scr2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- Before the first point: the accumulator at anything, the other scoped buffers at anything. -/
theorem PhiA2_eq (c : Dev nD) :
    (Pipeline.ΦA spec2 c : sProp 𝕄)
      = iprop(iprop((∃ d, owns (c : Thread nD τ) acc2M fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2M, owns_whole]; try rfl

/-- The region's proof data. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 V c t
  Φ t := Phi2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_Phi (c : Dev nD) (t : Fin cfg2.N) : (dat2 V c).Φ t.castSucc = Phi2 V c t.val (Nat.le_of_lt t.isLt) := by
  dsimp only [dat2]; simp only [Fin.coe_castSucc]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = out2 V c t := by dsimp only [dat2]

/-- An input's buffer holds its block at every point: fetched there, or left from the point before, whose block index
    is the same. -/
theorem dat2_found0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_found1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- What the body is called with at point `t`, -/
def pre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The closed forms say which kind of step the point is; the inputs' buffers hold their
    blocks; the invariant hands over the accumulator at what the point before left (at anything at the very first
    point) and takes it back at this point's contents; the result's buffer is left alone except at a last step. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_found0, dat2_found1]
  rw [show (dat2 V c).owesAt () t.succ = (dat2 V c).owesAt () t.castSucc from rfl]
  rw [show (dat2 V c).Φ t.succ = Phi2 V c (t.val + 1) t.isLt from rfl, Phi2_succ]
  have hN : t.val < 256 := lt_of_lt_of_eq t.isLt (show cfg2.N = 256 from N_2)
  by_cases h0 : t.val % 16 = 0
  · have h1 : ¬t.val % 16 = 15 := by omega
    rw [show (dat2 V c).leavesExact 0 t = owns (c : Thread nD τ) (m2_0 t) fullShare ((dat2 V c).after 0 t) from by
      unfold Dat.leavesExact; rw [live2_0 t], dat2_after0]
    rw [show (dat2 V c).leavesExact 1 t = owns (c : Thread nD τ) (m2_1 t) fullShare ((dat2 V c).after 1 t) from by
      unfold Dat.leavesExact; rw [live2_1 t], dat2_after1]
    rw [Dat.leavesExact_idle (dat2 V c) 2 t (idle2_out t (fun h => h1 ((last2_iff t).mp h))) (keep2_out t (fun h => h1 ((last2_iff t).mp h)))]
    rw [scr2_first V c t h0 h1]
    unfold accFirst2; (try dsimp only)
    by_cases hz : t.val = 0
    · rw [dat2_Phi V c t, Phi2_zero V c _ _ hz, PhiA2_eq]
      iintro ⟨⟨⟨HS, Hrest⟩, Hg⟩, Ho, ⟨%d0, H0⟩, ⟨%d1, H1⟩, ⟨%dO, HO⟩⟩
      iapply ((first2Run c (grid2.coords t) (m2_0 t) (w2_0 t) (m2_1 t) (w2_1 t) (m2_2 t) (w2_2 t) acc2M (Memref.isWhole_whole _) ((first2_iff t).mpr h0) (fun h => h1 ((last2_iff t).mp h)) (blk2 V c 0 t) (blk2 V c 1 t)).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_fills c t ((first2_iff t).mpr h0) (fun h => h1 ((last2_iff t).mp h)) (blk2 V c 0 t) (blk2 V c 1 t))
          iexact Hrest
        iexact Hg
      isplitl [Ho]; · iexact Ho
      isplitl [H0]; · iexact H0
      isplitl [H1]; · iexact H1
      iexists _; iexact HO
    · rw [dat2_Phi V c t, Phi2_pos V c _ _ hz]
      iintro ⟨⟨⟨HS, Hrest⟩, Hg⟩, Ho, ⟨%d0, H0⟩, ⟨%d1, H1⟩, ⟨%dO, HO⟩⟩
      iapply ((first2Run c (grid2.coords t) (m2_0 t) (w2_0 t) (m2_1 t) (w2_1 t) (m2_2 t) (w2_2 t) acc2M (Memref.isWhole_whole _) ((first2_iff t).mpr h0) (fun h => h1 ((last2_iff t).mp h)) (blk2 V c 0 t) (blk2 V c 1 t)).2 _ Set.univ _)
      isplitl [H0]; · iexact H0
      isplitl [H1]; · iexact H1
      isplitl [HO]; · iexact HO
      isplitl [HS]; · iexists _; iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_fills c t ((first2_iff t).mpr h0) (fun h => h1 ((last2_iff t).mp h)) (blk2 V c 0 t) (blk2 V c 1 t))
          iexact Hrest
        iexact Hg
      isplitl [Ho]; · iexact Ho
      isplitl [H0]; · iexact H0
      isplitl [H1]; · iexact H1
      iexists _; iexact HO
  · have hz : t.val ≠ 0 := fun e => h0 (by rw [e])
    by_cases h1 : t.val % 16 = 15
    · skip
      rw [show (dat2 V c).leavesExact 0 t = owns (c : Thread nD τ) (m2_0 t) fullShare ((dat2 V c).after 0 t) from by
        unfold Dat.leavesExact; rw [live2_0 t], dat2_after0]
      rw [show (dat2 V c).leavesExact 1 t = owns (c : Thread nD τ) (m2_1 t) fullShare ((dat2 V c).after 1 t) from by
        unfold Dat.leavesExact; rw [live2_1 t], dat2_after1]
      rw [show (dat2 V c).leavesExact 2 t = owns (c : Thread nD τ) (m2_2 t) fullShare ((dat2 V c).after 2 t) from by
        unfold Dat.leavesExact; rw [live2_out t ((last2_iff t).mpr h1)], dat2_after2]
      rw [scr2_last V c t h0 h1, out2_last V c t h0 h1]
      unfold accLast2 outLast2; (try dsimp only)
      rw [dat2_Phi V c t, Phi2_pos V c _ _ hz]
      iintro ⟨⟨⟨HS, Hrest⟩, Hg⟩, Ho, ⟨%d0, H0⟩, ⟨%d1, H1⟩, ⟨%dO, HO⟩⟩
      iapply ((last2Run c (grid2.coords t) (m2_0 t) (w2_0 t) (m2_1 t) (w2_1 t) (m2_2 t) (w2_2 t) acc2M (Memref.isWhole_whole _) (fun h => h0 ((first2_iff t).mp h)) ((last2_iff t).mpr h1) (blk2 V c 0 t) (blk2 V c 1 t) (scr2 V c (t.val - 1) (Nat.lt_of_le_of_lt (Nat.sub_le _ _) t.isLt))).2.2 Set.univ _)
      isplitl [H0]; · iexact H0
      isplitl [H1]; · iexact H1
      isplitl [HO]; · iexists _; iexact HO
      isplitl [HS]; · iexact HS
      iintro ⟨H0, H1, ⟨%eO, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast2_fills c t (fun h => h0 ((first2_iff t).mp h)) ((last2_iff t).mpr h1) (blk2 V c 0 t) (blk2 V c 1 t) (scr2 V c (t.val - 1) (Nat.lt_of_le_of_lt (Nat.sub_le _ _) t.isLt)))
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (outLast2_fills c t (fun h => h0 ((first2_iff t).mp h)) ((last2_iff t).mpr h1) (blk2 V c 0 t) (blk2 V c 1 t) (scr2 V c (t.val - 1) (Nat.lt_of_le_of_lt (Nat.sub_le _ _) t.isLt)))
    · skip
      rw [show (dat2 V c).leavesExact 0 t = owns (c : Thread nD τ) (m2_0 t) fullShare ((dat2 V c).after 0 t) from by
        unfold Dat.leavesExact; rw [live2_0 t], dat2_after0]
      rw [show (dat2 V c).leavesExact 1 t = owns (c : Thread nD τ) (m2_1 t) fullShare ((dat2 V c).after 1 t) from by
        unfold Dat.leavesExact; rw [live2_1 t], dat2_after1]
      rw [Dat.leavesExact_idle (dat2 V c) 2 t (idle2_out t (fun h => h1 ((last2_iff t).mp h))) (keep2_out t (fun h => h1 ((last2_iff t).mp h)))]
      rw [scr2_mid V c t h0 h1]
      unfold accMid2; (try dsimp only)
      rw [dat2_Phi V c t, Phi2_pos V c _ _ hz]
      iintro ⟨⟨⟨HS, Hrest⟩, Hg⟩, Ho, ⟨%d0, H0⟩, ⟨%d1, H1⟩, ⟨%dO, HO⟩⟩
      iapply ((mid2Run c (grid2.coords t) (m2_0 t) (w2_0 t) (m2_1 t) (w2_1 t) (m2_2 t) (w2_2 t) acc2M (Memref.isWhole_whole _) (fun h => h0 ((first2_iff t).mp h)) (fun h => h1 ((last2_iff t).mp h)) (blk2 V c 0 t) (blk2 V c 1 t) (scr2 V c (t.val - 1) (Nat.lt_of_le_of_lt (Nat.sub_le _ _) t.isLt))).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accMid2_fills c t (fun h => h0 ((first2_iff t).mp h)) (fun h => h1 ((last2_iff t).mp h)) (blk2 V c 0 t) (blk2 V c 1 t) (scr2 V c (t.val - 1) (Nat.lt_of_le_of_lt (Nat.sub_le _ _) t.isLt)))
          iexact Hrest
        iexact Hg
      isplitl [Ho]; · iexact Ho
      isplitl [H0]; · iexact H0
      isplitl [H1]; · iexact H1
      iexists _; iexact HO

/-- The body obligation of the region, at every point. -/
theorem obligation2 (c : Dev nD) : BodyObligation (dat2 (F := F) V c) (defs₀ (F := F)) Variants.none () Set.univ := fun t => by
  rw [bigSep_W2, bigSep_W2]
  exact point2 V c t

/-- What the region is handed at its entry is the invariant before the first point; -/
theorem into2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- and after the last point the invariant gives the same back: the accumulator's contents are forgotten. -/
theorem outOf2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 256 := N_2; omega), PhiA2_eq]
  iintro ⟨⟨HS, Hrest⟩, Hg⟩
  isplitl [HS Hrest]
  · isplitl [HS]
    · iexists _; iexact HS
    iexact Hrest
  iexact Hg

end Data

end Cert.KernelIdeal.Hand

end
-- ==== Proof.Region3.lean ====
/-
  The fourth kernel region: the output layer, the same dense-times-thin product as the hidden layer's with a
  right-hand matrix of two columns and no clamping at the end.

  The grid is 16 row blocks by 16 steps of the contracted axis, steps innermost. At point (i, k) the body adds to a
  scratch accumulator the product of the 512 × 512 block (i, k) of the filter matrix with rows 512·k … 512·k + 511 of
  the resident 8192 × 2 matrix — clearing the accumulator first when k = 0 — and when k = 15 stores the accumulator
  into row block i of the result. The accumulator is the one thing carried from point to point.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

/-- The first step of a block's accumulation: the contracted-axis coordinate is zero. -/
abbrev first3 (i : grid3.Coords) : Prop :=
  (Scalar.cmpi .ne (Scalar.extui (Scalar.cmpi .eq (BitVec.ofNat 32 (i 1).val) 0#32)) 0#32) = 1#1
/-- The steps are the innermost grid axis, 16 of them: the first steps are the points ≡ 0 (mod 16). -/
theorem first3_iff : ∀ t : Fin cfg3.N, first3 (grid3.coords t) ↔ t.val % 16 = 0 :=
  (by decide +kernel : ∀ t : Fin grid3.N, first3 (grid3.coords t) ↔ t.val % 16 = 0)
/-- The last step: the coordinate is 15. -/
abbrev last3 (i : grid3.Coords) : Prop := k3_cond2 i = 1#1
theorem last3_iff : ∀ t : Fin cfg3.N, last3 (grid3.coords t) ↔ t.val % 16 = 15 :=
  (by decide +kernel : ∀ t : Fin grid3.N, last3 (grid3.coords t) ↔ t.val % 16 = 15)

/-- Before the last step nothing is stored into the result's buffer and its block is not written back; -/
theorem idle3_out : ∀ t : Fin cfg3.N, ¬last3 (grid3.coords t) → cfg3.idle 2 (grid3.coords t) = true := by decide +kernel
theorem keep3_out : ∀ t : Fin cfg3.N, ¬last3 (grid3.coords t) → (cfg3.win 2).flush t = false := by decide +kernel
/-- at the last step it is stored. -/
theorem live3_out : ∀ t : Fin cfg3.N, last3 (grid3.coords t) → cfg3.idle 2 (grid3.coords t) = false := by decide +kernel

set_option maxHeartbeats 1000000 in
/-- A first step: the accumulator is cleared, then the step's product is added. The pieces stored into the
    accumulator are those the run finds. -/
noncomputable def first3Run (c : Dev nD) (i : grid3.Coords) (arg2 : Memref sig .tc .vmem S512x512 .f32) (harg2 : arg2.IsWhole) (arg3 : Memref sig .tc .vmem S8192x2 .f32) (harg3 : arg3.IsWhole) (arg4 : Memref sig .tc .vmem S512x2 .f32) (harg4 : arg4.IsWhole) (arg5 : Memref sig .tc .vmem S512x2 .f32) (harg5 : arg5.IsWhole) (h0 : first3 i) (h1 : ¬last3 i)
    (a : Vec F S512x512 .f32) (mm : Vec F S8192x2 .f32) :
    { LS : List (View.Piece (Elt F) S512x2 .f32) //
      ∀ (xo : Vec F S512x2 .f32) (E : Set ℕ) (K : PUnit → sProp 𝕄),
        iprop(owns (c : Thread nD τ) arg2 fullShare a ∗ owns (c : Thread nD τ) arg3 fullShare mm ∗ owns (c : Thread nD τ) arg4 fullShare xo ∗ (∃ d, owns (c : Thread nD τ) arg5 fullShare d)
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__spmm_kernel i arg2 harg2 arg3 harg3 arg4 harg4 arg5 harg5) K } := by
  refine ⟨?_, fun xo E K => ?run⟩
  case run =>
    simp only [cc3__spmm_kernel_eq_skeleton]; unfold cc3__spmm_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A middle step: the product is added to what the accumulator held, `acc`. -/
noncomputable def mid3Run (c : Dev nD) (i : grid3.Coords) (arg2 : Memref sig .tc .vmem S512x512 .f32) (harg2 : arg2.IsWhole) (arg3 : Memref sig .tc .vmem S8192x2 .f32) (harg3 : arg3.IsWhole) (arg4 : Memref sig .tc .vmem S512x2 .f32) (harg4 : arg4.IsWhole) (arg5 : Memref sig .tc .vmem S512x2 .f32) (harg5 : arg5.IsWhole) (h0 : ¬first3 i) (h1 : ¬last3 i)
    (a : Vec F S512x512 .f32) (mm : Vec F S8192x2 .f32) (acc : Vec F S512x2 .f32) :
    { LS : List (View.Piece (Elt F) S512x2 .f32) //
      ∀ (xo : Vec F S512x2 .f32) (E : Set ℕ) (K : PUnit → sProp 𝕄),
        iprop(owns (c : Thread nD τ) arg2 fullShare a ∗ owns (c : Thread nD τ) arg3 fullShare mm ∗ owns (c : Thread nD τ) arg4 fullShare xo ∗ owns (c : Thread nD τ) arg5 fullShare acc
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__spmm_kernel i arg2 harg2 arg3 harg3 arg4 harg4 arg5 harg5) K } := by
  refine ⟨?_, fun xo E K => ?run⟩
  case run =>
    simp only [cc3__spmm_kernel_eq_skeleton]; unfold cc3__spmm_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A last step: the product is added, and the block's value is stored into the result's buffer. -/
noncomputable def last3Run (c : Dev nD) (i : grid3.Coords) (arg2 : Memref sig .tc .vmem S512x512 .f32) (harg2 : arg2.IsWhole) (arg3 : Memref sig .tc .vmem S8192x2 .f32) (harg3 : arg3.IsWhole) (arg4 : Memref sig .tc .vmem S512x2 .f32) (harg4 : arg4.IsWhole) (arg5 : Memref sig .tc .vmem S512x2 .f32) (harg5 : arg5.IsWhole) (h0 : ¬first3 i) (h1 : last3 i)
    (a : Vec F S512x512 .f32) (mm : Vec F S8192x2 .f32) (acc : Vec F S512x2 .f32) :
    Σ' (LO : List (View.Piece (Elt F) S512x2 .f32)), { LS : List (View.Piece (Elt F) S512x2 .f32) //
      ∀ (E : Set ℕ) (K : PUnit → sProp 𝕄),
        iprop(owns (c : Thread nD τ) arg2 fullShare a ∗ owns (c : Thread nD τ) arg3 fullShare mm ∗ (∃ d, owns (c : Thread nD τ) arg4 fullShare d) ∗ owns (c : Thread nD τ) arg5 fullShare acc
            ∗ (iprop(owns (c : Thread nD τ) arg2 fullShare a ∗ owns (c : Thread nD τ) arg3 fullShare mm ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc3__spmm_kernel i arg2 harg2 arg3 harg3 arg4 harg4 arg5 harg5) K } := by
  refine ⟨?_, ?_, fun E K => ?run⟩
  case run =>
    simp only [cc3__spmm_kernel_eq_skeleton]; unfold cc3__spmm_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cases

section Data

-- the TensorCore's buffers as the region finds them
variable (V : (c : Dev nD) → (b : Ref sig .tc) → Buf (Elt F) ((c : Thread nD τ).loc b))

/-- Window `w`'s block of its array at grid point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The buffers the body is called with at point `t`: each window's current staging buffer, and the accumulator. -/
abbrev m3_0 (t : Fin cfg3.N) : Memref sig .tc .vmem S512x512 .f32 := win3_0.stage (cfg3.slots t 0)
abbrev w3_0 (t : Fin cfg3.N) : (m3_0 t).IsWhole := hstage3_0 ((cfg3.slots t 0).cast nbuf3_0)
abbrev m3_1 (t : Fin cfg3.N) : Memref sig .tc .vmem S8192x2 .f32 := win3_1.stage (cfg3.slots t 1)
abbrev w3_1 (t : Fin cfg3.N) : (m3_1 t).IsWhole := hstage3_1 ((cfg3.slots t 1).cast nbuf3_1)
abbrev m3_2 (t : Fin cfg3.N) : Memref sig .tc .vmem S512x2 .f32 := win3_2.stage (cfg3.slots t 2)
abbrev w3_2 (t : Fin cfg3.N) : (m3_2 t).IsWhole := hstage3_2 ((cfg3.slots t 2).cast nbuf3_2)
abbrev acc3M : Memref sig .tc .vmem S512x2 .f32 := Memref.whole cc3_scratch0
/-- The views through which the accumulator's and the result buffer's contents are stated. -/
abbrev acc3V : View sig .tc .vmem S512x2 .f32 := acc3M.view
abbrev out3V : View sig .tc .vmem S512x2 .f32 := (Memref.whole cc3_stg2_0 : Memref sig .tc .vmem S512x2 .f32).view

/-- The inputs are read at every point. -/
theorem live3_0 : ∀ t : Fin cfg3.N, cfg3.idle 0 (grid3.coords t) = false := fun _ => rfl
theorem live3_1 : ∀ t : Fin cfg3.N, cfg3.idle 1 (grid3.coords t) = false := fun _ => rfl

/-- The accumulator after a first step: the pieces that step stores, read back. They fill it. -/
def accFirst3 (c : Dev nD) (t : Fin cfg3.N) (h0 : first3 (grid3.coords t)) (h1 : ¬last3 (grid3.coords t))
    (a : Vec F S512x512 .f32) (mm : Vec F S8192x2 .f32) : Vec F S512x2 .f32 :=
  acc3V.read (Elt F) (acc3V.writes (Elt F) acc3V.junk (first3Run c (grid3.coords t) (m3_0 t) (w3_0 t) (m3_1 t) (w3_1 t) (m3_2 t) (w3_2 t) acc3M (Memref.isWhole_whole _) h0 h1 a mm).1)
theorem accFirst3_fills (c : Dev nD) (t : Fin cfg3.N) (h0 : first3 (grid3.coords t)) (h1 : ¬last3 (grid3.coords t))
    (a : Vec F S512x512 .f32) (mm : Vec F S8192x2 .f32) (y : S512x2.Idx) :
    ∃ pc ∈ (first3Run c (grid3.coords t) (m3_0 t) (w3_0 t) (m3_1 t) (w3_1 t) (m3_2 t) (w3_2 t) acc3M (Memref.isWhole_whole _) h0 h1 a mm).1, y ∈ pc.1.set :=
  View.cover_of_tiledL (first3Run c (grid3.coords t) (m3_0 t) (w3_0 t) (m3_1 t) (w3_1 t) (m3_2 t) (w3_2 t) acc3M (Memref.isWhole_whole _) h0 h1 a mm).1 S512x2.size (by sl_kernel_rfl) y

/-- After a middle step, over what it held before. -/
def accMid3 (c : Dev nD) (t : Fin cfg3.N) (h0 : ¬first3 (grid3.coords t)) (h1 : ¬last3 (grid3.coords t))
    (a : Vec F S512x512 .f32) (mm : Vec F S8192x2 .f32) (acc : Vec F S512x2 .f32) : Vec F S512x2 .f32 :=
  acc3V.read (Elt F) (acc3V.writes (Elt F) acc3V.junk (mid3Run c (grid3.coords t) (m3_0 t) (w3_0 t) (m3_1 t) (w3_1 t) (m3_2 t) (w3_2 t) acc3M (Memref.isWhole_whole _) h0 h1 a mm acc).1)
theorem accMid3_fills (c : Dev nD) (t : Fin cfg3.N) (h0 : ¬first3 (grid3.coords t)) (h1 : ¬last3 (grid3.coords t))
    (a : Vec F S512x512 .f32) (mm : Vec F S8192x2 .f32) (acc : Vec F S512x2 .f32) (y : S512x2.Idx) :
    ∃ pc ∈ (mid3Run c (grid3.coords t) (m3_0 t) (w3_0 t) (m3_1 t) (w3_1 t) (m3_2 t) (w3_2 t) acc3M (Memref.isWhole_whole _) h0 h1 a mm acc).1, y ∈ pc.1.set :=
  View.cover_of_tiledL (mid3Run c (grid3.coords t) (m3_0 t) (w3_0 t) (m3_1 t) (w3_1 t) (m3_2 t) (w3_2 t) acc3M (Memref.isWhole_whole _) h0 h1 a mm acc).1 S512x2.size (by sl_kernel_rfl) y

/-- After a last step, and what that step stores into the result's buffer. -/
def accLast3 (c : Dev nD) (t : Fin cfg3.N) (h0 : ¬first3 (grid3.coords t)) (h1 : last3 (grid3.coords t))
    (a : Vec F S512x512 .f32) (mm : Vec F S8192x2 .f32) (acc : Vec F S512x2 .f32) : Vec F S512x2 .f32 :=
  acc3V.read (Elt F) (acc3V.writes (Elt F) acc3V.junk (last3Run c (grid3.coords t) (m3_0 t) (w3_0 t) (m3_1 t) (w3_1 t) (m3_2 t) (w3_2 t) acc3M (Memref.isWhole_whole _) h0 h1 a mm acc).2.1)
theorem accLast3_fills (c : Dev nD) (t : Fin cfg3.N) (h0 : ¬first3 (grid3.coords t)) (h1 : last3 (grid3.coords t))
    (a : Vec F S512x512 .f32) (mm : Vec F S8192x2 .f32) (acc : Vec F S512x2 .f32) (y : S512x2.Idx) :
    ∃ pc ∈ (last3Run c (grid3.coords t) (m3_0 t) (w3_0 t) (m3_1 t) (w3_1 t) (m3_2 t) (w3_2 t) acc3M (Memref.isWhole_whole _) h0 h1 a mm acc).2.1, y ∈ pc.1.set :=
  View.cover_of_tiledL (last3Run c (grid3.coords t) (m3_0 t) (w3_0 t) (m3_1 t) (w3_1 t) (m3_2 t) (w3_2 t) acc3M (Memref.isWhole_whole _) h0 h1 a mm acc).2.1 S512x2.size (by sl_kernel_rfl) y
def outLast3 (c : Dev nD) (t : Fin cfg3.N) (h0 : ¬first3 (grid3.coords t)) (h1 : last3 (grid3.coords t))
    (a : Vec F S512x512 .f32) (mm : Vec F S8192x2 .f32) (acc : Vec F S512x2 .f32) : Vec F S512x2 .f32 :=
  out3V.read (Elt F) (out3V.writes (Elt F) out3V.junk (last3Run c (grid3.coords t) (m3_0 t) (w3_0 t) (m3_1 t) (w3_1 t) (m3_2 t) (w3_2 t) acc3M (Memref.isWhole_whole _) h0 h1 a mm acc).1)
theorem outLast3_fills (c : Dev nD) (t : Fin cfg3.N) (h0 : ¬first3 (grid3.coords t)) (h1 : last3 (grid3.coords t))
    (a : Vec F S512x512 .f32) (mm : Vec F S8192x2 .f32) (acc : Vec F S512x2 .f32) (y : S512x2.Idx) :
    ∃ pc ∈ (last3Run c (grid3.coords t) (m3_0 t) (w3_0 t) (m3_1 t) (w3_1 t) (m3_2 t) (w3_2 t) acc3M (Memref.isWhole_whole _) h0 h1 a mm acc).1, y ∈ pc.1.set :=
  View.cover_of_tiledL (last3Run c (grid3.coords t) (m3_0 t) (w3_0 t) (m3_1 t) (w3_1 t) (m3_2 t) (w3_2 t) acc3M (Memref.isWhole_whole _) h0 h1 a mm acc).1 S512x2.size (by sl_kernel_rfl) y

/-- THE ACCUMULATION: what the accumulator holds after the body at position `n` — a first step starts afresh from the
    point's blocks, every other step builds on what the position before left. -/
def scr3 (c : Dev nD) : (n : ℕ) → n < cfg3.N → Vec F S512x2 .f32
  | 0, hn => accFirst3 c ⟨0, hn⟩ ((first3_iff ⟨0, hn⟩).mpr (Nat.zero_mod _))
      (fun h => (fun h => by (try dsimp only at h); omega) ((last3_iff ⟨0, hn⟩).mp h)) (blk3 V c 0 ⟨0, hn⟩) (blk3 V c 1 ⟨0, hn⟩)
  | n + 1, hn =>
    if h0 : (n + 1) % 16 = 0 then
      accFirst3 c ⟨n + 1, hn⟩ ((first3_iff ⟨n + 1, hn⟩).mpr h0)
        (fun h => (fun h => by (try dsimp only at h); omega) ((last3_iff ⟨n + 1, hn⟩).mp h)) (blk3 V c 0 ⟨n + 1, hn⟩) (blk3 V c 1 ⟨n + 1, hn⟩)
    else if h1 : (n + 1) % 16 = 15 then
      accLast3 c ⟨n + 1, hn⟩ (fun h => h0 ((first3_iff ⟨n + 1, hn⟩).mp h)) ((last3_iff ⟨n + 1, hn⟩).mpr h1)
        (blk3 V c 0 ⟨n + 1, hn⟩) (blk3 V c 1 ⟨n + 1, hn⟩) (scr3 c n (Nat.lt_of_succ_lt hn))
    else
      accMid3 c ⟨n + 1, hn⟩ (fun h => h0 ((first3_iff ⟨n + 1, hn⟩).mp h)) (fun h => h1 ((last3_iff ⟨n + 1, hn⟩).mp h))
        (blk3 V c 0 ⟨n + 1, hn⟩) (blk3 V c 1 ⟨n + 1, hn⟩) (scr3 c n (Nat.lt_of_succ_lt hn))

theorem scr3_first (c : Dev nD) (t : Fin cfg3.N) (h0 : t.val % 16 = 0) (h1 : ¬t.val % 16 = 15) :
    scr3 V c t.val t.isLt = accFirst3 c t ((first3_iff t).mpr h0) (fun h => h1 ((last3_iff t).mp h)) (blk3 V c 0 t) (blk3 V c 1 t) := by
  obtain ⟨n, hn⟩ := t
  cases n with
  | zero => exact rfl
  | succ n => exact (dif_pos h0).trans rfl
theorem scr3_mid (c : Dev nD) (t : Fin cfg3.N) (h0 : ¬t.val % 16 = 0) (h1 : ¬t.val % 16 = 15) :
    scr3 V c t.val t.isLt = accMid3 c t (fun h => h0 ((first3_iff t).mp h)) (fun h => h1 ((last3_iff t).mp h)) (blk3 V c 0 t) (blk3 V c 1 t) (scr3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem scr3_last (c : Dev nD) (t : Fin cfg3.N) (h0 : ¬t.val % 16 = 0) (h1 : t.val % 16 = 15) :
    scr3 V c t.val t.isLt = accLast3 c t (fun h => h0 ((first3_iff t).mp h)) ((last3_iff t).mpr h1) (blk3 V c 0 t) (blk3 V c 1 t) (scr3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's buffer holds after point `t`: at a last step what that step stores; at any other step the
    buffer is not touched, and nothing reads this value. -/
def out3 (c : Dev nD) (t : Fin cfg3.N) : Vec F S512x2 .f32 :=
  if h1 : t.val % 16 = 15 then
    outLast3 c t (fun h => (fun h => by omega) ((first3_iff t).mp h)) ((last3_iff t).mpr h1) (blk3 V c 0 t) (blk3 V c 1 t) (scr3 V c (t.val - 1) (Nat.lt_of_le_of_lt (Nat.sub_le _ _) t.isLt))
  else View.canon []
theorem out3_last (c : Dev nD) (t : Fin cfg3.N) (h0 : ¬t.val % 16 = 0) (h1 : t.val % 16 = 15) :
    out3 V c t = outLast3 c t (fun h => h0 ((first3_iff t).mp h)) ((last3_iff t).mpr h1) (blk3 V c 0 t) (blk3 V c 1 t) (scr3 V c (t.val - 1) (Nat.lt_of_le_of_lt (Nat.sub_le _ _) t.isLt)) := by
  unfold out3; rw [dif_pos h1]

/-- The invariant before position `n`: before the first point every scoped buffer at anything; afterwards the
    accumulator at what the position before left, the other scoped buffers at anything. -/
def Phi3 (c : Dev nD) : (n : ℕ) → n ≤ cfg3.N → sProp 𝕄
  | 0, _ => Pipeline.ΦA spec3 c
  | n + 1, hn => iprop(iprop(owns (c : Thread nD τ) acc3M fullShare (scr3 V c n hn) ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop(iprop(owns (c : Thread nD τ) acc3M fullShare (scr3 V c n hn) ∗ Pipeline.scopedRestBut (Ix := Unit) (Name := ℕ) (U := UR sig nD τ) (Lvl := ℕ) (Val := Elt F) spec3 c [cc3_scratch0]) ∗ (∃ r, prngReg c r)) := rfl
theorem Phi3_pos (c : Dev nD) (n : ℕ) (h : n ≤ cfg3.N) (hz : n ≠ 0) :
    Phi3 V c n h = iprop(iprop(owns (c : Thread nD τ) acc3M fullShare (scr3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- Before the first point: the accumulator at anything, the other scoped buffers at anything. -/
theorem PhiA3_eq (c : Dev nD) :
    (Pipeline.ΦA spec3 c : sProp 𝕄)
      = iprop(iprop((∃ d, owns (c : Thread nD τ) acc3M fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3M, owns_whole]; try rfl

/-- The region's proof data. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3 V c t
  Φ t := Phi3 V c t.val (Nat.le_of_lt_succ t.isLt)
  q _ := fullShare
  owed _ := 0

theorem dat3_A (c : Dev nD) (w : Fin cfg3.W) : (dat3 V c).A w = V c (Pipeline.arrRef spec3 w) := by dsimp only [dat3]
theorem dat3_Phi (c : Dev nD) (t : Fin cfg3.N) : (dat3 V c).Φ t.castSucc = Phi3 V c t.val (Nat.le_of_lt t.isLt) := by
  dsimp only [dat3]; simp only [Fin.coe_castSucc]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = out3 V c t := by dsimp only [dat3]

/-- An input's buffer holds its block at every point: fetched there, or left from the point before, whose block index
    is the same. -/
theorem dat3_found0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)
theorem dat3_found1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-- What the body is called with at point `t`, -/
def pre3 (c : Dev nD) (t : Fin cfg3.N) : sProp 𝕄 :=
  iprop((dat3 V c).Φ t.castSucc ∗ (dat3 V c).owesAt () t.castSucc
    ∗ (∃ d, owns (c : Thread nD τ) (m3_0 t) fullShare ((dat3 V c).before 0 t d))
    ∗ (∃ d, owns (c : Thread nD τ) (m3_1 t) fullShare ((dat3 V c).before 1 t d))
    ∗ (∃ d, owns (c : Thread nD τ) (m3_2 t) fullShare ((dat3 V c).before 2 t d)))

/-- and what it returns. -/
def post3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The closed forms say which kind of step the point is; the inputs' buffers hold their
    blocks; the invariant hands over the accumulator at what the point before left (at anything at the very first
    point) and takes it back at this point's contents; the result's buffer is left alone except at a last step. -/
theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_found0, dat3_found1]
  rw [show (dat3 V c).owesAt () t.succ = (dat3 V c).owesAt () t.castSucc from rfl]
  rw [show (dat3 V c).Φ t.succ = Phi3 V c (t.val + 1) t.isLt from rfl, Phi3_succ]
  have hN : t.val < 256 := lt_of_lt_of_eq t.isLt (show cfg3.N = 256 from N_3)
  by_cases h0 : t.val % 16 = 0
  · have h1 : ¬t.val % 16 = 15 := by omega
    rw [show (dat3 V c).leavesExact 0 t = owns (c : Thread nD τ) (m3_0 t) fullShare ((dat3 V c).after 0 t) from by
      unfold Dat.leavesExact; rw [live3_0 t], dat3_after0]
    rw [show (dat3 V c).leavesExact 1 t = owns (c : Thread nD τ) (m3_1 t) fullShare ((dat3 V c).after 1 t) from by
      unfold Dat.leavesExact; rw [live3_1 t], dat3_after1]
    rw [Dat.leavesExact_idle (dat3 V c) 2 t (idle3_out t (fun h => h1 ((last3_iff t).mp h))) (keep3_out t (fun h => h1 ((last3_iff t).mp h)))]
    rw [scr3_first V c t h0 h1]
    unfold accFirst3; (try dsimp only)
    by_cases hz : t.val = 0
    · rw [dat3_Phi V c t, Phi3_zero V c _ _ hz, PhiA3_eq]
      iintro ⟨⟨⟨HS, Hrest⟩, Hg⟩, Ho, ⟨%d0, H0⟩, ⟨%d1, H1⟩, ⟨%dO, HO⟩⟩
      iapply ((first3Run c (grid3.coords t) (m3_0 t) (w3_0 t) (m3_1 t) (w3_1 t) (m3_2 t) (w3_2 t) acc3M (Memref.isWhole_whole _) ((first3_iff t).mpr h0) (fun h => h1 ((last3_iff t).mp h)) (blk3 V c 0 t) (blk3 V c 1 t)).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_fills c t ((first3_iff t).mpr h0) (fun h => h1 ((last3_iff t).mp h)) (blk3 V c 0 t) (blk3 V c 1 t))
          iexact Hrest
        iexact Hg
      isplitl [Ho]; · iexact Ho
      isplitl [H0]; · iexact H0
      isplitl [H1]; · iexact H1
      iexists _; iexact HO
    · rw [dat3_Phi V c t, Phi3_pos V c _ _ hz]
      iintro ⟨⟨⟨HS, Hrest⟩, Hg⟩, Ho, ⟨%d0, H0⟩, ⟨%d1, H1⟩, ⟨%dO, HO⟩⟩
      iapply ((first3Run c (grid3.coords t) (m3_0 t) (w3_0 t) (m3_1 t) (w3_1 t) (m3_2 t) (w3_2 t) acc3M (Memref.isWhole_whole _) ((first3_iff t).mpr h0) (fun h => h1 ((last3_iff t).mp h)) (blk3 V c 0 t) (blk3 V c 1 t)).2 _ Set.univ _)
      isplitl [H0]; · iexact H0
      isplitl [H1]; · iexact H1
      isplitl [HO]; · iexact HO
      isplitl [HS]; · iexists _; iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_fills c t ((first3_iff t).mpr h0) (fun h => h1 ((last3_iff t).mp h)) (blk3 V c 0 t) (blk3 V c 1 t))
          iexact Hrest
        iexact Hg
      isplitl [Ho]; · iexact Ho
      isplitl [H0]; · iexact H0
      isplitl [H1]; · iexact H1
      iexists _; iexact HO
  · have hz : t.val ≠ 0 := fun e => h0 (by rw [e])
    by_cases h1 : t.val % 16 = 15
    · skip
      rw [show (dat3 V c).leavesExact 0 t = owns (c : Thread nD τ) (m3_0 t) fullShare ((dat3 V c).after 0 t) from by
        unfold Dat.leavesExact; rw [live3_0 t], dat3_after0]
      rw [show (dat3 V c).leavesExact 1 t = owns (c : Thread nD τ) (m3_1 t) fullShare ((dat3 V c).after 1 t) from by
        unfold Dat.leavesExact; rw [live3_1 t], dat3_after1]
      rw [show (dat3 V c).leavesExact 2 t = owns (c : Thread nD τ) (m3_2 t) fullShare ((dat3 V c).after 2 t) from by
        unfold Dat.leavesExact; rw [live3_out t ((last3_iff t).mpr h1)], dat3_after2]
      rw [scr3_last V c t h0 h1, out3_last V c t h0 h1]
      unfold accLast3 outLast3; (try dsimp only)
      rw [dat3_Phi V c t, Phi3_pos V c _ _ hz]
      iintro ⟨⟨⟨HS, Hrest⟩, Hg⟩, Ho, ⟨%d0, H0⟩, ⟨%d1, H1⟩, ⟨%dO, HO⟩⟩
      iapply ((last3Run c (grid3.coords t) (m3_0 t) (w3_0 t) (m3_1 t) (w3_1 t) (m3_2 t) (w3_2 t) acc3M (Memref.isWhole_whole _) (fun h => h0 ((first3_iff t).mp h)) ((last3_iff t).mpr h1) (blk3 V c 0 t) (blk3 V c 1 t) (scr3 V c (t.val - 1) (Nat.lt_of_le_of_lt (Nat.sub_le _ _) t.isLt))).2.2 Set.univ _)
      isplitl [H0]; · iexact H0
      isplitl [H1]; · iexact H1
      isplitl [HO]; · iexists _; iexact HO
      isplitl [HS]; · iexact HS
      iintro ⟨H0, H1, ⟨%eO, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast3_fills c t (fun h => h0 ((first3_iff t).mp h)) ((last3_iff t).mpr h1) (blk3 V c 0 t) (blk3 V c 1 t) (scr3 V c (t.val - 1) (Nat.lt_of_le_of_lt (Nat.sub_le _ _) t.isLt)))
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (outLast3_fills c t (fun h => h0 ((first3_iff t).mp h)) ((last3_iff t).mpr h1) (blk3 V c 0 t) (blk3 V c 1 t) (scr3 V c (t.val - 1) (Nat.lt_of_le_of_lt (Nat.sub_le _ _) t.isLt)))
    · skip
      rw [show (dat3 V c).leavesExact 0 t = owns (c : Thread nD τ) (m3_0 t) fullShare ((dat3 V c).after 0 t) from by
        unfold Dat.leavesExact; rw [live3_0 t], dat3_after0]
      rw [show (dat3 V c).leavesExact 1 t = owns (c : Thread nD τ) (m3_1 t) fullShare ((dat3 V c).after 1 t) from by
        unfold Dat.leavesExact; rw [live3_1 t], dat3_after1]
      rw [Dat.leavesExact_idle (dat3 V c) 2 t (idle3_out t (fun h => h1 ((last3_iff t).mp h))) (keep3_out t (fun h => h1 ((last3_iff t).mp h)))]
      rw [scr3_mid V c t h0 h1]
      unfold accMid3; (try dsimp only)
      rw [dat3_Phi V c t, Phi3_pos V c _ _ hz]
      iintro ⟨⟨⟨HS, Hrest⟩, Hg⟩, Ho, ⟨%d0, H0⟩, ⟨%d1, H1⟩, ⟨%dO, HO⟩⟩
      iapply ((mid3Run c (grid3.coords t) (m3_0 t) (w3_0 t) (m3_1 t) (w3_1 t) (m3_2 t) (w3_2 t) acc3M (Memref.isWhole_whole _) (fun h => h0 ((first3_iff t).mp h)) (fun h => h1 ((last3_iff t).mp h)) (blk3 V c 0 t) (blk3 V c 1 t) (scr3 V c (t.val - 1) (Nat.lt_of_le_of_lt (Nat.sub_le _ _) t.isLt))).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accMid3_fills c t (fun h => h0 ((first3_iff t).mp h)) (fun h => h1 ((last3_iff t).mp h)) (blk3 V c 0 t) (blk3 V c 1 t) (scr3 V c (t.val - 1) (Nat.lt_of_le_of_lt (Nat.sub_le _ _) t.isLt)))
          iexact Hrest
        iexact Hg
      isplitl [Ho]; · iexact Ho
      isplitl [H0]; · iexact H0
      isplitl [H1]; · iexact H1
      iexists _; iexact HO

/-- The body obligation of the region, at every point. -/
theorem obligation3 (c : Dev nD) : BodyObligation (dat3 (F := F) V c) (defs₀ (F := F)) Variants.none () Set.univ := fun t => by
  rw [bigSep_W3, bigSep_W3]
  exact point3 V c t

/-- What the region is handed at its entry is the invariant before the first point; -/
theorem into3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- and after the last point the invariant gives the same back: the accumulator's contents are forgotten. -/
theorem outOf3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 256 := N_3; omega), PhiA3_eq]
  iintro ⟨⟨HS, Hrest⟩, Hg⟩
  isplitl [HS Hrest]
  · isplitl [HS]
    · iexists _; iexact HS
    iexact Hrest
  iexact Hg

end Data

end Cert.KernelIdeal.Hand

end
-- ==== Proof.KernelFrame.lean ====
/-
  The whole kernel program: seventeen items in order — nine stretches of host operations that form the row and column
  factors, the four kernel regions with two more stretches between them (the two small dense products), and the last
  two stretches (the bias and the row-wise log-softmax). Between two items every unscoped buffer is held whole at
  named contents: the launch contents, then what each host stretch computes, then what each region's run leaves in
  its result array. Every region is entered from the contents before it and left at the contents after it, so the
  program runs to the end and every argument array ends as launched.
-/
import proofs.«148386_j953482740188_2_alg».proof.Proof.Region0
import proofs.«148386_j953482740188_2_alg».proof.Proof.Region1
import proofs.«148386_j953482740188_2_alg».proof.Proof.Region1Share
import proofs.«148386_j953482740188_2_alg».proof.Proof.Region2
import proofs.«148386_j953482740188_2_alg».proof.Proof.Region3
import proofs.«148386_j953482740188_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Before region 0: the launch contents after the nine host stretches. -/
abbrev Va9 (c : Dev nD) : Valuation τ sig (Elt F) := Gen.V9 m c
abbrev Ea0 (c : Dev nD) (b : Ref sig .tc) : Buf (Elt F) ((c : Thread nD τ).loc b) := Va9 m c b
/-- What region 0 leaves in its result array (the normalised adjacency): its blocks as written back. -/
def o0 (c : Dev nD) : Buf (Elt F) ((c : Thread nD τ).loc main_v12) := (dat0 (Ea0 m) c).arrAt 3 cfg0.N
abbrev Va10 (c : Dev nD) : Valuation τ sig (Elt F) := Function.update (Va9 m c) main_v12 (o0 m c)
abbrev Ea1 (c : Dev nD) (b : Ref sig .tc) : Buf (Elt F) ((c : Thread nD τ).loc b) := Va10 m c b
/-- What region 1 leaves (the filter matrix). -/
def o1 (c : Dev nD) : Buf (Elt F) ((c : Thread nD τ).loc main_v13) := (dat1 (Ea1 m) c).arrAt 5 cfg1.N
abbrev Va11 (c : Dev nD) : Valuation τ sig (Elt F) := Function.update (Va10 m c) main_v13 (o1 m c)
abbrev Va12 (c : Dev nD) : Valuation τ sig (Elt F) := StableHlo.after hostOps2 (Va11 m c)
abbrev Ea2 (c : Dev nD) (b : Ref sig .tc) : Buf (Elt F) ((c : Thread nD τ).loc b) := Va12 m c b
/-- What region 2 leaves (the hidden layer). -/
def o2 (c : Dev nD) : Buf (Elt F) ((c : Thread nD τ).loc main_v15) := (dat2 (Ea2 m) c).arrAt 2 cfg2.N
abbrev Va13 (c : Dev nD) : Valuation τ sig (Elt F) := Function.update (Va12 m c) main_v15 (o2 m c)
abbrev Va14 (c : Dev nD) : Valuation τ sig (Elt F) := StableHlo.after hostOps3 (Va13 m c)
abbrev Ea3 (c : Dev nD) (b : Ref sig .tc) : Buf (Elt F) ((c : Thread nD τ).loc b) := Va14 m c b
/-- What region 3 leaves (the output layer before the bias). -/
def o3 (c : Dev nD) : Buf (Elt F) ((c : Thread nD τ).loc main_v17) := (dat3 (Ea3 m) c).arrAt 2 cfg3.N

/-- What the regions leave, as one table over the references: the four result arrays at the contents above, every
    other reference at its contents before region 0 (never read). -/
def outs : Gen.Outs (F := F) := fun _ r c =>
  Function.update (Function.update (Function.update (Function.update
    (fun r : Ref sig .tc => (Va9 m c r : Buf (Elt F) ((c : Thread nD τ).loc r))) main_v12 (o0 m c)) main_v13 (o1 m c)) main_v15 (o2 m c)) main_v17 (o3 m c) r

theorem outs_main_v12 (J : ℕ) (c : Dev nD) : outs m J main_v12 c = o0 m c := by
  unfold outs
  rw [Function.update_of_ne (by decide), Function.update_of_ne (by decide), Function.update_of_ne (by decide), Function.update_self]
theorem outs_main_v13 (J : ℕ) (c : Dev nD) : outs m J main_v13 c = o1 m c := by
  unfold outs
  rw [Function.update_of_ne (by decide), Function.update_of_ne (by decide), Function.update_self]
theorem outs_main_v15 (J : ℕ) (c : Dev nD) : outs m J main_v15 c = o2 m c := by
  unfold outs
  rw [Function.update_of_ne (by decide), Function.update_self]
theorem outs_main_v17 (J : ℕ) (c : Dev nD) : outs m J main_v17 c = o3 m c := by
  unfold outs
  rw [Function.update_self]

/-- The contents between the items, as the conditional frame names them, are the ones above. -/
theorem V9_eq (c : Dev nD) : Gen.V9 m c = Va9 m c := rfl
theorem V10_eq (c : Dev nD) : Gen.V10 m (outs m) c = Va10 m c := by
  show Function.update (Gen.V9 m c) main_v12 (outs m 10 main_v12 c) = _; rw [outs_main_v12]
theorem V11_eq (c : Dev nD) : Gen.V11 m (outs m) c = Va11 m c := by
  show Function.update (Gen.V10 m (outs m) c) main_v13 (outs m 11 main_v13 c) = _; rw [outs_main_v13, V10_eq]
theorem V12_eq (c : Dev nD) : Gen.V12 m (outs m) c = Va12 m c := by
  show StableHlo.after hostOps2 (Gen.V11 m (outs m) c) = _; rw [V11_eq]
theorem V13_eq (c : Dev nD) : Gen.V13 m (outs m) c = Va13 m c := by
  show Function.update (Gen.V12 m (outs m) c) main_v15 (outs m 13 main_v15 c) = _; rw [outs_main_v15, V12_eq]
theorem V14_eq (c : Dev nD) : Gen.V14 m (outs m) c = Va14 m c := by
  show StableHlo.after hostOps3 (Gen.V13 m (outs m) c) = _; rw [V13_eq]

/-! ## The proof data family and the thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-- Every region's proof data, each at the contents its region is entered from. -/
def pdats : (p : Fin 4) → (c : Dev nD) → Dat τ (Elt F) Unit ℕ (UR sig nD τ) ℕ (cfgs p) c
  | ⟨0, _⟩ => fun c => dat0 (Ea0 m) c
  | ⟨1, _⟩ => fun c => dat1 (Ea1 m) c
  | ⟨2, _⟩ => fun c => dat2 (Ea2 m) c
  | ⟨3, _⟩ => fun c => dat3 (Ea3 m) c

/-! ## Region 0 as a segment -/

/-- After the region each of its arrays holds what the run leaves there: an input what it held, the result its
    blocks as written back. -/
theorem exit0_arr (c : Dev nD) : ∀ w : Fin 4, (pdats m 0 c).arrAt w cfg0.N = Gen.V10 m (outs m) c (Pipeline.arrRef spec0 w)
  | ⟨0, _⟩ => ((((dat0 (Ea0 m) c).arrAt_in 0 rfl _).trans (dat0_A (Ea0 m) c 0)).trans (congrFun (V9_eq m c) _).symm).trans (Gen.V10_of m (outs m) c main_arg1 (by decide)).symm
  | ⟨1, _⟩ => ((((dat0 (Ea0 m) c).arrAt_in 1 rfl _).trans (dat0_A (Ea0 m) c 1)).trans (congrFun (V9_eq m c) _).symm).trans (Gen.V10_of m (outs m) c main_v5 (by decide)).symm
  | ⟨2, _⟩ => ((((dat0 (Ea0 m) c).arrAt_in 2 rfl _).trans (dat0_A (Ea0 m) c 2)).trans (congrFun (V9_eq m c) _).symm).trans (Gen.V10_of m (outs m) c main_v11 (by decide)).symm
  | ⟨3, _⟩ => by
      show (dat0 (Ea0 m) c).arrAt 3 cfg0.N = Function.update (Gen.V9 m c) main_v12 (outs m 10 main_v12 c) main_v12
      rw [Function.update_self, outs_main_v12]; rfl
  | ⟨_ + 4, h⟩ => absurd h (Nat.not_lt.2 (Nat.le_add_left _ _))
/-- Every other buffer is as the region found it. -/
theorem exit0_rest (c : Dev nD) : ∀ b, b ∉ Finset.univ.image (Pipeline.arrRef spec0) → Gen.V10 m (outs m) c b = Ea0 m c b :=
  fun b hb => (Gen.V10_of m (outs m) c b (by
    intro hmem
    rw [List.mem_singleton] at hmem
    subst hmem
    exact hb (Finset.mem_image.mpr ⟨(3 : Fin 4), Finset.mem_univ _, rfl⟩))).trans (congrFun (V9_eq m c) _)

set_option backward.isDefEq.respectTransparency.types false in
/-- The region entered from every unscoped buffer at the contents before it and left at the contents after it: its
    arrays taken out of the unscoped buffers and put back, the generator register lent to the invariant, nothing owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (Ea0 m) c).loose
  hwaits := Pipeline.hwaits_of_owed_zero _ _ _ _ L lv 0 fun _ _ => rfl
  pre c := iprop(StableHlo.held (c : Thread nD τ) (Pipeline.ucRefs τ sig) (Gen.V9 m c) ∗ Rst c)
  post c := iprop(StableHlo.held (c : Thread nD τ) (Pipeline.ucRefs τ sig) (Gen.V10 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ea0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ea0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ea0 m c) (fun b => Gen.V10 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment

Two of its input windows read one array, the normalised adjacency: the array is held in two halves, one per window. -/

/-- After the region each of its arrays holds what the run leaves there. -/
theorem exit1_arr (c : Dev nD) : ∀ w : Fin 6, (pdats m 1 c).arrAt w cfg1.N = Gen.V11 m (outs m) c (Pipeline.arrRef spec1 w)
  | ⟨0, _⟩ => ((((dat1 (Ea1 m) c).arrAt_in 0 rfl _).trans (dat1_A (Ea1 m) c 0)).trans (congrFun (V10_eq m c) _).symm).trans (Gen.V11_of m (outs m) c main_v12 (by decide)).symm
  | ⟨1, _⟩ => ((((dat1 (Ea1 m) c).arrAt_in 1 rfl _).trans (dat1_A (Ea1 m) c 1)).trans (congrFun (V10_eq m c) _).symm).trans (Gen.V11_of m (outs m) c main_v12 (by decide)).symm
  | ⟨2, _⟩ => ((((dat1 (Ea1 m) c).arrAt_in 2 rfl _).trans (dat1_A (Ea1 m) c 2)).trans (congrFun (V10_eq m c) _).symm).trans (Gen.V11_of m (outs m) c main_arg1 (by decide)).symm
  | ⟨3, _⟩ => ((((dat1 (Ea1 m) c).arrAt_in 3 rfl _).trans (dat1_A (Ea1 m) c 3)).trans (congrFun (V10_eq m c) _).symm).trans (Gen.V11_of m (outs m) c main_v5 (by decide)).symm
  | ⟨4, _⟩ => ((((dat1 (Ea1 m) c).arrAt_in 4 rfl _).trans (dat1_A (Ea1 m) c 4)).trans (congrFun (V10_eq m c) _).symm).trans (Gen.V11_of m (outs m) c main_v11 (by decide)).symm
  | ⟨5, _⟩ => by
      show (dat1 (Ea1 m) c).arrAt 5 cfg1.N = Function.update (Gen.V10 m (outs m) c) main_v13 (outs m 11 main_v13 c) main_v13
      rw [Function.update_self, outs_main_v13]; rfl
  | ⟨_ + 6, h⟩ => absurd h (Nat.not_lt.2 (Nat.le_add_left _ _))
/-- Every other buffer is as the region found it. -/
theorem exit1_rest (c : Dev nD) : ∀ b, b ∉ Finset.univ.image (Pipeline.arrRef spec1) → Gen.V11 m (outs m) c b = Ea1 m c b :=
  fun b hb => (Gen.V11_of m (outs m) c b (by
    intro hmem
    rw [List.mem_singleton] at hmem
    subst hmem
    exact hb (Finset.mem_image.mpr ⟨(5 : Fin 6), Finset.mem_univ _, rfl⟩))).trans (congrFun (V10_eq m c) _)

/-- ENTRY, the arrays' part: the unscoped buffers at the contents before the region are its six windows' arrays —
    the shared one in two halves — and the rest. -/
theorem entry1_arrays (c : Dev nD) :
    (unscopedBufs c (Ea1 m c) : sProp 𝕄)
      ⊢ iprop((pdats m 1 c).arrays ((pdats m 1 c).arrAt · 0) ∗ Pipeline.unscopedRest (Ix := Unit) (Name := ℕ) (U := UR sig nD τ) (Lvl := ℕ) spec1 c (Ea1 m c)) := by
  rw [Pipeline.unscopedBufs_split₀ cfgs 1 winFacts₀1.arr_unscoped c (Ea1 m c)]
  exact sep_mono (arrays1_in (Ea1 m) c) .rfl

/-- EXIT, the arrays' part: the six arrays at what the run leaves — the two halves of the shared one joined — and
    the rest are the unscoped buffers at the contents after the region. -/
theorem exit1_arrays (c : Dev nD) :
    iprop((pdats m 1 c).arrays ((pdats m 1 c).arrAt · cfg1.N) ∗ Pipeline.unscopedRest (Ix := Unit) (Name := ℕ) (U := UR sig nD τ) (Lvl := ℕ) spec1 c (Ea1 m c))
      ⊢ (unscopedBufs c (fun b => Gen.V11 m (outs m) c b) : sProp 𝕄) := by
  rw [Pipeline.unscopedBufs_split₀ cfgs 1 winFacts₀1.arr_unscoped c (fun b => Gen.V11 m (outs m) c b)]
  refine sep_mono (arrays1_out (Ea1 m) c (fun b => Gen.V11 m (outs m) c b) ((pdats m 1 c).arrAt · cfg1.N) (exit1_arr m c)) (Entails.of_eq ?_)
  unfold Pipeline.unscopedRest
  exact bigSep_congr fun b hb => by dsimp only; rw [exit1_rest m c b (Finset.mem_sdiff.mp hb).2]

set_option backward.isDefEq.respectTransparency.types false in
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (obligation1 (Ea1 m) c).loose
  hwaits := Pipeline.hwaits_of_owed_zero _ _ _ _ L lv 1 fun _ _ => rfl
  pre c := iprop(StableHlo.held (c : Thread nD τ) (Pipeline.ucRefs τ sig) (Gen.V10 m (outs m) c) ∗ Rst c)
  post c := iprop(StableHlo.held (c : Thread nD τ) (Pipeline.ucRefs τ sig) (Gen.V11 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ea1 m c)
  hentry c := by
    rw [Pipeline.ownSems0_none, V10_eq m c]
    have hsplit := entry1_arrays m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec1 c : sProp 𝕄) from by
      unfold Pipeline.ΦA
      iintro ⟨Hp, -, Hr⟩
      isplitl [Hr]; · iexact Hr
      iexact Hp).trans (into1 (Ea1 m) c)
  hout c := by
    rw [Pipeline.ownSems0_none]
    refine (outOf1 (Ea1 m) c).trans ?_
    unfold Pipeline.ΦA
    iintro ⟨Hr, Hp⟩
    isplitl [Hp]; · iexact Hp
    isplitr; · iempintro
    iexact Hr
  hexit c := by
    have hjoin := exit1_arrays m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- After the region each of its arrays holds what the run leaves there: an input what it held, the result its
    blocks as written back. -/
theorem exit2_arr (c : Dev nD) : ∀ w : Fin 3, (pdats m 2 c).arrAt w cfg2.N = Gen.V13 m (outs m) c (Pipeline.arrRef spec2 w)
  | ⟨0, _⟩ => ((((dat2 (Ea2 m) c).arrAt_in 0 rfl _).trans (dat2_A (Ea2 m) c 0)).trans (congrFun (V12_eq m c) _).symm).trans (Gen.V13_of m (outs m) c main_v13 (by decide)).symm
  | ⟨1, _⟩ => ((((dat2 (Ea2 m) c).arrAt_in 1 rfl _).trans (dat2_A (Ea2 m) c 1)).trans (congrFun (V12_eq m c) _).symm).trans (Gen.V13_of m (outs m) c main_v14 (by decide)).symm
  | ⟨2, _⟩ => by
      show (dat2 (Ea2 m) c).arrAt 2 cfg2.N = Function.update (Gen.V12 m (outs m) c) main_v15 (outs m 13 main_v15 c) main_v15
      rw [Function.update_self, outs_main_v15]; rfl
  | ⟨_ + 3, h⟩ => absurd h (Nat.not_lt.2 (Nat.le_add_left _ _))
/-- Every other buffer is as the region found it. -/
theorem exit2_rest (c : Dev nD) : ∀ b, b ∉ Finset.univ.image (Pipeline.arrRef spec2) → Gen.V13 m (outs m) c b = Ea2 m c b :=
  fun b hb => (Gen.V13_of m (outs m) c b (by
    intro hmem
    rw [List.mem_singleton] at hmem
    subst hmem
    exact hb (Finset.mem_image.mpr ⟨(2 : Fin 3), Finset.mem_univ _, rfl⟩))).trans (congrFun (V12_eq m c) _)

set_option backward.isDefEq.respectTransparency.types false in
/-- The region entered from every unscoped buffer at the contents before it and left at the contents after it: its
    arrays taken out of the unscoped buffers and put back, the generator register lent to the invariant, nothing owed. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (Ea2 m) c).loose
  hwaits := Pipeline.hwaits_of_owed_zero _ _ _ _ L lv 2 fun _ _ => rfl
  pre c := iprop(StableHlo.held (c : Thread nD τ) (Pipeline.ucRefs τ sig) (Gen.V12 m (outs m) c) ∗ Rst c)
  post c := iprop(StableHlo.held (c : Thread nD τ) (Pipeline.ucRefs τ sig) (Gen.V13 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (Ea2 m c)
  hentry c := by
    rw [Pipeline.ownSems0_none, V12_eq m c]
    have hsplit := Pipeline.arrays_of_unscopedBufs (p := 2) (pcfgs (F := F)) Gen.adm (pdats m) launch2.win launch2.arr_whole c
      ((pdats m 2 c).share_full fun _ => rfl) (Ea2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec2 c : sProp 𝕄) from by
      unfold Pipeline.ΦA
      iintro ⟨Hp, -, Hr⟩
      isplitl [Hr]; · iexact Hr
      iexact Hp).trans (into2 (Ea2 m) c)
  hout c := by
    rw [Pipeline.ownSems0_none]
    refine (outOf2 (Ea2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Ea2 m c) (fun b => Gen.V13 m (outs m) c b) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

/-- After the region each of its arrays holds what the run leaves there: an input what it held, the result its
    blocks as written back. -/
theorem exit3_arr (c : Dev nD) : ∀ w : Fin 3, (pdats m 3 c).arrAt w cfg3.N = Gen.V15 m (outs m) c (Pipeline.arrRef spec3 w)
  | ⟨0, _⟩ => ((((dat3 (Ea3 m) c).arrAt_in 0 rfl _).trans (dat3_A (Ea3 m) c 0)).trans (congrFun (V14_eq m c) _).symm).trans (Gen.V15_of m (outs m) c main_v13 (by decide)).symm
  | ⟨1, _⟩ => ((((dat3 (Ea3 m) c).arrAt_in 1 rfl _).trans (dat3_A (Ea3 m) c 1)).trans (congrFun (V14_eq m c) _).symm).trans (Gen.V15_of m (outs m) c main_v16 (by decide)).symm
  | ⟨2, _⟩ => by
      show (dat3 (Ea3 m) c).arrAt 2 cfg3.N = Function.update (Gen.V14 m (outs m) c) main_v17 (outs m 15 main_v17 c) main_v17
      rw [Function.update_self, outs_main_v17]; rfl
  | ⟨_ + 3, h⟩ => absurd h (Nat.not_lt.2 (Nat.le_add_left _ _))
/-- Every other buffer is as the region found it. -/
theorem exit3_rest (c : Dev nD) : ∀ b, b ∉ Finset.univ.image (Pipeline.arrRef spec3) → Gen.V15 m (outs m) c b = Ea3 m c b :=
  fun b hb => (Gen.V15_of m (outs m) c b (by
    intro hmem
    rw [List.mem_singleton] at hmem
    subst hmem
    exact hb (Finset.mem_image.mpr ⟨(2 : Fin 3), Finset.mem_univ _, rfl⟩))).trans (congrFun (V14_eq m c) _)

set_option backward.isDefEq.respectTransparency.types false in
/-- The region entered from every unscoped buffer at the contents before it and left at the contents after it: its
    arrays taken out of the unscoped buffers and put back, the generator register lent to the invariant, nothing owed. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (Ea3 m) c).loose
  hwaits := Pipeline.hwaits_of_owed_zero _ _ _ _ L lv 3 fun _ _ => rfl
  pre c := iprop(StableHlo.held (c : Thread nD τ) (Pipeline.ucRefs τ sig) (Gen.V14 m (outs m) c) ∗ Rst c)
  post c := iprop(StableHlo.held (c : Thread nD τ) (Pipeline.ucRefs τ sig) (Gen.V15 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (Ea3 m c)
  hentry c := by
    rw [Pipeline.ownSems0_none, V14_eq m c]
    have hsplit := Pipeline.arrays_of_unscopedBufs (p := 3) (pcfgs (F := F)) Gen.adm (pdats m) launch3.win launch3.arr_whole c
      ((pdats m 3 c).share_full fun _ => rfl) (Ea3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec3 c : sProp 𝕄) from by
      unfold Pipeline.ΦA
      iintro ⟨Hp, -, Hr⟩
      isplitl [Hr]; · iexact Hr
      iexact Hp).trans (into3 (Ea3 m) c)
  hout c := by
    rw [Pipeline.ownSems0_none]
    refine (outOf3 (Ea3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Ea3 m c) (fun b => Gen.V15 m (outs m) c b) ((pdats m 3 c).arrAt · cfg3.N) (exit3_arr m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- At the compiled mesh, from any memory with zero counters, every weakly fair execution of the program terminates,
    nothing faulting, and every final state has the five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (Ix := Unit) (U := UR sig nD τ) (Lvl := ℕ) emb₁ () 𝒱₀ L lv (fun _ _ => rfl) ρ (outs m) (pdats m)
    (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      have hc : ∀ c : Dev nD, (iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)) : sProp 𝕄)
          ⊢ Rst c := fun c => by
        iintro ⟨-, HO, -, Hp, -⟩
        isplitl [Hp]; · iexists _; iexact Hp
        iexists ∅; iexact HO
      have h : (bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)))
          ⊢ (bigSep Finset.univ fun c : Dev nD => Rst c : sProp 𝕄) :=
        bigSep_mono fun c _ => hc c
      iintro ⟨H, -⟩
      imodintro
      iapply h
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.Hand

end
-- ==== Proof.Region0B.lean ====
/-
  The first kernel region: the normalised adjacency, block by block.

  The grid is 8 × 8. At point (i, j) the body reads the 1024 × 1024 block (i, j) of the adjacency matrix, the i-th
  1024-piece of the row factors (a column) and the j-th 1024-piece of the column factors (a row), and stores
  row factor · entry · column factor  into block (i, j) of the result. Nothing is carried from point to point:
  what a point leaves in the result's buffer is a function of the three blocks it was handed.
-/
import proofs.«148386_j953482740188_2_alg».proof.Proof.Gen.Kernel.Launch
import proofs.«148386_j953482740188_2_alg».proof.Proof.Gen.Kernel.Skeleton
import proofs.«148386_j953482740188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Scaled

/-- The whole 1024 × 1024 block, the whole 1024 × 1 column and the whole 1 × 1024 row: the body's accesses. -/
abbrev boxSq : Rect S1024x1024 := Rect.unit (s := S1024x1024) ![0, 0] S1024x1024.size inb_S1024x1024_S1024x1024_0_0
abbrev boxCol : Rect S1024x1 := Rect.unit (s := S1024x1) ![0, 0] S1024x1.size inb_S1024x1_S1024x1_0_0
abbrev boxRow : Rect S1x1024 := Rect.unit (s := S1x1024) ![0, 0] S1x1024.size inb_S1x1024_S1x1024_0_0

/-- What a point leaves in the result's buffer, from the adjacency block `a`, the column of row factors `dr` and the
    row of column factors `dc`: the one store's payload laid over the whole buffer. -/
def scaled0 (a : Vec F S1024x1024 .f32) (dr : Vec F S1024x1 .f32) (dc : Vec F S1x1024 .f32) : Vec F S1024x1024 .bf16 :=
  View.canon [⟨boxSq, k0_pay1 (View.ld dr boxCol) (View.ld a boxSq) (View.ld dc boxRow)⟩]

/-- The one store fills the buffer. -/
theorem scaled0_cover (p0 : Vec F S1024x1024 .bf16) (y : S1024x1024.Idx) :
    ∃ pc ∈ ([⟨boxSq, p0⟩] : List (View.Piece (Elt F) S1024x1024 .bf16)), y ∈ pc.1.set :=
  View.cover_of_tiled [⟨boxSq, p0⟩] S1024x1024.size (by rfl) y

set_option maxHeartbeats 1000000 in
/-- The body, handed the three input buffers at `a`, `dr`, `dc` and the result's buffer at anything, runs to the end
    leaving the inputs as they were and the result's buffer at `scaled0 a dr dc`. -/
theorem body0 (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x1024 .bf16) (harg5 : arg5.IsWhole)
    (a : Vec F S1024x1024 .f32) (dr : Vec F S1024x1 .f32) (dc : Vec F S1x1024 .f32) (K : PUnit → sProp 𝕄) :
    iprop(owns (c : Thread nD τ) arg2 fullShare a ∗ owns (c : Thread nD τ) arg3 fullShare dr ∗ owns (c : Thread nD τ) arg4 fullShare dc
        ∗ (∃ d, owns (c : Thread nD τ) arg5 fullShare d)
        ∗ (iprop(owns (c : Thread nD τ) arg2 fullShare a ∗ owns (c : Thread nD τ) arg3 fullShare dr ∗ owns (c : Thread nD τ) arg4 fullShare dc
            ∗ owns (c : Thread nD τ) arg5 fullShare (scaled0 a dr dc)) -∗ K ⟨⟩))
      ⊢ wp frame (wpE (defs₀ (F := F)) Variants.none c none) E (cc0__dad_kernel i arg2 harg2 arg3 harg3 arg4 harg4 arg5 harg5) K := by
  simp only [cc0__dad_kernel_eq_skeleton]; unfold cc0__dad_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (scaled0_cover _)

end Scaled

section Data

-- the TensorCore's buffers as the region finds them
variable (V : (c : Dev nD) → (b : Ref sig .tc) → Buf (Elt F) ((c : Thread nD τ).loc b))

/-- Window `w`'s block of its array at grid point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as found; after each point the three inputs' buffers still at their blocks and
    the result's buffer at the product of the three; nothing else is touched, nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => scaled0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = scaled0 (blk0 V c 0 t) (blk0 V c 1 t) (blk0 V c 2 t) := by dsimp only [dat0]

/-- An input's buffer holds its block at every point: fetched there, or left from the point before, whose block index
    is the same. -/
theorem dat0_found0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_found1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)
theorem dat0_found2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `body0` applies; the invariant and what the
    core owes pass through unread. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1, dat0_found2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem obligation0 (c : Dev nD) : BodyObligation (dat0 (F := F) V c) (defs₀ (F := F)) Variants.none () Set.univ := fun t => by
  rw [bigSep_W0, bigSep_W0]
  exact point0 V c t

end Data

end Cert.Kernel.Hand

end
-- ==== Proof.Region1B.lean ====
/-
  The second kernel region: the filter matrix  a·I + (a − 1)·D − D·D  with a = 1/2, block by block.

  The grid is 8 × 8 blocks of 1024 × 1024 by 32 steps of the contracted axis, steps innermost. At point (i, j, k) the
  body adds to a scratch accumulator the product of the 1024 × 256 block (i, k) of D with its 256 × 1024 block (k, j)
  — clearing the accumulator first when k = 0 — and when k = 31 stores into block (i, j) of the result
  a·[row = column] + (a − 1)·(row factor · adjacency entry · column factor) − accumulator,
  the middle term recomputed from the adjacency block and the two factor pieces. Both products' operands are windows
  on the one array D. The accumulator is the one thing carried from point to point.
-/
import proofs.«148386_j953482740188_2_alg».proof.Proof.Gen.Kernel.Launch
import proofs.«148386_j953482740188_2_alg».proof.Proof.Gen.Kernel.Skeleton
import proofs.«148386_j953482740188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

/-- The first step of a block's accumulation: the contracted-axis coordinate is zero. -/
abbrev first1 (i : grid1.Coords) : Prop :=
  (Scalar.cmpi .ne (Scalar.extui (Scalar.cmpi .eq (BitVec.ofNat 32 (i 2).val) 0#32)) 0#32) = 1#1
/-- The steps are the innermost grid axis, 32 of them: the first steps are the points ≡ 0 (mod 32). -/
theorem first1_iff : ∀ t : Fin cfg1.N, first1 (grid1.coords t) ↔ t.val % 32 = 0 :=
  (by decide +kernel : ∀ t : Fin grid1.N, first1 (grid1.coords t) ↔ t.val % 32 = 0)
/-- The last step: the coordinate is 31. -/
abbrev last1 (i : grid1.Coords) : Prop := k1_cond2 i = 1#1
theorem last1_iff : ∀ t : Fin cfg1.N, last1 (grid1.coords t) ↔ t.val % 32 = 31 :=
  (by decide +kernel : ∀ t : Fin grid1.N, last1 (grid1.coords t) ↔ t.val % 32 = 31)

/-- Before the last step nothing is stored into the result's buffer and its block is not written back; -/
theorem idle1_out : ∀ t : Fin cfg1.N, ¬last1 (grid1.coords t) → cfg1.idle 5 (grid1.coords t) = true := by decide +kernel
theorem keep1_out : ∀ t : Fin cfg1.N, ¬last1 (grid1.coords t) → (cfg1.win 5).flush t = false := by decide +kernel
/-- at the last step it is stored. -/
theorem live1_out : ∀ t : Fin cfg1.N, last1 (grid1.coords t) → cfg1.idle 5 (grid1.coords t) = false := by decide +kernel

set_option maxHeartbeats 1000000 in
/-- A first step: the accumulator is cleared, then the step's product is added. The pieces stored into the
    accumulator are those the run finds. -/
noncomputable def first1Run (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (h0 : first1 i) (h1 : ¬last1 i)
    (l : Vec F S1024x256 .bf16) (r : Vec F S256x1024 .bf16) (a : Vec F S1024x1024 .f32) (dr : Vec F S1024x1 .f32) (dc : Vec F S1x1024 .f32) :
    { LS : List (View.Piece (Elt F) S1024x1024 .f32) //
      ∀ (xo : Vec F S1024x1024 .f32) (E : Set ℕ) (K : PUnit → sProp 𝕄),
        iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ (∃ d, owns (c : Thread nD τ) arg9 fullShare d)
            ∗ (iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__adjf_kernel i arg3 harg3 arg4 harg4 arg5 harg5 arg6 harg6 arg7 harg7 arg8 harg8 arg9 harg9) K } := by
  refine ⟨?_, fun xo E K => ?run⟩
  case run =>
    simp only [cc1__adjf_kernel_eq_skeleton]; unfold cc1__adjf_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

set_option maxHeartbeats 1000000 in
/-- A middle step: the product is added to what the accumulator held, `acc`. -/
noncomputable def mid1Run (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (h0 : ¬first1 i) (h1 : ¬last1 i)
    (l : Vec F S1024x256 .bf16) (r : Vec F S256x1024 .bf16) (a : Vec F S1024x1024 .f32) (dr : Vec F S1024x1 .f32) (dc : Vec F S1x1024 .f32) (acc : Vec F S1024x1024 .f32) :
    { LS : List (View.Piece (Elt F) S1024x1024 .f32) //
      ∀ (xo : Vec F S1024x1024 .f32) (E : Set ℕ) (K : PUnit → sProp 𝕄),
        iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ owns (c : Thread nD τ) arg9 fullShare acc
            ∗ (iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ owns (c : Thread nD τ) arg8 fullShare xo ∗ (∃ f, arg9.view.loc (c : Thread nD τ) ↦[arg9.view.set]{fullShare} arg9.view.writes (Elt F) f LS)) -∗ K ⟨⟩))
          ⊢ wp frame (wpE (defs₀ (F := F)) Variants.none c none) E (cc1__adjf_kernel i arg3 harg3 arg4 harg4 arg5 harg5 arg6 harg6 arg7 harg7 arg8 harg8 arg9 harg9) K } := by
  refine ⟨?_, fun xo E K => ?run⟩
  case run =>
    simp only [cc1__adjf_kernel_eq_skeleton]; unfold cc1__adjf_kernel_skel
    unfold owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfo
    obtain rfl := harg9.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]
    · iexists _; isplitr; · ipureintro; exact harg8.read_unread _
      iexact HO
    iexists _; iexact HS

set_option maxHeartbeats 1000000 in
/-- A last step: the product is added, and the block's value is stored into the result's buffer. -/
noncomputable def last1Run (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (h0 : ¬first1 i) (h1 : last1 i)
    (l : Vec F S1024x256 .bf16) (r : Vec F S256x1024 .bf16) (a : Vec F S1024x1024 .f32) (dr : Vec F S1024x1 .f32) (dc : Vec F S1x1024 .f32) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ (∃ d, owns (c : Thread nD τ) arg8 fullShare d) ∗ owns (c : Thread nD τ) arg9 fullShare acc
            ∗ (iprop(owns (c : Thread nD τ) arg3 fullShare l ∗ owns (c : Thread nD τ) arg4 fullShare r ∗ owns (c : Thread nD τ) arg5 fullShare a ∗ owns (c : Thread nD τ) arg6 fullShare dr ∗ owns (c : Thread nD τ) arg7 fullShare dc ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__adjf_kernel i arg3 harg3 arg4 harg4 arg5 harg5 arg6 harg6 arg7 harg7 arg8 harg8 arg9 harg9) K } := by
  refine ⟨?_, ?_, fun E K => ?run⟩
  case run =>
    simp only [cc1__adjf_kernel_eq_skeleton]; unfold cc1__adjf_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fo, -, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HO]; · iexists _; iexact HO
    iexists _; iexact HS

end Cases

section Data

-- the TensorCore's buffers as the region finds them
variable (V : (c : Dev nD) → (b : Ref sig .tc) → Buf (Elt F) ((c : Thread nD τ).loc b))

/-- Window `w`'s block of its array at grid point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffers the body is called with at point `t`: each window's current staging buffer, and the accumulator. -/
abbrev m1_0 (t : Fin cfg1.N) : Memref sig .tc .vmem S1024x256 .bf16 := win1_0.stage (cfg1.slots t 0)
abbrev w1_0 (t : Fin cfg1.N) : (m1_0 t).IsWhole := hstage1_0 ((cfg1.slots t 0).cast nbuf1_0)
abbrev m1_1 (t : Fin cfg1.N) : Memref sig .tc .vmem S256x1024 .bf16 := win1_1.stage (cfg1.slots t 1)
abbrev w1_1 (t : Fin cfg1.N) : (m1_1 t).IsWhole := hstage1_1 ((cfg1.slots t 1).cast nbuf1_1)
abbrev m1_2 (t : Fin cfg1.N) : Memref sig .tc .vmem S1024x1024 .f32 := win1_2.stage (cfg1.slots t 2)
abbrev w1_2 (t : Fin cfg1.N) : (m1_2 t).IsWhole := hstage1_2 ((cfg1.slots t 2).cast nbuf1_2)
abbrev m1_3 (t : Fin cfg1.N) : Memref sig .tc .vmem S1024x1 .f32 := win1_3.stage (cfg1.slots t 3)
abbrev w1_3 (t : Fin cfg1.N) : (m1_3 t).IsWhole := hstage1_3 ((cfg1.slots t 3).cast nbuf1_3)
abbrev m1_4 (t : Fin cfg1.N) : Memref sig .tc .vmem S1x1024 .f32 := win1_4.stage (cfg1.slots t 4)
abbrev w1_4 (t : Fin cfg1.N) : (m1_4 t).IsWhole := hstage1_4 ((cfg1.slots t 4).cast nbuf1_4)
abbrev m1_5 (t : Fin cfg1.N) : Memref sig .tc .vmem S1024x1024 .f32 := win1_5.stage (cfg1.slots t 5)
abbrev w1_5 (t : Fin cfg1.N) : (m1_5 t).IsWhole := hstage1_5 ((cfg1.slots t 5).cast nbuf1_5)
abbrev acc1M : Memref sig .tc .vmem S1024x1024 .f32 := Memref.whole cc1_scratch0
/-- The views through which the accumulator's and the result buffer's contents are stated. -/
abbrev acc1V : View sig .tc .vmem S1024x1024 .f32 := acc1M.view
abbrev out1V : View sig .tc .vmem S1024x1024 .f32 := (Memref.whole cc1_stg5_0 : Memref sig .tc .vmem S1024x1024 .f32).view

/-- The inputs are read at every point. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl

/-- The accumulator after a first step: the pieces that step stores, read back. They fill it. -/
def accFirst1 (c : Dev nD) (t : Fin cfg1.N) (h0 : first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) : Vec F S1024x1024 .f32 :=
  acc1V.read (Elt F) (acc1V.writes (Elt F) acc1V.junk (first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc).1)
theorem accFirst1_fills (c : Dev nD) (t : Fin cfg1.N) (h0 : first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) (y : S1024x1024.Idx) :
    ∃ pc ∈ (first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc).1, y ∈ pc.1.set :=
  View.cover_of_tiledL (first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc).1 S1024x1024.size (by sl_kernel_rfl) y

/-- After a middle step, over what it held before. -/
def accMid1 (c : Dev nD) (t : Fin cfg1.N) (h0 : ¬first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) (acc : Vec F S1024x1024 .f32) : Vec F S1024x1024 .f32 :=
  acc1V.read (Elt F) (acc1V.writes (Elt F) acc1V.junk (mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1)
theorem accMid1_fills (c : Dev nD) (t : Fin cfg1.N) (h0 : ¬first1 (grid1.coords t)) (h1 : ¬last1 (grid1.coords t))
    (l : Vec F S1024x256 .bf16) (r : Vec F S256x1024 .bf16) (a : Vec F S1024x1024 .f32) (dr : Vec F S1024x1 .f32) (dc : Vec F S1x1024 .f32) (acc : Vec F S1024x1024 .f32) (y : S1024x1024.Idx) :
    ∃ pc ∈ (mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1, y ∈ pc.1.set :=
  View.cover_of_tiledL (mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1 S1024x1024.size (by sl_kernel_rfl) y

/-- After a last step, and what that step stores into the result's buffer. -/
def accLast1 (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) : Vec F S1024x1024 .f32 :=
  acc1V.read (Elt F) (acc1V.writes (Elt F) acc1V.junk (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).2.1)
theorem accLast1_fills (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) (y : S1024x1024.Idx) :
    ∃ pc ∈ (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).2.1, y ∈ pc.1.set :=
  View.cover_of_tiledL (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).2.1 S1024x1024.size (by sl_kernel_rfl) y
def outLast1 (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) : Vec F S1024x1024 .f32 :=
  out1V.read (Elt F) (out1V.writes (Elt F) out1V.junk (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1)
theorem outLast1_fills (c : Dev nD) (t : Fin cfg1.N) (h0 : ¬first1 (grid1.coords t)) (h1 : last1 (grid1.coords t))
    (l : Vec F S1024x256 .bf16) (r : Vec F S256x1024 .bf16) (a : Vec F S1024x1024 .f32) (dr : Vec F S1024x1 .f32) (dc : Vec F S1x1024 .f32) (acc : Vec F S1024x1024 .f32) (y : S1024x1024.Idx) :
    ∃ pc ∈ (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1, y ∈ pc.1.set :=
  View.cover_of_tiledL (last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) h0 h1 l r a dr dc acc).1 S1024x1024.size (by sl_kernel_rfl) y

/-- THE ACCUMULATION: what the accumulator holds after the body at position `n` — a first step starts afresh from the
    point's blocks, every other step builds on what the position before left. -/
def scr1 (c : Dev nD) : (n : ℕ) → n < cfg1.N → Vec F S1024x1024 .f32
  | 0, hn => accFirst1 c ⟨0, hn⟩ ((first1_iff ⟨0, hn⟩).mpr (Nat.zero_mod _))
      (fun h => (fun h => by (try dsimp only at h); omega) ((last1_iff ⟨0, hn⟩).mp h)) (blk1 V c 0 ⟨0, hn⟩) (blk1 V c 1 ⟨0, hn⟩) (blk1 V c 2 ⟨0, hn⟩) (blk1 V c 3 ⟨0, hn⟩) (blk1 V c 4 ⟨0, hn⟩)
  | n + 1, hn =>
    if h0 : (n + 1) % 32 = 0 then
      accFirst1 c ⟨n + 1, hn⟩ ((first1_iff ⟨n + 1, hn⟩).mpr h0)
        (fun h => (fun h => by (try dsimp only at h); omega) ((last1_iff ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩)
    else if h1 : (n + 1) % 32 = 31 then
      accLast1 c ⟨n + 1, hn⟩ (fun h => h0 ((first1_iff ⟨n + 1, hn⟩).mp h)) ((last1_iff ⟨n + 1, hn⟩).mpr h1)
        (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (scr1 c n (Nat.lt_of_succ_lt hn))
    else
      accMid1 c ⟨n + 1, hn⟩ (fun h => h0 ((first1_iff ⟨n + 1, hn⟩).mp h)) (fun h => h1 ((last1_iff ⟨n + 1, hn⟩).mp h))
        (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (scr1 c n (Nat.lt_of_succ_lt hn))

theorem scr1_first (c : Dev nD) (t : Fin cfg1.N) (h0 : t.val % 32 = 0) (h1 : ¬t.val % 32 = 31) :
    scr1 V c t.val t.isLt = accFirst1 c t ((first1_iff t).mpr h0) (fun h => h1 ((last1_iff t).mp h)) (blk1 V c 0 t) (blk1 V c 1 t) (blk1 V c 2 t) (blk1 V c 3 t) (blk1 V c 4 t) := by
  obtain ⟨n, hn⟩ := t
  cases n with
  | zero => exact rfl
  | succ n => exact (dif_pos h0).trans rfl
theorem scr1_mid (c : Dev nD) (t : Fin cfg1.N) (h0 : ¬t.val % 32 = 0) (h1 : ¬t.val % 32 = 31) :
    scr1 V c t.val t.isLt = accMid1 c t (fun h => h0 ((first1_iff t).mp h)) (fun h => h1 ((last1_iff t).mp h)) (blk1 V c 0 t) (blk1 V c 1 t) (blk1 V c 2 t) (blk1 V c 3 t) (blk1 V c 4 t) (scr1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem scr1_last (c : Dev nD) (t : Fin cfg1.N) (h0 : ¬t.val % 32 = 0) (h1 : t.val % 32 = 31) :
    scr1 V c t.val t.isLt = accLast1 c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's buffer holds after point `t`: at a last step what that step stores; at any other step the
    buffer is not touched, and nothing reads this value. -/
def out1 (c : Dev nD) (t : Fin cfg1.N) : Vec F S1024x1024 .f32 :=
  if h1 : t.val % 32 = 31 then
    outLast1 c t (fun h => (fun h => by omega) ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt))
  else View.canon []
theorem out1_last (c : Dev nD) (t : Fin cfg1.N) (h0 : ¬t.val % 32 = 0) (h1 : t.val % 32 = 31) :
    out1 V c t = outLast1 c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)) := by
  unfold out1; rw [dif_pos h1]

/-- The invariant before position `n`: before the first point every scoped buffer at anything; afterwards the
    accumulator at what the position before left, the other scoped buffers at anything. -/
def Phi1 (c : Dev nD) : (n : ℕ) → n ≤ cfg1.N → sProp 𝕄
  | 0, _ => Pipeline.ΦA spec1 c
  | n + 1, hn => iprop(iprop(owns (c : Thread nD τ) acc1M fullShare (scr1 V c n hn) ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) acc1M fullShare (scr1 V c n hn) ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) acc1M fullShare (scr1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- Before the first point: the accumulator at anything, the other scoped buffers at anything. -/
theorem PhiA1_eq (c : Dev nD) :
    (Pipeline.ΦA spec1 c : sProp 𝕄)
      = iprop(iprop((∃ d, owns (c : Thread nD τ) acc1M fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [Pipeline.scopedRest_split_of_list spec1 c [cc1_scratch0] (by decide) (by decide)]; simp only [acc1M, owns_whole]; try rfl

/-- The region's proof data. The first two windows read one array, the normalised adjacency: each holds half of it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 V c t
  Φ t := Phi1 V c t.val (Nat.le_of_lt_succ t.isLt)
  q w := match w with
    | ⟨0, _⟩ => PosShare.left fullShare
    | ⟨1, _⟩ => PosShare.right fullShare
    | ⟨2, _⟩ => fullShare
    | ⟨3, _⟩ => fullShare
    | ⟨4, _⟩ => fullShare
    | ⟨5, _⟩ => fullShare
  owed _ := 0

theorem dat1_A (c : Dev nD) (w : Fin cfg1.W) : (dat1 V c).A w = V c (Pipeline.arrRef spec1 w) := by dsimp only [dat1]
theorem dat1_Phi (c : Dev nD) (t : Fin cfg1.N) : (dat1 V c).Φ t.castSucc = Phi1 V c t.val (Nat.le_of_lt t.isLt) := by
  dsimp only [dat1]; simp only [Fin.coe_castSucc]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = out1 V c t := by dsimp only [dat1]

/-- An input's buffer holds its block at every point: fetched there, or left from the point before, whose block index
    is the same. -/
theorem dat1_found0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_found1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_found2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_found3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)
theorem dat1_found4 (c : Dev nD) (t : Fin cfg1.N) (d) : (dat1 V c).before 4 t d = blk1 V c 4 t :=
  ((dat1 V c).before_in_eq_fetched 4 rfl (fun _ => rfl) (fun _ _ _ => rfl)
    (fun t => by rw [dat1_after4]; unfold Dat.blockOf blk1; rw [dat1_A]; try rfl) t d).trans
    (by unfold Dat.fetched Dat.blockOf blk1; rw [dat1_A]; try rfl)

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d))
    ∗ (∃ d, owns (c : Thread nD τ) (m1_4 t) fullShare ((dat1 V c).before 4 t d))
    ∗ (∃ d, owns (c : Thread nD τ) (m1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The closed forms say which kind of step the point is; the inputs' buffers hold their
    blocks; the invariant hands over the accumulator at what the point before left (at anything at the very first
    point) and takes it back at this point's contents; the result's buffer is left alone except at a last step. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1, dat1_found2, dat1_found3, dat1_found4]
  rw [show (dat1 V c).owesAt () t.succ = (dat1 V c).owesAt () t.castSucc from rfl]
  rw [show (dat1 V c).Φ t.succ = Phi1 V c (t.val + 1) t.isLt from rfl, Phi1_succ]
  have hN : t.val < 2048 := lt_of_lt_of_eq t.isLt (show cfg1.N = 2048 from N_1)
  by_cases h0 : t.val % 32 = 0
  · have h1 : ¬t.val % 32 = 31 := by omega
    rw [show (dat1 V c).leavesExact 0 t = owns (c : Thread nD τ) (m1_0 t) fullShare ((dat1 V c).after 0 t) from by
      unfold Dat.leavesExact; rw [live1_0 t], dat1_after0]
    rw [show (dat1 V c).leavesExact 1 t = owns (c : Thread nD τ) (m1_1 t) fullShare ((dat1 V c).after 1 t) from by
      unfold Dat.leavesExact; rw [live1_1 t], dat1_after1]
    rw [show (dat1 V c).leavesExact 2 t = owns (c : Thread nD τ) (m1_2 t) fullShare ((dat1 V c).after 2 t) from by
      unfold Dat.leavesExact; rw [live1_2 t], dat1_after2]
    rw [show (dat1 V c).leavesExact 3 t = owns (c : Thread nD τ) (m1_3 t) fullShare ((dat1 V c).after 3 t) from by
      unfold Dat.leavesExact; rw [live1_3 t], dat1_after3]
    rw [show (dat1 V c).leavesExact 4 t = owns (c : Thread nD τ) (m1_4 t) fullShare ((dat1 V c).after 4 t) from by
      unfold Dat.leavesExact; rw [live1_4 t], dat1_after4]
    rw [Dat.leavesExact_idle (dat1 V c) 5 t (idle1_out t (fun h => h1 ((last1_iff t).mp h))) (keep1_out t (fun h => h1 ((last1_iff t).mp h)))]
    rw [scr1_first V c t h0 h1]
    unfold accFirst1; (try dsimp only)
    by_cases hz : t.val = 0
    · rw [dat1_Phi V c t, Phi1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) ((first1_iff t).mpr h0) (fun h => h1 ((last1_iff t).mp h)) (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_fills c t ((first1_iff t).mpr h0) (fun h => h1 ((last1_iff t).mp h)) (blk1 V c 0 t) (blk1 V c 1 t) (blk1 V c 2 t) (blk1 V c 3 t) (blk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
    · rw [dat1_Phi V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((first1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) ((first1_iff t).mpr h0) (fun h => h1 ((last1_iff t).mp h)) (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexists _; iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst1_fills c t ((first1_iff t).mpr h0) (fun h => h1 ((last1_iff t).mp h)) (blk1 V c 0 t) (blk1 V c 1 t) (blk1 V c 2 t) (blk1 V c 3 t) (blk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
  · have hz : t.val ≠ 0 := fun e => h0 (by rw [e])
    by_cases h1 : t.val % 32 = 31
    · skip
      rw [show (dat1 V c).leavesExact 0 t = owns (c : Thread nD τ) (m1_0 t) fullShare ((dat1 V c).after 0 t) from by
        unfold Dat.leavesExact; rw [live1_0 t], dat1_after0]
      rw [show (dat1 V c).leavesExact 1 t = owns (c : Thread nD τ) (m1_1 t) fullShare ((dat1 V c).after 1 t) from by
        unfold Dat.leavesExact; rw [live1_1 t], dat1_after1]
      rw [show (dat1 V c).leavesExact 2 t = owns (c : Thread nD τ) (m1_2 t) fullShare ((dat1 V c).after 2 t) from by
        unfold Dat.leavesExact; rw [live1_2 t], dat1_after2]
      rw [show (dat1 V c).leavesExact 3 t = owns (c : Thread nD τ) (m1_3 t) fullShare ((dat1 V c).after 3 t) from by
        unfold Dat.leavesExact; rw [live1_3 t], dat1_after3]
      rw [show (dat1 V c).leavesExact 4 t = owns (c : Thread nD τ) (m1_4 t) fullShare ((dat1 V c).after 4 t) from by
        unfold Dat.leavesExact; rw [live1_4 t], dat1_after4]
      rw [show (dat1 V c).leavesExact 5 t = owns (c : Thread nD τ) (m1_5 t) fullShare ((dat1 V c).after 5 t) from by
        unfold Dat.leavesExact; rw [live1_out t ((last1_iff t).mpr h1)], dat1_after5]
      rw [scr1_last V c t h0 h1, out1_last V c t h0 h1]
      unfold accLast1 outLast1; (try dsimp only)
      rw [dat1_Phi V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((last1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [HO]; · iexists _; iexact HO
      isplitl [HS]; · iexact HS
      iintro ⟨H0, H1, H2, H3, H4, ⟨%eO, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast1_fills c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact HO
      ipureintro; exact View.read_writes_of_cover _ _ _ _ _ (outLast1_fills c t (fun h => h0 ((first1_iff t).mp h)) ((last1_iff t).mpr h1) (blk1 V c 0 t) (blk1 V c 1 t) (blk1 V c 2 t) (blk1 V c 3 t) (blk1 V c 4 t) (scr1 V c (t.val - 1) (Nat.lt_of_le_of_lt (Nat.sub_le _ _) t.isLt)))
    · skip
      rw [show (dat1 V c).leavesExact 0 t = owns (c : Thread nD τ) (m1_0 t) fullShare ((dat1 V c).after 0 t) from by
        unfold Dat.leavesExact; rw [live1_0 t], dat1_after0]
      rw [show (dat1 V c).leavesExact 1 t = owns (c : Thread nD τ) (m1_1 t) fullShare ((dat1 V c).after 1 t) from by
        unfold Dat.leavesExact; rw [live1_1 t], dat1_after1]
      rw [show (dat1 V c).leavesExact 2 t = owns (c : Thread nD τ) (m1_2 t) fullShare ((dat1 V c).after 2 t) from by
        unfold Dat.leavesExact; rw [live1_2 t], dat1_after2]
      rw [show (dat1 V c).leavesExact 3 t = owns (c : Thread nD τ) (m1_3 t) fullShare ((dat1 V c).after 3 t) from by
        unfold Dat.leavesExact; rw [live1_3 t], dat1_after3]
      rw [show (dat1 V c).leavesExact 4 t = owns (c : Thread nD τ) (m1_4 t) fullShare ((dat1 V c).after 4 t) from by
        unfold Dat.leavesExact; rw [live1_4 t], dat1_after4]
      rw [Dat.leavesExact_idle (dat1 V c) 5 t (idle1_out t (fun h => h1 ((last1_iff t).mp h))) (keep1_out t (fun h => h1 ((last1_iff t).mp h)))]
      rw [scr1_mid V c t h0 h1]
      unfold accMid1; (try dsimp only)
      rw [dat1_Phi V c t, Phi1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((mid1Run c (grid1.coords t) (m1_0 t) (w1_0 t) (m1_1 t) (w1_1 t) (m1_2 t) (w1_2 t) (m1_3 t) (w1_3 t) (m1_4 t) (w1_4 t) (m1_5 t) (w1_5 t) acc1M (Memref.isWhole_whole _) (fun h => h0 ((first1_iff t).mp h)) (fun h => h1 ((last1_iff t).mp h)) (blk1 V c 0 t) (blk1 V c 1 t) (blk1 V c 2 t) (blk1 V c 3 t) (blk1 V c 4 t) (scr1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro; exact View.read_writes_of_cover _ _ _ _ _ (accMid1_fills c t (fun h => h0 ((first1_iff t).mp h)) (fun h => h1 ((last1_iff t).mp h)) (blk1 V c 0 t) (blk1 V c 1 t) (blk1 V c 2 t) (blk1 V c 3 t) (blk1 V c 4 t) (scr1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO

/-- The body obligation of the region, at every point. -/
theorem obligation1 (c : Dev nD) : BodyObligation (dat1 (F := F) V c) (defs₀ (F := F)) Variants.none () Set.univ := fun t => by
  rw [bigSep_W1, bigSep_W1]
  exact point1 V c t

/-- What the region is handed at its entry is the invariant before the first point; -/
theorem into1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point the invariant gives the same back: the accumulator's contents are forgotten. -/
theorem outOf1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 2048 := N_1; omega), PhiA1_eq]
  iintro ⟨⟨HS, Hrest⟩, Hg⟩
  isplitl [HS Hrest]
  · isplitl [HS]
    · iexists _; iexact HS
    iexact Hrest
  iexact Hg

end Data

end Cert.Kernel.Hand

end
-- ==== Proof.Region1ShareB.lean ====
/-
  Region 1's arrays as buffers. Its six windows sit on five arrays: the two operands of the block product are both
  windows on the normalised adjacency. Entering the region that array's buffer is split into two halves of the full
  share, one per window; leaving it the halves, which hold the same contents (neither window writes), are joined.
-/
import proofs.«148386_j953482740188_2_alg».proof.Proof.Gen.Kernel.Launch
import proofs.«148386_j953482740188_2_alg».proof.Proof.Gen.Kernel.Skeleton
import proofs.«148386_j953482740188_2_alg».proof.Proof.Gen.Kernel.Points
import proofs.«148386_j953482740188_2_alg».proof.Proof.Region1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares

variable (V : (c : Dev nD) → (b : Ref sig .tc) → Buf (Elt F) ((c : Thread nD τ).loc b))

/-- The five buffers behind the six windows, one by one. -/
theorem arrBufs1_eq (c : Dev nD) (V' : (b : Ref sig .tc) → Buf (Elt F) ((c : Thread nD τ).loc b)) :
    (Pipeline.arrBufs spec1 c V' : sProp 𝕄)
      = iprop((((c.tc : Thread nD τ).loc main_v12) ↦{fullShare} V' main_v12) ∗ (((c.tc : Thread nD τ).loc main_arg1) ↦{fullShare} V' main_arg1)
          ∗ (((c.tc : Thread nD τ).loc main_v5) ↦{fullShare} V' main_v5) ∗ (((c.tc : Thread nD τ).loc main_v11) ↦{fullShare} V' main_v11)
          ∗ (((c.tc : Thread nD τ).loc main_v13) ↦{fullShare} V' main_v13)) := by
  unfold Pipeline.arrBufs
  exact bigSep_eq_bigSepL_of_eq [main_v12, main_arg1, main_v5, main_v11, main_v13] (by decide) (by decide) _

/-- The windows' arrays, window by window, each a whole buffer at its window's share. -/
theorem arrays1_eq (c : Dev nD) (G : (w : Fin cfg1.W) → Buf (Elt F) ((cfg1.win w).arr.view.loc (c.tc : Thread nD τ))) :
    ((dat1 V c).arrays G : sProp 𝕄)
      = bigSep Finset.univ fun w => (((c.tc : Thread nD τ).loc (Pipeline.arrRef spec1 w)) ↦{(dat1 V c).share w} G w : sProp 𝕄) := by
  unfold Dat.arrays
  exact bigSep_congr fun w _ => by rw [(arr_whole1 w).set_eq_univ]

/-- ENTRY: the five buffers at the contents the region finds are the six windows' arrays at entry. -/
theorem arrays1_in (c : Dev nD) :
    (Pipeline.arrBufs spec1 c (V c) : sProp 𝕄) ⊢ (dat1 V c).arrays ((dat1 V c).arrAt · 0) := by
  rw [arrays1_eq, bigSep_W1, arrBufs1_eq]
  iintro ⟨H12, Ha, H5, H11, H13⟩
  ihave Hs := (pointsTo_share (PosShare.mem_left_op_right fullShare)).1 $$ H12
  icases Hs with ⟨Hl, Hr⟩
  isplitl [Hl]; · iexact Hl
  isplitl [Hr]; · iexact Hr
  isplitl [Ha]; · iexact Ha
  isplitl [H5]; · iexact H5
  isplitl [H11]; · iexact H11
  iexact H13

/-- EXIT: the six arrays at contents `G` — each being what the contents `V'` name for its buffer — are the five
    buffers at `V'`: the two halves of the shared one hold the same contents and are joined. -/
theorem arrays1_out (c : Dev nD) (V' : (b : Ref sig .tc) → Buf (Elt F) ((c : Thread nD τ).loc b))
    (G : (w : Fin cfg1.W) → Buf (Elt F) ((cfg1.win w).arr.view.loc (c.tc : Thread nD τ)))
    (hG : ∀ w : Fin 6, G w = V' (Pipeline.arrRef spec1 w)) :
    ((dat1 V c).arrays G : sProp 𝕄) ⊢ Pipeline.arrBufs spec1 c V' := by
  obtain rfl : G = fun w => V' (Pipeline.arrRef spec1 w) := funext hG
  rw [arrays1_eq, bigSep_W1, arrBufs1_eq]
  iintro ⟨Hl, Hr, Ha, H5, H11, H13⟩
  isplitl [Hl Hr]
  · iapply (pointsTo_share (PosShare.mem_left_op_right fullShare)).2
    isplitl [Hl]; · iexact Hl
    iexact Hr
  isplitl [Ha]; · iexact Ha
  isplitl [H5]; · iexact H5
  isplitl [H11]; · iexact H11
  iexact H13

end Shares

end Cert.Kernel.Hand

end
-- ==== Proof.Region2B.lean ====
/-
  The third kernel region: the hidden layer, a dense matrix times a tall thin one, row block by row block.

  The grid is 16 row blocks by 16 steps of the contracted axis, steps innermost. At point (i, k) the body holds the
  512 × 512 block (i, k) of the filter matrix and the whole 8192 × 256 right-hand matrix; it adds to a scratch
  accumulator the product of the block with rows 512·k … 512·k + 511 of the right-hand matrix — clearing the
  accumulator first when k = 0 — and when k = 15 stores the accumulator's positive part into row block i of the
  result. The accumulator is the one thing carried from point to point.
-/
import proofs.«148386_j953482740188_2_alg».proof.Proof.Gen.Kernel.Launch
import proofs.«148386_j953482740188_2_alg».proof.Proof.Gen.Kernel.Skeleton
import proofs.«148386_j953482740188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

/-- The first step of a block's accumulation: the contracted-axis coordinate is zero. -/
abbrev first2 (i : grid2.Coords) : Prop :=
  (Scalar.cmpi .ne (Scalar.extui (Scalar.cmpi .eq (BitVec.ofNat 32 (i 1).val) 0#32)) 0#32) = 1#1
/-- The steps are the innermost grid axis, 16 of them: the first steps are the points ≡ 0 (mod 16). -/
theorem first2_iff : ∀ t : Fin cfg2.N, first2 (grid2.coords t) ↔ t.val % 16 = 0 :=
  (by decide +kernel : ∀ t : Fin grid2.N, first2 (grid2.coords t) ↔ t.val % 16 = 0)
/-- The last step: the coordinate is 15. -/
abbrev last2 (i : grid2.Coords) : Prop := k2_cond2 i = 1#1
theorem last2_iff : ∀ t : Fin cfg2.N, last2 (grid2.coords t) ↔ t.val % 16 = 15 :=
  (by decide +kernel : ∀ t : Fin grid2.N, last2 (grid2.coords t) ↔ t.val % 16 = 15)

/-- Before the last step nothing is stored into the result's buffer and its block is not written back; -/
theorem idle2_out : ∀ t : Fin cfg2.N, ¬last2 (grid2.coords t) → cfg2.idle 2 (grid2.coords t) = true := by decide +kernel
theorem keep2_out : ∀ t : Fin cfg2.N, ¬last2 (grid2.coords t) → (cfg2.win 2).flush t = false := by decide +kernel
/-- at the last step it is stored. -/
theorem live2_out : ∀ t : Fin cfg2.N, last2 (grid2.coords t) → cfg2.idle 2 (grid2.coords t) = false := by decide +kernel

set_option maxHeartbeats 1000000 in
/-- A first step: the accumulator is cleared, then the step's product is added. The pieces stored into the
    accumulator are those the run finds. -/
noncomputable def first2Run (c : Dev nD) (i : grid2.Coords) (arg2 : Memref sig .tc .vmem S512x512 .f32) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole) (h0 : first2 i) (h1 : ¬last2 i)
    (a : Vec F S512x512 .f32) (mm : Vec F S8192x256 .f32) :
    { LS : List (View.Piece (Elt F) S512x256 .f32) //
      ∀ (xo : Vec F S512x256 .f32) (E : Set ℕ) (K : PUnit → sProp 𝕄),
        iprop(owns (c : Thread nD τ) arg2 fullShare a ∗ owns (c : Thread nD τ) arg3 fullShare mm ∗ owns (c : Thread nD τ) arg4 fullShare xo ∗ (∃ d, owns (c : Thread nD τ) arg5 fullShare d)
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xo E K => ?run⟩
  case run =>
    simp only [cc2__spmm_kernel_eq_skeleton]; unfold cc2__spmm_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A middle step: the product is added to what the accumulator held, `acc`. -/
noncomputable def mid2Run (c : Dev nD) (i : grid2.Coords) (arg2 : Memref sig .tc .vmem S512x512 .f32) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole) (h0 : ¬first2 i) (h1 : ¬last2 i)
    (a : Vec F S512x512 .f32) (mm : Vec F S8192x256 .f32) (acc : Vec F S512x256 .f32) :
    { LS : List (View.Piece (Elt F) S512x256 .f32) //
      ∀ (xo : Vec F S512x256 .f32) (E : Set ℕ) (K : PUnit → sProp 𝕄),
        iprop(owns (c : Thread nD τ) arg2 fullShare a ∗ owns (c : Thread nD τ) arg3 fullShare mm ∗ owns (c : Thread nD τ) arg4 fullShare xo ∗ owns (c : Thread nD τ) arg5 fullShare acc
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xo E K => ?run⟩
  case run =>
    simp only [cc2__spmm_kernel_eq_skeleton]; unfold cc2__spmm_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A last step: the product is added, and the block's value is stored into the result's buffer. -/
noncomputable def last2Run (c : Dev nD) (i : grid2.Coords) (arg2 : Memref sig .tc .vmem S512x512 .f32) (harg2 : arg2.IsWhole) (arg3 : Memref sig .tc .vmem S8192x256 .f32) (harg3 : arg3.IsWhole) (arg4 : Memref sig .tc .vmem S512x256 .f32) (harg4 : arg4.IsWhole) (arg5 : Memref sig .tc .vmem S512x256 .f32) (harg5 : arg5.IsWhole) (h0 : ¬first2 i) (h1 : last2 i)
    (a : Vec F S512x512 .f32) (mm : Vec F S8192x256 .f32) (acc : Vec F S512x256 .f32) :
    Σ' (LO : List (View.Piece (Elt F) S512x256 .f32)), { LS : List (View.Piece (Elt F) S512x256 .f32) //
      ∀ (E : Set ℕ) (K : PUnit → sProp 𝕄),
        iprop(owns (c : Thread nD τ) arg2 fullShare a ∗ owns (c : Thread nD τ) arg3 fullShare mm ∗ (∃ d, owns (c : Thread nD τ) arg4 fullShare d) ∗ owns (c : Thread nD τ) arg5 fullShare acc
            ∗ (iprop(owns (c : Thread nD τ) arg2 fullShare a ∗ owns (c : Thread nD τ) arg3 fullShare mm ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cases

section Data

-- the TensorCore's buffers as the region finds them
variable (V : (c : Dev nD) → (b : Ref sig .tc) → Buf (Elt F) ((c : Thread nD τ).loc b))

/-- Window `w`'s block of its array at grid point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffers the body is called with at point `t`: each window's current staging buffer, and the accumulator. -/
abbrev m2_0 (t : Fin cfg2.N) : Memref sig .tc .vmem S512x512 .f32 := win2_0.stage (cfg2.slots t 0)
abbrev w2_0 (t : Fin cfg2.N) : (m2_0 t).IsWhole := hstage2_0 ((cfg2.slots t 0).cast nbuf2_0)
abbrev m2_1 (t : Fin cfg2.N) : Memref sig .tc .vmem S8192x256 .f32 := win2_1.stage (cfg2.slots t 1)
abbrev w2_1 (t : Fin cfg2.N) : (m2_1 t).IsWhole := hstage2_1 ((cfg2.slots t 1).cast nbuf2_1)
abbrev m2_2 (t : Fin cfg2.N) : Memref sig .tc .vmem S512x256 .f32 := win2_2.stage (cfg2.slots t 2)
abbrev w2_2 (t : Fin cfg2.N) : (m2_2 t).IsWhole := hstage2_2 ((cfg2.slots t 2).cast nbuf2_2)
abbrev acc2M : Memref sig .tc .vmem S512x256 .f32 := Memref.whole cc2_scratch0
/-- The views through which the accumulator's and the result buffer's contents are stated. -/
abbrev acc2V : View sig .tc .vmem S512x256 .f32 := acc2M.view
abbrev out2V : View sig .tc .vmem S512x256 .f32 := (Memref.whole cc2_stg2_0 : Memref sig .tc .vmem S512x256 .f32).view

/-- The inputs are read at every point. -/
theorem live2_0 : ∀ t : Fin cfg2.N, cfg2.idle 0 (grid2.coords t) = false := fun _ => rfl
theorem live2_1 : ∀ t : Fin cfg2.N, cfg2.idle 1 (grid2.coords t) = false := fun _ => rfl

/-- The accumulator after a first step: the pieces that step stores, read back. They fill it. -/
def accFirst2 (c : Dev nD) (t : Fin cfg2.N) (h0 : first2 (grid2.coords t)) (h1 : ¬last2 (grid2.coords t))
    (a : Vec F S512x512 .f32) (mm : Vec F S8192x256 .f32) : Vec F S512x256 .f32 :=
  acc2V.read (Elt F) (acc2V.writes (Elt F) acc2V.junk (first2Run c (grid2.coords t) (m2_0 t) (w2_0 t) (m2_1 t) (w2_1 t) (m2_2 t) (w2_2 t) acc2M (Memref.isWhole_whole _) h0 h1 a mm).1)
theorem accFirst2_fills (c : Dev nD) (t : Fin cfg2.N) (h0 : first2 (grid2.coords t)) (h1 : ¬last2 (grid2.coords t))
    (a : Vec F S512x512 .f32) (mm : Vec F S8192x256 .f32) (y : S512x256.Idx) :
    ∃ pc ∈ (first2Run c (grid2.coords t) (m2_0 t) (w2_0 t) (m2_1 t) (w2_1 t) (m2_2 t) (w2_2 t) acc2M (Memref.isWhole_whole _) h0 h1 a mm).1, y ∈ pc.1.set :=
  View.cover_of_tiledL (first2Run c (grid2.coords t) (m2_0 t) (w2_0 t) (m2_1 t) (w2_1 t) (m2_2 t) (w2_2 t) acc2M (Memref.isWhole_whole _) h0 h1 a mm).1 S512x256.size (by sl_kernel_rfl) y

/-- After a middle step, over what it held before. -/
def accMid2 (c : Dev nD) (t : Fin cfg2.N) (h0 : ¬first2 (grid2.coords t)) (h1 : ¬last2 (grid2.coords t))
    (a : Vec F S512x512 .f32) (mm : Vec F S8192x256 .f32) (acc : Vec F S512x256 .f32) : Vec F S512x256 .f32 :=
  acc2V.read (Elt F) (acc2V.writes (Elt F) acc2V.junk (mid2Run c (grid2.coords t) (m2_0 t) (w2_0 t) (m2_1 t) (w2_1 t) (m2_2 t) (w2_2 t) acc2M (Memref.isWhole_whole _) h0 h1 a mm acc).1)
theorem accMid2_fills (c : Dev nD) (t : Fin cfg2.N) (h0 : ¬first2 (grid2.coords t)) (h1 : ¬last2 (grid2.coords t))
    (a : Vec F S512x512 .f32) (mm : Vec F S8192x256 .f32) (acc : Vec F S512x256 .f32) (y : S512x256.Idx) :
    ∃ pc ∈ (mid2Run c (grid2.coords t) (m2_0 t) (w2_0 t) (m2_1 t) (w2_1 t) (m2_2 t) (w2_2 t) acc2M (Memref.isWhole_whole _) h0 h1 a mm acc).1, y ∈ pc.1.set :=
  View.cover_of_tiledL (mid2Run c (grid2.coords t) (m2_0 t) (w2_0 t) (m2_1 t) (w2_1 t) (m2_2 t) (w2_2 t) acc2M (Memref.isWhole_whole _) h0 h1 a mm acc).1 S512x256.size (by sl_kernel_rfl) y

/-- After a last step, and what that step stores into the result's buffer. -/
def accLast2 (c : Dev nD) (t : Fin cfg2.N) (h0 : ¬first2 (grid2.coords t)) (h1 : last2 (grid2.coords t))
    (a : Vec F S512x512 .f32) (mm : Vec F S8192x256 .f32) (acc : Vec F S512x256 .f32) : Vec F S512x256 .f32 :=
  acc2V.read (Elt F) (acc2V.writes (Elt F) acc2V.junk (last2Run c (grid2.coords t) (m2_0 t) (w2_0 t) (m2_1 t) (w2_1 t) (m2_2 t) (w2_2 t) acc2M (Memref.isWhole_whole _) h0 h1 a mm acc).2.1)
theorem accLast2_fills (c : Dev nD) (t : Fin cfg2.N) (h0 : ¬first2 (grid2.coords t)) (h1 : last2 (grid2.coords t))
    (a : Vec F S512x512 .f32) (mm : Vec F S8192x256 .f32) (acc : Vec F S512x256 .f32) (y : S512x256.Idx) :
    ∃ pc ∈ (last2Run c (grid2.coords t) (m2_0 t) (w2_0 t) (m2_1 t) (w2_1 t) (m2_2 t) (w2_2 t) acc2M (Memref.isWhole_whole _) h0 h1 a mm acc).2.1, y ∈ pc.1.set :=
  View.cover_of_tiledL (last2Run c (grid2.coords t) (m2_0 t) (w2_0 t) (m2_1 t) (w2_1 t) (m2_2 t) (w2_2 t) acc2M (Memref.isWhole_whole _) h0 h1 a mm acc).2.1 S512x256.size (by sl_kernel_rfl) y
def outLast2 (c : Dev nD) (t : Fin cfg2.N) (h0 : ¬first2 (grid2.coords t)) (h1 : last2 (grid2.coords t))
    (a : Vec F S512x512 .f32) (mm : Vec F S8192x256 .f32) (acc : Vec F S512x256 .f32) : Vec F S512x256 .f32 :=
  out2V.read (Elt F) (out2V.writes (Elt F) out2V.junk (last2Run c (grid2.coords t) (m2_0 t) (w2_0 t) (m2_1 t) (w2_1 t) (m2_2 t) (w2_2 t) acc2M (Memref.isWhole_whole _) h0 h1 a mm acc).1)
theorem outLast2_fills (c : Dev nD) (t : Fin cfg2.N) (h0 : ¬first2 (grid2.coords t)) (h1 : last2 (grid2.coords t))
    (a : Vec F S512x512 .f32) (mm : Vec F S8192x256 .f32) (acc : Vec F S512x256 .f32) (y : S512x256.Idx) :
    ∃ pc ∈ (last2Run c (grid2.coords t) (m2_0 t) (w2_0 t) (m2_1 t) (w2_1 t) (m2_2 t) (w2_2 t) acc2M (Memref.isWhole_whole _) h0 h1 a mm acc).1, y ∈ pc.1.set :=
  View.cover_of_tiledL (last2Run c (grid2.coords t) (m2_0 t) (w2_0 t) (m2_1 t) (w2_1 t) (m2_2 t) (w2_2 t) acc2M (Memref.isWhole_whole _) h0 h1 a mm acc).1 S512x256.size (by sl_kernel_rfl) y

/-- THE ACCUMULATION: what the accumulator holds after the body at position `n` — a first step starts afresh from the
    point's blocks, every other step builds on what the position before left. -/
def scr2 (c : Dev nD) : (n : ℕ) → n < cfg2.N → Vec F S512x256 .f32
  | 0, hn => accFirst2 c ⟨0, hn⟩ ((first2_iff ⟨0, hn⟩).mpr (Nat.zero_mod _))
      (fun h => (fun h => by (try dsimp only at h); omega) ((last2_iff ⟨0, hn⟩).mp h)) (blk2 V c 0 ⟨0, hn⟩) (blk2 V c 1 ⟨0, hn⟩)
  | n + 1, hn =>
    if h0 : (n + 1) % 16 = 0 then
      accFirst2 c ⟨n + 1, hn⟩ ((first2_iff ⟨n + 1, hn⟩).mpr h0)
        (fun h => (fun h => by (try dsimp only at h); omega) ((last2_iff ⟨n + 1, hn⟩).mp h)) (blk2 V c 0 ⟨n + 1, hn⟩) (blk2 V c 1 ⟨n + 1, hn⟩)
    else if h1 : (n + 1) % 16 = 15 then
      accLast2 c ⟨n + 1, hn⟩ (fun h => h0 ((first2_iff ⟨n + 1, hn⟩).mp h)) ((last2_iff ⟨n + 1, hn⟩).mpr h1)
        (blk2 V c 0 ⟨n + 1, hn⟩) (blk2 V c 1 ⟨n + 1, hn⟩) (scr2 c n (Nat.lt_of_succ_lt hn))
    else
      accMid2 c ⟨n + 1, hn⟩ (fun h => h0 ((first2_iff ⟨n + 1, hn⟩).mp h)) (fun h => h1 ((last2_iff ⟨n + 1, hn⟩).mp h))
        (blk2 V c 0 ⟨n + 1, hn⟩) (blk2 V c 1 ⟨n + 1, hn⟩) (scr2 c n (Nat.lt_of_succ_lt hn))

theorem scr2_first (c : Dev nD) (t : Fin cfg2.N) (h0 : t.val % 16 = 0) (h1 : ¬t.val % 16 = 15) :
    scr2 V c t.val t.isLt = accFirst2 c t ((first2_iff t).mpr h0) (fun h => h1 ((last2_iff t).mp h)) (blk2 V c 0 t) (blk2 V c 1 t) := by
  obtain ⟨n, hn⟩ := t
  cases n with
  | zero => exact rfl
  | succ n => exact (dif_pos h0).trans rfl
theorem scr2_mid (c : Dev nD) (t : Fin cfg2.N) (h0 : ¬t.val % 16 = 0) (h1 : ¬t.val % 16 = 15) :
    scr2 V c t.val t.isLt = accMid2 c t (fun h => h0 ((first2_iff t).mp h)) (fun h => h1 ((last2_iff t).mp h)) (blk2 V c 0 t) (blk2 V c 1 t) (scr2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem scr2_last (c : Dev nD) (t : Fin cfg2.N) (h0 : ¬t.val % 16 = 0) (h1 : t.val % 16 = 15) :
    scr2 V c t.val t.isLt = accLast2 c t (fun h => h0 ((first2_iff t).mp h)) ((last2_iff t).mpr h1) (blk2 V c 0 t) (blk2 V c 1 t) (scr2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's buffer holds after point `t`: at a last step what that step stores; at any other step the
    buffer is not touched, and nothing reads this value. -/
def out2 (c : Dev nD) (t : Fin cfg2.N) : Vec F S512x256 .f32 :=
  if h1 : t.val % 16 = 15 then
    outLast2 c t (fun h => (fun h => by omega) ((first2_iff t).mp h)) ((last2_iff t).mpr h1) (blk2 V c 0 t) (blk2 V c 1 t) (scr2 V c (t.val - 1) (Nat.lt_of_le_of_lt (Nat.sub_le _ _) t.isLt))
  else View.canon []
theorem out2_last (c : Dev nD) (t : Fin cfg2.N) (h0 : ¬t.val % 16 = 0) (h1 : t.val % 16 = 15) :
    out2 V c t = outLast2 c t (fun h => h0 ((first2_iff t).mp h)) ((last2_iff t).mpr h1) (blk2 V c 0 t) (blk2 V c 1 t) (scr2 V c (t.val - 1) (Nat.lt_of_le_of_lt (Nat.sub_le _ _) t.isLt)) := by
  unfold out2; rw [dif_pos h1]

/-- The invariant before position `n`: before the first point every scoped buffer at anything; afterwards the
    accumulator at what the position before left, the other scoped buffers at anything. -/
def Phi2 (c : Dev nD) : (n : ℕ) → n ≤ cfg2.N → sProp 𝕄
  | 0, _ => Pipeline.ΦA spec2 c
  | n + 1, hn => iprop(iprop(owns (c : Thread nD τ) acc2M fullShare (scr2 V c n hn) ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) acc2M fullShare (scr2 V c n hn) ∗ Pipeline.scopedRestBut (Ix := Unit) (Name := ℕ) (U := UR sig nD τ) (Lvl := ℕ) (Val := Elt F) spec2 c [cc2_scratch0]) ∗ (∃ r, prngReg c r)) := rfl
theorem Phi2_pos (c : Dev nD) (n : ℕ) (h : n ≤ cfg2.N) (hz : n ≠ 0) :
    Phi2 V c n h = iprop(iprop(owns (c : Thread nD τ) acc2M fullShare (scr2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- Before the first point: the accumulator at anything, the other scoped buffers at anything. -/
theorem PhiA2_eq (c : Dev nD) :
    (Pipeline.ΦA spec2 c : sProp 𝕄)
      = iprop(iprop((∃ d, owns (c : Thread nD τ) acc2M fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [acc2M, owns_whole]; try rfl

/-- The region's proof data. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 V c t
  Φ t := Phi2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_Phi (c : Dev nD) (t : Fin cfg2.N) : (dat2 V c).Φ t.castSucc = Phi2 V c t.val (Nat.le_of_lt t.isLt) := by
  dsimp only [dat2]; simp only [Fin.coe_castSucc]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = out2 V c t := by dsimp only [dat2]

/-- An input's buffer holds its block at every point: fetched there, or left from the point before, whose block index
    is the same. -/
theorem dat2_found0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_found1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- What the body is called with at point `t`, -/
def pre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The closed forms say which kind of step the point is; the inputs' buffers hold their
    blocks; the invariant hands over the accumulator at what the point before left (at anything at the very first
    point) and takes it back at this point's contents; the result's buffer is left alone except at a last step. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_found0, dat2_found1]
  rw [show (dat2 V c).owesAt () t.succ = (dat2 V c).owesAt () t.castSucc from rfl]
  rw [show (dat2 V c).Φ t.succ = Phi2 V c (t.val + 1) t.isLt from rfl, Phi2_succ]
  have hN : t.val < 256 := lt_of_lt_of_eq t.isLt (show cfg2.N = 256 from N_2)
  by_cases h0 : t.val % 16 = 0
  · have h1 : ¬t.val % 16 = 15 := by omega
    rw [show (dat2 V c).leavesExact 0 t = owns (c : Thread nD τ) (m2_0 t) fullShare ((dat2 V c).after 0 t) from by
      unfold Dat.leavesExact; rw [live2_0 t], dat2_after0]
    rw [show (dat2 V c).leavesExact 1 t = owns (c : Thread nD τ) (m2_1 t) fullShare ((dat2 V c).after 1 t) from by
      unfold Dat.leavesExact; rw [live2_1 t], dat2_after1]
    rw [Dat.leavesExact_idle (dat2 V c) 2 t (idle2_out t (fun h => h1 ((last2_iff t).mp h))) (keep2_out t (fun h => h1 ((last2_iff t).mp h)))]
    rw [scr2_first V c t h0 h1]
    unfold accFirst2; (try dsimp only)
    by_cases hz : t.val = 0
    · rw [dat2_Phi V c t, Phi2_zero V c _ _ hz, PhiA2_eq]
      iintro ⟨⟨⟨HS, Hrest⟩, Hg⟩, Ho, ⟨%d0, H0⟩, ⟨%d1, H1⟩, ⟨%dO, HO⟩⟩
      iapply ((first2Run c (grid2.coords t) (m2_0 t) (w2_0 t) (m2_1 t) (w2_1 t) (m2_2 t) (w2_2 t) acc2M (Memref.isWhole_whole _) ((first2_iff t).mpr h0) (fun h => h1 ((last2_iff t).mp h)) (blk2 V c 0 t) (blk2 V c 1 t)).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_fills c t ((first2_iff t).mpr h0) (fun h => h1 ((last2_iff t).mp h)) (blk2 V c 0 t) (blk2 V c 1 t))
          iexact Hrest
        iexact Hg
      isplitl [Ho]; · iexact Ho
      isplitl [H0]; · iexact H0
      isplitl [H1]; · iexact H1
      iexists _; iexact HO
    · rw [dat2_Phi V c t, Phi2_pos V c _ _ hz]
      iintro ⟨⟨⟨HS, Hrest⟩, Hg⟩, Ho, ⟨%d0, H0⟩, ⟨%d1, H1⟩, ⟨%dO, HO⟩⟩
      iapply ((first2Run c (grid2.coords t) (m2_0 t) (w2_0 t) (m2_1 t) (w2_1 t) (m2_2 t) (w2_2 t) acc2M (Memref.isWhole_whole _) ((first2_iff t).mpr h0) (fun h => h1 ((last2_iff t).mp h)) (blk2 V c 0 t) (blk2 V c 1 t)).2 _ Set.univ _)
      isplitl [H0]; · iexact H0
      isplitl [H1]; · iexact H1
      isplitl [HO]; · iexact HO
      isplitl [HS]; · iexists _; iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst2_fills c t ((first2_iff t).mpr h0) (fun h => h1 ((last2_iff t).mp h)) (blk2 V c 0 t) (blk2 V c 1 t))
          iexact Hrest
        iexact Hg
      isplitl [Ho]; · iexact Ho
      isplitl [H0]; · iexact H0
      isplitl [H1]; · iexact H1
      iexists _; iexact HO
  · have hz : t.val ≠ 0 := fun e => h0 (by rw [e])
    by_cases h1 : t.val % 16 = 15
    · skip
      rw [show (dat2 V c).leavesExact 0 t = owns (c : Thread nD τ) (m2_0 t) fullShare ((dat2 V c).after 0 t) from by
        unfold Dat.leavesExact; rw [live2_0 t], dat2_after0]
      rw [show (dat2 V c).leavesExact 1 t = owns (c : Thread nD τ) (m2_1 t) fullShare ((dat2 V c).after 1 t) from by
        unfold Dat.leavesExact; rw [live2_1 t], dat2_after1]
      rw [show (dat2 V c).leavesExact 2 t = owns (c : Thread nD τ) (m2_2 t) fullShare ((dat2 V c).after 2 t) from by
        unfold Dat.leavesExact; rw [live2_out t ((last2_iff t).mpr h1)], dat2_after2]
      rw [scr2_last V c t h0 h1, out2_last V c t h0 h1]
      unfold accLast2 outLast2; (try dsimp only)
      rw [dat2_Phi V c t, Phi2_pos V c _ _ hz]
      iintro ⟨⟨⟨HS, Hrest⟩, Hg⟩, Ho, ⟨%d0, H0⟩, ⟨%d1, H1⟩, ⟨%dO, HO⟩⟩
      iapply ((last2Run c (grid2.coords t) (m2_0 t) (w2_0 t) (m2_1 t) (w2_1 t) (m2_2 t) (w2_2 t) acc2M (Memref.isWhole_whole _) (fun h => h0 ((first2_iff t).mp h)) ((last2_iff t).mpr h1) (blk2 V c 0 t) (blk2 V c 1 t) (scr2 V c (t.val - 1) (Nat.lt_of_le_of_lt (Nat.sub_le _ _) t.isLt))).2.2 Set.univ _)
      isplitl [H0]; · iexact H0
      isplitl [H1]; · iexact H1
      isplitl [HO]; · iexists _; iexact HO
      isplitl [HS]; · iexact HS
      iintro ⟨H0, H1, ⟨%eO, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast2_fills c t (fun h => h0 ((first2_iff t).mp h)) ((last2_iff t).mpr h1) (blk2 V c 0 t) (blk2 V c 1 t) (scr2 V c (t.val - 1) (Nat.lt_of_le_of_lt (Nat.sub_le _ _) t.isLt)))
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (outLast2_fills c t (fun h => h0 ((first2_iff t).mp h)) ((last2_iff t).mpr h1) (blk2 V c 0 t) (blk2 V c 1 t) (scr2 V c (t.val - 1) (Nat.lt_of_le_of_lt (Nat.sub_le _ _) t.isLt)))
    · skip
      rw [show (dat2 V c).leavesExact 0 t = owns (c : Thread nD τ) (m2_0 t) fullShare ((dat2 V c).after 0 t) from by
        unfold Dat.leavesExact; rw [live2_0 t], dat2_after0]
      rw [show (dat2 V c).leavesExact 1 t = owns (c : Thread nD τ) (m2_1 t) fullShare ((dat2 V c).after 1 t) from by
        unfold Dat.leavesExact; rw [live2_1 t], dat2_after1]
      rw [Dat.leavesExact_idle (dat2 V c) 2 t (idle2_out t (fun h => h1 ((last2_iff t).mp h))) (keep2_out t (fun h => h1 ((last2_iff t).mp h)))]
      rw [scr2_mid V c t h0 h1]
      unfold accMid2; (try dsimp only)
      rw [dat2_Phi V c t, Phi2_pos V c _ _ hz]
      iintro ⟨⟨⟨HS, Hrest⟩, Hg⟩, Ho, ⟨%d0, H0⟩, ⟨%d1, H1⟩, ⟨%dO, HO⟩⟩
      iapply ((mid2Run c (grid2.coords t) (m2_0 t) (w2_0 t) (m2_1 t) (w2_1 t) (m2_2 t) (w2_2 t) acc2M (Memref.isWhole_whole _) (fun h => h0 ((first2_iff t).mp h)) (fun h => h1 ((last2_iff t).mp h)) (blk2 V c 0 t) (blk2 V c 1 t) (scr2 V c (t.val - 1) (Nat.lt_of_le_of_lt (Nat.sub_le _ _) t.isLt))).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accMid2_fills c t (fun h => h0 ((first2_iff t).mp h)) (fun h => h1 ((last2_iff t).mp h)) (blk2 V c 0 t) (blk2 V c 1 t) (scr2 V c (t.val - 1) (Nat.lt_of_le_of_lt (Nat.sub_le _ _) t.isLt)))
          iexact Hrest
        iexact Hg
      isplitl [Ho]; · iexact Ho
      isplitl [H0]; · iexact H0
      isplitl [H1]; · iexact H1
      iexists _; iexact HO

/-- The body obligation of the region, at every point. -/
theorem obligation2 (c : Dev nD) : BodyObligation (dat2 (F := F) V c) (defs₀ (F := F)) Variants.none () Set.univ := fun t => by
  rw [bigSep_W2, bigSep_W2]
  exact point2 V c t

/-- What the region is handed at its entry is the invariant before the first point; -/
theorem into2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- and after the last point the invariant gives the same back: the accumulator's contents are forgotten. -/
theorem outOf2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 256 := N_2; omega), PhiA2_eq]
  iintro ⟨⟨HS, Hrest⟩, Hg⟩
  isplitl [HS Hrest]
  · isplitl [HS]
    · iexists _; iexact HS
    iexact Hrest
  iexact Hg

end Data

end Cert.Kernel.Hand

end
-- ==== Proof.Region3B.lean ====
/-
  The fourth kernel region: the output layer, the same dense-times-thin product as the hidden layer's with a
  right-hand matrix of two columns and no clamping at the end.

  The grid is 16 row blocks by 16 steps of the contracted axis, steps innermost. At point (i, k) the body adds to a
  scratch accumulator the product of the 512 × 512 block (i, k) of the filter matrix with rows 512·k … 512·k + 511 of
  the resident 8192 × 2 matrix — clearing the accumulator first when k = 0 — and when k = 15 stores the accumulator
  into row block i of the result. The accumulator is the one thing carried from point to point.
-/
import proofs.«148386_j953482740188_2_alg».proof.Proof.Gen.Kernel.Launch
import proofs.«148386_j953482740188_2_alg».proof.Proof.Gen.Kernel.Skeleton
import proofs.«148386_j953482740188_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

/-- The first step of a block's accumulation: the contracted-axis coordinate is zero. -/
abbrev first3 (i : grid3.Coords) : Prop :=
  (Scalar.cmpi .ne (Scalar.extui (Scalar.cmpi .eq (BitVec.ofNat 32 (i 1).val) 0#32)) 0#32) = 1#1
/-- The steps are the innermost grid axis, 16 of them: the first steps are the points ≡ 0 (mod 16). -/
theorem first3_iff : ∀ t : Fin cfg3.N, first3 (grid3.coords t) ↔ t.val % 16 = 0 :=
  (by decide +kernel : ∀ t : Fin grid3.N, first3 (grid3.coords t) ↔ t.val % 16 = 0)
/-- The last step: the coordinate is 15. -/
abbrev last3 (i : grid3.Coords) : Prop := k3_cond2 i = 1#1
theorem last3_iff : ∀ t : Fin cfg3.N, last3 (grid3.coords t) ↔ t.val % 16 = 15 :=
  (by decide +kernel : ∀ t : Fin grid3.N, last3 (grid3.coords t) ↔ t.val % 16 = 15)

/-- Before the last step nothing is stored into the result's buffer and its block is not written back; -/
theorem idle3_out : ∀ t : Fin cfg3.N, ¬last3 (grid3.coords t) → cfg3.idle 2 (grid3.coords t) = true := by decide +kernel
theorem keep3_out : ∀ t : Fin cfg3.N, ¬last3 (grid3.coords t) → (cfg3.win 2).flush t = false := by decide +kernel
/-- at the last step it is stored. -/
theorem live3_out : ∀ t : Fin cfg3.N, last3 (grid3.coords t) → cfg3.idle 2 (grid3.coords t) = false := by decide +kernel

set_option maxHeartbeats 1000000 in
/-- A first step: the accumulator is cleared, then the step's product is added. The pieces stored into the
    accumulator are those the run finds. -/
noncomputable def first3Run (c : Dev nD) (i : grid3.Coords) (arg2 : Memref sig .tc .vmem S512x512 .f32) (harg2 : arg2.IsWhole) (arg3 : Memref sig .tc .vmem S8192x2 .f32) (harg3 : arg3.IsWhole) (arg4 : Memref sig .tc .vmem S512x2 .f32) (harg4 : arg4.IsWhole) (arg5 : Memref sig .tc .vmem S512x2 .f32) (harg5 : arg5.IsWhole) (h0 : first3 i) (h1 : ¬last3 i)
    (a : Vec F S512x512 .f32) (mm : Vec F S8192x2 .f32) :
    { LS : List (View.Piece (Elt F) S512x2 .f32) //
      ∀ (xo : Vec F S512x2 .f32) (E : Set ℕ) (K : PUnit → sProp 𝕄),
        iprop(owns (c : Thread nD τ) arg2 fullShare a ∗ owns (c : Thread nD τ) arg3 fullShare mm ∗ owns (c : Thread nD τ) arg4 fullShare xo ∗ (∃ d, owns (c : Thread nD τ) arg5 fullShare d)
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__spmm_kernel i arg2 harg2 arg3 harg3 arg4 harg4 arg5 harg5) K } := by
  refine ⟨?_, fun xo E K => ?run⟩
  case run =>
    simp only [cc3__spmm_kernel_eq_skeleton]; unfold cc3__spmm_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A middle step: the product is added to what the accumulator held, `acc`. -/
noncomputable def mid3Run (c : Dev nD) (i : grid3.Coords) (arg2 : Memref sig .tc .vmem S512x512 .f32) (harg2 : arg2.IsWhole) (arg3 : Memref sig .tc .vmem S8192x2 .f32) (harg3 : arg3.IsWhole) (arg4 : Memref sig .tc .vmem S512x2 .f32) (harg4 : arg4.IsWhole) (arg5 : Memref sig .tc .vmem S512x2 .f32) (harg5 : arg5.IsWhole) (h0 : ¬first3 i) (h1 : ¬last3 i)
    (a : Vec F S512x512 .f32) (mm : Vec F S8192x2 .f32) (acc : Vec F S512x2 .f32) :
    { LS : List (View.Piece (Elt F) S512x2 .f32) //
      ∀ (xo : Vec F S512x2 .f32) (E : Set ℕ) (K : PUnit → sProp 𝕄),
        iprop(owns (c : Thread nD τ) arg2 fullShare a ∗ owns (c : Thread nD τ) arg3 fullShare mm ∗ owns (c : Thread nD τ) arg4 fullShare xo ∗ owns (c : Thread nD τ) arg5 fullShare acc
            ∗ (iprop(owns (c : Thread nD τ) arg2 fullShare a ∗ owns (c : Thread nD τ) arg3 fullShare mm ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__spmm_kernel i arg2 harg2 arg3 harg3 arg4 harg4 arg5 harg5) K } := by
  refine ⟨?_, fun xo E K => ?run⟩
  case run =>
    simp only [cc3__spmm_kernel_eq_skeleton]; unfold cc3__spmm_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- A last step: the product is added, and the block's value is stored into the result's buffer. -/
noncomputable def last3Run (c : Dev nD) (i : grid3.Coords) (arg2 : Memref sig .tc .vmem S512x512 .f32) (harg2 : arg2.IsWhole) (arg3 : Memref sig .tc .vmem S8192x2 .f32) (harg3 : arg3.IsWhole) (arg4 : Memref sig .tc .vmem S512x2 .f32) (harg4 : arg4.IsWhole) (arg5 : Memref sig .tc .vmem S512x2 .f32) (harg5 : arg5.IsWhole) (h0 : ¬first3 i) (h1 : last3 i)
    (a : Vec F S512x512 .f32) (mm : Vec F S8192x2 .f32) (acc : Vec F S512x2 .f32) :
    Σ' (LO : List (View.Piece (Elt F) S512x2 .f32)), { LS : List (View.Piece (Elt F) S512x2 .f32) //
      ∀ (E : Set ℕ) (K : PUnit → sProp 𝕄),
        iprop(owns (c : Thread nD τ) arg2 fullShare a ∗ owns (c : Thread nD τ) arg3 fullShare mm ∗ (∃ d, owns (c : Thread nD τ) arg4 fullShare d) ∗ owns (c : Thread nD τ) arg5 fullShare acc
            ∗ (iprop(owns (c : Thread nD τ) arg2 fullShare a ∗ owns (c : Thread nD τ) arg3 fullShare mm ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc3__spmm_kernel i arg2 harg2 arg3 harg3 arg4 harg4 arg5 harg5) K } := by
  refine ⟨?_, ?_, fun E K => ?run⟩
  case run =>
    simp only [cc3__spmm_kernel_eq_skeleton]; unfold cc3__spmm_kernel_skel
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1
    obtain rfl := harg5.eq_unread hfs
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cases

section Data

-- the TensorCore's buffers as the region finds them
variable (V : (c : Dev nD) → (b : Ref sig .tc) → Buf (Elt F) ((c : Thread nD τ).loc b))

/-- Window `w`'s block of its array at grid point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The buffers the body is called with at point `t`: each window's current staging buffer, and the accumulator. -/
abbrev m3_0 (t : Fin cfg3.N) : Memref sig .tc .vmem S512x512 .f32 := win3_0.stage (cfg3.slots t 0)
abbrev w3_0 (t : Fin cfg3.N) : (m3_0 t).IsWhole := hstage3_0 ((cfg3.slots t 0).cast nbuf3_0)
abbrev m3_1 (t : Fin cfg3.N) : Memref sig .tc .vmem S8192x2 .f32 := win3_1.stage (cfg3.slots t 1)
abbrev w3_1 (t : Fin cfg3.N) : (m3_1 t).IsWhole := hstage3_1 ((cfg3.slots t 1).cast nbuf3_1)
abbrev m3_2 (t : Fin cfg3.N) : Memref sig .tc .vmem S512x2 .f32 := win3_2.stage (cfg3.slots t 2)
abbrev w3_2 (t : Fin cfg3.N) : (m3_2 t).IsWhole := hstage3_2 ((cfg3.slots t 2).cast nbuf3_2)
abbrev acc3M : Memref sig .tc .vmem S512x2 .f32 := Memref.whole cc3_scratch0
/-- The views through which the accumulator's and the result buffer's contents are stated. -/
abbrev acc3V : View sig .tc .vmem S512x2 .f32 := acc3M.view
abbrev out3V : View sig .tc .vmem S512x2 .f32 := (Memref.whole cc3_stg2_0 : Memref sig .tc .vmem S512x2 .f32).view

/-- The inputs are read at every point. -/
theorem live3_0 : ∀ t : Fin cfg3.N, cfg3.idle 0 (grid3.coords t) = false := fun _ => rfl
theorem live3_1 : ∀ t : Fin cfg3.N, cfg3.idle 1 (grid3.coords t) = false := fun _ => rfl

/-- The accumulator after a first step: the pieces that step stores, read back. They fill it. -/
def accFirst3 (c : Dev nD) (t : Fin cfg3.N) (h0 : first3 (grid3.coords t)) (h1 : ¬last3 (grid3.coords t))
    (a : Vec F S512x512 .f32) (mm : Vec F S8192x2 .f32) : Vec F S512x2 .f32 :=
  acc3V.read (Elt F) (acc3V.writes (Elt F) acc3V.junk (first3Run c (grid3.coords t) (m3_0 t) (w3_0 t) (m3_1 t) (w3_1 t) (m3_2 t) (w3_2 t) acc3M (Memref.isWhole_whole _) h0 h1 a mm).1)
theorem accFirst3_fills (c : Dev nD) (t : Fin cfg3.N) (h0 : first3 (grid3.coords t)) (h1 : ¬last3 (grid3.coords t))
    (a : Vec F S512x512 .f32) (mm : Vec F S8192x2 .f32) (y : S512x2.Idx) :
    ∃ pc ∈ (first3Run c (grid3.coords t) (m3_0 t) (w3_0 t) (m3_1 t) (w3_1 t) (m3_2 t) (w3_2 t) acc3M (Memref.isWhole_whole _) h0 h1 a mm).1, y ∈ pc.1.set :=
  View.cover_of_tiledL (first3Run c (grid3.coords t) (m3_0 t) (w3_0 t) (m3_1 t) (w3_1 t) (m3_2 t) (w3_2 t) acc3M (Memref.isWhole_whole _) h0 h1 a mm).1 S512x2.size (by sl_kernel_rfl) y

/-- After a middle step, over what it held before. -/
def accMid3 (c : Dev nD) (t : Fin cfg3.N) (h0 : ¬first3 (grid3.coords t)) (h1 : ¬last3 (grid3.coords t))
    (a : Vec F S512x512 .f32) (mm : Vec F S8192x2 .f32) (acc : Vec F S512x2 .f32) : Vec F S512x2 .f32 :=
  acc3V.read (Elt F) (acc3V.writes (Elt F) acc3V.junk (mid3Run c (grid3.coords t) (m3_0 t) (w3_0 t) (m3_1 t) (w3_1 t) (m3_2 t) (w3_2 t) acc3M (Memref.isWhole_whole _) h0 h1 a mm acc).1)
theorem accMid3_fills (c : Dev nD) (t : Fin cfg3.N) (h0 : ¬first3 (grid3.coords t)) (h1 : ¬last3 (grid3.coords t))
    (a : Vec F S512x512 .f32) (mm : Vec F S8192x2 .f32) (acc : Vec F S512x2 .f32) (y : S512x2.Idx) :
    ∃ pc ∈ (mid3Run c (grid3.coords t) (m3_0 t) (w3_0 t) (m3_1 t) (w3_1 t) (m3_2 t) (w3_2 t) acc3M (Memref.isWhole_whole _) h0 h1 a mm acc).1, y ∈ pc.1.set :=
  View.cover_of_tiledL (mid3Run c (grid3.coords t) (m3_0 t) (w3_0 t) (m3_1 t) (w3_1 t) (m3_2 t) (w3_2 t) acc3M (Memref.isWhole_whole _) h0 h1 a mm acc).1 S512x2.size (by sl_kernel_rfl) y

/-- After a last step, and what that step stores into the result's buffer. -/
def accLast3 (c : Dev nD) (t : Fin cfg3.N) (h0 : ¬first3 (grid3.coords t)) (h1 : last3 (grid3.coords t))
    (a : Vec F S512x512 .f32) (mm : Vec F S8192x2 .f32) (acc : Vec F S512x2 .f32) : Vec F S512x2 .f32 :=
  acc3V.read (Elt F) (acc3V.writes (Elt F) acc3V.junk (last3Run c (grid3.coords t) (m3_0 t) (w3_0 t) (m3_1 t) (w3_1 t) (m3_2 t) (w3_2 t) acc3M (Memref.isWhole_whole _) h0 h1 a mm acc).2.1)
theorem accLast3_fills (c : Dev nD) (t : Fin cfg3.N) (h0 : ¬first3 (grid3.coords t)) (h1 : last3 (grid3.coords t))
    (a : Vec F S512x512 .f32) (mm : Vec F S8192x2 .f32) (acc : Vec F S512x2 .f32) (y : S512x2.Idx) :
    ∃ pc ∈ (last3Run c (grid3.coords t) (m3_0 t) (w3_0 t) (m3_1 t) (w3_1 t) (m3_2 t) (w3_2 t) acc3M (Memref.isWhole_whole _) h0 h1 a mm acc).2.1, y ∈ pc.1.set :=
  View.cover_of_tiledL (last3Run c (grid3.coords t) (m3_0 t) (w3_0 t) (m3_1 t) (w3_1 t) (m3_2 t) (w3_2 t) acc3M (Memref.isWhole_whole _) h0 h1 a mm acc).2.1 S512x2.size (by sl_kernel_rfl) y
def outLast3 (c : Dev nD) (t : Fin cfg3.N) (h0 : ¬first3 (grid3.coords t)) (h1 : last3 (grid3.coords t))
    (a : Vec F S512x512 .f32) (mm : Vec F S8192x2 .f32) (acc : Vec F S512x2 .f32) : Vec F S512x2 .f32 :=
  out3V.read (Elt F) (out3V.writes (Elt F) out3V.junk (last3Run c (grid3.coords t) (m3_0 t) (w3_0 t) (m3_1 t) (w3_1 t) (m3_2 t) (w3_2 t) acc3M (Memref.isWhole_whole _) h0 h1 a mm acc).1)
theorem outLast3_fills (c : Dev nD) (t : Fin cfg3.N) (h0 : ¬first3 (grid3.coords t)) (h1 : last3 (grid3.coords t))
    (a : Vec F S512x512 .f32) (mm : Vec F S8192x2 .f32) (acc : Vec F S512x2 .f32) (y : S512x2.Idx) :
    ∃ pc ∈ (last3Run c (grid3.coords t) (m3_0 t) (w3_0 t) (m3_1 t) (w3_1 t) (m3_2 t) (w3_2 t) acc3M (Memref.isWhole_whole _) h0 h1 a mm acc).1, y ∈ pc.1.set :=
  View.cover_of_tiledL (last3Run c (grid3.coords t) (m3_0 t) (w3_0 t) (m3_1 t) (w3_1 t) (m3_2 t) (w3_2 t) acc3M (Memref.isWhole_whole _) h0 h1 a mm acc).1 S512x2.size (by sl_kernel_rfl) y

/-- THE ACCUMULATION: what the accumulator holds after the body at position `n` — a first step starts afresh from the
    point's blocks, every other step builds on what the position before left. -/
def scr3 (c : Dev nD) : (n : ℕ) → n < cfg3.N → Vec F S512x2 .f32
  | 0, hn => accFirst3 c ⟨0, hn⟩ ((first3_iff ⟨0, hn⟩).mpr (Nat.zero_mod _))
      (fun h => (fun h => by (try dsimp only at h); omega) ((last3_iff ⟨0, hn⟩).mp h)) (blk3 V c 0 ⟨0, hn⟩) (blk3 V c 1 ⟨0, hn⟩)
  | n + 1, hn =>
    if h0 : (n + 1) % 16 = 0 then
      accFirst3 c ⟨n + 1, hn⟩ ((first3_iff ⟨n + 1, hn⟩).mpr h0)
        (fun h => (fun h => by (try dsimp only at h); omega) ((last3_iff ⟨n + 1, hn⟩).mp h)) (blk3 V c 0 ⟨n + 1, hn⟩) (blk3 V c 1 ⟨n + 1, hn⟩)
    else if h1 : (n + 1) % 16 = 15 then
      accLast3 c ⟨n + 1, hn⟩ (fun h => h0 ((first3_iff ⟨n + 1, hn⟩).mp h)) ((last3_iff ⟨n + 1, hn⟩).mpr h1)
        (blk3 V c 0 ⟨n + 1, hn⟩) (blk3 V c 1 ⟨n + 1, hn⟩) (scr3 c n (Nat.lt_of_succ_lt hn))
    else
      accMid3 c ⟨n + 1, hn⟩ (fun h => h0 ((first3_iff ⟨n + 1, hn⟩).mp h)) (fun h => h1 ((last3_iff ⟨n + 1, hn⟩).mp h))
        (blk3 V c 0 ⟨n + 1, hn⟩) (blk3 V c 1 ⟨n + 1, hn⟩) (scr3 c n (Nat.lt_of_succ_lt hn))

theorem scr3_first (c : Dev nD) (t : Fin cfg3.N) (h0 : t.val % 16 = 0) (h1 : ¬t.val % 16 = 15) :
    scr3 V c t.val t.isLt = accFirst3 c t ((first3_iff t).mpr h0) (fun h => h1 ((last3_iff t).mp h)) (blk3 V c 0 t) (blk3 V c 1 t) := by
  obtain ⟨n, hn⟩ := t
  cases n with
  | zero => exact rfl
  | succ n => exact (dif_pos h0).trans rfl
theorem scr3_mid (c : Dev nD) (t : Fin cfg3.N) (h0 : ¬t.val % 16 = 0) (h1 : ¬t.val % 16 = 15) :
    scr3 V c t.val t.isLt = accMid3 c t (fun h => h0 ((first3_iff t).mp h)) (fun h => h1 ((last3_iff t).mp h)) (blk3 V c 0 t) (blk3 V c 1 t) (scr3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem scr3_last (c : Dev nD) (t : Fin cfg3.N) (h0 : ¬t.val % 16 = 0) (h1 : t.val % 16 = 15) :
    scr3 V c t.val t.isLt = accLast3 c t (fun h => h0 ((first3_iff t).mp h)) ((last3_iff t).mpr h1) (blk3 V c 0 t) (blk3 V c 1 t) (scr3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result's buffer holds after point `t`: at a last step what that step stores; at any other step the
    buffer is not touched, and nothing reads this value. -/
def out3 (c : Dev nD) (t : Fin cfg3.N) : Vec F S512x2 .f32 :=
  if h1 : t.val % 16 = 15 then
    outLast3 c t (fun h => (fun h => by omega) ((first3_iff t).mp h)) ((last3_iff t).mpr h1) (blk3 V c 0 t) (blk3 V c 1 t) (scr3 V c (t.val - 1) (Nat.lt_of_le_of_lt (Nat.sub_le _ _) t.isLt))
  else View.canon []
theorem out3_last (c : Dev nD) (t : Fin cfg3.N) (h0 : ¬t.val % 16 = 0) (h1 : t.val % 16 = 15) :
    out3 V c t = outLast3 c t (fun h => h0 ((first3_iff t).mp h)) ((last3_iff t).mpr h1) (blk3 V c 0 t) (blk3 V c 1 t) (scr3 V c (t.val - 1) (Nat.lt_of_le_of_lt (Nat.sub_le _ _) t.isLt)) := by
  unfold out3; rw [dif_pos h1]

/-- The invariant before position `n`: before the first point every scoped buffer at anything; afterwards the
    accumulator at what the position before left, the other scoped buffers at anything. -/
def Phi3 (c : Dev nD) : (n : ℕ) → n ≤ cfg3.N → sProp 𝕄
  | 0, _ => Pipeline.ΦA spec3 c
  | n + 1, hn => iprop(iprop(owns (c : Thread nD τ) acc3M fullShare (scr3 V c n hn) ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop(iprop(owns (c : Thread nD τ) acc3M fullShare (scr3 V c n hn) ∗ Pipeline.scopedRestBut (Ix := Unit) (Name := ℕ) (U := UR sig nD τ) (Lvl := ℕ) (Val := Elt F) spec3 c [cc3_scratch0]) ∗ (∃ r, prngReg c r)) := rfl
theorem Phi3_pos (c : Dev nD) (n : ℕ) (h : n ≤ cfg3.N) (hz : n ≠ 0) :
    Phi3 V c n h = iprop(iprop(owns (c : Thread nD τ) acc3M fullShare (scr3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- Before the first point: the accumulator at anything, the other scoped buffers at anything. -/
theorem PhiA3_eq (c : Dev nD) :
    (Pipeline.ΦA spec3 c : sProp 𝕄)
      = iprop(iprop((∃ d, owns (c : Thread nD τ) acc3M fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [acc3M, owns_whole]; try rfl

/-- The region's proof data. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3 V c t
  Φ t := Phi3 V c t.val (Nat.le_of_lt_succ t.isLt)
  q _ := fullShare
  owed _ := 0

theorem dat3_A (c : Dev nD) (w : Fin cfg3.W) : (dat3 V c).A w = V c (Pipeline.arrRef spec3 w) := by dsimp only [dat3]
theorem dat3_Phi (c : Dev nD) (t : Fin cfg3.N) : (dat3 V c).Φ t.castSucc = Phi3 V c t.val (Nat.le_of_lt t.isLt) := by
  dsimp only [dat3]; simp only [Fin.coe_castSucc]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = out3 V c t := by dsimp only [dat3]

/-- An input's buffer holds its block at every point: fetched there, or left from the point before, whose block index
    is the same. -/
theorem dat3_found0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)
theorem dat3_found1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-- What the body is called with at point `t`, -/
def pre3 (c : Dev nD) (t : Fin cfg3.N) : sProp 𝕄 :=
  iprop((dat3 V c).Φ t.castSucc ∗ (dat3 V c).owesAt () t.castSucc
    ∗ (∃ d, owns (c : Thread nD τ) (m3_0 t) fullShare ((dat3 V c).before 0 t d))
    ∗ (∃ d, owns (c : Thread nD τ) (m3_1 t) fullShare ((dat3 V c).before 1 t d))
    ∗ (∃ d, owns (c : Thread nD τ) (m3_2 t) fullShare ((dat3 V c).before 2 t d)))

/-- and what it returns. -/
def post3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The closed forms say which kind of step the point is; the inputs' buffers hold their
    blocks; the invariant hands over the accumulator at what the point before left (at anything at the very first
    point) and takes it back at this point's contents; the result's buffer is left alone except at a last step. -/
theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [dat3_found0, dat3_found1]
  rw [show (dat3 V c).owesAt () t.succ = (dat3 V c).owesAt () t.castSucc from rfl]
  rw [show (dat3 V c).Φ t.succ = Phi3 V c (t.val + 1) t.isLt from rfl, Phi3_succ]
  have hN : t.val < 256 := lt_of_lt_of_eq t.isLt (show cfg3.N = 256 from N_3)
  by_cases h0 : t.val % 16 = 0
  · have h1 : ¬t.val % 16 = 15 := by omega
    rw [show (dat3 V c).leavesExact 0 t = owns (c : Thread nD τ) (m3_0 t) fullShare ((dat3 V c).after 0 t) from by
      unfold Dat.leavesExact; rw [live3_0 t], dat3_after0]
    rw [show (dat3 V c).leavesExact 1 t = owns (c : Thread nD τ) (m3_1 t) fullShare ((dat3 V c).after 1 t) from by
      unfold Dat.leavesExact; rw [live3_1 t], dat3_after1]
    rw [Dat.leavesExact_idle (dat3 V c) 2 t (idle3_out t (fun h => h1 ((last3_iff t).mp h))) (keep3_out t (fun h => h1 ((last3_iff t).mp h)))]
    rw [scr3_first V c t h0 h1]
    unfold accFirst3; (try dsimp only)
    by_cases hz : t.val = 0
    · rw [dat3_Phi V c t, Phi3_zero V c _ _ hz, PhiA3_eq]
      iintro ⟨⟨⟨HS, Hrest⟩, Hg⟩, Ho, ⟨%d0, H0⟩, ⟨%d1, H1⟩, ⟨%dO, HO⟩⟩
      iapply ((first3Run c (grid3.coords t) (m3_0 t) (w3_0 t) (m3_1 t) (w3_1 t) (m3_2 t) (w3_2 t) acc3M (Memref.isWhole_whole _) ((first3_iff t).mpr h0) (fun h => h1 ((last3_iff t).mp h)) (blk3 V c 0 t) (blk3 V c 1 t)).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_fills c t ((first3_iff t).mpr h0) (fun h => h1 ((last3_iff t).mp h)) (blk3 V c 0 t) (blk3 V c 1 t))
          iexact Hrest
        iexact Hg
      isplitl [Ho]; · iexact Ho
      isplitl [H0]; · iexact H0
      isplitl [H1]; · iexact H1
      iexists _; iexact HO
    · rw [dat3_Phi V c t, Phi3_pos V c _ _ hz]
      iintro ⟨⟨⟨HS, Hrest⟩, Hg⟩, Ho, ⟨%d0, H0⟩, ⟨%d1, H1⟩, ⟨%dO, HO⟩⟩
      iapply ((first3Run c (grid3.coords t) (m3_0 t) (w3_0 t) (m3_1 t) (w3_1 t) (m3_2 t) (w3_2 t) acc3M (Memref.isWhole_whole _) ((first3_iff t).mpr h0) (fun h => h1 ((last3_iff t).mp h)) (blk3 V c 0 t) (blk3 V c 1 t)).2 _ Set.univ _)
      isplitl [H0]; · iexact H0
      isplitl [H1]; · iexact H1
      isplitl [HO]; · iexact HO
      isplitl [HS]; · iexists _; iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accFirst3_fills c t ((first3_iff t).mpr h0) (fun h => h1 ((last3_iff t).mp h)) (blk3 V c 0 t) (blk3 V c 1 t))
          iexact Hrest
        iexact Hg
      isplitl [Ho]; · iexact Ho
      isplitl [H0]; · iexact H0
      isplitl [H1]; · iexact H1
      iexists _; iexact HO
  · have hz : t.val ≠ 0 := fun e => h0 (by rw [e])
    by_cases h1 : t.val % 16 = 15
    · skip
      rw [show (dat3 V c).leavesExact 0 t = owns (c : Thread nD τ) (m3_0 t) fullShare ((dat3 V c).after 0 t) from by
        unfold Dat.leavesExact; rw [live3_0 t], dat3_after0]
      rw [show (dat3 V c).leavesExact 1 t = owns (c : Thread nD τ) (m3_1 t) fullShare ((dat3 V c).after 1 t) from by
        unfold Dat.leavesExact; rw [live3_1 t], dat3_after1]
      rw [show (dat3 V c).leavesExact 2 t = owns (c : Thread nD τ) (m3_2 t) fullShare ((dat3 V c).after 2 t) from by
        unfold Dat.leavesExact; rw [live3_out t ((last3_iff t).mpr h1)], dat3_after2]
      rw [scr3_last V c t h0 h1, out3_last V c t h0 h1]
      unfold accLast3 outLast3; (try dsimp only)
      rw [dat3_Phi V c t, Phi3_pos V c _ _ hz]
      iintro ⟨⟨⟨HS, Hrest⟩, Hg⟩, Ho, ⟨%d0, H0⟩, ⟨%d1, H1⟩, ⟨%dO, HO⟩⟩
      iapply ((last3Run c (grid3.coords t) (m3_0 t) (w3_0 t) (m3_1 t) (w3_1 t) (m3_2 t) (w3_2 t) acc3M (Memref.isWhole_whole _) (fun h => h0 ((first3_iff t).mp h)) ((last3_iff t).mpr h1) (blk3 V c 0 t) (blk3 V c 1 t) (scr3 V c (t.val - 1) (Nat.lt_of_le_of_lt (Nat.sub_le _ _) t.isLt))).2.2 Set.univ _)
      isplitl [H0]; · iexact H0
      isplitl [H1]; · iexact H1
      isplitl [HO]; · iexists _; iexact HO
      isplitl [HS]; · iexact HS
      iintro ⟨H0, H1, ⟨%eO, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (accLast3_fills c t (fun h => h0 ((first3_iff t).mp h)) ((last3_iff t).mpr h1) (blk3 V c 0 t) (blk3 V c 1 t) (scr3 V c (t.val - 1) (Nat.lt_of_le_of_lt (Nat.sub_le _ _) t.isLt)))
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (outLast3_fills c t (fun h => h0 ((first3_iff t).mp h)) ((last3_iff t).mpr h1) (blk3 V c 0 t) (blk3 V c 1 t) (scr3 V c (t.val - 1) (Nat.lt_of_le_of_lt (Nat.sub_le _ _) t.isLt)))
    · skip
      rw [show (dat3 V c).leavesExact 0 t = owns (c : Thread nD τ) (m3_0 t) fullShare ((dat3 V c).after 0 t) from by
        unfold Dat.leavesExact; rw [live3_0 t], dat3_after0]
      rw [show (dat3 V c).leavesExact 1 t = owns (c : Thread nD τ) (m3_1 t) fullShare ((dat3 V c).after 1 t) from by
        unfold Dat.leavesExact; rw [live3_1 t], dat3_after1]
      rw [Dat.leavesExact_idle (dat3 V c) 2 t (idle3_out t (fun h => h1 ((last3_iff t).mp h))) (keep3_out t (fun h => h1 ((last3_iff t).mp h)))]
      rw [scr3_mid V c t h0 h1]
      unfold accMid3; (try dsimp only)
      rw [dat3_Phi V c t, Phi3_pos V c _ _ hz]
      iintro ⟨⟨⟨HS, Hrest⟩, Hg⟩, Ho, ⟨%d0, H0⟩, ⟨%d1, H1⟩, ⟨%dO, HO⟩⟩
      iapply ((mid3Run c (grid3.coords t) (m3_0 t) (w3_0 t) (m3_1 t) (w3_1 t) (m3_2 t) (w3_2 t) acc3M (Memref.isWhole_whole _) (fun h => h0 ((first3_iff t).mp h)) (fun h => h1 ((last3_iff t).mp h)) (blk3 V c 0 t) (blk3 V c 1 t) (scr3 V c (t.val - 1) (Nat.lt_of_le_of_lt (Nat.sub_le _ _) t.isLt))).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (accMid3_fills c t (fun h => h0 ((first3_iff t).mp h)) (fun h => h1 ((last3_iff t).mp h)) (blk3 V c 0 t) (blk3 V c 1 t) (scr3 V c (t.val - 1) (Nat.lt_of_le_of_lt (Nat.sub_le _ _) t.isLt)))
          iexact Hrest
        iexact Hg
      isplitl [Ho]; · iexact Ho
      isplitl [H0]; · iexact H0
      isplitl [H1]; · iexact H1
      iexists _; iexact HO

/-- The body obligation of the region, at every point. -/
theorem obligation3 (c : Dev nD) : BodyObligation (dat3 (F := F) V c) (defs₀ (F := F)) Variants.none () Set.univ := fun t => by
  rw [bigSep_W3, bigSep_W3]
  exact point3 V c t

/-- What the region is handed at its entry is the invariant before the first point; -/
theorem into3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- and after the last point the invariant gives the same back: the accumulator's contents are forgotten. -/
theorem outOf3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 256 := N_3; omega), PhiA3_eq]
  iintro ⟨⟨HS, Hrest⟩, Hg⟩
  isplitl [HS Hrest]
  · isplitl [HS]
    · iexists _; iexact HS
    iexact Hrest
  iexact Hg

end Data

end Cert.Kernel.Hand

end
-- ==== Proof.KernelFrameB.lean ====
/-
  The whole kernel program: seventeen items in order — nine stretches of host operations that form the row and column
  factors, the four kernel regions with two more stretches between them (the two small dense products), and the last
  two stretches (the bias and the row-wise log-softmax). Between two items every unscoped buffer is held whole at
  named contents: the launch contents, then what each host stretch computes, then what each region's run leaves in
  its result array. Every region is entered from the contents before it and left at the contents after it, so the
  program runs to the end and every argument array ends as launched.
-/
import proofs.«148386_j953482740188_2_alg».proof.Proof.Region0B
import proofs.«148386_j953482740188_2_alg».proof.Proof.Region1B
import proofs.«148386_j953482740188_2_alg».proof.Proof.Region1ShareB
import proofs.«148386_j953482740188_2_alg».proof.Proof.Region2B
import proofs.«148386_j953482740188_2_alg».proof.Proof.Region3B
import proofs.«148386_j953482740188_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Before region 0: the launch contents after the nine host stretches. -/
abbrev Va9 (c : Dev nD) : Valuation τ sig (Elt F) := Gen.V9 m c
abbrev Ea0 (c : Dev nD) (b : Ref sig .tc) : Buf (Elt F) ((c : Thread nD τ).loc b) := Va9 m c b
/-- What region 0 leaves in its result array (the normalised adjacency): its blocks as written back. -/
def o0 (c : Dev nD) : Buf (Elt F) ((c : Thread nD τ).loc main_v12) := (dat0 (Ea0 m) c).arrAt 3 cfg0.N
abbrev Va10 (c : Dev nD) : Valuation τ sig (Elt F) := Function.update (Va9 m c) main_v12 (o0 m c)
abbrev Ea1 (c : Dev nD) (b : Ref sig .tc) : Buf (Elt F) ((c : Thread nD τ).loc b) := Va10 m c b
/-- What region 1 leaves (the filter matrix). -/
def o1 (c : Dev nD) : Buf (Elt F) ((c : Thread nD τ).loc main_v13) := (dat1 (Ea1 m) c).arrAt 5 cfg1.N
abbrev Va11 (c : Dev nD) : Valuation τ sig (Elt F) := Function.update (Va10 m c) main_v13 (o1 m c)
abbrev Va12 (c : Dev nD) : Valuation τ sig (Elt F) := StableHlo.after hostOps2 (Va11 m c)
abbrev Ea2 (c : Dev nD) (b : Ref sig .tc) : Buf (Elt F) ((c : Thread nD τ).loc b) := Va12 m c b
/-- What region 2 leaves (the hidden layer). -/
def o2 (c : Dev nD) : Buf (Elt F) ((c : Thread nD τ).loc main_v15) := (dat2 (Ea2 m) c).arrAt 2 cfg2.N
abbrev Va13 (c : Dev nD) : Valuation τ sig (Elt F) := Function.update (Va12 m c) main_v15 (o2 m c)
abbrev Va14 (c : Dev nD) : Valuation τ sig (Elt F) := StableHlo.after hostOps3 (Va13 m c)
abbrev Ea3 (c : Dev nD) (b : Ref sig .tc) : Buf (Elt F) ((c : Thread nD τ).loc b) := Va14 m c b
/-- What region 3 leaves (the output layer before the bias). -/
def o3 (c : Dev nD) : Buf (Elt F) ((c : Thread nD τ).loc main_v17) := (dat3 (Ea3 m) c).arrAt 2 cfg3.N

/-- What the regions leave, as one table over the references: the four result arrays at the contents above, every
    other reference at its contents before region 0 (never read). -/
def outs : Gen.Outs (F := F) := fun _ r c =>
  Function.update (Function.update (Function.update (Function.update
    (fun r : Ref sig .tc => (Va9 m c r : Buf (Elt F) ((c : Thread nD τ).loc r))) main_v12 (o0 m c)) main_v13 (o1 m c)) main_v15 (o2 m c)) main_v17 (o3 m c) r

theorem outs_main_v12 (J : ℕ) (c : Dev nD) : outs m J main_v12 c = o0 m c := by
  unfold outs
  rw [Function.update_of_ne (by decide), Function.update_of_ne (by decide), Function.update_of_ne (by decide), Function.update_self]
theorem outs_main_v13 (J : ℕ) (c : Dev nD) : outs m J main_v13 c = o1 m c := by
  unfold outs
  rw [Function.update_of_ne (by decide), Function.update_of_ne (by decide), Function.update_self]
theorem outs_main_v15 (J : ℕ) (c : Dev nD) : outs m J main_v15 c = o2 m c := by
  unfold outs
  rw [Function.update_of_ne (by decide), Function.update_self]
theorem outs_main_v17 (J : ℕ) (c : Dev nD) : outs m J main_v17 c = o3 m c := by
  unfold outs
  rw [Function.update_self]

/-- The contents between the items, as the conditional frame names them, are the ones above. -/
theorem V9_eq (c : Dev nD) : Gen.V9 m c = Va9 m c := rfl
theorem V10_eq (c : Dev nD) : Gen.V10 m (outs m) c = Va10 m c := by
  show Function.update (Gen.V9 m c) main_v12 (outs m 10 main_v12 c) = _; rw [outs_main_v12]
theorem V11_eq (c : Dev nD) : Gen.V11 m (outs m) c = Va11 m c := by
  show Function.update (Gen.V10 m (outs m) c) main_v13 (outs m 11 main_v13 c) = _; rw [outs_main_v13, V10_eq]
theorem V12_eq (c : Dev nD) : Gen.V12 m (outs m) c = Va12 m c := by
  show StableHlo.after hostOps2 (Gen.V11 m (outs m) c) = _; rw [V11_eq]
theorem V13_eq (c : Dev nD) : Gen.V13 m (outs m) c = Va13 m c := by
  show Function.update (Gen.V12 m (outs m) c) main_v15 (outs m 13 main_v15 c) = _; rw [outs_main_v15, V12_eq]
theorem V14_eq (c : Dev nD) : Gen.V14 m (outs m) c = Va14 m c := by
  show StableHlo.after hostOps3 (Gen.V13 m (outs m) c) = _; rw [V13_eq]

/-! ## The proof data family and the thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-- Every region's proof data, each at the contents its region is entered from. -/
def pdats : (p : Fin 4) → (c : Dev nD) → Dat τ (Elt F) Unit ℕ (UR sig nD τ) ℕ (cfgs p) c
  | ⟨0, _⟩ => fun c => dat0 (Ea0 m) c
  | ⟨1, _⟩ => fun c => dat1 (Ea1 m) c
  | ⟨2, _⟩ => fun c => dat2 (Ea2 m) c
  | ⟨3, _⟩ => fun c => dat3 (Ea3 m) c

/-! ## Region 0 as a segment -/

/-- After the region each of its arrays holds what the run leaves there: an input what it held, the result its
    blocks as written back. -/
theorem exit0_arr (c : Dev nD) : ∀ w : Fin 4, (pdats m 0 c).arrAt w cfg0.N = Gen.V10 m (outs m) c (Pipeline.arrRef spec0 w)
  | ⟨0, _⟩ => ((((dat0 (Ea0 m) c).arrAt_in 0 rfl _).trans (dat0_A (Ea0 m) c 0)).trans (congrFun (V9_eq m c) _).symm).trans (Gen.V10_of m (outs m) c main_arg1 (by decide)).symm
  | ⟨1, _⟩ => ((((dat0 (Ea0 m) c).arrAt_in 1 rfl _).trans (dat0_A (Ea0 m) c 1)).trans (congrFun (V9_eq m c) _).symm).trans (Gen.V10_of m (outs m) c main_v5 (by decide)).symm
  | ⟨2, _⟩ => ((((dat0 (Ea0 m) c).arrAt_in 2 rfl _).trans (dat0_A (Ea0 m) c 2)).trans (congrFun (V9_eq m c) _).symm).trans (Gen.V10_of m (outs m) c main_v11 (by decide)).symm
  | ⟨3, _⟩ => by
      show (dat0 (Ea0 m) c).arrAt 3 cfg0.N = Function.update (Gen.V9 m c) main_v12 (outs m 10 main_v12 c) main_v12
      rw [Function.update_self, outs_main_v12]; rfl
  | ⟨_ + 4, h⟩ => absurd h (Nat.not_lt.2 (Nat.le_add_left _ _))
/-- Every other buffer is as the region found it. -/
theorem exit0_rest (c : Dev nD) : ∀ b, b ∉ Finset.univ.image (Pipeline.arrRef spec0) → Gen.V10 m (outs m) c b = Ea0 m c b :=
  fun b hb => (Gen.V10_of m (outs m) c b (by
    intro hmem
    rw [List.mem_singleton] at hmem
    subst hmem
    exact hb (Finset.mem_image.mpr ⟨(3 : Fin 4), Finset.mem_univ _, rfl⟩))).trans (congrFun (V9_eq m c) _)

set_option backward.isDefEq.respectTransparency.types false in
/-- The region entered from every unscoped buffer at the contents before it and left at the contents after it: its
    arrays taken out of the unscoped buffers and put back, the generator register lent to the invariant, nothing owed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (Ea0 m) c).loose
  hwaits := Pipeline.hwaits_of_owed_zero _ _ _ _ L lv 0 fun _ _ => rfl
  pre c := iprop(StableHlo.held (c : Thread nD τ) (Pipeline.ucRefs τ sig) (Gen.V9 m c) ∗ Rst c)
  post c := iprop(StableHlo.held (c : Thread nD τ) (Pipeline.ucRefs τ sig) (Gen.V10 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ea0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ea0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ea0 m c) (fun b => Gen.V10 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment

Two of its input windows read one array, the normalised adjacency: the array is held in two halves, one per window. -/

/-- After the region each of its arrays holds what the run leaves there. -/
theorem exit1_arr (c : Dev nD) : ∀ w : Fin 6, (pdats m 1 c).arrAt w cfg1.N = Gen.V11 m (outs m) c (Pipeline.arrRef spec1 w)
  | ⟨0, _⟩ => ((((dat1 (Ea1 m) c).arrAt_in 0 rfl _).trans (dat1_A (Ea1 m) c 0)).trans (congrFun (V10_eq m c) _).symm).trans (Gen.V11_of m (outs m) c main_v12 (by decide)).symm
  | ⟨1, _⟩ => ((((dat1 (Ea1 m) c).arrAt_in 1 rfl _).trans (dat1_A (Ea1 m) c 1)).trans (congrFun (V10_eq m c) _).symm).trans (Gen.V11_of m (outs m) c main_v12 (by decide)).symm
  | ⟨2, _⟩ => ((((dat1 (Ea1 m) c).arrAt_in 2 rfl _).trans (dat1_A (Ea1 m) c 2)).trans (congrFun (V10_eq m c) _).symm).trans (Gen.V11_of m (outs m) c main_arg1 (by decide)).symm
  | ⟨3, _⟩ => ((((dat1 (Ea1 m) c).arrAt_in 3 rfl _).trans (dat1_A (Ea1 m) c 3)).trans (congrFun (V10_eq m c) _).symm).trans (Gen.V11_of m (outs m) c main_v5 (by decide)).symm
  | ⟨4, _⟩ => ((((dat1 (Ea1 m) c).arrAt_in 4 rfl _).trans (dat1_A (Ea1 m) c 4)).trans (congrFun (V10_eq m c) _).symm).trans (Gen.V11_of m (outs m) c main_v11 (by decide)).symm
  | ⟨5, _⟩ => by
      show (dat1 (Ea1 m) c).arrAt 5 cfg1.N = Function.update (Gen.V10 m (outs m) c) main_v13 (outs m 11 main_v13 c) main_v13
      rw [Function.update_self, outs_main_v13]; rfl
  | ⟨_ + 6, h⟩ => absurd h (Nat.not_lt.2 (Nat.le_add_left _ _))
/-- Every other buffer is as the region found it. -/
theorem exit1_rest (c : Dev nD) : ∀ b, b ∉ Finset.univ.image (Pipeline.arrRef spec1) → Gen.V11 m (outs m) c b = Ea1 m c b :=
  fun b hb => (Gen.V11_of m (outs m) c b (by
    intro hmem
    rw [List.mem_singleton] at hmem
    subst hmem
    exact hb (Finset.mem_image.mpr ⟨(5 : Fin 6), Finset.mem_univ _, rfl⟩))).trans (congrFun (V10_eq m c) _)

/-- ENTRY, the arrays' part: the unscoped buffers at the contents before the region are its six windows' arrays —
    the shared one in two halves — and the rest. -/
theorem entry1_arrays (c : Dev nD) :
    (unscopedBufs c (Ea1 m c) : sProp 𝕄)
      ⊢ iprop((pdats m 1 c).arrays ((pdats m 1 c).arrAt · 0) ∗ Pipeline.unscopedRest (Ix := Unit) (Name := ℕ) (U := UR sig nD τ) (Lvl := ℕ) spec1 c (Ea1 m c)) := by
  rw [Pipeline.unscopedBufs_split₀ cfgs 1 winFacts₀1.arr_unscoped c (Ea1 m c)]
  exact sep_mono (arrays1_in (Ea1 m) c) .rfl

/-- EXIT, the arrays' part: the six arrays at what the run leaves — the two halves of the shared one joined — and
    the rest are the unscoped buffers at the contents after the region. -/
theorem exit1_arrays (c : Dev nD) :
    iprop((pdats m 1 c).arrays ((pdats m 1 c).arrAt · cfg1.N) ∗ Pipeline.unscopedRest (Ix := Unit) (Name := ℕ) (U := UR sig nD τ) (Lvl := ℕ) spec1 c (Ea1 m c))
      ⊢ (unscopedBufs c (fun b => Gen.V11 m (outs m) c b) : sProp 𝕄) := by
  rw [Pipeline.unscopedBufs_split₀ cfgs 1 winFacts₀1.arr_unscoped c (fun b => Gen.V11 m (outs m) c b)]
  refine sep_mono (arrays1_out (Ea1 m) c (fun b => Gen.V11 m (outs m) c b) ((pdats m 1 c).arrAt · cfg1.N) (exit1_arr m c)) (Entails.of_eq ?_)
  unfold Pipeline.unscopedRest
  exact bigSep_congr fun b hb => by dsimp only; rw [exit1_rest m c b (Finset.mem_sdiff.mp hb).2]

set_option backward.isDefEq.respectTransparency.types false in
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (obligation1 (Ea1 m) c).loose
  hwaits := Pipeline.hwaits_of_owed_zero _ _ _ _ L lv 1 fun _ _ => rfl
  pre c := iprop(StableHlo.held (c : Thread nD τ) (Pipeline.ucRefs τ sig) (Gen.V10 m (outs m) c) ∗ Rst c)
  post c := iprop(StableHlo.held (c : Thread nD τ) (Pipeline.ucRefs τ sig) (Gen.V11 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ea1 m c)
  hentry c := by
    rw [Pipeline.ownSems0_none, V10_eq m c]
    have hsplit := entry1_arrays m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec1 c : sProp 𝕄) from by
      unfold Pipeline.ΦA
      iintro ⟨Hp, -, Hr⟩
      isplitl [Hr]; · iexact Hr
      iexact Hp).trans (into1 (Ea1 m) c)
  hout c := by
    rw [Pipeline.ownSems0_none]
    refine (outOf1 (Ea1 m) c).trans ?_
    unfold Pipeline.ΦA
    iintro ⟨Hr, Hp⟩
    isplitl [Hp]; · iexact Hp
    isplitr; · iempintro
    iexact Hr
  hexit c := by
    have hjoin := exit1_arrays m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

/-- After the region each of its arrays holds what the run leaves there: an input what it held, the result its
    blocks as written back. -/
theorem exit2_arr (c : Dev nD) : ∀ w : Fin 3, (pdats m 2 c).arrAt w cfg2.N = Gen.V13 m (outs m) c (Pipeline.arrRef spec2 w)
  | ⟨0, _⟩ => ((((dat2 (Ea2 m) c).arrAt_in 0 rfl _).trans (dat2_A (Ea2 m) c 0)).trans (congrFun (V12_eq m c) _).symm).trans (Gen.V13_of m (outs m) c main_v13 (by decide)).symm
  | ⟨1, _⟩ => ((((dat2 (Ea2 m) c).arrAt_in 1 rfl _).trans (dat2_A (Ea2 m) c 1)).trans (congrFun (V12_eq m c) _).symm).trans (Gen.V13_of m (outs m) c main_v14 (by decide)).symm
  | ⟨2, _⟩ => by
      show (dat2 (Ea2 m) c).arrAt 2 cfg2.N = Function.update (Gen.V12 m (outs m) c) main_v15 (outs m 13 main_v15 c) main_v15
      rw [Function.update_self, outs_main_v15]; rfl
  | ⟨_ + 3, h⟩ => absurd h (Nat.not_lt.2 (Nat.le_add_left _ _))
/-- Every other buffer is as the region found it. -/
theorem exit2_rest (c : Dev nD) : ∀ b, b ∉ Finset.univ.image (Pipeline.arrRef spec2) → Gen.V13 m (outs m) c b = Ea2 m c b :=
  fun b hb => (Gen.V13_of m (outs m) c b (by
    intro hmem
    rw [List.mem_singleton] at hmem
    subst hmem
    exact hb (Finset.mem_image.mpr ⟨(2 : Fin 3), Finset.mem_univ _, rfl⟩))).trans (congrFun (V12_eq m c) _)

set_option backward.isDefEq.respectTransparency.types false in
/-- The region entered from every unscoped buffer at the contents before it and left at the contents after it: its
    arrays taken out of the unscoped buffers and put back, the generator register lent to the invariant, nothing owed. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (Ea2 m) c).loose
  hwaits := Pipeline.hwaits_of_owed_zero _ _ _ _ L lv 2 fun _ _ => rfl
  pre c := iprop(StableHlo.held (c : Thread nD τ) (Pipeline.ucRefs τ sig) (Gen.V12 m (outs m) c) ∗ Rst c)
  post c := iprop(StableHlo.held (c : Thread nD τ) (Pipeline.ucRefs τ sig) (Gen.V13 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (Ea2 m c)
  hentry c := by
    rw [Pipeline.ownSems0_none, V12_eq m c]
    have hsplit := Pipeline.arrays_of_unscopedBufs (p := 2) (pcfgs (F := F)) Gen.adm (pdats m) launch2.win launch2.arr_whole c
      ((pdats m 2 c).share_full fun _ => rfl) (Ea2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec2 c : sProp 𝕄) from by
      unfold Pipeline.ΦA
      iintro ⟨Hp, -, Hr⟩
      isplitl [Hr]; · iexact Hr
      iexact Hp).trans (into2 (Ea2 m) c)
  hout c := by
    rw [Pipeline.ownSems0_none]
    refine (outOf2 (Ea2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Ea2 m c) (fun b => Gen.V13 m (outs m) c b) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

/-- After the region each of its arrays holds what the run leaves there: an input what it held, the result its
    blocks as written back. -/
theorem exit3_arr (c : Dev nD) : ∀ w : Fin 3, (pdats m 3 c).arrAt w cfg3.N = Gen.V15 m (outs m) c (Pipeline.arrRef spec3 w)
  | ⟨0, _⟩ => ((((dat3 (Ea3 m) c).arrAt_in 0 rfl _).trans (dat3_A (Ea3 m) c 0)).trans (congrFun (V14_eq m c) _).symm).trans (Gen.V15_of m (outs m) c main_v13 (by decide)).symm
  | ⟨1, _⟩ => ((((dat3 (Ea3 m) c).arrAt_in 1 rfl _).trans (dat3_A (Ea3 m) c 1)).trans (congrFun (V14_eq m c) _).symm).trans (Gen.V15_of m (outs m) c main_v16 (by decide)).symm
  | ⟨2, _⟩ => by
      show (dat3 (Ea3 m) c).arrAt 2 cfg3.N = Function.update (Gen.V14 m (outs m) c) main_v17 (outs m 15 main_v17 c) main_v17
      rw [Function.update_self, outs_main_v17]; rfl
  | ⟨_ + 3, h⟩ => absurd h (Nat.not_lt.2 (Nat.le_add_left _ _))
/-- Every other buffer is as the region found it. -/
theorem exit3_rest (c : Dev nD) : ∀ b, b ∉ Finset.univ.image (Pipeline.arrRef spec3) → Gen.V15 m (outs m) c b = Ea3 m c b :=
  fun b hb => (Gen.V15_of m (outs m) c b (by
    intro hmem
    rw [List.mem_singleton] at hmem
    subst hmem
    exact hb (Finset.mem_image.mpr ⟨(2 : Fin 3), Finset.mem_univ _, rfl⟩))).trans (congrFun (V14_eq m c) _)

set_option backward.isDefEq.respectTransparency.types false in
/-- The region entered from every unscoped buffer at the contents before it and left at the contents after it: its
    arrays taken out of the unscoped buffers and put back, the generator register lent to the invariant, nothing owed. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (Ea3 m) c).loose
  hwaits := Pipeline.hwaits_of_owed_zero _ _ _ _ L lv 3 fun _ _ => rfl
  pre c := iprop(StableHlo.held (c : Thread nD τ) (Pipeline.ucRefs τ sig) (Gen.V14 m (outs m) c) ∗ Rst c)
  post c := iprop(StableHlo.held (c : Thread nD τ) (Pipeline.ucRefs τ sig) (Gen.V15 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (Ea3 m c)
  hentry c := by
    rw [Pipeline.ownSems0_none, V14_eq m c]
    have hsplit := Pipeline.arrays_of_unscopedBufs (p := 3) (pcfgs (F := F)) Gen.adm (pdats m) launch3.win launch3.arr_whole c
      ((pdats m 3 c).share_full fun _ => rfl) (Ea3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec3 c : sProp 𝕄) from by
      unfold Pipeline.ΦA
      iintro ⟨Hp, -, Hr⟩
      isplitl [Hr]; · iexact Hr
      iexact Hp).trans (into3 (Ea3 m) c)
  hout c := by
    rw [Pipeline.ownSems0_none]
    refine (outOf3 (Ea3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Ea3 m c) (fun b => Gen.V15 m (outs m) c b) ((pdats m 3 c).arrAt · cfg3.N) (exit3_arr m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- At the compiled mesh, from any memory with zero counters, every weakly fair execution of the program terminates,
    nothing faulting, and every final state has the five argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (Ix := Unit) (U := UR sig nD τ) (Lvl := ℕ) emb₁ () 𝒱₀ L lv (fun _ _ => rfl) ρ (outs m) (pdats m)
    (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      have hc : ∀ c : Dev nD, (iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)) : sProp 𝕄)
          ⊢ Rst c := fun c => by
        iintro ⟨-, HO, -, Hp, -⟩
        isplitl [Hp]; · iexists _; iexact Hp
        iexists ∅; iexact HO
      have h : (bigSep Finset.univ fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ iprop(emp)))
          ⊢ (bigSep Finset.univ fun c : Dev nD => Rst c : sProp 𝕄) :=
        bigSep_mono fun c _ => hc c
      iintro ⟨H, -⟩
      imodintro
      iapply h
      iexact H)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.Kernel.Hand

end
-- ==== Proof.KernelRun.lean ====
/-
  The kernel program's run with every buffer named at the end: every weakly fair execution terminates, nothing
  faulting, and every unscoped buffer ends at the contents the seventeen items leave — the launch contents pushed
  through the host stretches and the four regions' result arrays. The frame and the program's result are read off it.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.KernelFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

-- the launch theorem's implicit arguments are found by unifying its conclusion with this one, which takes unfolding
-- plain definitions in a metavariable's type
set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V17 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => Rst c) () (pdats m) (reg0 m) (reg1 m) (reg2 m) (reg3 m))
    (fun c Q => by
      rewrite [main_chain c, Seg.run_eq_chain,
        show ((Gen.segs m (outs m) 𝒱₀ L lv (fun _ c => Rst c) () (pdats m) (reg0 m) (reg1 m) (reg2 m) (reg3 m)) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [Gen.segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V17 m (outs m) c))
    (hch := fun c => ⟨.rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_)
    (QY := fun c s => ∀ b ∈ Pipeline.ucRefs τ sig, s.mem ((c : Thread nD τ).1, b) = Gen.V17 m (outs m) c b)
    (hfin := fun c s' => ?_) (hQ := fun _ h => h)
  · -- the launch: on every core the unscoped buffers are held at the launch contents and the rest makes the riding state
    have hc : ∀ c : Dev nD, (iprop(unscopedBufs c (fun b => m ((c.tc : Thread nD τ).loc b)) ∗ unscopedSems0 c
          ∗ owes (c.tc : Thread nD τ) ((fun _ : Dev nD => (0 : CellTallies nD τ sig Unit)) c) ∅ ∗ Pipeline.launchCred (fun _ : Dev nD => (0 : CellTallies nD τ sig Unit)) c ∗ prngReg c (ρ c) ∗ iprop(emp)) : sProp 𝕄)
        ⊢ iprop(StableHlo.held (c : Thread nD τ) (Pipeline.ucRefs τ sig) (Gen.V0 m c) ∗ Rst c) := fun c => by
      rw [← Pipeline.unscopedBufs_held (Ix := Unit) (Name := ℕ) (U := UR sig nD τ) (Lvl := ℕ) c (Gen.V0 m c)]
      iintro ⟨Hh, -, HO, -, Hp, -⟩
      isplitl [Hh]; · iexact Hh
      isplitl [Hp]; · iexists _; iexact Hp
      iexists ∅; iexact HO
    have hall : (bigSep Finset.univ fun c : Dev nD => iprop(unscopedBufs c (fun b => m ((c.tc : Thread nD τ).loc b)) ∗ unscopedSems0 c
          ∗ owes (c.tc : Thread nD τ) ((fun _ : Dev nD => (0 : CellTallies nD τ sig Unit)) c) ∅ ∗ Pipeline.launchCred (fun _ : Dev nD => (0 : CellTallies nD τ sig Unit)) c ∗ prngReg c (ρ c) ∗ iprop(emp)))
        ⊢ (bigSep Finset.univ fun c : Dev nD => iprop(StableHlo.held (c : Thread nD τ) (Pipeline.ucRefs τ sig) (Gen.V0 m c) ∗ Rst c) : sProp 𝕄) :=
      bigSep_mono fun c _ => hc c
    iintro ⟨H, -⟩
    imodintro
    iapply hall
    iexact H
  · -- the end: every unscoped buffer read off the last contents
    unfold StableHlo.held
    iintro ⟨Hh, HSI⟩
    imodintro
    iapply (pointsTo_read_all (Pipeline.ucRefs τ sig) (fun b => ((c : Thread nD τ).1, b)) (Gen.V17 m (outs m) c) s')
    isplitl [Hh] <;> iassumption

/-- An unscoped TensorCore reference is among those the last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Spec.lean ====
/-
  The function both programs compute, written index by index over the extended reals, and the algebraic law
  between the two ways of forming the filter matrix.

  Inputs: x [8192,512], adj [8192,8192], W1 [512,256], W2 [256,2], b2 [2].
  The adjacency matrix is normalised by the inverse square roots of its row sums and of its column sums, an
  infinite root replaced by zero:  D p q = (r p * adj p q) * c q.  With a = 1/2 and I the identity matrix the
  filter matrix is, in one arrangement, the product  (a I - D) (I + D)  and, in the other,
  (a I + (-a) D) - D D.  The rest is common to both and is stated once, over an arbitrary filter matrix A:
  H = max (A (x W1)) 0,  O = A (H W2) + b2,  and the row-wise log-softmax of O.

  The law: when every entry of adj is a real number so is every entry of D (a sum of reals is real, a real
  power of a real is real, and the replacement only ever puts 0 in place of a value), and in the reals
    sum_k (a d_pk - D_pk) (d_kq + D_kq) = a d_pq + (a - 1) D_pq - sum_k D_pk D_kq
  by distributing the product over the sums.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The constants, and the reals two of them denote -/

/-- The pattern of `0.0`. -/
abbrev c0 : EReal := Ideal.ofBits .f32 0x00000000#32
/-- The pattern of `0.5`. -/
abbrev half : EReal := Ideal.ofBits .f32 0x3F000000#32
/-- The pattern of `-0.5`. -/
abbrev neghalf : EReal := Ideal.ofBits .f32 0xBF000000#32
/-- The pattern of `+inf`. -/
abbrev pinf : EReal := Ideal.ofBits .f32 0x7F800000#32
/-- The pattern of `-inf`. -/
abbrev ninf : EReal := Ideal.ofBits .f32 0xFF800000#32

/-- `0.0` denotes `0`. -/
theorem c0_eq : c0 = 0 := Ideal.ofBits_zero_f32

/-- `0.5` denotes the real `1/2`. -/
theorem half_eq : half = ((1 / 2 : ℝ) : EReal) := by
  simp [Ideal.ofBits, Ideal.ieee, -EReal.coe_mul]; norm_num

/-- `-0.5` denotes the real `-(1/2)`. -/
theorem neghalf_eq : neghalf = ((-(1 / 2) : ℝ) : EReal) := by
  simp [Ideal.ofBits, Ideal.ieee, -EReal.coe_mul]; norm_num

/-! ## The normalised adjacency and the two filter matrices -/

/-- `s ↦ s ^ (-1/2)`, an infinite value replaced by `0`: the comparison is of the absolute value with `+inf`. -/
def invSqrt (s : EReal) : EReal :=
  Scalar.select (Ideal.cmp .oeq (max (Ideal.pow s neghalf) (-(Ideal.pow s neghalf))) pinf) c0 (Ideal.pow s neghalf)

/-- The sum of row `p`. -/
def rowSum (adj : (⟨2, ![8192, 8192]⟩ : Shape).Idx → EReal) (p : Fin 8192) : EReal :=
  c0 + ∑ k : Fin 8192, adj (ix2 p k)

/-- The sum of column `q`. -/
def colSum (adj : (⟨2, ![8192, 8192]⟩ : Shape).Idx → EReal) (q : Fin 8192) : EReal :=
  c0 + ∑ k : Fin 8192, adj (ix2 k q)

/-- The normalised adjacency `D p q = (r p * adj p q) * c q`. -/
def D (adj : (⟨2, ![8192, 8192]⟩ : Shape).Idx → EReal) (p q : Fin 8192) : EReal :=
  (invSqrt (rowSum adj p) * adj (ix2 p q)) * invSqrt (colSum adj q)

/-- The identity matrix. -/
def eye (p q : Fin 8192) : EReal := if p = q then 1 else 0

/-- The filter matrix as one product, `(a I - D) (I + D)`. -/
def filterRef (adj : (⟨2, ![8192, 8192]⟩ : Shape).Idx → EReal) (p q : Fin 8192) : EReal :=
  ∑ k : Fin 8192, (half * eye p k - D adj p k) * (eye k q + D adj k q)

/-- The filter matrix expanded, `(a I + (-a) D) - D D`. -/
def filterKer (adj : (⟨2, ![8192, 8192]⟩ : Shape).Idx → EReal) (p q : Fin 8192) : EReal :=
  (half * eye p q + neghalf * D adj p q) - ∑ k : Fin 8192, D adj p k * D adj k q

/-! ## What follows the filter matrix, over an arbitrary filter matrix `A` -/

/-- `x W1`. -/
def xw (x : (⟨2, ![8192, 512]⟩ : Shape).Idx → EReal) (W1 : (⟨2, ![512, 256]⟩ : Shape).Idx → EReal)
    (k : Fin 8192) (j : Fin 256) : EReal :=
  ∑ l : Fin 512, x (ix2 k l) * W1 (ix2 l j)

/-- The hidden layer `H = max (A (x W1)) 0`. -/
def hidden (A : Fin 8192 → Fin 8192 → EReal) (x : (⟨2, ![8192, 512]⟩ : Shape).Idx → EReal)
    (W1 : (⟨2, ![512, 256]⟩ : Shape).Idx → EReal) (p : Fin 8192) (j : Fin 256) : EReal :=
  max (∑ k : Fin 8192, A p k * xw x W1 k j) c0

/-- `H W2`. -/
def hw (A : Fin 8192 → Fin 8192 → EReal) (x : (⟨2, ![8192, 512]⟩ : Shape).Idx → EReal)
    (W1 : (⟨2, ![512, 256]⟩ : Shape).Idx → EReal) (W2 : (⟨2, ![256, 2]⟩ : Shape).Idx → EReal)
    (k : Fin 8192) (c : Fin 2) : EReal :=
  ∑ j : Fin 256, hidden A x W1 k j * W2 (ix2 j c)

/-- The logits `O = A (H W2) + b2`. -/
def logits (A : Fin 8192 → Fin 8192 → EReal) (x : (⟨2, ![8192, 512]⟩ : Shape).Idx → EReal)
    (W1 : (⟨2, ![512, 256]⟩ : Shape).Idx → EReal) (W2 : (⟨2, ![256, 2]⟩ : Shape).Idx → EReal)
    (b2 : (⟨1, ![2]⟩ : Shape).Idx → EReal) (p : Fin 8192) (c : Fin 2) : EReal :=
  (∑ k : Fin 8192, A p k * hw A x W1 W2 k c) + b2 (ix1 c)

/-- The logits as an array. -/
def logitsArr (A : Fin 8192 → Fin 8192 → EReal) (x : (⟨2, ![8192, 512]⟩ : Shape).Idx → EReal)
    (W1 : (⟨2, ![512, 256]⟩ : Shape).Idx → EReal) (W2 : (⟨2, ![256, 2]⟩ : Shape).Idx → EReal)
    (b2 : (⟨1, ![2]⟩ : Shape).Idx → EReal) : (⟨2, ![8192, 2]⟩ : Shape).Idx → EReal :=
  fun i => logits A x W1 W2 b2 (i 0) (i 1)

/-- The maximum of each row, folded from `-inf`. -/
def rowMax (O : (⟨2, ![8192, 2]⟩ : Shape).Idx → EReal) : (⟨1, ![8192]⟩ : Shape).Idx → EReal :=
  Host.reduce (FloatOps.maximumf : Ideal .f32 → Ideal .f32 → Ideal .f32) O
    (fun _ : (⟨0, ![]⟩ : Shape).Idx => ninf)
    (show (⟨2, ![8192, 2]⟩ : Shape).ReducesTo [1] ⟨1, ![8192]⟩ by decide) (by decide)

/-- The amount row `p` is shifted by: its maximum, and at least `-inf`. -/
def rowShift (O : (⟨2, ![8192, 2]⟩ : Shape).Idx → EReal) (p : Fin 8192) : EReal :=
  max ninf (rowMax O (ix1 p))

/-- The shifted logits. -/
def shifted (O : (⟨2, ![8192, 2]⟩ : Shape).Idx → EReal) (p : Fin 8192) (c : Fin 2) : EReal :=
  O (ix2 p c) - rowShift O p

/-- The logarithm of the sum of the exponentials of row `p`'s shifted logits. -/
def logSumExp (O : (⟨2, ![8192, 2]⟩ : Shape).Idx → EReal) (p : Fin 8192) : EReal :=
  Ideal.log (c0 + ∑ k : Fin 2, Ideal.exp (shifted O p k))

/-- The row-wise log-softmax. -/
def logSoftmax (O : (⟨2, ![8192, 2]⟩ : Shape).Idx → EReal) : (⟨2, ![8192, 2]⟩ : Shape).Idx → EReal :=
  fun i => shifted O (i 0) (i 1) - logSumExp O (i 0)

/-- The result: the row-wise log-softmax of the logits. -/
def result (A : Fin 8192 → Fin 8192 → EReal) (x : (⟨2, ![8192, 512]⟩ : Shape).Idx → EReal)
    (W1 : (⟨2, ![512, 256]⟩ : Shape).Idx → EReal) (W2 : (⟨2, ![256, 2]⟩ : Shape).Idx → EReal)
    (b2 : (⟨1, ![2]⟩ : Shape).Idx → EReal) : (⟨2, ![8192, 2]⟩ : Shape).Idx → EReal :=
  logSoftmax (logitsArr A x W1 W2 b2)

/-! ## The normalised adjacency of a real matrix is real -/

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The inverse square root, with its replacement, of a real is a real: a real power of a real is real, and the
    replacement chooses between that power and `0`. -/
theorem invSqrt_real (r : ℝ) : ∃ t : ℝ, invSqrt (r : EReal) = (t : EReal) := by
  have hp : Ideal.pow (r : EReal) neghalf = ((Real.rpow r (-(1 / 2)) : ℝ) : EReal) := by
    rw [neghalf_eq]; rfl
  unfold invSqrt Scalar.select
  rw [hp]
  split_ifs
  · exact ⟨0, Ideal.ofBits_zero_f32⟩
  · exact ⟨_, rfl⟩

/-- A row sum of a real matrix is real. -/
theorem rowSum_real (adj : (⟨2, ![8192, 8192]⟩ : Shape).Idx → EReal) (hfin : ∀ i, ∃ r : ℝ, adj i = (r : EReal))
    (p : Fin 8192) : ∃ r : ℝ, rowSum adj p = (r : EReal) := by
  choose f hf using hfin
  refine ⟨∑ k : Fin 8192, f (ix2 p k), ?_⟩
  unfold rowSum
  rw [c0_eq, zero_add, coe_sum]
  exact Finset.sum_congr rfl fun k _ => hf _

/-- A column sum of a real matrix is real. -/
theorem colSum_real (adj : (⟨2, ![8192, 8192]⟩ : Shape).Idx → EReal) (hfin : ∀ i, ∃ r : ℝ, adj i = (r : EReal))
    (q : Fin 8192) : ∃ r : ℝ, colSum adj q = (r : EReal) := by
  choose f hf using hfin
  refine ⟨∑ k : Fin 8192, f (ix2 k q), ?_⟩
  unfold colSum
  rw [c0_eq, zero_add, coe_sum]
  exact Finset.sum_congr rfl fun k _ => hf _

/-- The normalised adjacency of a real matrix is real. -/
theorem D_real (adj : (⟨2, ![8192, 8192]⟩ : Shape).Idx → EReal) (hfin : ∀ i, ∃ r : ℝ, adj i = (r : EReal))
    (p q : Fin 8192) : ∃ r : ℝ, D adj p q = (r : EReal) := by
  obtain ⟨s, hs⟩ := rowSum_real adj hfin p
  obtain ⟨t, ht⟩ := colSum_real adj hfin q
  obtain ⟨a, ha⟩ := invSqrt_real s
  obtain ⟨b, hb⟩ := invSqrt_real t
  obtain ⟨v, hv⟩ := hfin (ix2 p q)
  exact ⟨a * v * b, by unfold D; rw [hs, ht, ha, hb, hv, EReal.coe_mul, EReal.coe_mul]⟩

/-! ## The law -/

/-- In the reals, over any finite index type: the product `(a I - D) (I + D)` expanded. -/
theorem filter_real {ι : Type*} [Fintype ι] [DecidableEq ι] (a : ℝ) (d : ι → ι → ℝ) (p q : ι) :
    ∑ k, (a * (if p = k then 1 else 0) - d p k) * ((if k = q then 1 else 0) + d k q)
      = (a * (if p = q then 1 else 0) + (a - 1) * d p q) - ∑ k, d p k * d k q := by
  have h : ∀ k, (a * (if p = k then (1 : ℝ) else 0) - d p k) * ((if k = q then (1 : ℝ) else 0) + d k q)
      = ((if p = k then a * ((if k = q then 1 else 0) + d k q) else 0) - (if k = q then d p k else 0))
        - d p k * d k q := by
    intro k; split_ifs <;> ring
  simp only [h, Finset.sum_sub_distrib, Finset.sum_ite_eq, Finset.sum_ite_eq', Finset.mem_univ, if_true]
  split_ifs <;> ring

/-- THE LAW: on a real adjacency matrix the two arrangements of the filter matrix agree. -/
theorem filter_law (adj : (⟨2, ![8192, 8192]⟩ : Shape).Idx → EReal) (hfin : ∀ i, ∃ r : ℝ, adj i = (r : EReal)) :
    filterRef adj = filterKer adj := by
  choose d hd using D_real adj hfin
  have he : ∀ a b : Fin 8192, eye a b = (((if a = b then 1 else 0 : ℝ)) : EReal) := by
    intro a b; unfold eye; split_ifs <;> simp
  funext p q
  unfold filterRef filterKer
  simp only [hd, he, half_eq, neghalf_eq]
  simp only [← EReal.coe_mul, ← EReal.coe_sub, ← EReal.coe_add, ← coe_sum]
  rw [EReal.coe_eq_coe_iff, filter_real]
  ring

end Cert.Spec

end
-- ==== Proof.Payloads.lean ====
/-
  The kernels' stored values read at one element, over the extended reals.

  Every value a kernel body stores is a composition of elementwise operations, broadcasts of a column or of a row,
  a block product into a zero accumulator, and (for the filter block) the indicator of the diagonal, built from the
  block's offsets and the coordinates.  Read at the element `(r, c)` of the block these are: the product of the
  elements; the operand's entry in row `r`, or in column `c`; the sum over the contracted coordinate `k` of
  `lhs (r, k) * rhs (k, c)`; and `1` when the global row `i₀·1024 + r` equals the global column `i₁·1024 + c`,
  else `0` (no 32-bit sum wraps: the offsets are below `8·1024`).  A change of format is the identity.
-/
import proofs.«148386_j953482740188_2_alg».proof.Proof.Gen.KernelIdeal.Skeleton
import proofs.«148386_j953482740188_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## A column broadcast over many columns -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three block products -/

theorem dot1_l0 (j : S1024x1024.Idx) (q : dot_S1024x256_S256x1024_S1024x1024_1_0_0_1_n_n.contr.Idx) : (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem dot1_l1 (j : S1024x1024.Idx) (q : dot_S1024x256_S256x1024_S1024x1024_1_0_0_1_n_n.contr.Idx) : (dot_S1024x256_S256x1024_S1024x1024_1_0_0_1_n_n.lhsIdx j q 1).val = (q ⟨0, by decide⟩).val :=
  dot_S1024x256_S256x1024_S1024x1024_1_0_0_1_n_n.lhsIdx_val_of_single rfl j q
theorem dot1_r0 (j : S1024x1024.Idx) (q : dot_S1024x256_S256x1024_S1024x1024_1_0_0_1_n_n.contr.Idx) : (dot_S1024x256_S256x1024_S1024x1024_1_0_0_1_n_n.rhsIdx j q 0).val = (q ⟨0, by decide⟩).val :=
  dot_S1024x256_S256x1024_S1024x1024_1_0_0_1_n_n.rhsIdx_val_of_single rfl j q
theorem dot1_r1 (j : S1024x1024.Idx) (q : dot_S1024x256_S256x1024_S1024x1024_1_0_0_1_n_n.contr.Idx) : (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The contraction of the block product read at an index: the sum over the contracted coordinate. -/
theorem dot1_apply (lhs : FVec Ideal S1024x256 .bf16) (rhs : FVec Ideal S256x1024 .bf16) (j : S1024x1024.Idx) :
    FloatOps.matmul dot_S1024x256_S256x1024_S1024x1024_1_0_0_1_n_n none lhs rhs (constant (F := Ideal) S1024x1024 .f32 0x00000000#32) j
      = ∑ k : Fin 256, lhs (ix2 (j 0) k) * rhs (ix2 k (j 1)) := by
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx j ((contrEquiv1 dot_S1024x256_S256x1024_S1024x1024_1_0_0_1_n_n 256 rfl rfl).symm k) = ix2 (j 0) k := funext fun a => Fin.ext (by
    match a with
    | ⟨0, _⟩ => exact dot1_l0 _ _
    | ⟨1, _⟩ => exact (dot1_l1 _ _).trans hk)
  have er : dot_S1024x256_S256x1024_S1024x1024_1_0_0_1_n_n.rhsIdx j ((contrEquiv1 dot_S1024x256_S256x1024_S1024x1024_1_0_0_1_n_n 256 rfl rfl).symm k) = ix2 k (j 1) := funext fun a => Fin.ext (by
    match a with
    | ⟨0, _⟩ => exact (dot1_r0 _ _).trans hk
    | ⟨1, _⟩ => exact dot1_r1 _ _)
  exact congrArg₂ (· * ·) (congrArg lhs el) (congrArg rhs er)

theorem dot2_l0 (j : S512x256.Idx) (q : dot_S512x512_S512x256_S512x256_1_0_0_1_n_n.contr.Idx) : (dot_S512x512_S512x256_S512x256_1_0_0_1_n_n.lhsIdx j q 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem dot2_l1 (j : S512x256.Idx) (q : dot_S512x512_S512x256_S512x256_1_0_0_1_n_n.contr.Idx) : (dot_S512x512_S512x256_S512x256_1_0_0_1_n_n.lhsIdx j q 1).val = (q ⟨0, by decide⟩).val :=
  dot_S512x512_S512x256_S512x256_1_0_0_1_n_n.lhsIdx_val_of_single rfl j q
theorem dot2_r0 (j : S512x256.Idx) (q : dot_S512x512_S512x256_S512x256_1_0_0_1_n_n.contr.Idx) : (dot_S512x512_S512x256_S512x256_1_0_0_1_n_n.rhsIdx j q 0).val = (q ⟨0, by decide⟩).val :=
  dot_S512x512_S512x256_S512x256_1_0_0_1_n_n.rhsIdx_val_of_single rfl j q
theorem dot2_r1 (j : S512x256.Idx) (q : dot_S512x512_S512x256_S512x256_1_0_0_1_n_n.contr.Idx) : (dot_S512x512_S512x256_S512x256_1_0_0_1_n_n.rhsIdx j q 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The contraction of the block product read at an index: the sum over the contracted coordinate. -/
theorem dot2_apply (lhs : FVec Ideal S512x512 .bf16) (rhs : FVec Ideal S512x256 .bf16) (j : S512x256.Idx) :
    FloatOps.matmul dot_S512x512_S512x256_S512x256_1_0_0_1_n_n none lhs rhs (constant (F := Ideal) S512x256 .f32 0x00000000#32) j
      = ∑ k : Fin 512, lhs (ix2 (j 0) k) * rhs (ix2 k (j 1)) := by
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx j ((contrEquiv1 dot_S512x512_S512x256_S512x256_1_0_0_1_n_n 512 rfl rfl).symm k) = ix2 (j 0) k := funext fun a => Fin.ext (by
    match a with
    | ⟨0, _⟩ => exact dot2_l0 _ _
    | ⟨1, _⟩ => exact (dot2_l1 _ _).trans hk)
  have er : dot_S512x512_S512x256_S512x256_1_0_0_1_n_n.rhsIdx j ((contrEquiv1 dot_S512x512_S512x256_S512x256_1_0_0_1_n_n 512 rfl rfl).symm k) = ix2 k (j 1) := funext fun a => Fin.ext (by
    match a with
    | ⟨0, _⟩ => exact (dot2_r0 _ _).trans hk
    | ⟨1, _⟩ => exact dot2_r1 _ _)
  exact congrArg₂ (· * ·) (congrArg lhs el) (congrArg rhs er)

theorem dot3_l0 (j : S512x2.Idx) (q : dot_S512x512_S512x2_S512x2_1_0_0_1_n_n.contr.Idx) : (dot_S512x512_S512x2_S512x2_1_0_0_1_n_n.lhsIdx j q 0).val = (j 0).val := by
  unfold DotDims.lhsIdx
  rw [dif_neg (show ¬(0 : Fin S512x512.rank) ∈ dot_S512x512_S512x2_S512x2_1_0_0_1_n_n.lhsBatch by decide), dif_pos (show (0 : Fin S512x512.rank) ∈ dot_S512x512_S512x2_S512x2_1_0_0_1_n_n.lhsNonContracting by decide)]
  rfl
theorem dot3_l1 (j : S512x2.Idx) (q : dot_S512x512_S512x2_S512x2_1_0_0_1_n_n.contr.Idx) : (dot_S512x512_S512x2_S512x2_1_0_0_1_n_n.lhsIdx j q 1).val = (q ⟨0, by decide⟩).val :=
  dot_S512x512_S512x2_S512x2_1_0_0_1_n_n.lhsIdx_val_of_single rfl j q
theorem dot3_r0 (j : S512x2.Idx) (q : dot_S512x512_S512x2_S512x2_1_0_0_1_n_n.contr.Idx) : (dot_S512x512_S512x2_S512x2_1_0_0_1_n_n.rhsIdx j q 0).val = (q ⟨0, by decide⟩).val :=
  dot_S512x512_S512x2_S512x2_1_0_0_1_n_n.rhsIdx_val_of_single rfl j q
theorem dot3_r1 (j : S512x2.Idx) (q : dot_S512x512_S512x2_S512x2_1_0_0_1_n_n.contr.Idx) : (dot_S512x512_S512x2_S512x2_1_0_0_1_n_n.rhsIdx j q 1).val = (j 1).val := by
  unfold DotDims.rhsIdx
  rw [dif_neg (show ¬(1 : Fin S512x2.rank) ∈ dot_S512x512_S512x2_S512x2_1_0_0_1_n_n.rhsBatch by decide), dif_pos (show (1 : Fin S512x2.rank) ∈ dot_S512x512_S512x2_S512x2_1_0_0_1_n_n.rhsNonContracting by decide)]
  rfl

/-- The contraction of the block product read at an index: the sum over the contracted coordinate. -/
theorem dot3_apply (lhs : FVec Ideal S512x512 .bf16) (rhs : FVec Ideal S512x2 .bf16) (j : S512x2.Idx) :
    FloatOps.matmul dot_S512x512_S512x2_S512x2_1_0_0_1_n_n none lhs rhs (constant (F := Ideal) S512x2 .f32 0x00000000#32) j
      = ∑ k : Fin 512, lhs (ix2 (j 0) k) * rhs (ix2 k (j 1)) := by
  rw [Ideal.matmul_constant_zero_apply, ← Equiv.sum_comp (contrEquiv1 dot_S512x512_S512x2_S512x2_1_0_0_1_n_n 512 rfl rfl).symm]
  refine Finset.sum_congr rfl fun k _ => ?_
  have hk := contrEquiv1_symm_val dot_S512x512_S512x2_S512x2_1_0_0_1_n_n 512 rfl rfl k
  have el : dot_S512x512_S512x2_S512x2_1_0_0_1_n_n.lhsIdx j ((contrEquiv1 dot_S512x512_S512x2_S512x2_1_0_0_1_n_n 512 rfl rfl).symm k) = ix2 (j 0) k := funext fun a => Fin.ext (by
    match a with
    | ⟨0, _⟩ => exact dot3_l0 _ _
    | ⟨1, _⟩ => exact (dot3_l1 _ _).trans hk)
  have er : dot_S512x512_S512x2_S512x2_1_0_0_1_n_n.rhsIdx j ((contrEquiv1 dot_S512x512_S512x2_S512x2_1_0_0_1_n_n 512 rfl rfl).symm k) = ix2 k (j 1) := funext fun a => Fin.ext (by
    match a with
    | ⟨0, _⟩ => exact (dot3_r0 _ _).trans hk
    | ⟨1, _⟩ => exact dot3_r1 _ _)
  exact congrArg₂ (· * ·) (congrArg lhs el) (congrArg rhs er)

/-! ## The indicator of the diagonal -/

/-- An offset `a·1024` plus a coordinate `r`, both small, is the word of their sum: nothing wraps. -/
theorem word_eq (a r : Nat) (ha : a < 8) (hr : r < 1024) :
    IntOp.addi (IntOp.muli (BitVec.ofNat 32 a) 1024#32) (BitVec.ofNat 32 r) = BitVec.ofNat 32 (a * 1024 + r) := by
  unfold IntOp.addi IntOp.muli
  apply BitVec.eq_of_toNat_eq
  simp only [BitVec.toNat_add, BitVec.toNat_mul, BitVec.toNat_ofNat]
  omega

/-- Two numbers below `2^32` have the same word only when they are equal. -/
theorem ofNat_inj_small (x y : Nat) (hx : x < 2 ^ 32) (hy : y < 2 ^ 32) :
    BitVec.ofNat 32 x = BitVec.ofNat 32 y ↔ x = y := by
  constructor
  · intro e
    have := congrArg BitVec.toNat e
    simp only [BitVec.toNat_ofNat] at this
    omega
  · rintro rfl; rfl

/-- The comparison of the global row with the global column, widened and converted: `1` on the diagonal, else `0`. -/
theorem diag_word (a b r c : Nat) (ha : a < 8) (hb : b < 8) (hr : r < 1024) (hc : c < 1024) :
    ((((IntOp.cmpi .eq (IntOp.addi (IntOp.muli (BitVec.ofNat 32 a) 1024#32) (BitVec.ofNat 32 r))
        (IntOp.addi (IntOp.muli (BitVec.ofNat 32 b) 1024#32) (BitVec.ofNat 32 c))).setWidth 32).toInt : ℝ) : EReal)
      = if a * 1024 + r = b * 1024 + c then 1 else 0 := by
  rw [word_eq a r ha hr, word_eq b c hb hc]
  by_cases h : a * 1024 + r = b * 1024 + c
  · rw [if_pos h, h]
    simp [IntOp.cmpi]
  · rw [if_neg h]
    have hne : BitVec.ofNat 32 (a * 1024 + r) ≠ BitVec.ofNat 32 (b * 1024 + c) := fun e =>
      h ((ofNat_inj_small _ _ (by omega) (by omega)).mp e)
    have hb : (BitVec.ofNat 32 (a * 1024 + r) == BitVec.ofNat 32 (b * 1024 + c)) = false := beq_false_of_ne hne
    simp [IntOp.cmpi, hb]

/-- The indicator array of block `i` read at `(r, c)`. -/
theorem diag_apply (i : grid1.Coords) (r c : Fin 1024) :
    (sitofp .f32 (extui 32 (cmpi .eq
        (broadcastTo S1024x1024 (addi (broadcast S1024x1 (Scalar.muli (BitVec.ofNat 32 (i 0).val) 1024#32))
          (iota .tc S1024x1 32 [0] iota_S1024x1_d0_w32)) broadcasts_S1024x1_S1024x1024)
        (broadcastTo S1024x1024 (addi (broadcast S1x1024 (Scalar.muli (BitVec.ofNat 32 (i 1).val) 1024#32))
          (iota .tc S1x1024 32 [1] iota_S1x1024_d1_w32)) broadcasts_S1x1024_S1024x1024)) natLt_1_32)
      : FVec Ideal S1024x1024 .f32) (ix2 r c)
      = if (i 0).val * 1024 + r.val = (i 1).val * 1024 + c.val then 1 else 0 := by
  show ((((IntOp.cmpi .eq (broadcastTo S1024x1024 _ _ (ix2 r c)) (broadcastTo S1024x1024 _ _ (ix2 r c))).setWidth 32).toInt
    : ℝ) : EReal) = _
  rw [broadcastTo_a1_ab_apply, broadcastTo_1b_ab_apply]
  show ((((IntOp.cmpi .eq
      (IntOp.addi (IntOp.muli (BitVec.ofNat 32 (i 0).val) 1024#32) (iota .tc S1024x1 32 [0] iota_S1024x1_d0_w32 (ix2 r 0)))
      (IntOp.addi (IntOp.muli (BitVec.ofNat 32 (i 1).val) 1024#32) (iota .tc S1x1024 32 [1] iota_S1x1024_d1_w32 (ix2 0 c)))).setWidth 32).toInt
    : ℝ) : EReal) = _
  rw [iota_single_apply, iota_single_apply]
  exact diag_word _ _ _ _ (i 0).isLt (i 1).isLt r.isLt c.isLt

/-! ## The stored values -/

/-- The normalised block: `(r p * adj p q) * c q`. -/
theorem pay0 (v0 : Vec Ideal S1024x1 .f32) (v2 : Vec Ideal S1024x1024 .f32) (v5 : Vec Ideal S1x1024 .f32)
    (r c : Fin 1024) : k0_pay1 v0 v2 v5 (ix2 r c) = (v0 (ix2 r 0) * v2 (ix2 r c)) * v5 (ix2 0 c) := by
  unfold k0_pay1
  rw [shapeCast_self, shapeCast_self]
  show (broadcastTo S1024x1024 v0 _ (ix2 r c) * v2 (ix2 r c)) * broadcastTo S1024x1024 v5 _ (ix2 r c) = _
  rw [broadcastTo_a1_ab_apply, broadcastTo_1b_ab_apply]

/-- The accumulator of the block products starts at zero. -/
theorem pay1_zero (r c : Fin 1024) : k1_pay1 (F := Ideal) (ix2 r c) = 0 := by
  unfold k1_pay1
  rw [shapeCast_self]
  exact Ideal.ofBits_zero_f32

/-- One step of the accumulation: the accumulator plus the block product. -/
theorem pay1_step (v3 : Vec Ideal S1024x1024 .f32) (v4 : Vec Ideal S1024x256 .bf16) (v6 : Vec Ideal S256x1024 .bf16)
    (r c : Fin 1024) : k1_pay2 v3 v4 v6 (ix2 r c) = v3 (ix2 r c) + ∑ k : Fin 256, v4 (ix2 r k) * v6 (ix2 k c) := by
  unfold k1_pay2
  rw [shapeCast_self, shapeCast_self, shapeCast_self]
  show v3 (ix2 r c) + FloatOps.matmul dot_S1024x256_S256x1024_S1024x1024_1_0_0_1_n_n none v4 v6
    (constant (F := Ideal) S1024x1024 .f32 0x00000000#32) (ix2 r c) = _
  rw [dot1_apply]

/-- The filter block: `(a I + (-a) D) - acc`, with `I` the indicator of the diagonal of the whole matrix. -/
theorem pay1_last (i : grid1.Coords) (v16 : Vec Ideal S1024x1 .f32) (v18 : Vec Ideal S1024x1024 .f32)
    (v21 : Vec Ideal S1x1024 .f32) (v43 : Vec Ideal S1024x1024 .f32) (r c : Fin 1024) :
    k1_pay3 i v16 v18 v21 v43 (ix2 r c)
      = (Cert.Spec.half * (if (i 0).val * 1024 + r.val = (i 1).val * 1024 + c.val then 1 else 0)
          + Cert.Spec.neghalf * ((v16 (ix2 r 0) * v18 (ix2 r c)) * v21 (ix2 0 c))) - v43 (ix2 r c) := by
  unfold k1_pay3
  rw [shapeCast_self, shapeCast_self]
  simp only [subf_apply, addf_apply, mulf_apply, broadcast_apply]
  rw [diag_apply i r c, broadcastTo_a1_ab_apply, broadcastTo_1b_ab_apply]
  rfl

/-- The accumulator of the first layer's product starts at zero. -/
theorem pay2_zero (r : Fin 512) (c : Fin 256) : k2_pay1 (F := Ideal) (ix2 r c) = 0 := by
  unfold k2_pay1
  rw [shapeCast_self]
  exact Ideal.ofBits_zero_f32

/-- One step of the first layer's accumulation. -/
theorem pay2_step (v6 : Vec Ideal S512x256 .f32) (v8 : Vec Ideal S512x256 .f32) (v9 : Vec Ideal S512x512 .f32)
    (r : Fin 512) (c : Fin 256) :
    k2_pay2 v6 v8 v9 (ix2 r c) = v8 (ix2 r c) + ∑ k : Fin 512, v9 (ix2 r k) * v6 (ix2 k c) := by
  unfold k2_pay2
  rw [shapeCast_self, shapeCast_self, shapeCast_self]
  show v8 (ix2 r c) + FloatOps.matmul dot_S512x512_S512x256_S512x256_1_0_0_1_n_n none
    (truncf .bf16 v9 bitsLt_bf16_f32 : FVec Ideal S512x512 .bf16) (truncf .bf16 v6 bitsLt_bf16_f32 : FVec Ideal S512x256 .bf16)
    (constant (F := Ideal) S512x256 .f32 0x00000000#32) (ix2 r c) = _
  rw [dot2_apply]
  rfl

/-- The hidden layer's maximum with zero. -/
theorem pay2_relu (v21 : Vec Ideal S512x256 .f32) (r : Fin 512) (c : Fin 256) :
    k2_pay3 v21 (ix2 r c) = max (v21 (ix2 r c)) Cert.Spec.c0 := by
  unfold k2_pay3
  rfl

/-- The accumulator of the second layer's product starts at zero. -/
theorem pay3_zero (r : Fin 512) (c : Fin 2) : k3_pay1 (F := Ideal) (ix2 r c) = 0 := by
  unfold k3_pay1
  rw [shapeCast_self]
  exact Ideal.ofBits_zero_f32

/-- One step of the second layer's accumulation. -/
theorem pay3_step (v6 : Vec Ideal S512x2 .f32) (v8 : Vec Ideal S512x2 .f32) (v9 : Vec Ideal S512x512 .f32)
    (r : Fin 512) (c : Fin 2) :
    k3_pay2 v6 v8 v9 (ix2 r c) = v8 (ix2 r c) + ∑ k : Fin 512, v9 (ix2 r k) * v6 (ix2 k c) := by
  unfold k3_pay2
  rw [shapeCast_self, shapeCast_self, shapeCast_self]
  show v8 (ix2 r c) + FloatOps.matmul dot_S512x512_S512x2_S512x2_1_0_0_1_n_n none
    (truncf .bf16 v9 bitsLt_bf16_f32 : FVec Ideal S512x512 .bf16) (truncf .bf16 v6 bitsLt_bf16_f32 : FVec Ideal S512x2 .bf16)
    (constant (F := Ideal) S512x2 .f32 0x00000000#32) (ix2 r c) = _
  rw [dot3_apply]
  rfl

end Cert.KernelIdeal.Pay

end
-- ==== Proof.Nat2.lean ====
/-
  Reading arrays at natural-number coordinates. A two-axis array is extended by zero outside its extents, so that a
  block's entry at (row offset + r, column offset + k) and a sum over a growing range of the contracted axis can be
  written without carrying bound proofs; inside the extents the extension is the array.
-/
import Idealize.ShloMosaic.PureOps.Ideal.Laws
import Idealize.ShloMosaic.Lib.ValueIdx

noncomputable section

namespace Cert.Nat2

open Idealize.ShloMosaic Idealize.ShloMosaic.ValueIdx

/-- The array `X` at `(p, k)`, zero outside its extents. -/
def at2 {a b : ℕ} (X : (⟨2, ![a, b]⟩ : Shape).Idx → EReal) (p k : ℕ) : EReal :=
  if h : p < a ∧ k < b then X (ix2 ⟨p, h.1⟩ ⟨k, h.2⟩) else 0

theorem at2_of_lt {a b : ℕ} (X : (⟨2, ![a, b]⟩ : Shape).Idx → EReal) {p k : ℕ} (hp : p < a) (hk : k < b) :
    at2 X p k = X (ix2 ⟨p, hp⟩ ⟨k, hk⟩) := dif_pos ⟨hp, hk⟩

theorem at2_fin {a b : ℕ} (X : (⟨2, ![a, b]⟩ : Shape).Idx → EReal) (p : Fin a) (k : Fin b) :
    at2 X p.val k.val = X (ix2 p k) := at2_of_lt X p.isLt k.isLt

/-- A contraction over the whole middle axis, written over a range of naturals, is the sum over the axis. -/
theorem sum_range_at2 {a b d : ℕ} (X : (⟨2, ![a, b]⟩ : Shape).Idx → EReal) (Y : (⟨2, ![b, d]⟩ : Shape).Idx → EReal)
    (p : Fin a) (j : Fin d) :
    ∑ i ∈ Finset.range b, at2 X p.val i * at2 Y i j.val = ∑ k : Fin b, X (ix2 p k) * Y (ix2 k j) := by
  rw [Finset.sum_range]
  exact Finset.sum_congr rfl fun k _ => by rw [at2_fin, at2_fin]

/-- The product of two arrays contracted over the middle axis. -/
def contract {a b d : ℕ} (X : (⟨2, ![a, b]⟩ : Shape).Idx → EReal) (Y : (⟨2, ![b, d]⟩ : Shape).Idx → EReal) :
    (⟨2, ![a, d]⟩ : Shape).Idx → EReal := fun i => ∑ k : Fin b, X (ix2 (i 0) k) * Y (ix2 k (i 1))

theorem contract_apply {a b d : ℕ} (X : (⟨2, ![a, b]⟩ : Shape).Idx → EReal) (Y : (⟨2, ![b, d]⟩ : Shape).Idx → EReal)
    (p : Fin a) (j : Fin d) : contract X Y (ix2 p j) = ∑ k : Fin b, X (ix2 p k) * Y (ix2 k j) := rfl

/-- The contraction at natural coordinates, written over the whole range, is the product's entry. -/
theorem sum_range_contract {a b d : ℕ} (X : (⟨2, ![a, b]⟩ : Shape).Idx → EReal) (Y : (⟨2, ![b, d]⟩ : Shape).Idx → EReal)
    {p j : ℕ} (hp : p < a) (hj : j < d) :
    ∑ i ∈ Finset.range b, at2 X p i * at2 Y i j = contract X Y (ix2 ⟨p, hp⟩ ⟨j, hj⟩) :=
  sum_range_at2 X Y ⟨p, hp⟩ ⟨j, hj⟩

end Cert.Nat2

end
-- ==== Proof.Value0.lean ====
/-
  The first region's result array on the extended reals: entry (p, q) of the normalised adjacency is
  row factor p · adjacency entry (p, q) · column factor q.  Point (i, j) of the 8 × 8 grid stores block (i, j); the 64
  blocks tile the array.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Region0
import proofs.«148386_j953482740188_2_alg».proof.Proof.Payloads
import proofs.«148386_j953482740188_2_alg».proof.Proof.Nat2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Nat2 Cert.KernelIdeal.Pay

/-- An array scaled by a column of row factors and a row of column factors. -/
def scaleRC {a b : ℕ} (dr : (⟨2, ![a, 1]⟩ : Shape).Idx → EReal) (X : (⟨2, ![a, b]⟩ : Shape).Idx → EReal)
    (dc : (⟨2, ![1, b]⟩ : Shape).Idx → EReal) : (⟨2, ![a, b]⟩ : Shape).Idx → EReal :=
  fun i => (dr (ix2 (i 0) 0) * X (ix2 (i 0) (i 1))) * dc (ix2 0 (i 1))

section Value

variable (V : (c : Dev nD) → (b : Ref sig .tc) → Buf (Elt Ideal) ((c : Thread nD τ).loc b))

theorem hz0 : (![0, 0] : Fin 2 → Nat) = fun _ => 0 := funext fun a => by fin_cases a <;> rfl

/-- Grid point t is block row t / 8, block column t % 8: where each window's block sits. -/
theorem where0 : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- The result array of the region, as one function of the arrays it reads. -/
def normAdj (c : Dev nD) : S8192x8192.Idx → EReal :=
  scaleRC (a := 8192) (b := 8192) (V c main_v5) (V c main_arg1) (V c main_v11)

theorem mem_out0 (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v12).slice (win0_3.rect t)).set ↔ _
  rw [View.set_slice_whole, Rect.mem_set_unit]
  exact Iff.rfl

/-- WHAT A POINT WRITES BACK is its block of `normAdj`. -/
theorem wrote0 (c : Dev nD) (t : Fin cfg0.N) (hf : (cfg0.win 3).flush t = true) :
    (dat0 V c).flushed 3 t = ((cfg0.win 3).blk t).view.read (Elt Ideal) (normAdj V c) := by
  have hN : t.val < 64 := lt_of_lt_of_eq t.isLt (show cfg0.N = 64 from N_0)
  obtain ⟨e0, e1, e2, e3, e4, e5, e6, e7⟩ := where0 t
  show (cfg0.win 3).cut (grid0.coords t) ((dat0 V c).after 3 t) = _
  rw [dat0_after3]
  unfold scaled0
  rw [View.canon_unit_zero hz0]
  simp only [View.ld_unit_zero (S := S1024x1024) hz0, View.ld_unit_zero (S := S1024x1) hz0, View.ld_unit_zero (S := S1x1024) hz0]
  funext y
  obtain ⟨r, q, rfl⟩ : ∃ (r q : Fin 1024), y = ix2 r q := ⟨y 0, y 1, eq_ix2 y⟩
  have hp : 1024 * (t.val / 8) + r.val < 8192 := by omega
  have hq : 1024 * (t.val % 8) + q.val < 8192 := by omega
  have he0 : (((cfg0.win 3).blk t).view.emb (ix2 r q)) (0 : Fin 2) = (⟨1024 * (t.val / 8) + r.val, hp⟩ : Fin 8192) :=
    Fin.ext (by show win0_3.index t (0 : Fin 2) * 1024 + 1 * r.val = 1024 * (t.val / 8) + r.val; omega)
  have he1 : (((cfg0.win 3).blk t).view.emb (ix2 r q)) (1 : Fin 2) = (⟨1024 * (t.val % 8) + q.val, hq⟩ : Fin 8192) :=
    Fin.ext (by show win0_3.index t (1 : Fin 2) * 1024 + 1 * q.val = 1024 * (t.val % 8) + q.val; omega)
  have he : ((cfg0.win 3).blk t).view.emb (ix2 r q) = ix2 (⟨1024 * (t.val / 8) + r.val, hp⟩ : Fin 8192) (⟨1024 * (t.val % 8) + q.val, hq⟩ : Fin 8192) :=
    funext fun a => match a with | ⟨0, _⟩ => he0 | ⟨1, _⟩ => he1
  rw [View.read_apply, he]
  show k0_pay1 (blk0 V c 1 t) (blk0 V c 0 t) (blk0 V c 2 t) (ix2 r q) = normAdj V c _
  have ha : (blk0 V c 0 t : Vec Ideal S1024x1024 .f32) (ix2 r q) = (V c main_arg1 : S8192x8192.Idx → EReal) (ix2 ⟨1024 * (t.val / 8) + r.val, hp⟩ ⟨1024 * (t.val % 8) + q.val, hq⟩) := by
    unfold blk0
    rw [View.read_apply]
    exact congrArg (V c main_arg1) (funext fun a => match a with
      | ⟨0, _⟩ => Fin.ext (by show win0_0.index t (0 : Fin 2) * 1024 + 1 * r.val = 1024 * (t.val / 8) + r.val; omega)
      | ⟨1, _⟩ => Fin.ext (by show win0_0.index t (1 : Fin 2) * 1024 + 1 * q.val = 1024 * (t.val % 8) + q.val; omega))
  have hr : (blk0 V c 1 t : Vec Ideal S1024x1 .f32) (ix2 r 0) = (V c main_v5 : S8192x1.Idx → EReal) (ix2 ⟨1024 * (t.val / 8) + r.val, hp⟩ 0) := by
    unfold blk0
    rw [View.read_apply]
    exact congrArg (V c main_v5) (funext fun a => match a with
      | ⟨0, _⟩ => Fin.ext (by show win0_1.index t (0 : Fin 2) * 1024 + 1 * r.val = 1024 * (t.val / 8) + r.val; omega)
      | ⟨1, _⟩ => Fin.ext (by show win0_1.index t (1 : Fin 2) * 1 + 1 * 0 = 0; omega))
  have hc : (blk0 V c 2 t : Vec Ideal S1x1024 .f32) (ix2 0 q) = (V c main_v11 : S1x8192.Idx → EReal) (ix2 0 ⟨1024 * (t.val % 8) + q.val, hq⟩) := by
    unfold blk0
    rw [View.read_apply]
    exact congrArg (V c main_v11) (funext fun a => match a with
      | ⟨0, _⟩ => Fin.ext (by show win0_2.index t (0 : Fin 2) * 1 + 1 * 0 = 0; omega)
      | ⟨1, _⟩ => Fin.ext (by show win0_2.index t (1 : Fin 2) * 1024 + 1 * q.val = 1024 * (t.val % 8) + q.val; omega))
  rw [pay0, ha, hr, hc]
  rfl

/-- The 64 blocks tile the array. -/
theorem cover0 (i : S8192x8192.Idx) : ∃ t : Fin cfg0.N, (cfg0.win 3).flush t = true ∧ i ∈ ((cfg0.win 3).blk t).view.set := by
  have h0 : (i 0).val < 8192 := (i 0).isLt
  have h1 : (i 1).val < 8192 := (i 1).isLt
  have hN : cfg0.N = 64 := N_0
  have ht : 8 * ((i 0).val / 1024) + (i 1).val / 1024 < cfg0.N := by omega
  obtain ⟨-, -, -, -, -, -, e6, e7⟩ := where0 ⟨8 * ((i 0).val / 1024) + (i 1).val / 1024, ht⟩
  refine ⟨⟨8 * ((i 0).val / 1024) + (i 1).val / 1024, ht⟩, flush0_3 _, ?_⟩
  rw [mem_out0]
  intro a
  match a with
  | ⟨0, _⟩ =>
    show win0_3.index ⟨8 * ((i 0).val / 1024) + (i 1).val / 1024, ht⟩ (0 : Fin 2) * 1024 ≤ (i 0).val ∧ (i 0).val < win0_3.index ⟨8 * ((i 0).val / 1024) + (i 1).val / 1024, ht⟩ (0 : Fin 2) * 1024 + 1024
    rw [e6]; dsimp only; omega
  | ⟨1, _⟩ =>
    show win0_3.index ⟨8 * ((i 0).val / 1024) + (i 1).val / 1024, ht⟩ (1 : Fin 2) * 1024 ≤ (i 1).val ∧ (i 1).val < win0_3.index ⟨8 * ((i 0).val / 1024) + (i 1).val / 1024, ht⟩ (1 : Fin 2) * 1024 + 1024
    rw [e7]; dsimp only; omega

/-- THE RESULT ARRAY after the region. -/
theorem final0 (c : Dev nD) : (dat0 V c).arrAt 3 cfg0.N = normAdj V c :=
  (dat0 V c).arrAt_eq_of_cover 3 (normAdj V c) (wrote0 V c) cover0

end Value

end Cert.KernelIdeal.Hand

end
-- ==== Proof.Steps1.lean ====
/-
  The filter-matrix region's steps as values: a first step leaves in the accumulator the product of the step's two
  blocks of the normalised adjacency added to the zero block; a middle step adds the step's product to what the
  accumulator held; a last step does the same and stores  a·[row = column] + (a − 1)·(row factor · entry · column
  factor) − sum  into the result's buffer.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section StepValues

theorem hz1 : (![0, 0] : Fin 2 → Nat) = fun _ => 0 := funext fun a => by fin_cases a <;> rfl

theorem accFirst1_eq (c : Dev nD) (t : Fin cfg1.N) (h0 : first1 (grid1.coords t)) (h1 : ¬last1 (grid1.coords t)) (l : Vec F S1024x256 .bf16) (r : Vec F S256x1024 .bf16) (a : Vec F S1024x1024 .f32) (dr : Vec F S1024x1 .f32) (dc : Vec F S1x1024 .f32) :
    accFirst1 c t h0 h1 l r a dr dc = k1_pay2 (k1_pay1 (F := F)) l r := by
  unfold accFirst1
  rw [View.read_writes_eq_canon _ _ _ (accFirst1_fills c t h0 h1 l r a dr dc)]
  unfold first1Run
  dsimp only
  sl_unfold_words
  rw [View.canon_cons_unit_zero (S := S1024x1024) hz1, View.readCov_unit_zero (S := S1024x1024) _ hz1]
  simp only [View.readAt_eq_ld, (w1_0 t).read_unread, (w1_1 t).read_unread, (w1_2 t).read_unread, (w1_3 t).read_unread, (w1_4 t).read_unread,
    (Memref.isWhole_whole cc1_scratch0).read_unread, View.ld_unit_zero (S := S1024x1024) hz1, View.ld_unit_zero (S := S1024x256) hz1,
    View.ld_unit_zero (S := S256x1024) hz1, View.ld_unit_zero (S := S1024x1) hz1, View.ld_unit_zero (S := S1x1024) hz1]

theorem accMid1_eq (c : Dev nD) (t : Fin cfg1.N) (h0 : ¬first1 (grid1.coords t)) (h1 : ¬last1 (grid1.coords t)) (l : Vec F S1024x256 .bf16) (r : Vec F S256x1024 .bf16) (a : Vec F S1024x1024 .f32) (dr : Vec F S1024x1 .f32) (dc : Vec F S1x1024 .f32)
    (acc : Vec F S1024x1024 .f32) : accMid1 c t h0 h1 l r a dr dc acc = k1_pay2 acc l r := by
  unfold accMid1
  rw [View.read_writes_eq_canon _ _ _ (accMid1_fills c t h0 h1 l r a dr dc acc)]
  unfold mid1Run
  dsimp only
  sl_unfold_words
  rw [View.canon_unit_zero hz1]
  simp only [View.readAt_eq_ld, (w1_0 t).read_unread, (w1_1 t).read_unread, (w1_2 t).read_unread, (w1_3 t).read_unread, (w1_4 t).read_unread,
    (Memref.isWhole_whole cc1_scratch0).read_unread, View.ld_unit_zero (S := S1024x1024) hz1, View.ld_unit_zero (S := S1024x256) hz1,
    View.ld_unit_zero (S := S256x1024) hz1, View.ld_unit_zero (S := S1024x1) hz1, View.ld_unit_zero (S := S1x1024) hz1]

theorem accLast1_eq (c : Dev nD) (t : Fin cfg1.N) (h0 : ¬first1 (grid1.coords t)) (h1 : last1 (grid1.coords t)) (l : Vec F S1024x256 .bf16) (r : Vec F S256x1024 .bf16) (a : Vec F S1024x1024 .f32) (dr : Vec F S1024x1 .f32) (dc : Vec F S1x1024 .f32)
    (acc : Vec F S1024x1024 .f32) : accLast1 c t h0 h1 l r a dr dc acc = k1_pay2 acc l r := by
  unfold accLast1
  rw [View.read_writes_eq_canon _ _ _ (accLast1_fills c t h0 h1 l r a dr dc acc)]
  unfold last1Run
  dsimp only
  sl_unfold_words
  rw [View.canon_unit_zero hz1]
  simp only [View.readAt_eq_ld, (w1_0 t).read_unread, (w1_1 t).read_unread, (w1_2 t).read_unread, (w1_3 t).read_unread, (w1_4 t).read_unread,
    (Memref.isWhole_whole cc1_scratch0).read_unread, View.ld_unit_zero (S := S1024x1024) hz1, View.ld_unit_zero (S := S1024x256) hz1,
    View.ld_unit_zero (S := S256x1024) hz1, View.ld_unit_zero (S := S1024x1) hz1, View.ld_unit_zero (S := S1x1024) hz1]

theorem outLast1_eq (c : Dev nD) (t : Fin cfg1.N) (h0 : ¬first1 (grid1.coords t)) (h1 : last1 (grid1.coords t)) (l : Vec F S1024x256 .bf16) (r : Vec F S256x1024 .bf16) (a : Vec F S1024x1024 .f32) (dr : Vec F S1024x1 .f32) (dc : Vec F S1x1024 .f32)
    (acc : Vec F S1024x1024 .f32) :
    outLast1 c t h0 h1 l r a dr dc acc = k1_pay3 (grid1.coords t) dr a dc (k1_pay2 acc l r) := by
  unfold outLast1
  rw [View.read_writes_eq_canon _ _ _ (outLast1_fills c t h0 h1 l r a dr dc acc)]
  unfold last1Run
  dsimp only
  sl_unfold_words
  rw [View.canon_unit_zero hz1, View.readCov_unit_zero (S := S1024x1024) _ hz1]
  simp only [View.readAt_eq_ld, (w1_0 t).read_unread, (w1_1 t).read_unread, (w1_2 t).read_unread, (w1_3 t).read_unread, (w1_4 t).read_unread,
    (Memref.isWhole_whole cc1_scratch0).read_unread, View.ld_unit_zero (S := S1024x1024) hz1, View.ld_unit_zero (S := S1024x256) hz1,
    View.ld_unit_zero (S := S256x1024) hz1, View.ld_unit_zero (S := S1024x1) hz1, View.ld_unit_zero (S := S1x1024) hz1]

end StepValues

end Cert.KernelIdeal.Hand

end
-- ==== Proof.Value1.lean ====
/-
  The filter-matrix region's result array on the extended reals: entry (p, q) is
  a·[p = q] + (a − 1)·(row factor p · adjacency entry (p, q) · column factor q) − ∑ₖ D(p, k)·D(k, q),   a = 1/2,
  D the normalised adjacency. After step k of block (i, j) the accumulator holds, at (r, q), the sum restricted to the
  first 256·(k + 1) values of the contracted index; the last step of each block stores the combination, and the 64
  blocks tile the result.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Steps1
import proofs.«148386_j953482740188_2_alg».proof.Proof.Value0
import proofs.«148386_j953482740188_2_alg».proof.Proof.Payloads
import proofs.«148386_j953482740188_2_alg».proof.Proof.Nat2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Nat2 Cert.KernelIdeal.Pay

section Value

variable (V : (c : Dev nD) → (b : Ref sig .tc) → Buf (Elt Ideal) ((c : Thread nD τ).loc b))

/-- Grid point t is block row t / 256, block column (t / 32) % 8, step t % 32: where each window's block sits. -/
theorem where1 : ∀ t : Fin cfg1.N, win1_0.index t (0 : Fin 2) = t.val / 256 ∧ win1_0.index t (1 : Fin 2) = t.val % 32
    ∧ win1_1.index t (0 : Fin 2) = t.val % 32 ∧ win1_1.index t (1 : Fin 2) = t.val / 32 % 8
    ∧ win1_2.index t (0 : Fin 2) = t.val / 256 ∧ win1_2.index t (1 : Fin 2) = t.val / 32 % 8
    ∧ win1_3.index t (0 : Fin 2) = t.val / 256 ∧ win1_3.index t (1 : Fin 2) = 0
    ∧ win1_4.index t (0 : Fin 2) = 0 ∧ win1_4.index t (1 : Fin 2) = t.val / 32 % 8
    ∧ win1_5.index t (0 : Fin 2) = t.val / 256 ∧ win1_5.index t (1 : Fin 2) = t.val / 32 % 8
    ∧ (grid1.coords t 0).val = t.val / 256 ∧ (grid1.coords t 1).val = t.val / 32 % 8 :=
  (by decide +kernel : ∀ t : Fin grid1.N, _)

/-- The left operand's block, entry by entry: rows of block row i, the step's 256 values of the contracted index. -/
theorem blk1_left (c : Dev nD) (t : Fin cfg1.N) (r : Fin 1024) (k : Fin 256) :
    (blk1 V c 0 t : Vec Ideal S1024x256 .bf16) (ix2 r k)
      = at2 (V c main_v12 : S8192x8192.Idx → EReal) (1024 * (t.val / 256) + r.val) (256 * (t.val % 32) + k.val) := by
  have hN : t.val < 2048 := lt_of_lt_of_eq t.isLt (show cfg1.N = 2048 from N_1)
  obtain ⟨e0, e1, -⟩ := where1 t
  rw [at2_of_lt _ (by omega) (by omega)]
  unfold blk1
  rw [View.read_apply]
  show V c main_v12 _ = V c main_v12 _
  congr 1
  funext a; apply Fin.ext
  match a with
  | ⟨0, _⟩ => show win1_0.index t (0 : Fin 2) * 1024 + 1 * r.val = 1024 * (t.val / 256) + r.val; omega
  | ⟨1, _⟩ => show win1_0.index t (1 : Fin 2) * 256 + 1 * k.val = 256 * (t.val % 32) + k.val; omega

/-- The right operand's block: the step's 256 values of the contracted index, columns of block column j. -/
theorem blk1_right (c : Dev nD) (t : Fin cfg1.N) (k : Fin 256) (q : Fin 1024) :
    (blk1 V c 1 t : Vec Ideal S256x1024 .bf16) (ix2 k q)
      = at2 (V c main_v12 : S8192x8192.Idx → EReal) (256 * (t.val % 32) + k.val) (1024 * (t.val / 32 % 8) + q.val) := by
  have hN : t.val < 2048 := lt_of_lt_of_eq t.isLt (show cfg1.N = 2048 from N_1)
  obtain ⟨-, -, e2, e3, -⟩ := where1 t
  rw [at2_of_lt _ (by omega) (by omega)]
  unfold blk1
  rw [View.read_apply]
  show V c main_v12 _ = V c main_v12 _
  congr 1
  funext a; apply Fin.ext
  match a with
  | ⟨0, _⟩ => show win1_1.index t (0 : Fin 2) * 256 + 1 * k.val = 256 * (t.val % 32) + k.val; omega
  | ⟨1, _⟩ => show win1_1.index t (1 : Fin 2) * 1024 + 1 * q.val = 1024 * (t.val / 32 % 8) + q.val; omega

/-- One step, entry by entry: what the accumulator held before (nothing, at a first step) plus the step's product. -/
theorem scr1_step (c : Dev nD) (t : Fin cfg1.N) (r q : Fin 1024) :
    scr1 V c t.val t.isLt (ix2 r q)
      = (if t.val % 32 = 0 then 0 else scr1 V c (t.val - 1) (Nat.lt_of_le_of_lt (Nat.sub_le _ _) t.isLt) (ix2 r q))
        + ∑ k : Fin 256, at2 (V c main_v12 : S8192x8192.Idx → EReal) (1024 * (t.val / 256) + r.val) (256 * (t.val % 32) + k.val)
            * at2 (V c main_v12 : S8192x8192.Idx → EReal) (256 * (t.val % 32) + k.val) (1024 * (t.val / 32 % 8) + q.val) := by
  have hsum : ∀ acc : Vec Ideal S1024x1024 .f32,
      k1_pay2 acc (blk1 V c 0 t) (blk1 V c 1 t) (ix2 r q)
        = acc (ix2 r q) + ∑ k : Fin 256, at2 (V c main_v12 : S8192x8192.Idx → EReal) (1024 * (t.val / 256) + r.val) (256 * (t.val % 32) + k.val)
            * at2 (V c main_v12 : S8192x8192.Idx → EReal) (256 * (t.val % 32) + k.val) (1024 * (t.val / 32 % 8) + q.val) := fun acc => by
    rw [pay1_step]
    congr 1
    exact Finset.sum_congr rfl fun k _ => by rw [blk1_left, blk1_right]
  by_cases h0 : t.val % 32 = 0
  · have h1 : ¬t.val % 32 = 31 := by omega
    rw [scr1_first V c t h0 h1, accFirst1_eq, hsum, pay1_zero, if_pos h0]
  · rw [if_neg h0]
    by_cases h1 : t.val % 32 = 31
    · rw [scr1_last V c t h0 h1, accLast1_eq, hsum]
    · rw [scr1_mid V c t h0 h1, accMid1_eq, hsum]

/-- THE INVARIANT: after step k of block (i, j) the accumulator holds, at (r, q), the contraction restricted to the
    first 256·(k + 1) values of the contracted index. -/
theorem scr1_apply (c : Dev nD) : ∀ (n : ℕ) (hn : n < cfg1.N) (r q : Fin 1024),
    scr1 V c n hn (ix2 r q)
      = ∑ x ∈ Finset.range (256 * (n % 32 + 1)), at2 (V c main_v12 : S8192x8192.Idx → EReal) (1024 * (n / 256) + r.val) x * at2 (V c main_v12 : S8192x8192.Idx → EReal) x (1024 * (n / 32 % 8) + q.val) := by
  intro n
  induction n with
  | zero =>
    intro hn r q
    have hs := scr1_step V c ⟨0, hn⟩ r q
    simp only [Nat.zero_mod, if_true, Nat.zero_div, Nat.mul_zero, Nat.zero_add, zero_add] at hs
    rw [hs, show 256 * (0 + 1) = 256 from rfl, Finset.sum_range]
    simp only [Nat.zero_div, Nat.zero_mod, Nat.mul_zero, Nat.zero_add]
  | succ n ih =>
    intro hn r q
    have hs := scr1_step V c ⟨n + 1, hn⟩ r q
    by_cases h0 : (n + 1) % 32 = 0
    · simp only [h0, if_true, Nat.mul_zero, Nat.zero_add, zero_add] at hs
      rw [hs, h0, show 256 * (0 + 1) = 256 from rfl, Finset.sum_range]
    · simp only [h0, if_false, Nat.add_sub_cancel] at hs
      have hd : (n + 1) / 256 = n / 256 := by omega
      have hj : (n + 1) / 32 % 8 = n / 32 % 8 := by omega
      have hm : (n + 1) % 32 = n % 32 + 1 := by omega
      rw [hs, ih (Nat.lt_of_succ_lt hn) r q, hd, hj, hm, show 256 * (n % 32 + 1 + 1) = 256 * (n % 32 + 1) + 256 from by ring,
        Finset.sum_range_add, Finset.sum_range (fun x => at2 (V c main_v12 : S8192x8192.Idx → EReal) (1024 * (n / 256) + r.val) (256 * (n % 32 + 1) + x)
          * at2 (V c main_v12 : S8192x8192.Idx → EReal) (256 * (n % 32 + 1) + x) (1024 * (n / 32 % 8) + q.val))]

/-- The result array of the region, as one function of the arrays it reads. -/
def filterOut (c : Dev nD) : S8192x8192.Idx → EReal := fun i =>
  (Cert.Spec.half * (if (i 0).val = (i 1).val then 1 else 0)
      + Cert.Spec.neghalf * scaleRC (a := 8192) (b := 8192) (V c main_v5) (V c main_arg1) (V c main_v11) i)
    - contract (a := 8192) (b := 8192) (d := 8192) (V c main_v12) (V c main_v12) i

theorem mem_out1 (t : Fin cfg1.N) (i : S8192x8192.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v13).slice (win1_5.rect t)).set ↔ _
  rw [View.set_slice_whole, Rect.mem_set_unit]
  exact Iff.rfl

/-- WHAT A LAST STEP WRITES BACK is its block of `filterOut`. -/
theorem wrote1 (c : Dev nD) (t : Fin cfg1.N) (hf : (cfg1.win 5).flush t = true) :
    (dat1 V c).flushed 5 t = ((cfg1.win 5).blk t).view.read (Elt Ideal) (filterOut V c) := by
  have hN : t.val < 2048 := lt_of_lt_of_eq t.isLt (show cfg1.N = 2048 from N_1)
  have h1 : t.val % 32 = 31 := (flush1_5 t).mp hf
  have h0 : ¬t.val % 32 = 0 := by omega
  obtain ⟨-, -, -, -, e4, e5, e6, e7, e8, e9, e10, e11, g0, g1⟩ := where1 t
  show (cfg1.win 5).cut (grid1.coords t) ((dat1 V c).after 5 t) = _
  rw [dat1_after5, out1_last V c t h0 h1, outLast1_eq, ← accLast1_eq c t (fun h => h0 ((first1_iff t).mp h)) ((last1_iff t).mpr h1),
    ← scr1_last V c t h0 h1]
  funext y
  obtain ⟨r, q, rfl⟩ : ∃ (r q : Fin 1024), y = ix2 r q := ⟨y 0, y 1, eq_ix2 y⟩
  have hp : 1024 * (t.val / 256) + r.val < 8192 := by omega
  have hq : 1024 * (t.val / 32 % 8) + q.val < 8192 := by omega
  have he0 : (((cfg1.win 5).blk t).view.emb (ix2 r q)) (0 : Fin 2) = (⟨1024 * (t.val / 256) + r.val, hp⟩ : Fin 8192) :=
    Fin.ext (by show win1_5.index t (0 : Fin 2) * 1024 + 1 * r.val = 1024 * (t.val / 256) + r.val; omega)
  have he1 : (((cfg1.win 5).blk t).view.emb (ix2 r q)) (1 : Fin 2) = (⟨1024 * (t.val / 32 % 8) + q.val, hq⟩ : Fin 8192) :=
    Fin.ext (by show win1_5.index t (1 : Fin 2) * 1024 + 1 * q.val = 1024 * (t.val / 32 % 8) + q.val; omega)
  have ha : (blk1 V c 2 t : Vec Ideal S1024x1024 .f32) (ix2 r q) = (V c main_arg1 : S8192x8192.Idx → EReal) (ix2 ⟨1024 * (t.val / 256) + r.val, hp⟩ ⟨1024 * (t.val / 32 % 8) + q.val, hq⟩) := by
    unfold blk1
    rw [View.read_apply]
    exact congrArg (V c main_arg1) (funext fun a => match a with
      | ⟨0, _⟩ => Fin.ext (by show win1_2.index t (0 : Fin 2) * 1024 + 1 * r.val = 1024 * (t.val / 256) + r.val; omega)
      | ⟨1, _⟩ => Fin.ext (by show win1_2.index t (1 : Fin 2) * 1024 + 1 * q.val = 1024 * (t.val / 32 % 8) + q.val; omega))
  have hr : (blk1 V c 3 t : Vec Ideal S1024x1 .f32) (ix2 r 0) = (V c main_v5 : S8192x1.Idx → EReal) (ix2 ⟨1024 * (t.val / 256) + r.val, hp⟩ 0) := by
    unfold blk1
    rw [View.read_apply]
    exact congrArg (V c main_v5) (funext fun a => match a with
      | ⟨0, _⟩ => Fin.ext (by show win1_3.index t (0 : Fin 2) * 1024 + 1 * r.val = 1024 * (t.val / 256) + r.val; omega)
      | ⟨1, _⟩ => Fin.ext (by show win1_3.index t (1 : Fin 2) * 1 + 1 * 0 = 0; omega))
  have hc : (blk1 V c 4 t : Vec Ideal S1x1024 .f32) (ix2 0 q) = (V c main_v11 : S1x8192.Idx → EReal) (ix2 0 ⟨1024 * (t.val / 32 % 8) + q.val, hq⟩) := by
    unfold blk1
    rw [View.read_apply]
    exact congrArg (V c main_v11) (funext fun a => match a with
      | ⟨0, _⟩ => Fin.ext (by show win1_4.index t (0 : Fin 2) * 1 + 1 * 0 = 0; omega)
      | ⟨1, _⟩ => Fin.ext (by show win1_4.index t (1 : Fin 2) * 1024 + 1 * q.val = 1024 * (t.val / 32 % 8) + q.val; omega))
  have hdiag : ((grid1.coords t 0).val * 1024 + r.val = (grid1.coords t 1).val * 1024 + q.val)
      ↔ ((⟨1024 * (t.val / 256) + r.val, hp⟩ : Fin 8192).val = (⟨1024 * (t.val / 32 % 8) + q.val, hq⟩ : Fin 8192).val) := by
    rw [g0, g1]; dsimp only; omega
  have he : ((cfg1.win 5).blk t).view.emb (ix2 r q) = ix2 (⟨1024 * (t.val / 256) + r.val, hp⟩ : Fin 8192) (⟨1024 * (t.val / 32 % 8) + q.val, hq⟩ : Fin 8192) :=
    funext fun a => match a with | ⟨0, _⟩ => he0 | ⟨1, _⟩ => he1
  rw [View.read_apply, he]
  show k1_pay3 (grid1.coords t) (blk1 V c 3 t) (blk1 V c 2 t) (blk1 V c 4 t) (scr1 V c t.val t.isLt) (ix2 r q) = filterOut V c _
  rw [pay1_last, scr1_apply, h1, ha, hr, hc, show 256 * (31 + 1) = 8192 from rfl, sum_range_contract _ _ hp hq,
    if_congr hdiag rfl rfl]
  rfl

/-- The 64 blocks tile the result: entry (p, q) is in the block the last step of block (p / 1024, q / 1024) writes. -/
theorem cover1 (i : S8192x8192.Idx) : ∃ t : Fin cfg1.N, (cfg1.win 5).flush t = true ∧ i ∈ ((cfg1.win 5).blk t).view.set := by
  have h0 : (i 0).val < 8192 := (i 0).isLt
  have h1 : (i 1).val < 8192 := (i 1).isLt
  have hN : cfg1.N = 2048 := N_1
  have ht : 256 * ((i 0).val / 1024) + 32 * ((i 1).val / 1024) + 31 < cfg1.N := by omega
  obtain ⟨-, -, -, -, -, -, -, -, -, -, e10, e11, -, -⟩ := where1 ⟨256 * ((i 0).val / 1024) + 32 * ((i 1).val / 1024) + 31, ht⟩
  refine ⟨⟨256 * ((i 0).val / 1024) + 32 * ((i 1).val / 1024) + 31, ht⟩,
    (flush1_5 _).mpr (by show (256 * ((i 0).val / 1024) + 32 * ((i 1).val / 1024) + 31) % 32 = 31; omega), ?_⟩
  rw [mem_out1]
  intro a
  match a with
  | ⟨0, _⟩ =>
    show win1_5.index ⟨256 * ((i 0).val / 1024) + 32 * ((i 1).val / 1024) + 31, ht⟩ (0 : Fin 2) * 1024 ≤ (i 0).val ∧ (i 0).val < win1_5.index ⟨256 * ((i 0).val / 1024) + 32 * ((i 1).val / 1024) + 31, ht⟩ (0 : Fin 2) * 1024 + 1024
    rw [e10]; dsimp only; omega
  | ⟨1, _⟩ =>
    show win1_5.index ⟨256 * ((i 0).val / 1024) + 32 * ((i 1).val / 1024) + 31, ht⟩ (1 : Fin 2) * 1024 ≤ (i 1).val ∧ (i 1).val < win1_5.index ⟨256 * ((i 0).val / 1024) + 32 * ((i 1).val / 1024) + 31, ht⟩ (1 : Fin 2) * 1024 + 1024
    rw [e11]; dsimp only; omega

/-- THE RESULT ARRAY after the region. -/
theorem final1 (c : Dev nD) : (dat1 V c).arrAt 5 cfg1.N = filterOut V c :=
  (dat1 V c).arrAt_eq_of_cover 5 (filterOut V c) (wrote1 V c) cover1

end Value

end Cert.KernelIdeal.Hand

end
-- ==== Proof.Steps2.lean ====
/-
  The hidden-layer region's steps as values: a first step leaves in the accumulator the step's product added to the
  zero block; a middle step adds the step's product to what the accumulator held; a last step does the same and
  stores the positive part of the sum into the result's buffer.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Region2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section StepValues

theorem hz2 : (![0, 0] : Fin 2 → Nat) = fun _ => 0 := funext fun a => by fin_cases a <;> rfl

/-- The 512 rows of the resident right-hand matrix a step reads: rows 512·k … 512·k + 511 at step k. -/
abbrev rows2 (i : grid2.Coords) (mm : Vec F S8192x256 .f32) : Vec F S512x256 .f32 :=
  View.ld mm (Rect.unit (s := S8192x256) (k2_off1 i) S512x256.size (k2_off1_inb i))

/-- A first step leaves the step's product added to the zero block. -/
theorem accFirst2_eq (c : Dev nD) (t : Fin cfg2.N) (h0 : first2 (grid2.coords t)) (h1 : ¬last2 (grid2.coords t))
    (a : Vec F S512x512 .f32) (mm : Vec F S8192x256 .f32) :
    accFirst2 c t h0 h1 a mm = k2_pay2 (rows2 (grid2.coords t) mm) (k2_pay1 (F := F)) a := by
  unfold accFirst2
  rw [View.read_writes_eq_canon _ _ _ (accFirst2_fills c t h0 h1 a mm)]
  unfold first2Run
  dsimp only
  sl_unfold_words
  rw [View.canon_cons_unit_zero (S := S512x256) hz2, View.readCov_unit_zero (S := S512x256) _ hz2]
  simp only [View.readAt_eq_ld, (w2_0 t).read_unread, (w2_1 t).read_unread, (Memref.isWhole_whole cc2_scratch0).read_unread,
    View.ld_unit_zero (S := S512x256) hz2, View.ld_unit_zero (S := S512x512) hz2]
  rfl

/-- A middle step adds the step's product to what the accumulator held. -/
theorem accMid2_eq (c : Dev nD) (t : Fin cfg2.N) (h0 : ¬first2 (grid2.coords t)) (h1 : ¬last2 (grid2.coords t))
    (a : Vec F S512x512 .f32) (mm : Vec F S8192x256 .f32) (acc : Vec F S512x256 .f32) :
    accMid2 c t h0 h1 a mm acc = k2_pay2 (rows2 (grid2.coords t) mm) acc a := by
  unfold accMid2
  rw [View.read_writes_eq_canon _ _ _ (accMid2_fills c t h0 h1 a mm acc)]
  unfold mid2Run
  dsimp only
  sl_unfold_words
  rw [View.canon_unit_zero hz2]
  simp only [View.readAt_eq_ld, (w2_0 t).read_unread, (w2_1 t).read_unread, (Memref.isWhole_whole cc2_scratch0).read_unread,
    View.ld_unit_zero (S := S512x256) hz2, View.ld_unit_zero (S := S512x512) hz2]
  rfl

/-- So does a last step, -/
theorem accLast2_eq (c : Dev nD) (t : Fin cfg2.N) (h0 : ¬first2 (grid2.coords t)) (h1 : last2 (grid2.coords t))
    (a : Vec F S512x512 .f32) (mm : Vec F S8192x256 .f32) (acc : Vec F S512x256 .f32) :
    accLast2 c t h0 h1 a mm acc = k2_pay2 (rows2 (grid2.coords t) mm) acc a := by
  unfold accLast2
  rw [View.read_writes_eq_canon _ _ _ (accLast2_fills c t h0 h1 a mm acc)]
  unfold last2Run
  dsimp only
  sl_unfold_words
  rw [View.canon_unit_zero hz2]
  simp only [View.readAt_eq_ld, (w2_0 t).read_unread, (w2_1 t).read_unread, (Memref.isWhole_whole cc2_scratch0).read_unread,
    View.ld_unit_zero (S := S512x256) hz2, View.ld_unit_zero (S := S512x512) hz2]
  rfl

/-- and what it stores into the result's buffer is that sum's positive part. -/
theorem outLast2_eq (c : Dev nD) (t : Fin cfg2.N) (h0 : ¬first2 (grid2.coords t)) (h1 : last2 (grid2.coords t))
    (a : Vec F S512x512 .f32) (mm : Vec F S8192x256 .f32) (acc : Vec F S512x256 .f32) :
    outLast2 c t h0 h1 a mm acc = k2_pay3 (k2_pay2 (rows2 (grid2.coords t) mm) acc a) := by
  unfold outLast2
  rw [View.read_writes_eq_canon _ _ _ (outLast2_fills c t h0 h1 a mm acc)]
  unfold last2Run
  dsimp only
  sl_unfold_words
  rw [View.canon_unit_zero hz2, View.readCov_unit_zero (S := S512x256) _ hz2]
  simp only [View.readAt_eq_ld, (w2_0 t).read_unread, (w2_1 t).read_unread, (Memref.isWhole_whole cc2_scratch0).read_unread,
    View.ld_unit_zero (S := S512x256) hz2, View.ld_unit_zero (S := S512x512) hz2]
  rfl

end StepValues

end Cert.KernelIdeal.Hand

end
-- ==== Proof.Value2.lean ====
/-
  The hidden-layer region's result array on the extended reals: entry (p, j) is the positive part of the sum over the
  whole contracted axis of  filter entry (p, k) · right-hand entry (k, j).  After step k of row block i the accumulator
  holds, at (r, j), that sum restricted to the first 512·(k + 1) columns of the filter's row 512·i + r; the last
  step of each row block stores its positive part, and the sixteen row blocks tile the result.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Steps2
import proofs.«148386_j953482740188_2_alg».proof.Proof.Payloads
import proofs.«148386_j953482740188_2_alg».proof.Proof.Nat2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Nat2 Cert.KernelIdeal.Pay

section Value

variable (V : (c : Dev nD) → (b : Ref sig .tc) → Buf (Elt Ideal) ((c : Thread nD τ).loc b))

/-- The grid point t is row block t / 16, step t % 16: where each window's block sits, and the rows a step reads. -/
theorem where2 : ∀ t : Fin cfg2.N, win2_0.index t (0 : Fin 2) = t.val / 16 ∧ win2_0.index t (1 : Fin 2) = t.val % 16
    ∧ win2_1.index t (0 : Fin 2) = 0 ∧ win2_1.index t (1 : Fin 2) = 0
    ∧ win2_2.index t (0 : Fin 2) = t.val / 16 ∧ win2_2.index t (1 : Fin 2) = 0
    ∧ k2_off1 (grid2.coords t) (0 : Fin 2) = 512 * (t.val % 16) ∧ k2_off1 (grid2.coords t) (1 : Fin 2) = 0 :=
  (by decide +kernel : ∀ t : Fin grid2.N, _)

/-- The filter block a point holds, entry by entry. -/
theorem blk2_filter (c : Dev nD) (t : Fin cfg2.N) (r k : Fin 512) :
    (blk2 V c 0 t : Vec Ideal S512x512 .f32) (ix2 r k)
      = at2 (V c main_v13 : S8192x8192.Idx → EReal) (512 * (t.val / 16) + r.val) (512 * (t.val % 16) + k.val) := by
  have hN : t.val < 256 := lt_of_lt_of_eq t.isLt (show cfg2.N = 256 from N_2)
  obtain ⟨e0, e1, -⟩ := where2 t
  rw [at2_of_lt _ (by omega) (by omega)]
  unfold blk2
  rw [View.read_apply]
  show V c main_v13 _ = V c main_v13 _
  congr 1
  funext a; apply Fin.ext
  match a with
  | ⟨0, _⟩ => show win2_0.index t (0 : Fin 2) * 512 + 1 * r.val = 512 * (t.val / 16) + r.val; omega
  | ⟨1, _⟩ => show win2_0.index t (1 : Fin 2) * 512 + 1 * k.val = 512 * (t.val % 16) + k.val; omega

/-- The rows of the right-hand matrix a step reads, entry by entry. -/
theorem rows2_apply (c : Dev nD) (t : Fin cfg2.N) (k : Fin 512) (j : Fin 256) :
    rows2 (grid2.coords t) (blk2 V c 1 t : Vec Ideal S8192x256 .f32) (ix2 k j)
      = at2 (V c main_v14 : S8192x256.Idx → EReal) (512 * (t.val % 16) + k.val) j.val := by
  have hN : t.val < 256 := lt_of_lt_of_eq t.isLt (show cfg2.N = 256 from N_2)
  obtain ⟨-, -, e2, e3, -, -, e6, e7⟩ := where2 t
  rw [at2_of_lt _ (by omega) j.isLt]
  unfold blk2
  show ((cfg2.win 1).blk t).view.read (Elt Ideal) (V c main_v14) _ = _
  rw [View.read_apply]
  show V c main_v14 _ = V c main_v14 _
  congr 1
  funext a; apply Fin.ext
  match a with
  | ⟨0, _⟩ => show win2_1.index t (0 : Fin 2) * 8192 + 1 * (k2_off1 (grid2.coords t) (0 : Fin 2) + 1 * k.val) = 512 * (t.val % 16) + k.val; omega
  | ⟨1, _⟩ => show win2_1.index t (1 : Fin 2) * 256 + 1 * (k2_off1 (grid2.coords t) (1 : Fin 2) + 1 * j.val) = j.val; omega

/-- One step, entry by entry: what the accumulator held before (nothing, at a first step) plus the step's product. -/
theorem scr2_step (c : Dev nD) (t : Fin cfg2.N) (r : Fin 512) (j : Fin 256) :
    scr2 V c t.val t.isLt (ix2 r j)
      = (if t.val % 16 = 0 then 0 else scr2 V c (t.val - 1) (Nat.lt_of_le_of_lt (Nat.sub_le _ _) t.isLt) (ix2 r j))
        + ∑ k : Fin 512, at2 (V c main_v13 : S8192x8192.Idx → EReal) (512 * (t.val / 16) + r.val) (512 * (t.val % 16) + k.val)
            * at2 (V c main_v14 : S8192x256.Idx → EReal) (512 * (t.val % 16) + k.val) j.val := by
  have hsum : ∀ acc : Vec Ideal S512x256 .f32,
      k2_pay2 (rows2 (grid2.coords t) (blk2 V c 1 t)) acc (blk2 V c 0 t) (ix2 r j)
        = acc (ix2 r j) + ∑ k : Fin 512, at2 (V c main_v13 : S8192x8192.Idx → EReal) (512 * (t.val / 16) + r.val) (512 * (t.val % 16) + k.val)
            * at2 (V c main_v14 : S8192x256.Idx → EReal) (512 * (t.val % 16) + k.val) j.val := fun acc => by
    rw [pay2_step]
    congr 1
    exact Finset.sum_congr rfl fun k _ => by rw [blk2_filter, rows2_apply]
  by_cases h0 : t.val % 16 = 0
  · have h1 : ¬t.val % 16 = 15 := by omega
    rw [scr2_first V c t h0 h1, accFirst2_eq, hsum, pay2_zero, if_pos h0]
  · rw [if_neg h0]
    by_cases h1 : t.val % 16 = 15
    · rw [scr2_last V c t h0 h1, accLast2_eq, hsum]
    · rw [scr2_mid V c t h0 h1, accMid2_eq, hsum]

/-- THE INVARIANT: after step k of row block i the accumulator holds, at (r, j), the contraction restricted to the
    first 512·(k + 1) columns of row 512·i + r. -/
theorem scr2_apply (c : Dev nD) : ∀ (n : ℕ) (hn : n < cfg2.N) (r : Fin 512) (j : Fin 256),
    scr2 V c n hn (ix2 r j)
      = ∑ i ∈ Finset.range (512 * (n % 16 + 1)), at2 (V c main_v13 : S8192x8192.Idx → EReal) (512 * (n / 16) + r.val) i * at2 (V c main_v14 : S8192x256.Idx → EReal) i j.val := by
  intro n
  induction n with
  | zero =>
    intro hn r j
    have hs := scr2_step V c ⟨0, hn⟩ r j
    simp only [Nat.zero_mod, if_true, Nat.zero_div, Nat.mul_zero, Nat.zero_add, zero_add] at hs
    rw [hs, show 512 * (0 + 1) = 512 from rfl, Finset.sum_range]
    simp only [Nat.zero_div, Nat.mul_zero, Nat.zero_add]
  | succ n ih =>
    intro hn r j
    have hs := scr2_step V c ⟨n + 1, hn⟩ r j
    by_cases h0 : (n + 1) % 16 = 0
    · simp only [h0, if_true, Nat.mul_zero, Nat.zero_add, zero_add] at hs
      rw [hs, h0, show 512 * (0 + 1) = 512 from rfl, Finset.sum_range]
    · simp only [h0, if_false, Nat.add_sub_cancel] at hs
      have hd : (n + 1) / 16 = n / 16 := by omega
      have hm : (n + 1) % 16 = n % 16 + 1 := by omega
      rw [hs, ih (Nat.lt_of_succ_lt hn) r j, hd, hm, show 512 * (n % 16 + 1 + 1) = 512 * (n % 16 + 1) + 512 from by ring,
        Finset.sum_range_add, Finset.sum_range (fun x => at2 (V c main_v13 : S8192x8192.Idx → EReal) (512 * (n / 16) + r.val) (512 * (n % 16 + 1) + x)
          * at2 (V c main_v14 : S8192x256.Idx → EReal) (512 * (n % 16 + 1) + x) j.val)]

/-- The result array of the region, as one function of the arrays it reads. -/
def hidden2 (c : Dev nD) : S8192x256.Idx → EReal := fun i =>
  max (contract (a := 8192) (b := 8192) (d := 256) (V c main_v13) (V c main_v14) i) Cert.Spec.c0

/-- An index of the result array is in point t's block iff each coordinate is in the block's range on its axis. -/
theorem mem_out2 (t : Fin cfg2.N) (i : S8192x256.Idx) :
    i ∈ ((cfg2.win 2).blk t).view.set ↔ ∀ a : Fin 2, win2_2.index t a * S512x256.size a ≤ (i a).val ∧ (i a).val < win2_2.index t a * S512x256.size a + S512x256.size a := by
  show i ∈ ((View.whole main_v15).slice (win2_2.rect t)).set ↔ _
  rw [View.set_slice_whole, Rect.mem_set_unit]
  exact Iff.rfl

/-- WHAT A LAST STEP WRITES BACK is its row block of the result. -/
theorem wrote2 (c : Dev nD) (t : Fin cfg2.N) (hf : (cfg2.win 2).flush t = true) :
    (dat2 V c).flushed 2 t = ((cfg2.win 2).blk t).view.read (Elt Ideal) (hidden2 V c) := by
  have hN : t.val < 256 := lt_of_lt_of_eq t.isLt (show cfg2.N = 256 from N_2)
  have h1 : t.val % 16 = 15 := (flush2_2 t).mp hf
  have h0 : ¬t.val % 16 = 0 := by omega
  obtain ⟨-, -, -, -, e4, e5, -, -⟩ := where2 t
  show (cfg2.win 2).cut (grid2.coords t) ((dat2 V c).after 2 t) = _
  rw [dat2_after2, out2_last V c t h0 h1, outLast2_eq, ← accLast2_eq c t (fun h => h0 ((first2_iff t).mp h)) ((last2_iff t).mpr h1),
    ← scr2_last V c t h0 h1]
  funext y
  obtain ⟨r, j, rfl⟩ : ∃ (r : Fin 512) (j : Fin 256), y = ix2 r j := ⟨y 0, y 1, eq_ix2 y⟩
  have hp : 512 * (t.val / 16) + r.val < 8192 := by omega
  have he0 : (((cfg2.win 2).blk t).view.emb (ix2 r j)) (0 : Fin 2) = (⟨512 * (t.val / 16) + r.val, hp⟩ : Fin 8192) :=
    Fin.ext (by show win2_2.index t (0 : Fin 2) * 512 + 1 * r.val = 512 * (t.val / 16) + r.val; omega)
  have he1 : (((cfg2.win 2).blk t).view.emb (ix2 r j)) (1 : Fin 2) = j :=
    Fin.ext (by show win2_2.index t (1 : Fin 2) * 256 + 1 * j.val = j.val; omega)
  rw [View.read_apply]
  show k2_pay3 (scr2 V c t.val t.isLt) (ix2 r j) = hidden2 V c _
  have he : ((cfg2.win 2).blk t).view.emb (ix2 r j) = ix2 (⟨512 * (t.val / 16) + r.val, hp⟩ : Fin 8192) j :=
    funext fun a => match a with | ⟨0, _⟩ => he0 | ⟨1, _⟩ => he1
  rw [he, pay2_relu, scr2_apply, h1, show 512 * (15 + 1) = 8192 from rfl, sum_range_contract _ _ hp j.isLt]
  rfl

/-- The sixteen row blocks tile the result: row p is in the block the last step of row block p / 512 writes. -/
theorem cover2 (i : S8192x256.Idx) : ∃ t : Fin cfg2.N, (cfg2.win 2).flush t = true ∧ i ∈ ((cfg2.win 2).blk t).view.set := by
  have h0 : (i 0).val < 8192 := (i 0).isLt
  have h1 : (i 1).val < 256 := (i 1).isLt
  have hN : cfg2.N = 256 := N_2
  have ht : 16 * ((i 0).val / 512) + 15 < cfg2.N := by omega
  obtain ⟨-, -, -, -, e4, e5, -, -⟩ := where2 ⟨16 * ((i 0).val / 512) + 15, ht⟩
  refine ⟨⟨16 * ((i 0).val / 512) + 15, ht⟩, (flush2_2 _).mpr (by show (16 * ((i 0).val / 512) + 15) % 16 = 15; omega), ?_⟩
  rw [mem_out2]
  intro a
  match a with
  | ⟨0, _⟩ =>
    show win2_2.index ⟨16 * ((i 0).val / 512) + 15, ht⟩ (0 : Fin 2) * 512 ≤ (i 0).val ∧ (i 0).val < win2_2.index ⟨16 * ((i 0).val / 512) + 15, ht⟩ (0 : Fin 2) * 512 + 512
    rw [e4]; dsimp only; omega
  | ⟨1, _⟩ =>
    show win2_2.index ⟨16 * ((i 0).val / 512) + 15, ht⟩ (1 : Fin 2) * 256 ≤ (i 1).val ∧ (i 1).val < win2_2.index ⟨16 * ((i 0).val / 512) + 15, ht⟩ (1 : Fin 2) * 256 + 256
    rw [e5]; omega

/-- THE RESULT ARRAY after the region. -/
theorem final2 (c : Dev nD) : (dat2 V c).arrAt 2 cfg2.N = hidden2 V c :=
  (dat2 V c).arrAt_eq_of_cover 2 (hidden2 V c) (wrote2 V c) cover2

end Value

end Cert.KernelIdeal.Hand

end
-- ==== Proof.Steps3.lean ====
/-
  The output-layer region's steps as values: a first step leaves in the accumulator the step's product added to the
  zero block; a middle step adds the step's product to what the accumulator held; a last step does the same and
  stores the sum into the result's buffer.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Region3
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section StepValues

theorem hz3 : (![0, 0] : Fin 2 → Nat) = fun _ => 0 := funext fun a => by fin_cases a <;> rfl

/-- The 512 rows of the resident right-hand matrix a step reads: rows 512·k … 512·k + 511 at step k. -/
abbrev rows3 (i : grid3.Coords) (mm : Vec F S8192x2 .f32) : Vec F S512x2 .f32 :=
  View.ld mm (Rect.unit (s := S8192x2) (k3_off1 i) S512x2.size (k3_off1_inb i))

/-- A first step leaves the step's product added to the zero block. -/
theorem accFirst3_eq (c : Dev nD) (t : Fin cfg3.N) (h0 : first3 (grid3.coords t)) (h1 : ¬last3 (grid3.coords t))
    (a : Vec F S512x512 .f32) (mm : Vec F S8192x2 .f32) :
    accFirst3 c t h0 h1 a mm = k3_pay2 (rows3 (grid3.coords t) mm) (k3_pay1 (F := F)) a := by
  unfold accFirst3
  rw [View.read_writes_eq_canon _ _ _ (accFirst3_fills c t h0 h1 a mm)]
  unfold first3Run
  dsimp only
  sl_unfold_words
  rw [View.canon_cons_unit_zero (S := S512x2) hz3, View.readCov_unit_zero (S := S512x2) _ hz3]
  simp only [View.readAt_eq_ld, (w3_0 t).read_unread, (w3_1 t).read_unread, (Memref.isWhole_whole cc3_scratch0).read_unread,
    View.ld_unit_zero (S := S512x2) hz3, View.ld_unit_zero (S := S512x512) hz3]
  rfl

/-- A middle step adds the step's product to what the accumulator held. -/
theorem accMid3_eq (c : Dev nD) (t : Fin cfg3.N) (h0 : ¬first3 (grid3.coords t)) (h1 : ¬last3 (grid3.coords t))
    (a : Vec F S512x512 .f32) (mm : Vec F S8192x2 .f32) (acc : Vec F S512x2 .f32) :
    accMid3 c t h0 h1 a mm acc = k3_pay2 (rows3 (grid3.coords t) mm) acc a := by
  unfold accMid3
  rw [View.read_writes_eq_canon _ _ _ (accMid3_fills c t h0 h1 a mm acc)]
  unfold mid3Run
  dsimp only
  sl_unfold_words
  rw [View.canon_unit_zero hz3]
  simp only [View.readAt_eq_ld, (w3_0 t).read_unread, (w3_1 t).read_unread, (Memref.isWhole_whole cc3_scratch0).read_unread,
    View.ld_unit_zero (S := S512x2) hz3, View.ld_unit_zero (S := S512x512) hz3]
  rfl

/-- So does a last step, -/
theorem accLast3_eq (c : Dev nD) (t : Fin cfg3.N) (h0 : ¬first3 (grid3.coords t)) (h1 : last3 (grid3.coords t))
    (a : Vec F S512x512 .f32) (mm : Vec F S8192x2 .f32) (acc : Vec F S512x2 .f32) :
    accLast3 c t h0 h1 a mm acc = k3_pay2 (rows3 (grid3.coords t) mm) acc a := by
  unfold accLast3
  rw [View.read_writes_eq_canon _ _ _ (accLast3_fills c t h0 h1 a mm acc)]
  unfold last3Run
  dsimp only
  sl_unfold_words
  rw [View.canon_unit_zero hz3]
  simp only [View.readAt_eq_ld, (w3_0 t).read_unread, (w3_1 t).read_unread, (Memref.isWhole_whole cc3_scratch0).read_unread,
    View.ld_unit_zero (S := S512x2) hz3, View.ld_unit_zero (S := S512x512) hz3]
  rfl

/-- and what it stores into the result's buffer is that sum. -/
theorem outLast3_eq (c : Dev nD) (t : Fin cfg3.N) (h0 : ¬first3 (grid3.coords t)) (h1 : last3 (grid3.coords t))
    (a : Vec F S512x512 .f32) (mm : Vec F S8192x2 .f32) (acc : Vec F S512x2 .f32) :
    outLast3 c t h0 h1 a mm acc = k3_pay2 (rows3 (grid3.coords t) mm) acc a := by
  unfold outLast3
  rw [View.read_writes_eq_canon _ _ _ (outLast3_fills c t h0 h1 a mm acc)]
  unfold last3Run
  dsimp only
  sl_unfold_words
  rw [View.canon_unit_zero hz3, View.readCov_unit_zero (S := S512x2) _ hz3]
  simp only [View.readAt_eq_ld, (w3_0 t).read_unread, (w3_1 t).read_unread, (Memref.isWhole_whole cc3_scratch0).read_unread,
    View.ld_unit_zero (S := S512x2) hz3, View.ld_unit_zero (S := S512x512) hz3]
  rfl

end StepValues

end Cert.KernelIdeal.Hand

end
-- ==== Proof.Value3.lean ====
/-
  The output-layer region's result array on the extended reals: entry (p, j) is the sum over the whole contracted axis
  of  filter entry (p, k) · right-hand entry (k, j).  After step k of row block i the accumulator holds, at (r, j), that
  sum restricted to the first 512·(k + 1) columns of the filter's row 512·i + r; the last step of each row block
  stores it, and the sixteen row blocks tile the result.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.Steps3
import proofs.«148386_j953482740188_2_alg».proof.Proof.Payloads
import proofs.«148386_j953482740188_2_alg».proof.Proof.Nat2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Nat2 Cert.KernelIdeal.Pay

section Value

variable (V : (c : Dev nD) → (b : Ref sig .tc) → Buf (Elt Ideal) ((c : Thread nD τ).loc b))

/-- The grid point t is row block t / 16, step t % 16: where each window's block sits, and the rows a step reads. -/
theorem where3 : ∀ t : Fin cfg3.N, win3_0.index t (0 : Fin 2) = t.val / 16 ∧ win3_0.index t (1 : Fin 2) = t.val % 16
    ∧ win3_1.index t (0 : Fin 2) = 0 ∧ win3_1.index t (1 : Fin 2) = 0
    ∧ win3_2.index t (0 : Fin 2) = t.val / 16 ∧ win3_2.index t (1 : Fin 2) = 0
    ∧ k3_off1 (grid3.coords t) (0 : Fin 2) = 512 * (t.val % 16) ∧ k3_off1 (grid3.coords t) (1 : Fin 2) = 0 :=
  (by decide +kernel : ∀ t : Fin grid3.N, _)

/-- The filter block a point holds, entry by entry. -/
theorem blk3_filter (c : Dev nD) (t : Fin cfg3.N) (r k : Fin 512) :
    (blk3 V c 0 t : Vec Ideal S512x512 .f32) (ix2 r k)
      = at2 (V c main_v13 : S8192x8192.Idx → EReal) (512 * (t.val / 16) + r.val) (512 * (t.val % 16) + k.val) := by
  have hN : t.val < 256 := lt_of_lt_of_eq t.isLt (show cfg3.N = 256 from N_3)
  obtain ⟨e0, e1, -⟩ := where3 t
  rw [at2_of_lt _ (by omega) (by omega)]
  unfold blk3
  rw [View.read_apply]
  show V c main_v13 _ = V c main_v13 _
  congr 1
  funext a; apply Fin.ext
  match a with
  | ⟨0, _⟩ => show win3_0.index t (0 : Fin 2) * 512 + 1 * r.val = 512 * (t.val / 16) + r.val; omega
  | ⟨1, _⟩ => show win3_0.index t (1 : Fin 2) * 512 + 1 * k.val = 512 * (t.val % 16) + k.val; omega

/-- The rows of the right-hand matrix a step reads, entry by entry. -/
theorem rows3_apply (c : Dev nD) (t : Fin cfg3.N) (k : Fin 512) (j : Fin 2) :
    rows3 (grid3.coords t) (blk3 V c 1 t : Vec Ideal S8192x2 .f32) (ix2 k j)
      = at2 (V c main_v16 : S8192x2.Idx → EReal) (512 * (t.val % 16) + k.val) j.val := by
  have hN : t.val < 256 := lt_of_lt_of_eq t.isLt (show cfg3.N = 256 from N_3)
  obtain ⟨-, -, e2, e3, -, -, e6, e7⟩ := where3 t
  rw [at2_of_lt _ (by omega) j.isLt]
  unfold blk3
  show ((cfg3.win 1).blk t).view.read (Elt Ideal) (V c main_v16) _ = _
  rw [View.read_apply]
  show V c main_v16 _ = V c main_v16 _
  congr 1
  funext a; apply Fin.ext
  match a with
  | ⟨0, _⟩ => show win3_1.index t (0 : Fin 2) * 8192 + 1 * (k3_off1 (grid3.coords t) (0 : Fin 2) + 1 * k.val) = 512 * (t.val % 16) + k.val; omega
  | ⟨1, _⟩ => show win3_1.index t (1 : Fin 2) * 2 + 1 * (k3_off1 (grid3.coords t) (1 : Fin 2) + 1 * j.val) = j.val; omega

/-- One step, entry by entry: what the accumulator held before (nothing, at a first step) plus the step's product. -/
theorem scr3_step (c : Dev nD) (t : Fin cfg3.N) (r : Fin 512) (j : Fin 2) :
    scr3 V c t.val t.isLt (ix2 r j)
      = (if t.val % 16 = 0 then 0 else scr3 V c (t.val - 1) (Nat.lt_of_le_of_lt (Nat.sub_le _ _) t.isLt) (ix2 r j))
        + ∑ k : Fin 512, at2 (V c main_v13 : S8192x8192.Idx → EReal) (512 * (t.val / 16) + r.val) (512 * (t.val % 16) + k.val)
            * at2 (V c main_v16 : S8192x2.Idx → EReal) (512 * (t.val % 16) + k.val) j.val := by
  have hsum : ∀ acc : Vec Ideal S512x2 .f32,
      k3_pay2 (rows3 (grid3.coords t) (blk3 V c 1 t)) acc (blk3 V c 0 t) (ix2 r j)
        = acc (ix2 r j) + ∑ k : Fin 512, at2 (V c main_v13 : S8192x8192.Idx → EReal) (512 * (t.val / 16) + r.val) (512 * (t.val % 16) + k.val)
            * at2 (V c main_v16 : S8192x2.Idx → EReal) (512 * (t.val % 16) + k.val) j.val := fun acc => by
    rw [pay3_step]
    congr 1
    exact Finset.sum_congr rfl fun k _ => by rw [blk3_filter, rows3_apply]
  by_cases h0 : t.val % 16 = 0
  · have h1 : ¬t.val % 16 = 15 := by omega
    rw [scr3_first V c t h0 h1, accFirst3_eq, hsum, pay3_zero, if_pos h0]
  · rw [if_neg h0]
    by_cases h1 : t.val % 16 = 15
    · rw [scr3_last V c t h0 h1, accLast3_eq, hsum]
    · rw [scr3_mid V c t h0 h1, accMid3_eq, hsum]

/-- THE INVARIANT: after step k of row block i the accumulator holds, at (r, j), the contraction restricted to the
    first 512·(k + 1) columns of row 512·i + r. -/
theorem scr3_apply (c : Dev nD) : ∀ (n : ℕ) (hn : n < cfg3.N) (r : Fin 512) (j : Fin 2),
    scr3 V c n hn (ix2 r j)
      = ∑ i ∈ Finset.range (512 * (n % 16 + 1)), at2 (V c main_v13 : S8192x8192.Idx → EReal) (512 * (n / 16) + r.val) i * at2 (V c main_v16 : S8192x2.Idx → EReal) i j.val := by
  intro n
  induction n with
  | zero =>
    intro hn r j
    have hs := scr3_step V c ⟨0, hn⟩ r j
    simp only [Nat.zero_mod, if_true, Nat.zero_div, Nat.mul_zero, Nat.zero_add, zero_add] at hs
    rw [hs, show 512 * (0 + 1) = 512 from rfl, Finset.sum_range]
    simp only [Nat.zero_div, Nat.mul_zero, Nat.zero_add]
  | succ n ih =>
    intro hn r j
    have hs := scr3_step V c ⟨n + 1, hn⟩ r j
    by_cases h0 : (n + 1) % 16 = 0
    · simp only [h0, if_true, Nat.mul_zero, Nat.zero_add, zero_add] at hs
      rw [hs, h0, show 512 * (0 + 1) = 512 from rfl, Finset.sum_range]
    · simp only [h0, if_false, Nat.add_sub_cancel] at hs
      have hd : (n + 1) / 16 = n / 16 := by omega
      have hm : (n + 1) % 16 = n % 16 + 1 := by omega
      rw [hs, ih (Nat.lt_of_succ_lt hn) r j, hd, hm, show 512 * (n % 16 + 1 + 1) = 512 * (n % 16 + 1) + 512 from by ring,
        Finset.sum_range_add, Finset.sum_range (fun x => at2 (V c main_v13 : S8192x8192.Idx → EReal) (512 * (n / 16) + r.val) (512 * (n % 16 + 1) + x)
          * at2 (V c main_v16 : S8192x2.Idx → EReal) (512 * (n % 16 + 1) + x) j.val)]

/-- The result array of the region, as one function of the arrays it reads. -/
def logits3 (c : Dev nD) : S8192x2.Idx → EReal := fun i =>
  contract (a := 8192) (b := 8192) (d := 2) (V c main_v13) (V c main_v16) i

/-- An index of the result array is in point t's block iff each coordinate is in the block's range on its axis. -/
theorem mem_out3 (t : Fin cfg3.N) (i : S8192x2.Idx) :
    i ∈ ((cfg3.win 2).blk t).view.set ↔ ∀ a : Fin 2, win3_2.index t a * S512x2.size a ≤ (i a).val ∧ (i a).val < win3_2.index t a * S512x2.size a + S512x2.size a := by
  show i ∈ ((View.whole main_v17).slice (win3_2.rect t)).set ↔ _
  rw [View.set_slice_whole, Rect.mem_set_unit]
  exact Iff.rfl

/-- WHAT A LAST STEP WRITES BACK is its row block of the result. -/
theorem wrote3 (c : Dev nD) (t : Fin cfg3.N) (hf : (cfg3.win 2).flush t = true) :
    (dat3 V c).flushed 2 t = ((cfg3.win 2).blk t).view.read (Elt Ideal) (logits3 V c) := by
  have hN : t.val < 256 := lt_of_lt_of_eq t.isLt (show cfg3.N = 256 from N_3)
  have h1 : t.val % 16 = 15 := (flush3_2 t).mp hf
  have h0 : ¬t.val % 16 = 0 := by omega
  obtain ⟨-, -, -, -, e4, e5, -, -⟩ := where3 t
  show (cfg3.win 2).cut (grid3.coords t) ((dat3 V c).after 2 t) = _
  rw [dat3_after2, out3_last V c t h0 h1, outLast3_eq, ← accLast3_eq c t (fun h => h0 ((first3_iff t).mp h)) ((last3_iff t).mpr h1),
    ← scr3_last V c t h0 h1]
  funext y
  obtain ⟨r, j, rfl⟩ : ∃ (r : Fin 512) (j : Fin 2), y = ix2 r j := ⟨y 0, y 1, eq_ix2 y⟩
  have hp : 512 * (t.val / 16) + r.val < 8192 := by omega
  have he0 : (((cfg3.win 2).blk t).view.emb (ix2 r j)) (0 : Fin 2) = (⟨512 * (t.val / 16) + r.val, hp⟩ : Fin 8192) :=
    Fin.ext (by show win3_2.index t (0 : Fin 2) * 512 + 1 * r.val = 512 * (t.val / 16) + r.val; omega)
  have he1 : (((cfg3.win 2).blk t).view.emb (ix2 r j)) (1 : Fin 2) = j :=
    Fin.ext (by show win3_2.index t (1 : Fin 2) * 2 + 1 * j.val = j.val; omega)
  rw [View.read_apply]
  show scr3 V c t.val t.isLt (ix2 r j) = logits3 V c _
  have he : ((cfg3.win 2).blk t).view.emb (ix2 r j) = ix2 (⟨512 * (t.val / 16) + r.val, hp⟩ : Fin 8192) j :=
    funext fun a => match a with | ⟨0, _⟩ => he0 | ⟨1, _⟩ => he1
  rw [he, scr3_apply, h1, show 512 * (15 + 1) = 8192 from rfl, sum_range_contract _ _ hp j.isLt]
  rfl

/-- The sixteen row blocks tile the result: row p is in the block the last step of row block p / 512 writes. -/
theorem cover3 (i : S8192x2.Idx) : ∃ t : Fin cfg3.N, (cfg3.win 2).flush t = true ∧ i ∈ ((cfg3.win 2).blk t).view.set := by
  have h0 : (i 0).val < 8192 := (i 0).isLt
  have h1 : (i 1).val < 2 := (i 1).isLt
  have hN : cfg3.N = 256 := N_3
  have ht : 16 * ((i 0).val / 512) + 15 < cfg3.N := by omega
  obtain ⟨-, -, -, -, e4, e5, -, -⟩ := where3 ⟨16 * ((i 0).val / 512) + 15, ht⟩
  refine ⟨⟨16 * ((i 0).val / 512) + 15, ht⟩, (flush3_2 _).mpr (by show (16 * ((i 0).val / 512) + 15) % 16 = 15; omega), ?_⟩
  rw [mem_out3]
  intro a
  match a with
  | ⟨0, _⟩ =>
    show win3_2.index ⟨16 * ((i 0).val / 512) + 15, ht⟩ (0 : Fin 2) * 512 ≤ (i 0).val ∧ (i 0).val < win3_2.index ⟨16 * ((i 0).val / 512) + 15, ht⟩ (0 : Fin 2) * 512 + 512
    rw [e4]; dsimp only; omega
  | ⟨1, _⟩ =>
    show win3_2.index ⟨16 * ((i 0).val / 512) + 15, ht⟩ (1 : Fin 2) * 2 ≤ (i 1).val ∧ (i 1).val < win3_2.index ⟨16 * ((i 0).val / 512) + 15, ht⟩ (1 : Fin 2) * 2 + 2
    rw [e5]; omega

/-- THE RESULT ARRAY after the region. -/
theorem final3 (c : Dev nD) : (dat3 V c).arrAt 2 cfg3.N = logits3 V c :=
  (dat3 V c).arrAt_eq_of_cover 2 (logits3 V c) (wrote3 V c) cover3

end Value

end Cert.KernelIdeal.Hand

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.KernelHostA.lean ====
/-
  The kernel program's host operations before its first region, read on the extended reals.

  From the adjacency matrix they form two vectors: the inverse square roots of the row sums and of the column sums,
  an infinite value replaced by zero; the first is then viewed as a column `[8192, 1]`, the second as a row
  `[1, 8192]`.  Read at an index these are the specified `invSqrt (rowSum adj p)` and `invSqrt (colSum adj q)`:
  a sum along an axis from the zero word is the sum over the dropped coordinate, a broadcast literal reads the
  literal everywhere, and a vector viewed as a column or a row reads the vector at the one coordinate that moves.
  No operation of this stretch writes the adjacency argument.
-/
import proofs.«148386_j953482740188_2_alg».proof.Proof.Gen.KernelIdeal.Regions
import proofs.«148386_j953482740188_2_alg».proof.Proof.Spec
import proofs.«148386_j953482740188_2_alg».proof.Proof.LibHostRead
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.ShloMosaic.ValueIdx
  Idealize.ShloMosaic.StableHlo Idealize.SL.Sem

/-! ## A vector viewed as a column, or as a row -/

/-- A vector `[a]` reshaped to the column `[a, 1]` reads, at `(p, u)`, the vector at `p`. -/
theorem reshape_col {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) := by
  refine shapeCast_apply v h (ix2 p u) (ix1 p) ?_
  rw [Shape.rowMajor_val_one, Shape.rowMajor_val_two]
  show p.val = p.val * 1 + u.val
  have := u.isLt
  omega

/-- A vector `[a]` reshaped to the row `[1, a]` reads, at `(u, q)`, the vector at `q`. -/
theorem reshape_row {α : Type} {a : ℕ} (v : (⟨1, ![a]⟩ : Shape).Idx → α) (h : (⟨1, ![a]⟩ : Shape).ShapeCasts ⟨2, ![1, a]⟩)
    (u : Fin 1) (q : Fin a) : shapeCast ⟨2, ![1, a]⟩ v h (ix2 u q) = v (ix1 q) := by
  refine shapeCast_apply v h (ix2 u q) (ix1 q) ?_
  rw [Shape.rowMajor_val_one, Shape.rowMajor_val_two]
  show q.val = u.val * a + q.val
  have hu : u.val = 0 := by have := u.isLt; omega
  rw [hu, Nat.zero_mul, Nat.zero_add]

/-! ## The inverse square roots of the row and column sums -/

/-- `s ↦ s ^ (-1/2)` on a vector, an infinite value replaced by `0`, as the program spells it. -/
def normTerm (sv : FVec Ideal S8192 .f32) : FVec Ideal S8192 .f32 :=
  select
    (cmpf .oeq
      (Host.absf (Host.powf sv (broadcastInDim S8192 ![] bcast_S_S8192 (constant (F := Ideal) S_ .f32 0xBF000000#32))))
      (broadcastInDim S8192 ![] bcast_S_S8192 (constant (F := Ideal) S_ .f32 0x7F800000#32)))
    (broadcastInDim S8192 ![] bcast_S_S8192 (id (constant (F := Ideal) S_ .f32 0x00000000#32)))
    (Host.powf sv (broadcastInDim S8192 ![] bcast_S_S8192 (constant (F := Ideal) S_ .f32 0xBF000000#32)))

/-- At an index it is the specified inverse square root of the element. -/
theorem normTerm_apply (sv : FVec Ideal S8192 .f32) (i : S8192.Idx) : normTerm sv i = Cert.Spec.invSqrt (sv i) := rfl

/-- The row sums. -/
theorem rowSumK (adj : FVec Ideal S8192x8192 .f32) (p : Fin 8192) :
    Host.reduceAdd adj (constant (F := Ideal) S_ .f32 0x00000000#32) reducesTo_S8192x8192_S8192_d1 h_S_ (ix1 p)
      = Cert.Spec.rowSum adj p := by
  rw [Hmu.Lib.hostReduceAdd_ab_axis1_apply]
  unfold Cert.Spec.rowSum
  rw [Cert.Spec.c0_eq, zero_add]

/-- The column sums. -/
theorem colSumK (adj : FVec Ideal S8192x8192 .f32) (q : Fin 8192) :
    Host.reduceAdd adj (constant (F := Ideal) S_ .f32 0x00000000#32) reducesTo_S8192x8192_S8192_d0 h_S_ (ix1 q)
      = Cert.Spec.colSum adj q := by
  rw [Hmu.Lib.hostReduceAdd_ab_axis0_apply]
  unfold Cert.Spec.colSum
  rw [Cert.Spec.c0_eq, zero_add]

/-- The adjacency argument is what the memory held: no host operation before the first region writes it. -/
theorem arg1_kept (m : (ℓ : Loc nD τ sig) → Buf (Elt Ideal) ℓ) (c : Dev nD) :
    Gen.V9 m c main_arg1 = m ((c.tc : Thread nD τ).loc main_arg1) :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

set_option maxHeartbeats 1000000 in
/-- The column of row normalisers, as the operations compose it. -/
theorem V9_v5 (m : (ℓ : Loc nD τ sig) → Buf (Elt Ideal) ℓ) (c : Dev nD) :
    (Gen.V9 m c main_v5 : S8192x1.Idx → EReal)
      = shapeCast S8192x1 (normTerm (Host.reduceAdd (m ((c.tc : Thread nD τ).loc main_arg1))
          (constant (F := Ideal) S_ .f32 0x00000000#32) reducesTo_S8192x8192_S8192_d1 h_S_)) shapeCasts_S8192_S8192x1 := by
  dsimp only [Gen.V9, Gen.V8, Gen.V7, Gen.V6, Gen.V5, Gen.V4, Gen.V3, Gen.V2, Gen.V1, Gen.V0,
    Gen.hostOps0_8, Gen.hostOps0_7, Gen.hostOps0_6, Gen.hostOps0_5, Gen.hostOps0_4, Gen.hostOps0_3, Gen.hostOps0_2,
    Gen.hostOps0_1, Gen.hostOps0]
  after_results
  simp only [cast_cast, cast_eq]
  rfl

set_option maxHeartbeats 1000000 in
/-- The row of column normalisers, as the operations compose it. -/
theorem V9_v11 (m : (ℓ : Loc nD τ sig) → Buf (Elt Ideal) ℓ) (c : Dev nD) :
    (Gen.V9 m c main_v11 : S1x8192.Idx → EReal)
      = shapeCast S1x8192 (normTerm (Host.reduceAdd (m ((c.tc : Thread nD τ).loc main_arg1))
          (constant (F := Ideal) S_ .f32 0x00000000#32) reducesTo_S8192x8192_S8192_d0 h_S_)) shapeCasts_S8192_S1x8192 := by
  dsimp only [Gen.V9, Gen.V8, Gen.V7, Gen.V6, Gen.V5, Gen.V4, Gen.V3, Gen.V2, Gen.V1, Gen.V0,
    Gen.hostOps0_8, Gen.hostOps0_7, Gen.hostOps0_6, Gen.hostOps0_5, Gen.hostOps0_4, Gen.hostOps0_3, Gen.hostOps0_2,
    Gen.hostOps0_1, Gen.hostOps0]
  after_results
  simp only [cast_cast, cast_eq]
  rfl

/-- The column of row normalisers: at `(p, ·)` the inverse square root of row `p`'s sum. -/
theorem drow_read (m : (ℓ : Loc nD τ sig) → Buf (Elt Ideal) ℓ) (c : Dev nD) :
    (Gen.V9 m c main_v5 : S8192x1.Idx → EReal)
      = fun i => Cert.Spec.invSqrt (Cert.Spec.rowSum (m ((c.tc : Thread nD τ).loc main_arg1)) (i 0)) := by
  refine (V9_v5 m c).trans ?_
  funext i
  obtain ⟨p, u, rfl⟩ : ∃ (p : Fin 8192) (u : Fin 1), i = ix2 p u := ⟨i 0, i 1, eq_ix2 i⟩
  show shapeCast S8192x1 _ shapeCasts_S8192_S8192x1 (ix2 p u) = Cert.Spec.invSqrt (Cert.Spec.rowSum _ p)
  rw [reshape_col, normTerm_apply, rowSumK]

/-- The row of column normalisers: at `(·, q)` the inverse square root of column `q`'s sum. -/
theorem dcol_read (m : (ℓ : Loc nD τ sig) → Buf (Elt Ideal) ℓ) (c : Dev nD) :
    (Gen.V9 m c main_v11 : S1x8192.Idx → EReal)
      = fun i => Cert.Spec.invSqrt (Cert.Spec.colSum (m ((c.tc : Thread nD τ).loc main_arg1)) (i 1)) := by
  refine (V9_v11 m c).trans ?_
  funext i
  obtain ⟨u, q, rfl⟩ : ∃ (u : Fin 1) (q : Fin 8192), i = ix2 u q := ⟨i 0, i 1, eq_ix2 i⟩
  show shapeCast S1x8192 _ shapeCasts_S8192_S1x8192 (ix2 u q) = Cert.Spec.invSqrt (Cert.Spec.colSum _ q)
  rw [reshape_row, normTerm_apply, colSumK]

end Cert.KernelIdeal.HostVal

end
-- ==== Proof.KernelHostB.lean ====
/-
  The kernel program's host operations between and after its regions, read on the extended reals.

  Two dense products, `x W1` and `H W2` — at an entry the sum over the contracted coordinate of the products of
  the operands' entries —, and the tail: the bias added to every row, then the row-wise log-softmax (each row
  shifted by its maximum, at least `-inf`; the logarithm of the sum of the exponentials subtracted).  The tail is
  the specified `logSoftmax` of the biased logits.
-/
import proofs.«148386_j953482740188_2_alg».proof.Proof.Gen.KernelIdeal.Regions
import proofs.«148386_j953482740188_2_alg».proof.Proof.Spec
import proofs.«148386_j953482740188_2_alg».proof.Proof.LibHostRead
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.ShloMosaic.ValueIdx
  Idealize.ShloMosaic.StableHlo Idealize.SL.Sem

/-! ## The two dense products on the host -/

theorem hdot1_l0 (j : S8192x256.Idx) (q : dot_S8192x512_S512x256_S8192x256_1_0_0_1_n_n.contr.Idx) : (dot_S8192x512_S512x256_S8192x256_1_0_0_1_n_n.lhsIdx j q 0).val = (j 0).val := by
  unfold DotDims.lhsIdx
  rw [dif_neg (show ¬(0 : Fin S8192x512.rank) ∈ dot_S8192x512_S512x256_S8192x256_1_0_0_1_n_n.lhsBatch by decide), dif_pos (show (0 : Fin S8192x512.rank) ∈ dot_S8192x512_S512x256_S8192x256_1_0_0_1_n_n.lhsNonContracting by decide)]
  rfl
theorem hdot1_l1 (j : S8192x256.Idx) (q : dot_S8192x512_S512x256_S8192x256_1_0_0_1_n_n.contr.Idx) : (dot_S8192x512_S512x256_S8192x256_1_0_0_1_n_n.lhsIdx j q 1).val = (q ⟨0, by decide⟩).val :=
  dot_S8192x512_S512x256_S8192x256_1_0_0_1_n_n.lhsIdx_val_of_single rfl j q
theorem hdot1_r0 (j : S8192x256.Idx) (q : dot_S8192x512_S512x256_S8192x256_1_0_0_1_n_n.contr.Idx) : (dot_S8192x512_S512x256_S8192x256_1_0_0_1_n_n.rhsIdx j q 0).val = (q ⟨0, by decide⟩).val :=
  dot_S8192x512_S512x256_S8192x256_1_0_0_1_n_n.rhsIdx_val_of_single rfl j q
theorem hdot1_r1 (j : S8192x256.Idx) (q : dot_S8192x512_S512x256_S8192x256_1_0_0_1_n_n.contr.Idx) : (dot_S8192x512_S512x256_S8192x256_1_0_0_1_n_n.rhsIdx j q 1).val = (j 1).val := by
  unfold DotDims.rhsIdx
  rw [dif_neg (show ¬(1 : Fin S512x256.rank) ∈ dot_S8192x512_S512x256_S8192x256_1_0_0_1_n_n.rhsBatch by decide), dif_pos (show (1 : Fin S512x256.rank) ∈ dot_S8192x512_S512x256_S8192x256_1_0_0_1_n_n.rhsNonContracting by decide)]
  rfl

/-- The host's product read at an index: the sum over the contracted coordinate. -/
theorem hdot1_apply (lhs : FVec Ideal S8192x512 .f32) (rhs : FVec Ideal S512x256 .f32) (j : S8192x256.Idx) :
    Host.dotGeneral dot_S8192x512_S512x256_S8192x256_1_0_0_1_n_n none lhs rhs j
      = ∑ k : Fin 512, lhs (ix2 (j 0) k) * rhs (ix2 k (j 1)) := by
  simp only [Host.dotGeneral]
  rw [Ideal.dotGeneral_apply, ← Equiv.sum_comp (contrEquiv1 dot_S8192x512_S512x256_S8192x256_1_0_0_1_n_n 512 rfl rfl).symm]
  refine Finset.sum_congr rfl fun k _ => ?_
  have hk := contrEquiv1_symm_val dot_S8192x512_S512x256_S8192x256_1_0_0_1_n_n 512 rfl rfl k
  have el : dot_S8192x512_S512x256_S8192x256_1_0_0_1_n_n.lhsIdx j ((contrEquiv1 dot_S8192x512_S512x256_S8192x256_1_0_0_1_n_n 512 rfl rfl).symm k) = ix2 (j 0) k := funext fun a => Fin.ext (by
    match a with
    | ⟨0, _⟩ => exact hdot1_l0 _ _
    | ⟨1, _⟩ => exact (hdot1_l1 _ _).trans hk)
  have er : dot_S8192x512_S512x256_S8192x256_1_0_0_1_n_n.rhsIdx j ((contrEquiv1 dot_S8192x512_S512x256_S8192x256_1_0_0_1_n_n 512 rfl rfl).symm k) = ix2 k (j 1) := funext fun a => Fin.ext (by
    match a with
    | ⟨0, _⟩ => exact (hdot1_r0 _ _).trans hk
    | ⟨1, _⟩ => exact hdot1_r1 _ _)
  exact congrArg₂ (· * ·) (congrArg lhs el) (congrArg rhs er)

theorem hdot2_l0 (j : S8192x2.Idx) (q : dot_S8192x256_S256x2_S8192x2_1_0_0_1_n_n.contr.Idx) : (dot_S8192x256_S256x2_S8192x2_1_0_0_1_n_n.lhsIdx j q 0).val = (j 0).val := by
  unfold DotDims.lhsIdx
  rw [dif_neg (show ¬(0 : Fin S8192x256.rank) ∈ dot_S8192x256_S256x2_S8192x2_1_0_0_1_n_n.lhsBatch by decide), dif_pos (show (0 : Fin S8192x256.rank) ∈ dot_S8192x256_S256x2_S8192x2_1_0_0_1_n_n.lhsNonContracting by decide)]
  rfl
theorem hdot2_l1 (j : S8192x2.Idx) (q : dot_S8192x256_S256x2_S8192x2_1_0_0_1_n_n.contr.Idx) : (dot_S8192x256_S256x2_S8192x2_1_0_0_1_n_n.lhsIdx j q 1).val = (q ⟨0, by decide⟩).val :=
  dot_S8192x256_S256x2_S8192x2_1_0_0_1_n_n.lhsIdx_val_of_single rfl j q
theorem hdot2_r0 (j : S8192x2.Idx) (q : dot_S8192x256_S256x2_S8192x2_1_0_0_1_n_n.contr.Idx) : (dot_S8192x256_S256x2_S8192x2_1_0_0_1_n_n.rhsIdx j q 0).val = (q ⟨0, by decide⟩).val :=
  dot_S8192x256_S256x2_S8192x2_1_0_0_1_n_n.rhsIdx_val_of_single rfl j q
theorem hdot2_r1 (j : S8192x2.Idx) (q : dot_S8192x256_S256x2_S8192x2_1_0_0_1_n_n.contr.Idx) : (dot_S8192x256_S256x2_S8192x2_1_0_0_1_n_n.rhsIdx j q 1).val = (j 1).val := by
  unfold DotDims.rhsIdx
  rw [dif_neg (show ¬(1 : Fin S256x2.rank) ∈ dot_S8192x256_S256x2_S8192x2_1_0_0_1_n_n.rhsBatch by decide), dif_pos (show (1 : Fin S256x2.rank) ∈ dot_S8192x256_S256x2_S8192x2_1_0_0_1_n_n.rhsNonContracting by decide)]
  rfl

/-- The host's product read at an index: the sum over the contracted coordinate. -/
theorem hdot2_apply (lhs : FVec Ideal S8192x256 .f32) (rhs : FVec Ideal S256x2 .f32) (j : S8192x2.Idx) :
    Host.dotGeneral dot_S8192x256_S256x2_S8192x2_1_0_0_1_n_n none lhs rhs j
      = ∑ k : Fin 256, lhs (ix2 (j 0) k) * rhs (ix2 k (j 1)) := by
  simp only [Host.dotGeneral]
  rw [Ideal.dotGeneral_apply, ← Equiv.sum_comp (contrEquiv1 dot_S8192x256_S256x2_S8192x2_1_0_0_1_n_n 256 rfl rfl).symm]
  refine Finset.sum_congr rfl fun k _ => ?_
  have hk := contrEquiv1_symm_val dot_S8192x256_S256x2_S8192x2_1_0_0_1_n_n 256 rfl rfl k
  have el : dot_S8192x256_S256x2_S8192x2_1_0_0_1_n_n.lhsIdx j ((contrEquiv1 dot_S8192x256_S256x2_S8192x2_1_0_0_1_n_n 256 rfl rfl).symm k) = ix2 (j 0) k := funext fun a => Fin.ext (by
    match a with
    | ⟨0, _⟩ => exact hdot2_l0 _ _
    | ⟨1, _⟩ => exact (hdot2_l1 _ _).trans hk)
  have er : dot_S8192x256_S256x2_S8192x2_1_0_0_1_n_n.rhsIdx j ((contrEquiv1 dot_S8192x256_S256x2_S8192x2_1_0_0_1_n_n 256 rfl rfl).symm k) = ix2 k (j 1) := funext fun a => Fin.ext (by
    match a with
    | ⟨0, _⟩ => exact (hdot2_r0 _ _).trans hk
    | ⟨1, _⟩ => exact hdot2_r1 _ _)
  exact congrArg₂ (· * ·) (congrArg lhs el) (congrArg rhs er)

/-- `x W1`: at `(k, j)` the sum over `l` of `x (k, l) * W1 (l, j)`. -/
theorem xw_read (W : Valuation τ sig (Elt Ideal)) (x0 : FVec Ideal S8192x512 .f32) (x2 : FVec Ideal S512x256 .f32)
    (h0 : W main_arg0 = x0) (h2 : W main_arg2 = x2) :
    @Eq (S8192x256.Idx → EReal) (StableHlo.after (hostOps2 (F := Ideal)) W main_v14)
      (fun i => ∑ l : Fin 512, x0 (ix2 (i 0) l) * x2 (ix2 l (i 1))) := by
  have e : @Eq (S8192x256.Idx → EReal) (StableHlo.after (hostOps2 (F := Ideal)) W main_v14)
      (Host.dotGeneral dot_S8192x512_S512x256_S8192x256_1_0_0_1_n_n none x0 x2) := by
    subst h0 h2
    dsimp only [Gen.hostOps2]
    after_results
  refine e.trans ?_
  funext i
  exact hdot1_apply _ _ i

/-- `H W2`: at `(k, c)` the sum over `j` of `H (k, j) * W2 (j, c)`. -/
theorem hw_read (W : Valuation τ sig (Elt Ideal)) (h15 : FVec Ideal S8192x256 .f32) (x3 : FVec Ideal S256x2 .f32)
    (e15 : W main_v15 = h15) (e3 : W main_arg3 = x3) :
    @Eq (S8192x2.Idx → EReal) (StableHlo.after (hostOps3 (F := Ideal)) W main_v16)
      (fun i => ∑ j : Fin 256, h15 (ix2 (i 0) j) * x3 (ix2 j (i 1))) := by
  have e : @Eq (S8192x2.Idx → EReal) (StableHlo.after (hostOps3 (F := Ideal)) W main_v16)
      (Host.dotGeneral dot_S8192x256_S256x2_S8192x2_1_0_0_1_n_n none h15 x3) := by
    subst e15 e3
    dsimp only [Gen.hostOps3]
    after_results
  refine e.trans ?_
  funext i
  exact hdot2_apply _ _ i

/-! ## The bias and the row-wise log-softmax -/

/-- The bias added to every row, as the program spells it. -/
def biasTerm (u : FVec Ideal S8192x2 .f32) (b : FVec Ideal S2 .f32) : FVec Ideal S8192x2 .f32 :=
  addf u (broadcastInDim S8192x2 ![0, 1] bcast_S1x2_S8192x2_0_1 (broadcastInDim S1x2 ![1] bcast_S2_S1x2_1 b))

/-- At `(p, c)` it adds `b c`. -/
theorem biasTerm_eq (u : FVec Ideal S8192x2 .f32) (b : FVec Ideal S2 .f32) :
    biasTerm u b = fun i => u i + b (ix1 (i 1)) := by
  funext i
  obtain ⟨p, c, rfl⟩ : ∃ (p : Fin 8192) (c : Fin 2), i = ix2 p c := ⟨i 0, i 1, eq_ix2 i⟩
  show u (ix2 p c) + broadcastInDim S8192x2 ![0, 1] bcast_S1x2_S8192x2_0_1 (broadcastInDim S1x2 ![1] bcast_S2_S1x2_1 b) (ix2 p c)
    = u (ix2 p c) + b (ix1 c)
  rw [Hmu.Lib.bcast_1b_ab_apply, Hmu.Lib.bcast_b_1b_apply]

/-- The maximum of each row, at least `-inf`, as the program spells it. -/
def maxTerm (O : FVec Ideal S8192x2 .f32) : FVec Ideal S8192 .f32 :=
  maximumf (broadcastInDim S8192 ![] bcast_S_S8192 (constant (F := Ideal) S_ .f32 0xFF800000#32))
    (Host.reduce FloatOps.maximumf O (constant (F := Ideal) S_ .f32 0xFF800000#32) reducesTo_S8192x2_S8192_d1 h_S_)

/-- The program's row maximum is the specified fold: the same fold of the same array. -/
theorem rowMaxK (O : FVec Ideal S8192x2 .f32) :
    Host.reduce FloatOps.maximumf O (constant (F := Ideal) S_ .f32 0xFF800000#32) reducesTo_S8192x2_S8192_d1 h_S_
      = Cert.Spec.rowMax O := rfl

/-- At row `p` it is the specified shift. -/
theorem maxTerm_apply (O : FVec Ideal S8192x2 .f32) (p : Fin 8192) : maxTerm O (ix1 p) = Cert.Spec.rowShift O p := by
  unfold maxTerm
  rw [rowMaxK]
  rfl

/-- The logits shifted by their row's maximum, as the program spells it. -/
def shTerm (O : FVec Ideal S8192x2 .f32) : FVec Ideal S8192x2 .f32 :=
  subf O (broadcastInDim S8192x2 ![0, 1] bcast_S8192x1_S8192x2_0_1
    (broadcastInDim S8192x1 ![0] bcast_S8192_S8192x1_0 (maxTerm O)))

/-- At `(p, c)` it is the specified shifted logit. -/
theorem shTerm_apply (O : FVec Ideal S8192x2 .f32) (p : Fin 8192) (c : Fin 2) :
    shTerm O (ix2 p c) = Cert.Spec.shifted O p c := by
  show O (ix2 p c) - broadcastInDim S8192x2 ![0, 1] bcast_S8192x1_S8192x2_0_1
    (broadcastInDim S8192x1 ![0] bcast_S8192_S8192x1_0 (maxTerm O)) (ix2 p c) = _
  rw [Hmu.Lib.bcast_a1_ab_apply, Hmu.Lib.bcast_a_a1_apply, maxTerm_apply]
  rfl

/-- The sum of the exponentials of each row's shifted logits, as the program spells it. -/
def sumTerm (O : FVec Ideal S8192x2 .f32) : FVec Ideal S8192 .f32 :=
  Host.reduceAdd (Host.exp (shTerm O)) (constant (F := Ideal) S_ .f32 0x00000000#32) reducesTo_S8192x2_S8192_d1 h_S_

/-- At row `p` it is the sum over the two columns. -/
theorem sumTerm_apply (O : FVec Ideal S8192x2 .f32) (p : Fin 8192) :
    sumTerm O (ix1 p) = ∑ k : Fin 2, Ideal.exp (Cert.Spec.shifted O p k) := by
  unfold sumTerm
  rw [Hmu.Lib.hostReduceAdd_ab_axis1_apply]
  refine Finset.sum_congr rfl fun k _ => ?_
  show Ideal.exp (shTerm O (ix2 p k)) = _
  rw [shTerm_apply]

/-- The row-wise log-softmax, as the program spells it. -/
def lsmTerm (O : FVec Ideal S8192x2 .f32) : FVec Ideal S8192x2 .f32 :=
  subf (shTerm O) (broadcastInDim S8192x2 ![0, 1] bcast_S8192x1_S8192x2_0_1
    (Host.log (broadcastInDim S8192x1 ![0] bcast_S8192_S8192x1_0 (sumTerm O))))

/-- It is the specified log-softmax. -/
theorem lsmTerm_eq (O : FVec Ideal S8192x2 .f32) : lsmTerm O = Cert.Spec.logSoftmax O := by
  funext i
  obtain ⟨p, c, rfl⟩ : ∃ (p : Fin 8192) (c : Fin 2), i = ix2 p c := ⟨i 0, i 1, eq_ix2 i⟩
  show shTerm O (ix2 p c) - broadcastInDim S8192x2 ![0, 1] bcast_S8192x1_S8192x2_0_1
      (Host.log (broadcastInDim S8192x1 ![0] bcast_S8192_S8192x1_0 (sumTerm O))) (ix2 p c)
    = Cert.Spec.shifted O p c - Cert.Spec.logSumExp O p
  rw [Hmu.Lib.bcast_a1_ab_apply, shTerm_apply]
  show _ - Ideal.log (broadcastInDim S8192x1 ![0] bcast_S8192_S8192x1_0 (sumTerm O) (ix2 p (0 : Fin 1))) = _
  rw [Hmu.Lib.bcast_a_a1_apply, sumTerm_apply]
  unfold Cert.Spec.logSumExp
  rw [Cert.Spec.c0_eq, zero_add]

set_option maxHeartbeats 1000000 in
/-- The tail: the bias, then the row-wise log-softmax. -/
theorem tail_read (W : Valuation τ sig (Elt Ideal)) (o17 : FVec Ideal S8192x2 .f32) (b : FVec Ideal S2 .f32)
    (e17 : W main_v17 = o17) (e4 : W main_arg4 = b) :
    @Eq (S8192x2.Idx → EReal)
      (StableHlo.after (hostOps4_1 (F := Ideal)) (StableHlo.after (hostOps4 (F := Ideal)) W) main_v21)
      (Cert.Spec.logSoftmax (fun i => o17 i + b (ix1 (i 1)))) := by
  have e : @Eq (S8192x2.Idx → EReal)
      (StableHlo.after (hostOps4_1 (F := Ideal)) (StableHlo.after (hostOps4 (F := Ideal)) W) main_v21)
      (lsmTerm (biasTerm o17 b)) := by
    subst e17 e4
    dsimp only [Gen.hostOps4_1, Gen.hostOps4]
    after_results
    simp only [cast_cast, cast_eq]
    rfl
  rw [e, biasTerm_eq, lsmTerm_eq]

end Cert.KernelIdeal.HostVal

end
-- ==== Proof.KernelHost.lean ====
/-
  The kernel program's host operations read on the extended reals: the stretch before the first region
  (the two normalising vectors), the two dense products, and the tail (bias and row-wise log-softmax).
-/
import proofs.«148386_j953482740188_2_alg».proof.Proof.KernelHostA
import proofs.«148386_j953482740188_2_alg».proof.Proof.KernelHostB
-- ==== Proof.KernelValue.lean ====
/-
  The kernel program's result on the extended reals. The last buffer contents, read back through the seventeen items:
  the row and column factors are the inverse square roots of the adjacency's row and column sums (an infinity replaced
  by zero); region 0 leaves the normalised adjacency D; region 1 the filter  a·I + (a − 1)·D − D·D;  region 2 the
  positive part of  filter · (x · W1);  region 3  filter · (hidden · W2);  the last two stretches add the bias and take
  the row-wise log-softmax. So the result is the specification's, at the kernel's form of the filter matrix.
-/
import proofs.«148386_j953482740188_2_alg».proof.Proof.Gen.KernelIdeal.Launch
import proofs.«148386_j953482740188_2_alg».proof.Proof.Gen.KernelIdeal.Skeleton
import proofs.«148386_j953482740188_2_alg».proof.Proof.Gen.KernelIdeal.Points
import proofs.«148386_j953482740188_2_alg».proof.Proof.KernelRun
import proofs.«148386_j953482740188_2_alg».proof.Proof.Value0
import proofs.«148386_j953482740188_2_alg».proof.Proof.Value1
import proofs.«148386_j953482740188_2_alg».proof.Proof.Value2
import proofs.«148386_j953482740188_2_alg».proof.Proof.Value3
import proofs.«148386_j953482740188_2_alg».proof.Proof.KernelHost
import proofs.«148386_j953482740188_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Nat2 Cert.KernelIdeal.Pay Cert.KernelIdeal.HostVal

section Result

variable (m : (ℓ : Loc nD τ sig) → Buf (Elt Ideal) ℓ) (c : Dev nD)

/-- The five argument arrays. -/
abbrev argX : S8192x512.Idx → EReal := m ((c.tc : Thread nD τ).loc main_arg0)
abbrev argAdj : S8192x8192.Idx → EReal := m ((c.tc : Thread nD τ).loc main_arg1)
abbrev argW1 : S512x256.Idx → EReal := m ((c.tc : Thread nD τ).loc main_arg2)
abbrev argW2 : S256x2.Idx → EReal := m ((c.tc : Thread nD τ).loc main_arg3)
abbrev argB2 : S2.Idx → EReal := m ((c.tc : Thread nD τ).loc main_arg4)

/-- The argument arrays reach every boundary as launched: no host stretch writes one, no region may change one. -/
theorem Va9_arg (r : Ref sig .tc) (h : r ∈ ([main_arg0, main_arg1, main_arg2, main_arg3, main_arg4] : List (Ref sig .tc))) :
    Va9 m c r = m ((c.tc : Thread nD τ).loc r) := by
  have e : ∀ r' : Ref sig .tc, r' ∈ ([main_arg0, main_arg1, main_arg2, main_arg3, main_arg4] : List (Ref sig .tc)) →
      Gen.V9 m c r' = m ((c.tc : Thread nD τ).loc r') := by
    intro r' h'
    simp only [List.mem_cons, List.mem_nil_iff, or_false] at h'
    rcases h' with rfl | rfl | rfl | rfl | rfl <;>
      exact (Gen.V9_of m c _ (by decide)).trans <| (Gen.V8_of m c _ (by decide)).trans <| (Gen.V7_of m c _ (by decide)).trans <|
        (Gen.V6_of m c _ (by decide)).trans <| (Gen.V5_of m c _ (by decide)).trans <| (Gen.V4_of m c _ (by decide)).trans <|
        (Gen.V3_of m c _ (by decide)).trans <| (Gen.V2_of m c _ (by decide)).trans <| (Gen.V1_of m c _ (by decide)).trans rfl
  exact e r h

/-- What each later item leaves of a buffer it does not write. -/
theorem keep10 (r : Ref sig .tc) (h : r ∉ ([main_v12] : List (Ref sig .tc))) : Va10 m c r = Va9 m c r :=
  (congrFun (V10_eq m c).symm _).trans (Gen.V10_of m (outs m) c r h)
theorem keep11 (r : Ref sig .tc) (h : r ∉ ([main_v13] : List (Ref sig .tc))) : Va11 m c r = Va10 m c r :=
  (congrFun (V11_eq m c).symm _).trans ((Gen.V11_of m (outs m) c r h).trans (congrFun (V10_eq m c) _))
theorem keep12 (r : Ref sig .tc) (h : r ∉ Gen.hostOps2_W) : Va12 m c r = Va11 m c r :=
  (congrFun (V12_eq m c).symm _).trans ((Gen.V12_of m (outs m) c r h).trans (congrFun (V11_eq m c) _))
theorem keep13 (r : Ref sig .tc) (h : r ∉ ([main_v15] : List (Ref sig .tc))) : Va13 m c r = Va12 m c r :=
  (congrFun (V13_eq m c).symm _).trans ((Gen.V13_of m (outs m) c r h).trans (congrFun (V12_eq m c) _))
theorem keep14 (r : Ref sig .tc) (h : r ∉ Gen.hostOps3_W) : Va14 m c r = Va13 m c r :=
  (congrFun (V14_eq m c).symm _).trans ((Gen.V14_of m (outs m) c r h).trans (congrFun (V13_eq m c) _))

/-! ## Region 0: the normalised adjacency -/

theorem o0_eq : (o0 m c : S8192x8192.Idx → EReal) = fun i => Cert.Spec.D (argAdj m c) (i 0) (i 1) := by
  unfold o0
  rw [final0 (Ea0 m) c]
  funext i
  unfold normAdj scaleRC Cert.Spec.D
  have e5 : (Ea0 m c main_v5 : S8192x1.Idx → EReal) = fun i => Cert.Spec.invSqrt (Cert.Spec.rowSum (argAdj m c) (i 0)) := drow_read m c
  have e11 : (Ea0 m c main_v11 : S1x8192.Idx → EReal) = fun i => Cert.Spec.invSqrt (Cert.Spec.colSum (argAdj m c) (i 1)) := dcol_read m c
  have e1 : (Ea0 m c main_arg1 : S8192x8192.Idx → EReal) = argAdj m c := arg1_kept m c
  rw [e5, e11, e1]
  rfl

/-! ## Region 1: the filter matrix, in the kernel's form -/

theorem o1_eq : (o1 m c : S8192x8192.Idx → EReal) = fun i => Cert.Spec.filterKer (argAdj m c) (i 0) (i 1) := by
  unfold o1
  rw [final1 (Ea1 m) c]
  have e12 : (Ea1 m c main_v12 : S8192x8192.Idx → EReal) = fun i => Cert.Spec.D (argAdj m c) (i 0) (i 1) :=
    (Function.update_self _ _ _).trans (o0_eq m c)
  have e5 : (Ea1 m c main_v5 : S8192x1.Idx → EReal) = fun i => Cert.Spec.invSqrt (Cert.Spec.rowSum (argAdj m c) (i 0)) :=
    (keep10 m c main_v5 (by decide)).trans (drow_read m c)
  have e11 : (Ea1 m c main_v11 : S1x8192.Idx → EReal) = fun i => Cert.Spec.invSqrt (Cert.Spec.colSum (argAdj m c) (i 1)) :=
    (keep10 m c main_v11 (by decide)).trans (dcol_read m c)
  have e1 : (Ea1 m c main_arg1 : S8192x8192.Idx → EReal) = argAdj m c :=
    (keep10 m c main_arg1 (by decide)).trans (arg1_kept m c)
  funext i
  obtain ⟨p, q, rfl⟩ : ∃ (p q : Fin 8192), i = ix2 p q := ⟨i 0, i 1, eq_ix2 i⟩
  have heye : (if p.val = q.val then (1 : EReal) else 0) = Cert.Spec.eye p q := by
    unfold Cert.Spec.eye
    by_cases h : p.val = q.val
    · rw [if_pos h, if_pos (Fin.ext h)]
    · rw [if_neg h, if_neg (fun he => h (congrArg Fin.val he))]
  unfold filterOut scaleRC contract Cert.Spec.filterKer Cert.Spec.D
  rw [e12, e5, e11, e1]
  show (Cert.Spec.half * (if p.val = q.val then (1 : EReal) else 0) + _) - _ = _
  rw [heye]
  rfl

/-! ## Region 2: the hidden layer -/

theorem o2_eq : (o2 m c : S8192x256.Idx → EReal)
    = fun i => Cert.Spec.hidden (Cert.Spec.filterKer (argAdj m c)) (argX m c) (argW1 m c) (i 0) (i 1) := by
  unfold o2
  rw [final2 (Ea2 m) c]
  have e13 : (Ea2 m c main_v13 : S8192x8192.Idx → EReal) = fun i => Cert.Spec.filterKer (argAdj m c) (i 0) (i 1) :=
    (keep12 m c main_v13 (by decide)).trans ((Function.update_self _ _ _).trans (o1_eq m c))
  have e14 : (Ea2 m c main_v14 : S8192x256.Idx → EReal) = fun i => Cert.Spec.xw (argX m c) (argW1 m c) (i 0) (i 1) :=
    xw_read (Va11 m c) (argX m c) (argW1 m c)
      ((keep11 m c main_arg0 (by decide)).trans ((keep10 m c main_arg0 (by decide)).trans (Va9_arg m c main_arg0 (by decide))))
      ((keep11 m c main_arg2 (by decide)).trans ((keep10 m c main_arg2 (by decide)).trans (Va9_arg m c main_arg2 (by decide))))
  funext i
  unfold hidden2 contract Cert.Spec.hidden
  rw [e13, e14]
  rfl

/-! ## Region 3: the output layer before the bias -/

theorem o3_eq : (o3 m c : S8192x2.Idx → EReal)
    = fun i => ∑ k : Fin 8192, Cert.Spec.filterKer (argAdj m c) (i 0) k
        * Cert.Spec.hw (Cert.Spec.filterKer (argAdj m c)) (argX m c) (argW1 m c) (argW2 m c) k (i 1) := by
  unfold o3
  rw [final3 (Ea3 m) c]
  have e13 : (Ea3 m c main_v13 : S8192x8192.Idx → EReal) = fun i => Cert.Spec.filterKer (argAdj m c) (i 0) (i 1) :=
    (keep14 m c main_v13 (by decide)).trans ((keep13 m c main_v13 (by decide)).trans
      ((keep12 m c main_v13 (by decide)).trans ((Function.update_self _ _ _).trans (o1_eq m c))))
  have e16 : (Ea3 m c main_v16 : S8192x2.Idx → EReal)
      = fun i => Cert.Spec.hw (Cert.Spec.filterKer (argAdj m c)) (argX m c) (argW1 m c) (argW2 m c) (i 0) (i 1) :=
    hw_read (Va13 m c) (fun i => Cert.Spec.hidden (Cert.Spec.filterKer (argAdj m c)) (argX m c) (argW1 m c) (i 0) (i 1)) (argW2 m c)
      ((Function.update_self _ _ _).trans (o2_eq m c))
      ((keep13 m c main_arg3 (by decide)).trans ((keep12 m c main_arg3 (by decide)).trans ((keep11 m c main_arg3 (by decide)).trans
        ((keep10 m c main_arg3 (by decide)).trans (Va9_arg m c main_arg3 (by decide))))))
  funext i
  unfold logits3 contract
  rw [e13, e16]
  rfl

/-! ## The result -/

/-- THE KERNEL'S RESULT: the specification's, at the kernel's form of the filter matrix. -/
theorem kernel_result : (Gen.V17 m (outs m) c main_v21 : S8192x2.Idx → EReal)
    = Cert.Spec.result (Cert.Spec.filterKer (argAdj m c)) (argX m c) (argW1 m c) (argW2 m c) (argB2 m c) := by
  have e17 : (Gen.V15 m (outs m) c main_v17 : S8192x2.Idx → EReal)
      = fun i => ∑ k : Fin 8192, Cert.Spec.filterKer (argAdj m c) (i 0) k
          * Cert.Spec.hw (Cert.Spec.filterKer (argAdj m c)) (argX m c) (argW1 m c) (argW2 m c) k (i 1) :=
    (Function.update_self _ _ _).trans ((outs_main_v17 m 15 c).trans (o3_eq m c))
  have eb : (Gen.V15 m (outs m) c main_arg4 : S2.Idx → EReal) = argB2 m c :=
    (Gen.V15_of m (outs m) c main_arg4 (by decide)).trans <| (congrFun (V14_eq m c) _).trans <| (keep14 m c main_arg4 (by decide)).trans <|
      (keep13 m c main_arg4 (by decide)).trans <| (keep12 m c main_arg4 (by decide)).trans <| (keep11 m c main_arg4 (by decide)).trans <|
      (keep10 m c main_arg4 (by decide)).trans (Va9_arg m c main_arg4 (by decide))
  exact tail_read (Gen.V15 m (outs m) c) _ (argB2 m c) e17 eb

end Result

end Cert.KernelIdeal.Hand

end
-- ==== Proof.RefIsSpec.lean ====
/-
  The reference computes the specified function with the filter matrix in its one-product arrangement.

  Each operation of the reference is read at an index and identified with the corresponding piece of the
  specification: the row and column sums, their inverse square roots with the replacement of an infinite value,
  the normalised adjacency, the identity matrix (the comparison of the two coordinates of an index, which are
  below `2^32`), the filter matrix as the product `(a I - D) (I + D)`, the two dense layers around it, and the
  row-wise log-softmax.
-/
import proofs.«148386_j953482740188_2_alg».proof.Proof.RefRead
import proofs.«148386_j953482740188_2_alg».proof.Proof.Spec

noncomputable section

open scoped BigOperators

namespace Cert.RefSide

open Cert.ReferenceIdeal Cert.ReferenceIdeal.Gen Cert.ReferenceIdeal.ReadP Idealize.ShloMosaic Idealize.ShloMosaic.ValueIdx
  Idealize.SL.Sem

/-! ## The normalised adjacency -/

/-- The row sums. -/
theorem rowSum_eq (x1 : (⟨S8192x8192, .f32⟩ : BufTy).Contents (Elt Ideal)) (p : Fin 8192) :
    val_main_v0 (F := Ideal) x1 (ix1 p) = Cert.Spec.rowSum x1 p := by
  rw [val_main_v0_apply]
  unfold Cert.Spec.rowSum
  refine congrArg₂ (· + ·) rfl (Finset.sum_congr rfl fun k _ => congrArg x1 ?_)
  exact funext fun a => Fin.ext (by match a with | ⟨0, _⟩ => rfl | ⟨1, _⟩ => rfl)

/-- The column sums. -/
theorem colSum_eq (x1 : (⟨S8192x8192, .f32⟩ : BufTy).Contents (Elt Ideal)) (q : Fin 8192) :
    val_main_v5 (F := Ideal) x1 (ix1 q) = Cert.Spec.colSum x1 q := by
  rw [val_main_v5_apply]
  unfold Cert.Spec.colSum
  refine congrArg₂ (· + ·) rfl (Finset.sum_congr rfl fun k _ => congrArg x1 ?_)
  exact funext fun a => Fin.ext (by match a with | ⟨0, _⟩ => rfl | ⟨1, _⟩ => rfl)

/-- The inverse square roots of the row sums, an infinite value replaced by zero. -/
theorem drow_eq (x1 : (⟨S8192x8192, .f32⟩ : BufTy).Contents (Elt Ideal)) (p : Fin 8192) :
    val_main_v4 (F := Ideal) x1 (ix1 p) = Cert.Spec.invSqrt (Cert.Spec.rowSum x1 p) := by
  have h2 : val_main_v2 (F := Ideal) x1 (ix1 p) = Ideal.pow (Cert.Spec.rowSum x1 p) Cert.Spec.neghalf := by
    rw [val_main_v2_apply, rowSum_eq, val_main_v1_apply]; rfl
  rw [val_main_v4_apply, val_main_v3_apply, val_main_call0_v0_apply, h2, val_main_call0_v1_apply,
    val_main_call1_v1_apply]
  rfl

/-- The inverse square roots of the column sums, an infinite value replaced by zero. -/
theorem dcol_eq (x1 : (⟨S8192x8192, .f32⟩ : BufTy).Contents (Elt Ideal)) (q : Fin 8192) :
    val_main_v9 (F := Ideal) x1 (ix1 q) = Cert.Spec.invSqrt (Cert.Spec.colSum x1 q) := by
  have h7 : val_main_v7 (F := Ideal) x1 (ix1 q) = Ideal.pow (Cert.Spec.colSum x1 q) Cert.Spec.neghalf := by
    rw [val_main_v7_apply, colSum_eq, val_main_v6_apply]; rfl
  rw [val_main_v9_apply, val_main_v8_apply, val_main_call2_v0_apply, h7, val_main_call2_v1_apply,
    val_main_call3_v1_apply]
  rfl

/-- The normalised adjacency. -/
theorem D_eq (x1 : (⟨S8192x8192, .f32⟩ : BufTy).Contents (Elt Ideal)) (p q : Fin 8192) :
    val_main_v15 (F := Ideal) x1 (ix2 p q) = Cert.Spec.D x1 p q := by
  have e1 : idx_main_v10 (idx_main_v11 (ix2 p q)) = ix1 p :=
    funext fun a => Fin.ext (by match a with | ⟨0, _⟩ => rfl)
  have e2 : idx_main_v13 (idx_main_v14 (ix2 p q)) = ix1 q :=
    funext fun a => Fin.ext (by match a with | ⟨0, _⟩ => rfl)
  rw [val_main_v15_apply, val_main_v12_apply, val_main_v11_apply, val_main_v10_apply, e1, drow_eq,
    val_main_v14_apply, val_main_v13_apply, e2, dcol_eq]
  rfl

/-! ## The identity matrix -/

/-- Two numbers below `2^32` have the same word only when they are equal. -/
theorem ofNat_inj_small (x y : Nat) (hx : x < 2 ^ 32) (hy : y < 2 ^ 32) :
    BitVec.ofNat 32 x = BitVec.ofNat 32 y ↔ x = y := by
  constructor
  · intro e
    have := congrArg BitVec.toNat e
    simp only [BitVec.toNat_ofNat] at this
    omega
  · rintro rfl; rfl

/-- The comparison of the two coordinates, converted: `1` on the diagonal, else `0`. -/
theorem eye_eq (p q : Fin 8192) : val_main_v21 (F := Ideal) (ix2 p q) = Cert.Spec.eye p q := by
  rw [val_main_v21_apply, val_main_v20_apply, val_main_v19_apply, val_main_v16_apply, val_main_v17_apply,
    val_main_v18_apply]
  show ((((IntOp.cmpi .eq (IntOp.addi (BitVec.ofNat 32 p.val) 0#32) (BitVec.ofNat 32 q.val)).toNat : ℝ)) : EReal) = _
  unfold Cert.Spec.eye IntOp.addi
  rw [BitVec.add_zero]
  by_cases h : p = q
  · subst h
    simp [IntOp.cmpi]
  · rw [if_neg h]
    have hne : BitVec.ofNat 32 p.val ≠ BitVec.ofNat 32 q.val := fun e =>
      h (Fin.ext ((ofNat_inj_small _ _ (by have := p.isLt; omega) (by have := q.isLt; omega)).mp e))
    have hb : (BitVec.ofNat 32 p.val == BitVec.ofNat 32 q.val) = false := beq_false_of_ne hne
    simp [IntOp.cmpi, hb]

/-! ## The filter matrix -/

/-- The filter matrix, the product `(a I - D) (I + D)`. -/
theorem filter_eq (x1 : (⟨S8192x8192, .f32⟩ : BufTy).Contents (Elt Ideal)) (p q : Fin 8192) :
    val_main_v26 (F := Ideal) x1 (ix2 p q) = Cert.Spec.filterRef x1 p q := by
  rw [val_main_v26_apply]
  unfold Cert.Spec.filterRef
  refine Finset.sum_congr rfl fun k _ => ?_
  have el : lidx_main_v26 (ix2 p q) k = ix2 p k :=
    funext fun a => Fin.ext (by match a with | ⟨0, _⟩ => rfl | ⟨1, _⟩ => rfl)
  have er : ridx_main_v26 (ix2 p q) k = ix2 k q :=
    funext fun a => Fin.ext (by match a with | ⟨0, _⟩ => rfl | ⟨1, _⟩ => rfl)
  rw [el, er, val_main_v24_apply, val_main_v23_apply, val_main_v22_apply, eye_eq, D_eq, val_main_v25_apply, eye_eq, D_eq]
  rfl

/-! ## The two dense layers around the filter matrix -/

/-- `x W1`. -/
theorem xw_eq (x0 : (⟨S8192x512, .f32⟩ : BufTy).Contents (Elt Ideal)) (x2 : (⟨S512x256, .f32⟩ : BufTy).Contents (Elt Ideal))
    (k : Fin 8192) (j : Fin 256) : val_main_v27 (F := Ideal) x0 x2 (ix2 k j) = Cert.Spec.xw x0 x2 k j := by
  rw [val_main_v27_apply]
  unfold Cert.Spec.xw
  refine Finset.sum_congr rfl fun l _ => ?_
  have el : lidx_main_v27 (ix2 k j) l = ix2 k l := funext fun a => Fin.ext (by match a with | ⟨0, _⟩ => rfl | ⟨1, _⟩ => rfl)
  have er : ridx_main_v27 (ix2 k j) l = ix2 l j := funext fun a => Fin.ext (by match a with | ⟨0, _⟩ => rfl | ⟨1, _⟩ => rfl)
  rw [el, er]

/-- The hidden layer. -/
theorem hidden_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (p : Fin 8192) (j : Fin 256) :
    val_main_v29 (F := Ideal) x0 x1 x2 (ix2 p j) = Cert.Spec.hidden (Cert.Spec.filterRef x1) x0 x2 p j := by
  have h28 : val_main_v28 (F := Ideal) x0 x1 x2 (ix2 p j)
      = ∑ k : Fin 8192, Cert.Spec.filterRef x1 p k * Cert.Spec.xw x0 x2 k j := by
    rw [val_main_v28_apply]
    refine Finset.sum_congr rfl fun k _ => ?_
    have el : lidx_main_v28 (ix2 p j) k = ix2 p k := funext fun a => Fin.ext (by match a with | ⟨0, _⟩ => rfl | ⟨1, _⟩ => rfl)
    have er : ridx_main_v28 (ix2 p j) k = ix2 k j := funext fun a => Fin.ext (by match a with | ⟨0, _⟩ => rfl | ⟨1, _⟩ => rfl)
    rw [el, er, filter_eq, xw_eq]
  rw [val_main_v29_apply, h28, val_main_call4_v0_apply]
  rfl

/-- `H W2`. -/
theorem hw_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (k : Fin 8192) (c : Fin 2) :
    val_main_v30 (F := Ideal) x0 x1 x2 x3 (ix2 k c) = Cert.Spec.hw (Cert.Spec.filterRef x1) x0 x2 x3 k c := by
  rw [val_main_v30_apply]
  unfold Cert.Spec.hw
  refine Finset.sum_congr rfl fun j _ => ?_
  have el : lidx_main_v30 (ix2 k c) j = ix2 k j := funext fun a => Fin.ext (by match a with | ⟨0, _⟩ => rfl | ⟨1, _⟩ => rfl)
  have er : ridx_main_v30 (ix2 k c) j = ix2 j c := funext fun a => Fin.ext (by match a with | ⟨0, _⟩ => rfl | ⟨1, _⟩ => rfl)
  rw [el, er, hidden_eq]

/-- The logits. -/
theorem logits_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (x4 : (⟨S2, .f32⟩ : BufTy).Contents (Elt Ideal))
    (p : Fin 8192) (c : Fin 2) :
    val_main_v34 (F := Ideal) x0 x1 x2 x3 x4 (ix2 p c)
      = Cert.Spec.logits (Cert.Spec.filterRef x1) x0 x2 x3 x4 p c := by
  have h31 : val_main_v31 (F := Ideal) x0 x1 x2 x3 (ix2 p c)
      = ∑ k : Fin 8192, Cert.Spec.filterRef x1 p k * Cert.Spec.hw (Cert.Spec.filterRef x1) x0 x2 x3 k c := by
    rw [val_main_v31_apply]
    refine Finset.sum_congr rfl fun k _ => ?_
    have el : lidx_main_v31 (ix2 p c) k = ix2 p k := funext fun a => Fin.ext (by match a with | ⟨0, _⟩ => rfl | ⟨1, _⟩ => rfl)
    have er : ridx_main_v31 (ix2 p c) k = ix2 k c := funext fun a => Fin.ext (by match a with | ⟨0, _⟩ => rfl | ⟨1, _⟩ => rfl)
    rw [el, er, filter_eq, hw_eq]
  have eb : idx_main_v32 (idx_main_v33 (ix2 p c)) = ix1 c := funext fun a => Fin.ext (by match a with | ⟨0, _⟩ => rfl)
  rw [val_main_v34_apply, h31, val_main_v33_apply, val_main_v32_apply, eb]
  rfl

/-- The logits as an array. -/
theorem logitsArr_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (x4 : (⟨S2, .f32⟩ : BufTy).Contents (Elt Ideal)) :
    val_main_v34 (F := Ideal) x0 x1 x2 x3 x4 = Cert.Spec.logitsArr (Cert.Spec.filterRef x1) x0 x2 x3 x4 := by
  funext i
  obtain ⟨p, c, rfl⟩ : ∃ (p : Fin 8192) (c : Fin 2), i = ix2 p c := ⟨i 0, i 1, eq_ix2 i⟩
  exact logits_eq x0 x1 x2 x3 x4 p c

/-! ## The row-wise log-softmax -/

/-- The maximum of each row: the same fold of the same array. -/
theorem rowMax_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (x4 : (⟨S2, .f32⟩ : BufTy).Contents (Elt Ideal)) :
    val_main_call5_v0 (F := Ideal) x0 x1 x2 x3 x4
      = Cert.Spec.rowMax (Cert.Spec.logitsArr (Cert.Spec.filterRef x1) x0 x2 x3 x4) := by
  unfold val_main_call5_v0
  rw [logitsArr_eq]
  rfl

/-- The shifted logits. -/
theorem shifted_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (x4 : (⟨S2, .f32⟩ : BufTy).Contents (Elt Ideal))
    (p : Fin 8192) (c : Fin 2) :
    val_main_call5_v5 (F := Ideal) x0 x1 x2 x3 x4 (ix2 p c)
      = Cert.Spec.shifted (Cert.Spec.logitsArr (Cert.Spec.filterRef x1) x0 x2 x3 x4) p c := by
  have e : idx_main_call5_v3 (idx_main_call5_v4 (ix2 p c)) = ix1 p := funext fun a => Fin.ext (by match a with | ⟨0, _⟩ => rfl)
  rw [val_main_call5_v5_apply, val_main_call5_v4_apply, val_main_call5_v3_apply, e, val_main_call5_v2_apply,
    val_main_call5_v1_apply, rowMax_eq, logitsArr_eq]
  rfl

/-- The reference's result at `(p, c)`. -/
theorem result_eq (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (x4 : (⟨S2, .f32⟩ : BufTy).Contents (Elt Ideal))
    (p : Fin 8192) (c : Fin 2) :
    val_main_v35 (F := Ideal) x0 x1 x2 x3 x4 (ix2 p c)
      = Cert.Spec.result (Cert.Spec.filterRef x1) x0 x2 x3 x4 (ix2 p c) := by
  have e : idx_main_call5_v8 (idx_main_call5_v10 (ix2 p c)) = ix1 p := funext fun a => Fin.ext (by match a with | ⟨0, _⟩ => rfl)
  have h7 : val_main_call5_v7 (F := Ideal) x0 x1 x2 x3 x4 (ix1 p)
      = Cert.Spec.c0 + ∑ k : Fin 2, Ideal.exp
          (Cert.Spec.shifted (Cert.Spec.logitsArr (Cert.Spec.filterRef x1) x0 x2 x3 x4) p k) := by
    rw [val_main_call5_v7_apply]
    refine congrArg₂ (· + ·) rfl (Finset.sum_congr rfl fun k _ => ?_)
    have ek : idx_main_call5_v7 (ix1 p) k = ix2 p k := funext fun a => Fin.ext (by match a with | ⟨0, _⟩ => rfl | ⟨1, _⟩ => rfl)
    rw [ek, val_main_call5_v6_apply, shifted_eq]
    rfl
  rw [val_main_v35_apply, shifted_eq, val_main_call5_v10_apply, val_main_call5_v9_apply, val_main_call5_v8_apply, e, h7]
  rfl

/-- The reference's result is the specified function with the filter matrix as one product. -/
theorem val_is_spec (x0 : (⟨S8192x512, .f32⟩ : BufTy).Contents (Elt Ideal)) (x1 : (⟨S8192x8192, .f32⟩ : BufTy).Contents (Elt Ideal))
    (x2 : (⟨S512x256, .f32⟩ : BufTy).Contents (Elt Ideal)) (x3 : (⟨S256x2, .f32⟩ : BufTy).Contents (Elt Ideal))
    (x4 : (⟨S2, .f32⟩ : BufTy).Contents (Elt Ideal)) :
    val_main_v35 (F := Ideal) x0 x1 x2 x3 x4 = Cert.Spec.result (Cert.Spec.filterRef x1) x0 x2 x3 x4 := by
  funext i
  obtain ⟨p, c, rfl⟩ : ∃ (p : Fin 8192) (c : Fin 2), i = ix2 p c := ⟨i 0, i 1, eq_ix2 i⟩
  exact result_eq x0 x1 x2 x3 x4 p c

/-- THE REFERENCE IS THE SPECIFICATION, at the arrays a memory holds. -/
theorem ref_is_spec (m : (ℓ : Loc Cert.ReferenceIdeal.nD Cert.ReferenceIdeal.τ Cert.ReferenceIdeal.sig) → Buf (Elt Ideal) ℓ)
    (c : Dev Cert.ReferenceIdeal.nD) :
    Cert.ReferenceIdeal.RunP.res_main_v35 (F := Ideal) m c
      = Cert.Spec.result (Cert.Spec.filterRef (m ((c.tc : Thread _ _).loc Cert.ReferenceIdeal.main_arg1)))
          (m ((c.tc : Thread _ _).loc Cert.ReferenceIdeal.main_arg0)) (m ((c.tc : Thread _ _).loc Cert.ReferenceIdeal.main_arg2))
          (m ((c.tc : Thread _ _).loc Cert.ReferenceIdeal.main_arg3)) (m ((c.tc : Thread _ _).loc Cert.ReferenceIdeal.main_arg4)) := by
  rw [val_main_v35_eq]
  exact val_is_spec _ _ _ _ _

end Cert.RefSide

end
-- ==== Proof.Finite.lean ====
/-
  From the precondition to "every entry of the adjacency matrix is a real number".

  The precondition says that a conjunction of five `all`s is true; the second of them says that every entry `x` of
  the adjacency matrix has `|x| < +inf`.  On the extended reals `|x| = max x (-x)` is `+inf` at both infinities,
  so `x` is neither of them: it is a real.
-/
import proofs.«148386_j953482740188_2_alg».proof.Defs
import proofs.«148386_j953482740188_2_alg».proof.Proof.Gen.Pre_finite_inputs
import Idealize.ShloMosaic.Lib.ReduceAll
import Idealize.ShloMosaic.Lib.ValueIdx

noncomputable section

namespace Cert.RefSide

open Idealize.ShloMosaic Idealize.SL.Sem

/-- An extended real whose absolute value is below `+inf` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec
  · simp [Ideal.cmp] at h
  · exact ⟨_, rfl⟩
  · simp [Ideal.cmp] at h

/-- The printed predicate, true, makes every entry of its second argument a real. -/
theorem fn_arg1_real (a0 : FVec Ideal Cert.Pre_finite_inputs.S8192x512 .f32)
    (a1 : FVec Ideal Cert.Pre_finite_inputs.S8192x8192 .f32) (a2 : FVec Ideal Cert.Pre_finite_inputs.S512x256 .f32)
    (a3 : FVec Ideal Cert.Pre_finite_inputs.S256x2 .f32) (a4 : FVec Ideal Cert.Pre_finite_inputs.S2 .f32)
    (h : @Cert.Pre_finite_inputs.fn Cert.Pre_finite_inputs.Gen.facts Ideal _ a0 a1 a2 a3 a4 = fun _ => 1#1) :
    ∀ i, ∃ r : ℝ, a1 i = (r : EReal) := by
  have h0 := congrFun h ValueIdx.ix0
  dsimp only [Cert.Pre_finite_inputs.fn, Cert.Pre_finite_inputs.fn_part1] at h0
  have h1 := (IntOp.andi_eq_one.mp h0).1
  have h2 := (IntOp.andi_eq_one.mp h1).1
  have h3 := (IntOp.andi_eq_one.mp h2).1
  have h7 := (IntOp.andi_eq_one.mp h3).2
  intro i
  haveI : Subsingleton Cert.Pre_finite_inputs.S_.Idx := ⟨fun a b => funext fun d => d.elim0⟩
  have hi := Host.reduce_andi_all _ _ _ _ _ h7 i
  exact real_of_abs_lt_inf (a1 i) hi

/-- Under the precondition every entry of the kernel's adjacency argument is a real. -/
theorem adj_finite (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, m ((c.tc : Thread _ _).loc Cert.KernelIdeal.main_arg1) i = (r : EReal) :=
  fn_arg1_real _ _ _ _ _ (h c)

end Cert.RefSide

end
-- ==== Proof.lean ====
/-
  The five conjuncts of the claim, for a graph-convolution forward pass: both programs normalise the adjacency
  matrix by the inverse square roots of its row and column sums (an infinite root replaced by zero), form the
  filter matrix, apply it twice around two small dense layers, and end in a row-wise log-softmax.

  The kernel builds the filter as  a·I + (a − 1)·D − D·D  (a = 1/2, D the normalised adjacency), accumulating
  D·D over blocks of the contracted axis; the reference as the one product  (a·I − D)·(I + D).  On the extended
  reals the two agree because D is finite, so the product distributes over the sums.
-/
import proofs.«148386_j953482740188_2_alg».proof.Defs
import proofs.«148386_j953482740188_2_alg».proof.Proof.Gen.Kernel
import proofs.«148386_j953482740188_2_alg».proof.Proof.Gen.Kernel.Skeleton
import proofs.«148386_j953482740188_2_alg».proof.Proof.Gen.Kernel.Launch
import proofs.«148386_j953482740188_2_alg».proof.Proof.Gen.Kernel.Regions
import proofs.«148386_j953482740188_2_alg».proof.Proof.Gen.Kernel.Points
import proofs.«148386_j953482740188_2_alg».proof.Proof.Gen.KernelIdeal
import proofs.«148386_j953482740188_2_alg».proof.Proof.Gen.KernelIdeal.Skeleton
import proofs.«148386_j953482740188_2_alg».proof.Proof.Gen.KernelIdeal.Launch
import proofs.«148386_j953482740188_2_alg».proof.Proof.Gen.KernelIdeal.Regions
import proofs.«148386_j953482740188_2_alg».proof.Proof.Gen.KernelIdeal.Points
import proofs.«148386_j953482740188_2_alg».proof.Proof.Gen.ReferenceIdeal
import proofs.«148386_j953482740188_2_alg».proof.Proof.RefRun
import proofs.«148386_j953482740188_2_alg».proof.Proof.KernelFrame
import proofs.«148386_j953482740188_2_alg».proof.Proof.KernelFrameB
import proofs.«148386_j953482740188_2_alg».proof.Proof.KernelValue
import proofs.«148386_j953482740188_2_alg».proof.Proof.RefIsSpec
import proofs.«148386_j953482740188_2_alg».proof.Proof.Finite
import proofs.«148386_j953482740188_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem Cert.Kernel

/-- The word-level kernel program runs to the end and leaves its arguments as launched: the seventeen items chained,
    each region entered from the contents before it and left at the contents after it. -/
theorem frame_k : Cert.frame_Kernel := fun m ρ _ => Cert.Kernel.Hand.frame (F := Bits) m ρ

/-- The same of the idealised kernel program, read on the extended reals. -/
theorem frame_ki : Cert.frame_KernelIdeal := fun m ρ _ => Cert.KernelIdeal.Hand.frame (F := Ideal) m ρ

/-- The reference is host operations only: its run ends with every argument array as launched. -/
theorem frame_ri : Cert.frame_ReferenceIdeal := fun m ρ _ =>
  (θ_run Cert.ReferenceIdeal.defs _ _).mono (fun _ h c => (h c).2) (Cert.ReferenceIdeal.RunP.run (F := Ideal) m ρ)

/-- The idealised kernel is the kernel's own text read on the extended reals: no operation was rewritten. -/
theorem preserves : Cert.preserves_Kernel_KernelIdeal := trivial

/-- On the extended reals both programs end with equal results. The kernel's result is the specification's at its own
    form of the filter matrix,  a·I + (a − 1)·D − D·D;  the reference's is the specification's at the product
    (a·I − D)·(I + D);  and the two forms are one matrix because D is finite — the adjacency is finite by the
    precondition, its row and column factors are reals, so the product distributes over the sums in the reals. -/
theorem algebraic : Cert.algebraic_KernelIdeal_ReferenceIdeal := by
  intro m ρ m' ρ' hpre hagree
  refine ⟨fun c => Cert.KernelIdeal.Gen.V17 m (Cert.KernelIdeal.Hand.outs m) c Cert.KernelIdeal.main_v21, ?_, ?_⟩
  · exact (θ_run Cert.KernelIdeal.defs _ _).mono (fun r h c =>
      ⟨h c _ (Cert.KernelIdeal.Hand.mem_uc Cert.KernelIdeal.main_v21 (by decide)),
        (h c _ (Cert.KernelIdeal.Hand.mem_uc Cert.KernelIdeal.main_arg0 (by decide))).trans (Cert.KernelIdeal.Gen.V17_main_arg0 m _ c),
        (h c _ (Cert.KernelIdeal.Hand.mem_uc Cert.KernelIdeal.main_arg1 (by decide))).trans (Cert.KernelIdeal.Gen.V17_main_arg1 m _ c),
        (h c _ (Cert.KernelIdeal.Hand.mem_uc Cert.KernelIdeal.main_arg2 (by decide))).trans (Cert.KernelIdeal.Gen.V17_main_arg2 m _ c),
        (h c _ (Cert.KernelIdeal.Hand.mem_uc Cert.KernelIdeal.main_arg3 (by decide))).trans (Cert.KernelIdeal.Gen.V17_main_arg3 m _ c),
        (h c _ (Cert.KernelIdeal.Hand.mem_uc Cert.KernelIdeal.main_arg4 (by decide))).trans (Cert.KernelIdeal.Gen.V17_main_arg4 m _ c)⟩)
      (Cert.KernelIdeal.Hand.run_all (F := Ideal) m ρ)
  · refine (θ_run Cert.ReferenceIdeal.defs _ _).mono (fun _ h c => ⟨(h c).1.trans ?_, (h c).2⟩)
      (Cert.ReferenceIdeal.RunP.run (F := Ideal) m' ρ')
    rw [Cert.RefSide.ref_is_spec, (hagree c).1, (hagree c).2.1, (hagree c).2.2.1, (hagree c).2.2.2.1, (hagree c).2.2.2.2,
      Cert.Spec.filter_law _ (Cert.RefSide.adj_finite m hpre c)]
    exact (Cert.KernelIdeal.Hand.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
